-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x128 : Shape := ⟨2, ![16384, 128]⟩
abbrev S16384 : Shape := ⟨1, ![16384]⟩
abbrev S100000x128 : Shape := ⟨2, ![100000, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg2 : IVec S16384 32) (main_v13 : IVec S_ 1) (main_v15 : IVec S16384 1) (main_c_5 : IVec S_ 32) : IVec S_ 1 :=
  let main_v16 : IVec S16384 32 := broadcastInDim S16384 ![] bcast_S_S16384 main_c_5
  let main_v17 : IVec S16384 1 := cmpi .sle main_arg2 main_v16
  let main_v18 : IVec S16384 1 := andi main_v15 main_v17
  let main_c_6 : IVec S_ 1 := constantI S_ 1 1#1
  let main_v19 : IVec S_ 1 := (fun x v => Host.reduce IntOp.andi x v reducesTo_S16384_S_d0 h_S_) main_v18 main_c_6
  let main_v20 : IVec S_ 1 := andi main_v13 main_v19
  main_v20

def fn {F : FTy → Type} [FloatOps F] (main_arg0 : FVec F S16384x128 .f32) (main_arg1 : FVec F S16384x128 .f32) (main_arg2 : IVec S16384 32) (main_arg3 : FVec F S100000x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S100000x128 .f32 := Host.absf main_arg3
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_c_4 : IVec S_ 32 := constantI S_ 32 0#32
  let main_v14 : IVec S16384 32 := broadcastInDim S16384 ![] bcast_S_S16384 main_c_4
  let main_v15 : IVec S16384 1 := cmpi .sge main_arg2 main_v14
  let main_c_5 : IVec S_ 32 := constantI S_ 32 99999#32
  fn_part1 (F := F) main_arg2 main_v13 main_v15 main_c_5
-- ==== Kernel.lean ====
abbrev S16384x128 : Shape := ⟨2, ![16384, 128]⟩
abbrev S16384 : Shape := ⟨1, ![16384]⟩
abbrev S100000x128 : Shape := ⟨2, ![100000, 128]⟩
abbrev S128x128 : Shape := ⟨2, ![128, 128]⟩
abbrev S512 : Shape := ⟨1, ![512]⟩
abbrev S4x128 : Shape := ⟨2, ![4, 128]⟩
abbrev S2x128x128 : Shape := ⟨3, ![2, 128, 128]⟩
abbrev S16 : Shape := ⟨1, ![16]⟩
abbrev S_ : Shape := ⟨0, ![]⟩
abbrev S1x128x128 : Shape := ⟨3, ![1, 128, 128]⟩
abbrev S1x128 : Shape := ⟨2, ![1, 128]⟩
abbrev S128 : Shape := ⟨1, ![128]⟩
abbrev S1x1x16 : Shape := ⟨3, ![1, 1, 16]⟩

abbrev nBuf : Table → Nat
  | .hbm => 10
  | .local .scVector .vmem => 5
  | _ => 0

abbrev bufTy : (tb : Table) → Fin (nBuf tb) → BufTy
  | .hbm, ⟨0, _⟩ => ⟨S16384x128, .f32⟩
  | .hbm, ⟨1, _⟩ => ⟨S16384x128, .f32⟩
  | .hbm, ⟨2, _⟩ => ⟨S16384, .i32⟩
  | .hbm, ⟨3, _⟩ => ⟨S100000x128, .f32⟩
  | .hbm, ⟨4, _⟩ => ⟨S128x128, .i32⟩
  | .hbm, ⟨5, _⟩ => ⟨S512, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local .scVector .vmem, ⟨0, _⟩ => ⟨S4x128, .i32⟩
  | .local .scVector .vmem, ⟨1, _⟩ => ⟨S2x128x128, .f32⟩
  | .local .scVector .vmem, ⟨2, _⟩ => ⟨S2x128x128, .f32⟩
  | .local .scVector .vmem, ⟨3, _⟩ => ⟨S2x128x128, .f32⟩
  | .local .scVector .vmem, ⟨4, _⟩ => ⟨S16, .f32⟩
  | _, _ => ⟨S16384x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_arg0_scv : Ref sig .scVector := ⟨.hbm, 0, rfl⟩
abbrev main_arg1_scv : Ref sig .scVector := ⟨.hbm, 1, rfl⟩
abbrev main_v0_scv : Ref sig .scVector := ⟨.hbm, 4, rfl⟩
abbrev main_arg3_scv : Ref sig .scVector := ⟨.hbm, 3, rfl⟩
abbrev main_v1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  let c0_i32_3 : BitVec 32 := 0#32
  ![v3.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v16 : BitVec 32 := Scalar.muli v1 c4_i32
  let c0_i32_189_r0 : BitVec 32 := 0#32
  ![v16.toNat, 0]
@[reducible] def k0_t1_loop : Scf.Loop 32 :=
  let c0_i32_69 : BitVec 32 := 0#32
  let c128_i32_70 : BitVec 32 := 128#32
  let v65 : BitVec 32 := Scalar.addi c0_i32_69 c128_i32_70
  let c1_i32_71 : BitVec 32 := 1#32
  ⟨c0_i32_69, v65, c1_i32_71⟩
def k0_off3 (k0_t1 : Fin k0_t1_loop.trips) : Fin 3 → Nat :=
  let c0_i32_189 : BitVec 32 := 0#32
  let v171 : Index := Scalar.indexCast c0_i32_189
  let c0_i32_69 : BitVec 32 := 0#32
  let c1_i32_71 : BitVec 32 := 1#32
  let arg18 : BitVec 32 := Scf.iv c0_i32_69 c1_i32_71 k0_t1
  let v172 : Index := Scalar.indexCast arg18
  let c0_190 : Index := 0#32
  ![0, v172.toNat, 0]
def k0_off4 (k0_t1 : Fin k0_t1_loop.trips) : Fin 3 → Nat :=
  let c0_i32_195 : BitVec 32 := 0#32
  let v187 : Index := Scalar.indexCast c0_i32_195
  let c0_i32_69 : BitVec 32 := 0#32
  let c1_i32_71 : BitVec 32 := 1#32
  let arg18 : BitVec 32 := Scf.iv c0_i32_69 c1_i32_71 k0_t1
  let v188 : Index := Scalar.indexCast arg18
  let c16 : Index := 16#32
  ![0, v188.toNat, 16]
def k0_off5 (k0_t1 : Fin k0_t1_loop.trips) : Fin 3 → Nat :=
  let c0_i32_200 : BitVec 32 := 0#32
  let v203 : Index := Scalar.indexCast c0_i32_200
  let c0_i32_69 : BitVec 32 := 0#32
  let c1_i32_71 : BitVec 32 := 1#32
  let arg18 : BitVec 32 := Scf.iv c0_i32_69 c1_i32_71 k0_t1
  let v204 : Index := Scalar.indexCast arg18
  let c32 : Index := 32#32
  ![0, v204.toNat, 32]
def k0_off6 (k0_t1 : Fin k0_t1_loop.trips) : Fin 3 → Nat :=
  let c0_i32_205 : BitVec 32 := 0#32
  let v219 : Index := Scalar.indexCast c0_i32_205
  let c0_i32_69 : BitVec 32 := 0#32
  let c1_i32_71 : BitVec 32 := 1#32
  let arg18 : BitVec 32 := Scf.iv c0_i32_69 c1_i32_71 k0_t1
  let v220 : Index := Scalar.indexCast arg18
  let c48 : Index := 48#32
  ![0, v220.toNat, 48]
def k0_off7 (k0_t1 : Fin k0_t1_loop.trips) : Fin 3 → Nat :=
  let c0_i32_210 : BitVec 32 := 0#32
  let v235 : Index := Scalar.indexCast c0_i32_210
  let c0_i32_69 : BitVec 32 := 0#32
  let c1_i32_71 : BitVec 32 := 1#32
  let arg18 : BitVec 32 := Scf.iv c0_i32_69 c1_i32_71 k0_t1
  let v236 : Index := Scalar.indexCast arg18
  let c64 : Index := 64#32
  ![0, v236.toNat, 64]
def k0_off8 (k0_t1 : Fin k0_t1_loop.trips) : Fin 3 → Nat :=
  let c0_i32_215 : BitVec 32 := 0#32
  let v251 : Index := Scalar.indexCast c0_i32_215
  let c0_i32_69 : BitVec 32 := 0#32
  let c1_i32_71 : BitVec 32 := 1#32
  let arg18 : BitVec 32 := Scf.iv c0_i32_69 c1_i32_71 k0_t1
  let v252 : Index := Scalar.indexCast arg18
  let c80 : Index := 80#32
  ![0, v252.toNat, 80]
def k0_off9 (k0_t1 : Fin k0_t1_loop.trips) : Fin 3 → Nat :=
  let c0_i32_220 : BitVec 32 := 0#32
  let v267 : Index := Scalar.indexCast c0_i32_220
  let c0_i32_69 : BitVec 32 := 0#32
  let c1_i32_71 : BitVec 32 := 1#32
  let arg18 : BitVec 32 := Scf.iv c0_i32_69 c1_i32_71 k0_t1
  let v268 : Index := Scalar.indexCast arg18
  let c96 : Index := 96#32
  ![0, v268.toNat, 96]
def k0_off10 (k0_t1 : Fin k0_t1_loop.trips) : Fin 3 → Nat :=
  let c0_i32_225 : BitVec 32 := 0#32
  let v283 : Index := Scalar.indexCast c0_i32_225
  let c0_i32_69 : BitVec 32 := 0#32
  let c1_i32_71 : BitVec 32 := 1#32
  let arg18 : BitVec 32 := Scf.iv c0_i32_69 c1_i32_71 k0_t1
  let v284 : Index := Scalar.indexCast arg18
  let c112 : Index := 112#32
  ![0, v284.toNat, 112]
@[reducible] def k0_t2_loop : Scf.Loop 32 :=
  let c0_i32_115 : BitVec 32 := 0#32
  let c128_i32_116 : BitVec 32 := 128#32
  let v102 : BitVec 32 := Scalar.addi c0_i32_115 c128_i32_116
  let c1_i32_117 : BitVec 32 := 1#32
  ⟨c0_i32_115, v102, c1_i32_117⟩
def k0_off11 (k0_t2 : Fin k0_t2_loop.trips) : Fin 3 → Nat :=
  let c1_i32_189 : BitVec 32 := 1#32
  let v171 : Index := Scalar.indexCast c1_i32_189
  let c0_i32_115 : BitVec 32 := 0#32
  let c1_i32_117 : BitVec 32 := 1#32
  let arg18 : BitVec 32 := Scf.iv c0_i32_115 c1_i32_117 k0_t2
  let v172 : Index := Scalar.indexCast arg18
  let c0_190 : Index := 0#32
  ![1, v172.toNat, 0]
def k0_off12 (k0_t2 : Fin k0_t2_loop.trips) : Fin 3 → Nat :=
  let c1_i32_195 : BitVec 32 := 1#32
  let v187 : Index := Scalar.indexCast c1_i32_195
  let c0_i32_115 : BitVec 32 := 0#32
  let c1_i32_117 : BitVec 32 := 1#32
  let arg18 : BitVec 32 := Scf.iv c0_i32_115 c1_i32_117 k0_t2
  let v188 : Index := Scalar.indexCast arg18
  let c16 : Index := 16#32
  ![1, v188.toNat, 16]
def k0_off13 (k0_t2 : Fin k0_t2_loop.trips) : Fin 3 → Nat :=
  let c1_i32_200 : BitVec 32 := 1#32
  let v203 : Index := Scalar.indexCast c1_i32_200
  let c0_i32_115 : BitVec 32 := 0#32
  let c1_i32_117 : BitVec 32 := 1#32
  let arg18 : BitVec 32 := Scf.iv c0_i32_115 c1_i32_117 k0_t2
  let v204 : Index := Scalar.indexCast arg18
  let c32 : Index := 32#32
  ![1, v204.toNat, 32]
def k0_off14 (k0_t2 : Fin k0_t2_loop.trips) : Fin 3 → Nat :=
  let c1_i32_205 : BitVec 32 := 1#32
  let v219 : Index := Scalar.indexCast c1_i32_205
  let c0_i32_115 : BitVec 32 := 0#32
  let c1_i32_117 : BitVec 32 := 1#32
  let arg18 : BitVec 32 := Scf.iv c0_i32_115 c1_i32_117 k0_t2
  let v220 : Index := Scalar.indexCast arg18
  let c48 : Index := 48#32
  ![1, v220.toNat, 48]
def k0_off15 (k0_t2 : Fin k0_t2_loop.trips) : Fin 3 → Nat :=
  let c1_i32_210 : BitVec 32 := 1#32
  let v235 : Index := Scalar.indexCast c1_i32_210
  let c0_i32_115 : BitVec 32 := 0#32
  let c1_i32_117 : BitVec 32 := 1#32
  let arg18 : BitVec 32 := Scf.iv c0_i32_115 c1_i32_117 k0_t2
  let v236 : Index := Scalar.indexCast arg18
  let c64 : Index := 64#32
  ![1, v236.toNat, 64]
def k0_off16 (k0_t2 : Fin k0_t2_loop.trips) : Fin 3 → Nat :=
  let c1_i32_215 : BitVec 32 := 1#32
  let v251 : Index := Scalar.indexCast c1_i32_215
  let c0_i32_115 : BitVec 32 := 0#32
  let c1_i32_117 : BitVec 32 := 1#32
  let arg18 : BitVec 32 := Scf.iv c0_i32_115 c1_i32_117 k0_t2
  let v252 : Index := Scalar.indexCast arg18
  let c80 : Index := 80#32
  ![1, v252.toNat, 80]
def k0_off17 (k0_t2 : Fin k0_t2_loop.trips) : Fin 3 → Nat :=
  let c1_i32_220 : BitVec 32 := 1#32
  let v267 : Index := Scalar.indexCast c1_i32_220
  let c0_i32_115 : BitVec 32 := 0#32
  let c1_i32_117 : BitVec 32 := 1#32
  let arg18 : BitVec 32 := Scf.iv c0_i32_115 c1_i32_117 k0_t2
  let v268 : Index := Scalar.indexCast arg18
  let c96 : Index := 96#32
  ![1, v268.toNat, 96]
def k0_off18 (k0_t2 : Fin k0_t2_loop.trips) : Fin 3 → Nat :=
  let c1_i32_225 : BitVec 32 := 1#32
  let v283 : Index := Scalar.indexCast c1_i32_225
  let c0_i32_115 : BitVec 32 := 0#32
  let c1_i32_117 : BitVec 32 := 1#32
  let arg18 : BitVec 32 := Scf.iv c0_i32_115 c1_i32_117 k0_t2
  let v284 : Index := Scalar.indexCast arg18
  let c112 : Index := 112#32
  ![1, v284.toNat, 112]
@[reducible] def k0_t3_loop : Scf.Loop 32 :=
  let c0_i32_160 : BitVec 32 := 0#32
  let c128_i32_161 : BitVec 32 := 128#32
  let v139 : BitVec 32 := Scalar.addi c0_i32_160 c128_i32_161
  let c1_i32_162 : BitVec 32 := 1#32
  ⟨c0_i32_160, v139, c1_i32_162⟩
def k0_off19 (k0_t3 : Fin k0_t3_loop.trips) : Fin 3 → Nat :=
  let c0_i32_189 : BitVec 32 := 0#32
  let v171 : Index := Scalar.indexCast c0_i32_189
  let c0_i32_160 : BitVec 32 := 0#32
  let c1_i32_162 : BitVec 32 := 1#32
  let arg18 : BitVec 32 := Scf.iv c0_i32_160 c1_i32_162 k0_t3
  let v172 : Index := Scalar.indexCast arg18
  let c0_190 : Index := 0#32
  ![0, v172.toNat, 0]
def k0_off20 (k0_t3 : Fin k0_t3_loop.trips) : Fin 3 → Nat :=
  let c0_i32_195 : BitVec 32 := 0#32
  let v187 : Index := Scalar.indexCast c0_i32_195
  let c0_i32_160 : BitVec 32 := 0#32
  let c1_i32_162 : BitVec 32 := 1#32
  let arg18 : BitVec 32 := Scf.iv c0_i32_160 c1_i32_162 k0_t3
  let v188 : Index := Scalar.indexCast arg18
  let c16 : Index := 16#32
  ![0, v188.toNat, 16]
def k0_off21 (k0_t3 : Fin k0_t3_loop.trips) : Fin 3 → Nat :=
  let c0_i32_200 : BitVec 32 := 0#32
  let v203 : Index := Scalar.indexCast c0_i32_200
  let c0_i32_160 : BitVec 32 := 0#32
  let c1_i32_162 : BitVec 32 := 1#32
  let arg18 : BitVec 32 := Scf.iv c0_i32_160 c1_i32_162 k0_t3
  let v204 : Index := Scalar.indexCast arg18
  let c32 : Index := 32#32
  ![0, v204.toNat, 32]
def k0_off22 (k0_t3 : Fin k0_t3_loop.trips) : Fin 3 → Nat :=
  let c0_i32_205 : BitVec 32 := 0#32
  let v219 : Index := Scalar.indexCast c0_i32_205
  let c0_i32_160 : BitVec 32 := 0#32
  let c1_i32_162 : BitVec 32 := 1#32
  let arg18 : BitVec 32 := Scf.iv c0_i32_160 c1_i32_162 k0_t3
  let v220 : Index := Scalar.indexCast arg18
  let c48 : Index := 48#32
  ![0, v220.toNat, 48]
def k0_off23 (k0_t3 : Fin k0_t3_loop.trips) : Fin 3 → Nat :=
  let c0_i32_210 : BitVec 32 := 0#32
  let v235 : Index := Scalar.indexCast c0_i32_210
  let c0_i32_160 : BitVec 32 := 0#32
  let c1_i32_162 : BitVec 32 := 1#32
  let arg18 : BitVec 32 := Scf.iv c0_i32_160 c1_i32_162 k0_t3
  let v236 : Index := Scalar.indexCast arg18
  let c64 : Index := 64#32
  ![0, v236.toNat, 64]
def k0_off24 (k0_t3 : Fin k0_t3_loop.trips) : Fin 3 → Nat :=
  let c0_i32_215 : BitVec 32 := 0#32
  let v251 : Index := Scalar.indexCast c0_i32_215
  let c0_i32_160 : BitVec 32 := 0#32
  let c1_i32_162 : BitVec 32 := 1#32
  let arg18 : BitVec 32 := Scf.iv c0_i32_160 c1_i32_162 k0_t3
  let v252 : Index := Scalar.indexCast arg18
  let c80 : Index := 80#32
  ![0, v252.toNat, 80]
def k0_off25 (k0_t3 : Fin k0_t3_loop.trips) : Fin 3 → Nat :=
  let c0_i32_220 : BitVec 32 := 0#32
  let v267 : Index := Scalar.indexCast c0_i32_220
  let c0_i32_160 : BitVec 32 := 0#32
  let c1_i32_162 : BitVec 32 := 1#32
  let arg18 : BitVec 32 := Scf.iv c0_i32_160 c1_i32_162 k0_t3
  let v268 : Index := Scalar.indexCast arg18
  let c96 : Index := 96#32
  ![0, v268.toNat, 96]
def k0_off26 (k0_t3 : Fin k0_t3_loop.trips) : Fin 3 → Nat :=
  let c0_i32_225 : BitVec 32 := 0#32
  let v283 : Index := Scalar.indexCast c0_i32_225
  let c0_i32_160 : BitVec 32 := 0#32
  let c1_i32_162 : BitVec 32 := 1#32
  let arg18 : BitVec 32 := Scf.iv c0_i32_160 c1_i32_162 k0_t3
  let v284 : Index := Scalar.indexCast arg18
  let c112 : Index := 112#32
  ![0, v284.toNat, 112]
@[reducible] def k0_t4_loop : Scf.Loop 32 :=
  let c0_i32_185 : BitVec 32 := 0#32
  let c128_i32_186 : BitVec 32 := 128#32
  let v158 : BitVec 32 := Scalar.addi c0_i32_185 c128_i32_186
  let c1_i32_187 : BitVec 32 := 1#32
  ⟨c0_i32_185, v158, c1_i32_187⟩
def k0_off27 (k0_t4 : Fin k0_t4_loop.trips) : Fin 3 → Nat :=
  let c1_i32_189 : BitVec 32 := 1#32
  let v171 : Index := Scalar.indexCast c1_i32_189
  let c0_i32_185 : BitVec 32 := 0#32
  let c1_i32_187 : BitVec 32 := 1#32
  let arg18 : BitVec 32 := Scf.iv c0_i32_185 c1_i32_187 k0_t4
  let v172 : Index := Scalar.indexCast arg18
  let c0_190 : Index := 0#32
  ![1, v172.toNat, 0]
def k0_off28 (k0_t4 : Fin k0_t4_loop.trips) : Fin 3 → Nat :=
  let c1_i32_195 : BitVec 32 := 1#32
  let v187 : Index := Scalar.indexCast c1_i32_195
  let c0_i32_185 : BitVec 32 := 0#32
  let c1_i32_187 : BitVec 32 := 1#32
  let arg18 : BitVec 32 := Scf.iv c0_i32_185 c1_i32_187 k0_t4
  let v188 : Index := Scalar.indexCast arg18
  let c16 : Index := 16#32
  ![1, v188.toNat, 16]
def k0_off29 (k0_t4 : Fin k0_t4_loop.trips) : Fin 3 → Nat :=
  let c1_i32_200 : BitVec 32 := 1#32
  let v203 : Index := Scalar.indexCast c1_i32_200
  let c0_i32_185 : BitVec 32 := 0#32
  let c1_i32_187 : BitVec 32 := 1#32
  let arg18 : BitVec 32 := Scf.iv c0_i32_185 c1_i32_187 k0_t4
  let v204 : Index := Scalar.indexCast arg18
  let c32 : Index := 32#32
  ![1, v204.toNat, 32]
def k0_off30 (k0_t4 : Fin k0_t4_loop.trips) : Fin 3 → Nat :=
  let c1_i32_205 : BitVec 32 := 1#32
  let v219 : Index := Scalar.indexCast c1_i32_205
  let c0_i32_185 : BitVec 32 := 0#32
  let c1_i32_187 : BitVec 32 := 1#32
  let arg18 : BitVec 32 := Scf.iv c0_i32_185 c1_i32_187 k0_t4
  let v220 : Index := Scalar.indexCast arg18
  let c48 : Index := 48#32
  ![1, v220.toNat, 48]
def k0_off31 (k0_t4 : Fin k0_t4_loop.trips) : Fin 3 → Nat :=
  let c1_i32_210 : BitVec 32 := 1#32
  let v235 : Index := Scalar.indexCast c1_i32_210
  let c0_i32_185 : BitVec 32 := 0#32
  let c1_i32_187 : BitVec 32 := 1#32
  let arg18 : BitVec 32 := Scf.iv c0_i32_185 c1_i32_187 k0_t4
  let v236 : Index := Scalar.indexCast arg18
  let c64 : Index := 64#32
  ![1, v236.toNat, 64]
def k0_off32 (k0_t4 : Fin k0_t4_loop.trips) : Fin 3 → Nat :=
  let c1_i32_215 : BitVec 32 := 1#32
  let v251 : Index := Scalar.indexCast c1_i32_215
  let c0_i32_185 : BitVec 32 := 0#32
  let c1_i32_187 : BitVec 32 := 1#32
  let arg18 : BitVec 32 := Scf.iv c0_i32_185 c1_i32_187 k0_t4
  let v252 : Index := Scalar.indexCast arg18
  let c80 : Index := 80#32
  ![1, v252.toNat, 80]
def k0_off33 (k0_t4 : Fin k0_t4_loop.trips) : Fin 3 → Nat :=
  let c1_i32_220 : BitVec 32 := 1#32
  let v267 : Index := Scalar.indexCast c1_i32_220
  let c0_i32_185 : BitVec 32 := 0#32
  let c1_i32_187 : BitVec 32 := 1#32
  let arg18 : BitVec 32 := Scf.iv c0_i32_185 c1_i32_187 k0_t4
  let v268 : Index := Scalar.indexCast arg18
  let c96 : Index := 96#32
  ![1, v268.toNat, 96]
def k0_off34 (k0_t4 : Fin k0_t4_loop.trips) : Fin 3 → Nat :=
  let c1_i32_225 : BitVec 32 := 1#32
  let v283 : Index := Scalar.indexCast c1_i32_225
  let c0_i32_185 : BitVec 32 := 0#32
  let c1_i32_187 : BitVec 32 := 1#32
  let arg18 : BitVec 32 := Scf.iv c0_i32_185 c1_i32_187 k0_t4
  let v284 : Index := Scalar.indexCast arg18
  let c112 : Index := 112#32
  ![1, v284.toNat, 112]
def k0_off35 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v170 : BitVec 32 := Scalar.muli v1 c16_i32
  ![v170.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16384_S128x128 : S16384.ShapeCasts S128x128
  inb_S2x128x128_S1x128x128_0_0_0 : ∀ a, (![0, 0, 0] : Fin 3 → Nat) a + S1x128x128.size a ≤ S2x128x128.size a
  squeezes_S1x128x128_S128x128 : S1x128x128.Squeezes S128x128
  inb_S4x128_S1x128_0_0 : ∀ a, (![0, 0] : Fin 2 → Nat) a + S1x128.size a ≤ S4x128.size a
  squeezes_S1x128_S128 : S1x128.Squeezes S128
  inb_S100000x128_S100000x128_0_0 : ∀ a, (![0, 0] : Fin 2 → Nat) a + S100000x128.size a ≤ S100000x128.size a
  gathers_S100000x128_S128x128 : S100000x128.Gathers 0 S128x128
  inb_S2x128x128_S1x128x128_1_0_0 : ∀ a, (![1, 0, 0] : Fin 3 → Nat) a + S1x128x128.size a ≤ S2x128x128.size a
  inb_S4x128_S1x128_1_0 : ∀ a, (![1, 0] : Fin 2 → Nat) a + S1x128.size a ≤ S4x128.size a
  h_S1x1x16 : 0 < S1x1x16.numel
  shapeCasts_S1x1x16_S16 : S1x1x16.ShapeCasts S16
  inb_S4x128_S1x128_2_0 : ∀ a, (![2, 0] : Fin 2 → Nat) a + S1x128.size a ≤ S4x128.size a
  inb_S4x128_S1x128_3_0 : ∀ a, (![3, 0] : Fin 2 → Nat) a + S1x128.size a ≤ S4x128.size a
  inb_S16_S16_0 : ∀ a, (![0] : Fin 1 → Nat) a + S16.size a ≤ S16.size a
  h_S16 : 0 < S16.numel
  shapeCasts_S16_S16 : S16.ShapeCasts S16
  reducesTo_S512_S_d0 : S512.ReducesTo [0] S_
  h_S_ : 0 < S_.numel
  hcc0_scratch5 : 0 + S_.numel ≤ 8
  hcc0_scratch6 : 1 + S_.numel ≤ 8
  hcc0_scratch7 : 2 + S_.numel ≤ 8
  hcc0_scratch8 : 3 + S_.numel ≤ 8
  hcc0_scratch9 : 4 + S_.numel ≤ 8
  hcc0_scratch10 : 5 + S_.numel ≤ 8
  hcc0_scoped0 : 6 + S_.numel ≤ 8
  hcc0_scoped1 : 7 + S_.numel ≤ 8
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 4), ∀ a, (k0_off1 i (BitVec.ofNat 32 (128 * r.val))) a + S128x128.size a ≤ S16384x128.size a
  k0_off2_inb : ∀ i : grid0.Coords, ∀ a, (k0_off2 i) a + S4x128.size a ≤ S128x128.size a
  k0_t1_ok : k0_t1_loop.OK
  k0_off3_inb : ∀ k0_t1 : Fin k0_t1_loop.trips, ∀ a, (k0_off3 k0_t1) a + S1x1x16.size a ≤ S2x128x128.size a
  k0_off4_inb : ∀ k0_t1 : Fin k0_t1_loop.trips, ∀ a, (k0_off4 k0_t1) a + S1x1x16.size a ≤ S2x128x128.size a
  k0_off5_inb : ∀ k0_t1 : Fin k0_t1_loop.trips, ∀ a, (k0_off5 k0_t1) a + S1x1x16.size a ≤ S2x128x128.size a
  k0_off6_inb : ∀ k0_t1 : Fin k0_t1_loop.trips, ∀ a, (k0_off6 k0_t1) a + S1x1x16.size a ≤ S2x128x128.size a
  k0_off7_inb : ∀ k0_t1 : Fin k0_t1_loop.trips, ∀ a, (k0_off7 k0_t1) a + S1x1x16.size a ≤ S2x128x128.size a
  k0_off8_inb : ∀ k0_t1 : Fin k0_t1_loop.trips, ∀ a, (k0_off8 k0_t1) a + S1x1x16.size a ≤ S2x128x128.size a
  k0_off9_inb : ∀ k0_t1 : Fin k0_t1_loop.trips, ∀ a, (k0_off9 k0_t1) a + S1x1x16.size a ≤ S2x128x128.size a
  k0_off10_inb : ∀ k0_t1 : Fin k0_t1_loop.trips, ∀ a, (k0_off10 k0_t1) a + S1x1x16.size a ≤ S2x128x128.size a
  k0_t2_ok : k0_t2_loop.OK
  k0_off11_inb : ∀ k0_t2 : Fin k0_t2_loop.trips, ∀ a, (k0_off11 k0_t2) a + S1x1x16.size a ≤ S2x128x128.size a
  k0_off12_inb : ∀ k0_t2 : Fin k0_t2_loop.trips, ∀ a, (k0_off12 k0_t2) a + S1x1x16.size a ≤ S2x128x128.size a
  k0_off13_inb : ∀ k0_t2 : Fin k0_t2_loop.trips, ∀ a, (k0_off13 k0_t2) a + S1x1x16.size a ≤ S2x128x128.size a
  k0_off14_inb : ∀ k0_t2 : Fin k0_t2_loop.trips, ∀ a, (k0_off14 k0_t2) a + S1x1x16.size a ≤ S2x128x128.size a
  k0_off15_inb : ∀ k0_t2 : Fin k0_t2_loop.trips, ∀ a, (k0_off15 k0_t2) a + S1x1x16.size a ≤ S2x128x128.size a
  k0_off16_inb : ∀ k0_t2 : Fin k0_t2_loop.trips, ∀ a, (k0_off16 k0_t2) a + S1x1x16.size a ≤ S2x128x128.size a
  k0_off17_inb : ∀ k0_t2 : Fin k0_t2_loop.trips, ∀ a, (k0_off17 k0_t2) a + S1x1x16.size a ≤ S2x128x128.size a
  k0_off18_inb : ∀ k0_t2 : Fin k0_t2_loop.trips, ∀ a, (k0_off18 k0_t2) a + S1x1x16.size a ≤ S2x128x128.size a
  k0_t3_ok : k0_t3_loop.OK
  k0_off19_inb : ∀ k0_t3 : Fin k0_t3_loop.trips, ∀ a, (k0_off19 k0_t3) a + S1x1x16.size a ≤ S2x128x128.size a
  k0_off20_inb : ∀ k0_t3 : Fin k0_t3_loop.trips, ∀ a, (k0_off20 k0_t3) a + S1x1x16.size a ≤ S2x128x128.size a
  k0_off21_inb : ∀ k0_t3 : Fin k0_t3_loop.trips, ∀ a, (k0_off21 k0_t3) a + S1x1x16.size a ≤ S2x128x128.size a
  k0_off22_inb : ∀ k0_t3 : Fin k0_t3_loop.trips, ∀ a, (k0_off22 k0_t3) a + S1x1x16.size a ≤ S2x128x128.size a
  k0_off23_inb : ∀ k0_t3 : Fin k0_t3_loop.trips, ∀ a, (k0_off23 k0_t3) a + S1x1x16.size a ≤ S2x128x128.size a
  k0_off24_inb : ∀ k0_t3 : Fin k0_t3_loop.trips, ∀ a, (k0_off24 k0_t3) a + S1x1x16.size a ≤ S2x128x128.size a
  k0_off25_inb : ∀ k0_t3 : Fin k0_t3_loop.trips, ∀ a, (k0_off25 k0_t3) a + S1x1x16.size a ≤ S2x128x128.size a
  k0_off26_inb : ∀ k0_t3 : Fin k0_t3_loop.trips, ∀ a, (k0_off26 k0_t3) a + S1x1x16.size a ≤ S2x128x128.size a
  k0_t4_ok : k0_t4_loop.OK
  k0_off27_inb : ∀ k0_t4 : Fin k0_t4_loop.trips, ∀ a, (k0_off27 k0_t4) a + S1x1x16.size a ≤ S2x128x128.size a
  k0_off28_inb : ∀ k0_t4 : Fin k0_t4_loop.trips, ∀ a, (k0_off28 k0_t4) a + S1x1x16.size a ≤ S2x128x128.size a
  k0_off29_inb : ∀ k0_t4 : Fin k0_t4_loop.trips, ∀ a, (k0_off29 k0_t4) a + S1x1x16.size a ≤ S2x128x128.size a
  k0_off30_inb : ∀ k0_t4 : Fin k0_t4_loop.trips, ∀ a, (k0_off30 k0_t4) a + S1x1x16.size a ≤ S2x128x128.size a
  k0_off31_inb : ∀ k0_t4 : Fin k0_t4_loop.trips, ∀ a, (k0_off31 k0_t4) a + S1x1x16.size a ≤ S2x128x128.size a
  k0_off32_inb : ∀ k0_t4 : Fin k0_t4_loop.trips, ∀ a, (k0_off32 k0_t4) a + S1x1x16.size a ≤ S2x128x128.size a
  k0_off33_inb : ∀ k0_t4 : Fin k0_t4_loop.trips, ∀ a, (k0_off33 k0_t4) a + S1x1x16.size a ≤ S2x128x128.size a
  k0_off34_inb : ∀ k0_t4 : Fin k0_t4_loop.trips, ∀ a, (k0_off34 k0_t4) a + S1x1x16.size a ≤ S2x128x128.size a
  k0_off35_inb : ∀ i : grid0.Coords, ∀ a, (k0_off35 i) a + S16.size a ≤ S512.size a

variable [Facts₀]

abbrev cc0_scratch5 : DmaSems sig S_ := SemArray.consecutive 0 S_ hcc0_scratch5
abbrev cc0_scratch6 : DmaSems sig S_ := SemArray.consecutive 1 S_ hcc0_scratch6
abbrev cc0_scratch7 : DmaSems sig S_ := SemArray.consecutive 2 S_ hcc0_scratch7
abbrev cc0_scratch8 : DmaSems sig S_ := SemArray.consecutive 3 S_ hcc0_scratch8
abbrev cc0_scratch9 : DmaSems sig S_ := SemArray.consecutive 4 S_ hcc0_scratch9
abbrev cc0_scratch10 : DmaSems sig S_ := SemArray.consecutive 5 S_ hcc0_scratch10
abbrev cc0_scoped0 : DmaSems sig S_ := SemArray.consecutive 6 S_ hcc0_scoped0
abbrev cc0_scoped1 : DmaSems sig S_ := SemArray.consecutive 7 S_ hcc0_scoped1

class Facts : Prop extends Facts₀ where

variable [Facts]
-- ==== ReferenceIdeal.lean ====
abbrev S16384x128 : Shape := ⟨2, ![16384, 128]⟩
abbrev S16384 : Shape := ⟨1, ![16384]⟩
abbrev S100000x128 : Shape := ⟨2, ![100000, 128]⟩
abbrev S_ : Shape := ⟨0, ![]⟩
abbrev S16384x1 : Shape := ⟨2, ![16384, 1]⟩
abbrev S1 : Shape := ⟨1, ![1]⟩
abbrev S1x1 : Shape := ⟨2, ![1, 1]⟩

abbrev nBuf : Space → Nat
  | .hbm => 36
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S16384, .i32⟩
  | .hbm, ⟨3, _⟩ => ⟨S100000x128, .f32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S1, .i32⟩
  | .hbm, ⟨13, _⟩ => ⟨S_, .i32⟩
  | .hbm, ⟨14, _⟩ => ⟨S16384x1, .i32⟩
  | .hbm, ⟨15, _⟩ => ⟨S16384x1, .i1⟩
  | .hbm, ⟨16, _⟩ => ⟨S1x1, .i32⟩
  | .hbm, ⟨17, _⟩ => ⟨S16384x1, .i32⟩
  | .hbm, ⟨18, _⟩ => ⟨S16384x1, .i1⟩
  | .hbm, ⟨19, _⟩ => ⟨S16384x1, .i1⟩
  | .hbm, ⟨20, _⟩ => ⟨S_, .i1⟩
  | .hbm, ⟨21, _⟩ => ⟨S16384, .i1⟩
  | .hbm, ⟨22, _⟩ => ⟨S16384x128, .f32⟩
  | .hbm, ⟨23, _⟩ => ⟨S16384x128, .i1⟩
  | .hbm, ⟨24, _⟩ => ⟨S_, .f32⟩
  | .hbm, ⟨25, _⟩ => ⟨S16384x128, .f32⟩
  | .hbm, ⟨26, _⟩ => ⟨S16384x128, .f32⟩
  | .hbm, ⟨27, _⟩ => ⟨S16384x128, .f32⟩
  | .hbm, ⟨28, _⟩ => ⟨S16384x128, .f32⟩
  | .hbm, ⟨29, _⟩ => ⟨S16384x128, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_cst_0 : Ref sig .tc := ⟨.hbm, 32, rfl⟩
abbrev main_v5 : Ref sig .tc := ⟨.hbm, 33, rfl⟩
abbrev main_cst_1 : Ref sig .tc := ⟨.hbm, 34, rfl⟩
abbrev main_v6 : Ref sig .tc := ⟨.hbm, 35, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  reducesTo_S16384x128_S_d0_1 : S16384x128.ReducesTo [0, 1] S_
  gather_S100000x128_S16384x1_S16384x128_1_0_n_n_0_1_1128_wf : GatherDims.WF S100000x128 S16384x1 S16384x128 [1] [0] [] [0] [] 1 ![1, 128]

variable [Facts₀]

def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf

class Facts : Prop extends Facts₀ where

variable [Facts]
-- ==== Proof.KBCommon.lean ====
/-
  The SparseCore launch of the kernel, as the launch theorem sees it: the configuration, the ghost state (the launch
  handshakes' rounds beside the transfer counters), the arrays and scratch buffers as the tile body addresses them.

  Thirty-two tiles (two SparseCores of sixteen vector subcores) run the body once each. Tile (c, s) is worker
  w = 2·s + c; it reads rows 512·w … 512·w + 511 of the features and of the weights in four chunks of 128 rows, the four
  label rows 4·w … 4·w + 3 of the labels laid out as 128 × 128, and, through those labels, rows of the centres table; it
  writes the sixteen words 16·w … 16·w + 15 of the partial-sums vector. The four arrays that are only read are shared out
  as read shares of the whole arrays; the partial-sums vector is split into the tiles' sixteen-word pieces.
-/
import proofs.«216098_g21234318311461_cont_8to1_346_22_alg».proof.Kernel
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«216098_g21234318311461_cont_8to1_346_22_alg».proof.Proof.Gen.Kernel
import proofs.«216098_g21234318311461_cont_8to1_346_22_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

/-- The features, the weights, the labels as given (one per row), the labels laid out 128 × 128, the centres table, and
    the vector of partial sums, as the TensorCore names them. -/
abbrev fLoc (d : Dev nD) : Loc nD τ sig := (SparseCore.T d).loc main_arg0
abbrev aLoc (d : Dev nD) : Loc nD τ sig := (SparseCore.T d).loc main_arg1
abbrev gLoc (d : Dev nD) : Loc nD τ sig := (SparseCore.T d).loc main_arg2
abbrev lLoc (d : Dev nD) : Loc nD τ sig := (SparseCore.T d).loc main_v0
abbrev cLoc (d : Dev nD) : Loc nD τ sig := (SparseCore.T d).loc main_arg3
abbrev oLoc (d : Dev nD) : Loc nD τ sig := (SparseCore.T d).loc main_v1

-- the kernel's memrefs, spelt as the body table passes them
local notation "fV" => (Memref.whole Cert.Kernel.main_arg0_scv : Memref Cert.Kernel.sig Kind.scVector Space.hbm Cert.Kernel.S16384x128 EltTy.f32)
local notation "aV" => (Memref.whole Cert.Kernel.main_arg1_scv : Memref Cert.Kernel.sig Kind.scVector Space.hbm Cert.Kernel.S16384x128 EltTy.f32)
local notation "lV" => (Memref.whole Cert.Kernel.main_v0_scv : Memref Cert.Kernel.sig Kind.scVector Space.hbm Cert.Kernel.S128x128 EltTy.i32)
local notation "cenV" => (Memref.whole Cert.Kernel.main_arg3_scv : Memref Cert.Kernel.sig Kind.scVector Space.hbm Cert.Kernel.S100000x128 EltTy.f32)
local notation "oV" => (Memref.whole Cert.Kernel.main_v1_scv : Memref Cert.Kernel.sig Kind.scVector Space.hbm Cert.Kernel.S512 EltTy.f32)
local notation "ixS" => (Memref.whole Cert.Kernel.cc0_scratch0 : Memref Cert.Kernel.sig Kind.scVector Space.vmem Cert.Kernel.S4x128 EltTy.i32)
local notation "cnS" => (Memref.whole Cert.Kernel.cc0_scratch1 : Memref Cert.Kernel.sig Kind.scVector Space.vmem Cert.Kernel.S2x128x128 EltTy.f32)
local notation "ftS" => (Memref.whole Cert.Kernel.cc0_scratch2 : Memref Cert.Kernel.sig Kind.scVector Space.vmem Cert.Kernel.S2x128x128 EltTy.f32)
local notation "wtS" => (Memref.whole Cert.Kernel.cc0_scratch3 : Memref Cert.Kernel.sig Kind.scVector Space.vmem Cert.Kernel.S2x128x128 EltTy.f32)
local notation "acS" => (Memref.whole Cert.Kernel.cc0_scratch4 : Memref Cert.Kernel.sig Kind.scVector Space.vmem Cert.Kernel.S16 EltTy.f32)

/-- The tile a pair of grid coordinates names. -/
abbrev coreOf (L : grid0.Coords) : Fin τ.nSC := (L 0).castLE hcore0
abbrev subOf (L : grid0.Coords) : Fin τ.nSub := (L 1).castLE hsub0
abbrev VT (d : Dev nD) (L : grid0.Coords) : Thread nD τ := V d (coreOf L) (subOf L)

def coordsV (c : Fin (grid0.bound 0)) (s : Fin (grid0.bound 1)) : grid0.Coords :=
  fun | 0 => c | 1 => s | ⟨_ + 2, h⟩ => absurd h (Nat.not_lt.2 (Nat.le_add_left _ _))

/-- The sixteen words of the partial-sums vector a tile writes, as the body slices them. -/
abbrev oRectK (L : grid0.Coords) : Rect S512 := Rect.unit (s := S512) (k0_off35 L) S16.size (k0_off35_inb L)
abbrev oSlice (L : grid0.Coords) : Memref sig .scVector .hbm S16 .f32 := (oV).slice (oRectK L) (fun _ => rfl)
abbrev oSet (L : grid0.Coords) : Finset S512.Idx := (oSlice L).view.set

end Cert.Proof.KB

end
-- ==== Proof.KBLoop.lean ====
/-
  The four row loops of the tile body, one per chunk of 128 rows.

  A trip loads row `k` of the current slot of the three scratches (features, gathered centres, weights) as eight
  vectors of sixteen lanes each and adds `(w · (f − c)) · (f − c)` to the eight accumulators it carries. Nothing is
  stored: the invariant keeps the scratches as they are and says the accumulators are the first `k` rows folded into the
  values the loop started from. While a loop runs, the copies for the next chunk may be landing in the other slot, so
  the scratches are held less that slot's window.
-/
import proofs.«216098_g21234318311461_cont_8to1_346_22_alg».proof.Proof.KBCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "fV" => (Memref.whole Cert.Kernel.main_arg0_scv : Memref Cert.Kernel.sig Kind.scVector Space.hbm Cert.Kernel.S16384x128 EltTy.f32)
local notation "aV" => (Memref.whole Cert.Kernel.main_arg1_scv : Memref Cert.Kernel.sig Kind.scVector Space.hbm Cert.Kernel.S16384x128 EltTy.f32)
local notation "lV" => (Memref.whole Cert.Kernel.main_v0_scv : Memref Cert.Kernel.sig Kind.scVector Space.hbm Cert.Kernel.S128x128 EltTy.i32)
local notation "cenV" => (Memref.whole Cert.Kernel.main_arg3_scv : Memref Cert.Kernel.sig Kind.scVector Space.hbm Cert.Kernel.S100000x128 EltTy.f32)
local notation "oV" => (Memref.whole Cert.Kernel.main_v1_scv : Memref Cert.Kernel.sig Kind.scVector Space.hbm Cert.Kernel.S512 EltTy.f32)
local notation "ixS" => (Memref.whole Cert.Kernel.cc0_scratch0 : Memref Cert.Kernel.sig Kind.scVector Space.vmem Cert.Kernel.S4x128 EltTy.i32)
local notation "cnS" => (Memref.whole Cert.Kernel.cc0_scratch1 : Memref Cert.Kernel.sig Kind.scVector Space.vmem Cert.Kernel.S2x128x128 EltTy.f32)
local notation "ftS" => (Memref.whole Cert.Kernel.cc0_scratch2 : Memref Cert.Kernel.sig Kind.scVector Space.vmem Cert.Kernel.S2x128x128 EltTy.f32)
local notation "wtS" => (Memref.whole Cert.Kernel.cc0_scratch3 : Memref Cert.Kernel.sig Kind.scVector Space.vmem Cert.Kernel.S2x128x128 EltTy.f32)
local notation "acS" => (Memref.whole Cert.Kernel.cc0_scratch4 : Memref Cert.Kernel.sig Kind.scVector Space.vmem Cert.Kernel.S16 EltTy.f32)

/-- `step` folded over the first `k` trips from `init` (trips past the count change nothing). -/
def iterCore {σ : Type} {n : ℕ} (step : Fin n → σ → σ) (init : σ) : ℕ → σ
  | 0 => init
  | k + 1 => if h : k < n then step ⟨k, h⟩ (iterCore step init k) else iterCore step init k

theorem iterCore_succ {σ : Type} {n : ℕ} (step : Fin n → σ → σ) (init : σ) (k : Fin n) :
    iterCore step init (k.val + 1) = step k (iterCore step init k.val) := by
  show (if h : k.val < n then step ⟨k.val, h⟩ (iterCore step init k.val) else iterCore step init k.val) = _
  rw [dif_pos k.isLt]

/-- The same fold, with the empty fold decided before the fold is opened: at no trip it is the start value. -/
def iter {σ : Type} {n : ℕ} (step : Fin n → σ → σ) (init : σ) (k : ℕ) : σ :=
  if k = 0 then init else iterCore step init k

theorem iter_zero {σ : Type} {n : ℕ} (step : Fin n → σ → σ) (init : σ) : iter step init 0 = init := rfl

theorem iter_eq_core {σ : Type} {n : ℕ} (step : Fin n → σ → σ) (init : σ) (k : ℕ) : iter step init k = iterCore step init k := by
  unfold iter
  split
  · next h => subst h; rfl
  · rfl

theorem iter_succ {σ : Type} {n : ℕ} (step : Fin n → σ → σ) (init : σ) (k : Fin n) :
    iter step init (k.val + 1) = step k (iter step init k.val) := by
  rw [iter_eq_core, iter_eq_core, iterCore_succ]

attribute [irreducible] iterCore

variable [FloatOps F] (d : Dev nD) (L : grid0.Coords)

/-- Slot 0 and slot 1 of a two-slot scratch, as the body slices them. -/
abbrev slot0 (b : Memref sig .scVector .vmem S2x128x128 .f32) : Memref sig .scVector .vmem S128x128 .f32 :=
  (b.slice (Rect.unit (s := S2x128x128) ![0, 0, 0] S1x128x128.size inb_S2x128x128_S1x128x128_0_0_0) (fun _ => rfl)).squeeze S128x128 squeezes_S1x128x128_S128x128
abbrev slot1 (b : Memref sig .scVector .vmem S2x128x128 .f32) : Memref sig .scVector .vmem S128x128 .f32 :=
  (b.slice (Rect.unit (s := S2x128x128) ![1, 0, 0] S1x128x128.size inb_S2x128x128_S1x128x128_1_0_0) (fun _ => rfl)).squeeze S128x128 squeezes_S1x128x128_S128x128

/-- One row of chunk 1's accumulation: the eight lane vectors of row `k` of the features, centres and weights slots
    folded into the eight accumulators, `acc + (w · (f − c)) · (f − c)` lane by lane. -/
def step1 (X1 : Buf (Elt F) ((cnS).view.loc (VT d L))) (X2 : Buf (Elt F) ((ftS).view.loc (VT d L))) (X3 : Buf (Elt F) ((wtS).view.loc (VT d L)))
    (k : Fin k0_t1_loop.trips) (acc : FVec F S16 .f32 × FVec F S16 .f32 × FVec F S16 .f32 × FVec F S16 .f32 × FVec F S16 .f32 × FVec F S16 .f32 × FVec F S16 .f32 × FVec F S16 .f32) : FVec F S16 .f32 × FVec F S16 .f32 × FVec F S16 .f32 × FVec F S16 .f32 × FVec F S16 .f32 × FVec F S16 .f32 × FVec F S16 .f32 × FVec F S16 .f32 :=
  (k0_pay1 acc.1 (View.readAt (Elt F) (ftS).view (Rect.unit (s := S2x128x128) (k0_off3 k) S1x1x16.size (k0_off3_inb k)).toLoadRect X2) (View.readAt (Elt F) (cnS).view (Rect.unit (s := S2x128x128) (k0_off3 k) S1x1x16.size (k0_off3_inb k)).toLoadRect X1) (View.readAt (Elt F) (wtS).view (Rect.unit (s := S2x128x128) (k0_off3 k) S1x1x16.size (k0_off3_inb k)).toLoadRect X3),
   k0_pay2 acc.2.1 (View.readAt (Elt F) (ftS).view (Rect.unit (s := S2x128x128) (k0_off4 k) S1x1x16.size (k0_off4_inb k)).toLoadRect X2) (View.readAt (Elt F) (cnS).view (Rect.unit (s := S2x128x128) (k0_off4 k) S1x1x16.size (k0_off4_inb k)).toLoadRect X1) (View.readAt (Elt F) (wtS).view (Rect.unit (s := S2x128x128) (k0_off4 k) S1x1x16.size (k0_off4_inb k)).toLoadRect X3),
   k0_pay5 acc.2.2.1 (k0_pay3 (View.readAt (Elt F) (ftS).view (Rect.unit (s := S2x128x128) (k0_off5 k) S1x1x16.size (k0_off5_inb k)).toLoadRect X2)) (k0_pay4 (View.readAt (Elt F) (cnS).view (Rect.unit (s := S2x128x128) (k0_off5 k) S1x1x16.size (k0_off5_inb k)).toLoadRect X1)) (View.readAt (Elt F) (wtS).view (Rect.unit (s := S2x128x128) (k0_off5 k) S1x1x16.size (k0_off5_inb k)).toLoadRect X3),
   k0_pay6 acc.2.2.2.1 (View.readAt (Elt F) (ftS).view (Rect.unit (s := S2x128x128) (k0_off6 k) S1x1x16.size (k0_off6_inb k)).toLoadRect X2) (View.readAt (Elt F) (cnS).view (Rect.unit (s := S2x128x128) (k0_off6 k) S1x1x16.size (k0_off6_inb k)).toLoadRect X1) (View.readAt (Elt F) (wtS).view (Rect.unit (s := S2x128x128) (k0_off6 k) S1x1x16.size (k0_off6_inb k)).toLoadRect X3),
   k0_pay7 acc.2.2.2.2.1 (View.readAt (Elt F) (ftS).view (Rect.unit (s := S2x128x128) (k0_off7 k) S1x1x16.size (k0_off7_inb k)).toLoadRect X2) (View.readAt (Elt F) (cnS).view (Rect.unit (s := S2x128x128) (k0_off7 k) S1x1x16.size (k0_off7_inb k)).toLoadRect X1) (View.readAt (Elt F) (wtS).view (Rect.unit (s := S2x128x128) (k0_off7 k) S1x1x16.size (k0_off7_inb k)).toLoadRect X3),
   k0_pay41 acc.2.2.2.2.2.1 (k0_pay8 (View.readAt (Elt F) (ftS).view (Rect.unit (s := S2x128x128) (k0_off8 k) S1x1x16.size (k0_off8_inb k)).toLoadRect X2)) (View.readAt (Elt F) (cnS).view (Rect.unit (s := S2x128x128) (k0_off8 k) S1x1x16.size (k0_off8_inb k)).toLoadRect X1) (View.readAt (Elt F) (wtS).view (Rect.unit (s := S2x128x128) (k0_off8 k) S1x1x16.size (k0_off8_inb k)).toLoadRect X3),
   k0_pay42 acc.2.2.2.2.2.2.1 (View.readAt (Elt F) (ftS).view (Rect.unit (s := S2x128x128) (k0_off9 k) S1x1x16.size (k0_off9_inb k)).toLoadRect X2) (View.readAt (Elt F) (cnS).view (Rect.unit (s := S2x128x128) (k0_off9 k) S1x1x16.size (k0_off9_inb k)).toLoadRect X1) (View.readAt (Elt F) (wtS).view (Rect.unit (s := S2x128x128) (k0_off9 k) S1x1x16.size (k0_off9_inb k)).toLoadRect X3),
   k0_pay43 acc.2.2.2.2.2.2.2 (View.readAt (Elt F) (ftS).view (Rect.unit (s := S2x128x128) (k0_off10 k) S1x1x16.size (k0_off10_inb k)).toLoadRect X2) (View.readAt (Elt F) (cnS).view (Rect.unit (s := S2x128x128) (k0_off10 k) S1x1x16.size (k0_off10_inb k)).toLoadRect X1) (View.readAt (Elt F) (wtS).view (Rect.unit (s := S2x128x128) (k0_off10 k) S1x1x16.size (k0_off10_inb k)).toLoadRect X3))

/-- One row of chunk 2's accumulation: the eight lane vectors of row `k` of the features, centres and weights slots
    folded into the eight accumulators, `acc + (w · (f − c)) · (f − c)` lane by lane. -/
def step2 (X1 : Buf (Elt F) ((cnS).view.loc (VT d L))) (X2 : Buf (Elt F) ((ftS).view.loc (VT d L))) (X3 : Buf (Elt F) ((wtS).view.loc (VT d L)))
    (k : Fin k0_t2_loop.trips) (acc : FVec F S16 .f32 × FVec F S16 .f32 × FVec F S16 .f32 × FVec F S16 .f32 × FVec F S16 .f32 × FVec F S16 .f32 × FVec F S16 .f32 × FVec F S16 .f32) : FVec F S16 .f32 × FVec F S16 .f32 × FVec F S16 .f32 × FVec F S16 .f32 × FVec F S16 .f32 × FVec F S16 .f32 × FVec F S16 .f32 × FVec F S16 .f32 :=
  (k0_pay9 acc.1 (View.readAt (Elt F) (ftS).view (Rect.unit (s := S2x128x128) (k0_off11 k) S1x1x16.size (k0_off11_inb k)).toLoadRect X2) (View.readAt (Elt F) (cnS).view (Rect.unit (s := S2x128x128) (k0_off11 k) S1x1x16.size (k0_off11_inb k)).toLoadRect X1) (View.readAt (Elt F) (wtS).view (Rect.unit (s := S2x128x128) (k0_off11 k) S1x1x16.size (k0_off11_inb k)).toLoadRect X3),
   k0_pay10 acc.2.1 (View.readAt (Elt F) (ftS).view (Rect.unit (s := S2x128x128) (k0_off12 k) S1x1x16.size (k0_off12_inb k)).toLoadRect X2) (View.readAt (Elt F) (cnS).view (Rect.unit (s := S2x128x128) (k0_off12 k) S1x1x16.size (k0_off12_inb k)).toLoadRect X1) (View.readAt (Elt F) (wtS).view (Rect.unit (s := S2x128x128) (k0_off12 k) S1x1x16.size (k0_off12_inb k)).toLoadRect X3),
   k0_pay13 acc.2.2.1 (k0_pay11 (View.readAt (Elt F) (ftS).view (Rect.unit (s := S2x128x128) (k0_off13 k) S1x1x16.size (k0_off13_inb k)).toLoadRect X2)) (k0_pay12 (View.readAt (Elt F) (cnS).view (Rect.unit (s := S2x128x128) (k0_off13 k) S1x1x16.size (k0_off13_inb k)).toLoadRect X1)) (View.readAt (Elt F) (wtS).view (Rect.unit (s := S2x128x128) (k0_off13 k) S1x1x16.size (k0_off13_inb k)).toLoadRect X3),
   k0_pay14 acc.2.2.2.1 (View.readAt (Elt F) (ftS).view (Rect.unit (s := S2x128x128) (k0_off14 k) S1x1x16.size (k0_off14_inb k)).toLoadRect X2) (View.readAt (Elt F) (cnS).view (Rect.unit (s := S2x128x128) (k0_off14 k) S1x1x16.size (k0_off14_inb k)).toLoadRect X1) (View.readAt (Elt F) (wtS).view (Rect.unit (s := S2x128x128) (k0_off14 k) S1x1x16.size (k0_off14_inb k)).toLoadRect X3),
   k0_pay15 acc.2.2.2.2.1 (View.readAt (Elt F) (ftS).view (Rect.unit (s := S2x128x128) (k0_off15 k) S1x1x16.size (k0_off15_inb k)).toLoadRect X2) (View.readAt (Elt F) (cnS).view (Rect.unit (s := S2x128x128) (k0_off15 k) S1x1x16.size (k0_off15_inb k)).toLoadRect X1) (View.readAt (Elt F) (wtS).view (Rect.unit (s := S2x128x128) (k0_off15 k) S1x1x16.size (k0_off15_inb k)).toLoadRect X3),
   k0_pay44 acc.2.2.2.2.2.1 (k0_pay16 (View.readAt (Elt F) (ftS).view (Rect.unit (s := S2x128x128) (k0_off16 k) S1x1x16.size (k0_off16_inb k)).toLoadRect X2)) (View.readAt (Elt F) (cnS).view (Rect.unit (s := S2x128x128) (k0_off16 k) S1x1x16.size (k0_off16_inb k)).toLoadRect X1) (View.readAt (Elt F) (wtS).view (Rect.unit (s := S2x128x128) (k0_off16 k) S1x1x16.size (k0_off16_inb k)).toLoadRect X3),
   k0_pay45 acc.2.2.2.2.2.2.1 (View.readAt (Elt F) (ftS).view (Rect.unit (s := S2x128x128) (k0_off17 k) S1x1x16.size (k0_off17_inb k)).toLoadRect X2) (View.readAt (Elt F) (cnS).view (Rect.unit (s := S2x128x128) (k0_off17 k) S1x1x16.size (k0_off17_inb k)).toLoadRect X1) (View.readAt (Elt F) (wtS).view (Rect.unit (s := S2x128x128) (k0_off17 k) S1x1x16.size (k0_off17_inb k)).toLoadRect X3),
   k0_pay46 acc.2.2.2.2.2.2.2 (View.readAt (Elt F) (ftS).view (Rect.unit (s := S2x128x128) (k0_off18 k) S1x1x16.size (k0_off18_inb k)).toLoadRect X2) (View.readAt (Elt F) (cnS).view (Rect.unit (s := S2x128x128) (k0_off18 k) S1x1x16.size (k0_off18_inb k)).toLoadRect X1) (View.readAt (Elt F) (wtS).view (Rect.unit (s := S2x128x128) (k0_off18 k) S1x1x16.size (k0_off18_inb k)).toLoadRect X3))

/-- One row of chunk 3's accumulation: the eight lane vectors of row `k` of the features, centres and weights slots
    folded into the eight accumulators, `acc + (w · (f − c)) · (f − c)` lane by lane. -/
def step3 (X1 : Buf (Elt F) ((cnS).view.loc (VT d L))) (X2 : Buf (Elt F) ((ftS).view.loc (VT d L))) (X3 : Buf (Elt F) ((wtS).view.loc (VT d L)))
    (k : Fin k0_t3_loop.trips) (acc : FVec F S16 .f32 × FVec F S16 .f32 × FVec F S16 .f32 × FVec F S16 .f32 × FVec F S16 .f32 × FVec F S16 .f32 × FVec F S16 .f32 × FVec F S16 .f32) : FVec F S16 .f32 × FVec F S16 .f32 × FVec F S16 .f32 × FVec F S16 .f32 × FVec F S16 .f32 × FVec F S16 .f32 × FVec F S16 .f32 × FVec F S16 .f32 :=
  (k0_pay17 acc.1 (View.readAt (Elt F) (ftS).view (Rect.unit (s := S2x128x128) (k0_off19 k) S1x1x16.size (k0_off19_inb k)).toLoadRect X2) (View.readAt (Elt F) (cnS).view (Rect.unit (s := S2x128x128) (k0_off19 k) S1x1x16.size (k0_off19_inb k)).toLoadRect X1) (View.readAt (Elt F) (wtS).view (Rect.unit (s := S2x128x128) (k0_off19 k) S1x1x16.size (k0_off19_inb k)).toLoadRect X3),
   k0_pay18 acc.2.1 (View.readAt (Elt F) (ftS).view (Rect.unit (s := S2x128x128) (k0_off20 k) S1x1x16.size (k0_off20_inb k)).toLoadRect X2) (View.readAt (Elt F) (cnS).view (Rect.unit (s := S2x128x128) (k0_off20 k) S1x1x16.size (k0_off20_inb k)).toLoadRect X1) (View.readAt (Elt F) (wtS).view (Rect.unit (s := S2x128x128) (k0_off20 k) S1x1x16.size (k0_off20_inb k)).toLoadRect X3),
   k0_pay21 acc.2.2.1 (k0_pay19 (View.readAt (Elt F) (ftS).view (Rect.unit (s := S2x128x128) (k0_off21 k) S1x1x16.size (k0_off21_inb k)).toLoadRect X2)) (k0_pay20 (View.readAt (Elt F) (cnS).view (Rect.unit (s := S2x128x128) (k0_off21 k) S1x1x16.size (k0_off21_inb k)).toLoadRect X1)) (View.readAt (Elt F) (wtS).view (Rect.unit (s := S2x128x128) (k0_off21 k) S1x1x16.size (k0_off21_inb k)).toLoadRect X3),
   k0_pay22 acc.2.2.2.1 (View.readAt (Elt F) (ftS).view (Rect.unit (s := S2x128x128) (k0_off22 k) S1x1x16.size (k0_off22_inb k)).toLoadRect X2) (View.readAt (Elt F) (cnS).view (Rect.unit (s := S2x128x128) (k0_off22 k) S1x1x16.size (k0_off22_inb k)).toLoadRect X1) (View.readAt (Elt F) (wtS).view (Rect.unit (s := S2x128x128) (k0_off22 k) S1x1x16.size (k0_off22_inb k)).toLoadRect X3),
   k0_pay23 acc.2.2.2.2.1 (View.readAt (Elt F) (ftS).view (Rect.unit (s := S2x128x128) (k0_off23 k) S1x1x16.size (k0_off23_inb k)).toLoadRect X2) (View.readAt (Elt F) (cnS).view (Rect.unit (s := S2x128x128) (k0_off23 k) S1x1x16.size (k0_off23_inb k)).toLoadRect X1) (View.readAt (Elt F) (wtS).view (Rect.unit (s := S2x128x128) (k0_off23 k) S1x1x16.size (k0_off23_inb k)).toLoadRect X3),
   k0_pay47 acc.2.2.2.2.2.1 (k0_pay24 (View.readAt (Elt F) (ftS).view (Rect.unit (s := S2x128x128) (k0_off24 k) S1x1x16.size (k0_off24_inb k)).toLoadRect X2)) (View.readAt (Elt F) (cnS).view (Rect.unit (s := S2x128x128) (k0_off24 k) S1x1x16.size (k0_off24_inb k)).toLoadRect X1) (View.readAt (Elt F) (wtS).view (Rect.unit (s := S2x128x128) (k0_off24 k) S1x1x16.size (k0_off24_inb k)).toLoadRect X3),
   k0_pay48 acc.2.2.2.2.2.2.1 (View.readAt (Elt F) (ftS).view (Rect.unit (s := S2x128x128) (k0_off25 k) S1x1x16.size (k0_off25_inb k)).toLoadRect X2) (View.readAt (Elt F) (cnS).view (Rect.unit (s := S2x128x128) (k0_off25 k) S1x1x16.size (k0_off25_inb k)).toLoadRect X1) (View.readAt (Elt F) (wtS).view (Rect.unit (s := S2x128x128) (k0_off25 k) S1x1x16.size (k0_off25_inb k)).toLoadRect X3),
   k0_pay49 acc.2.2.2.2.2.2.2 (View.readAt (Elt F) (ftS).view (Rect.unit (s := S2x128x128) (k0_off26 k) S1x1x16.size (k0_off26_inb k)).toLoadRect X2) (View.readAt (Elt F) (cnS).view (Rect.unit (s := S2x128x128) (k0_off26 k) S1x1x16.size (k0_off26_inb k)).toLoadRect X1) (View.readAt (Elt F) (wtS).view (Rect.unit (s := S2x128x128) (k0_off26 k) S1x1x16.size (k0_off26_inb k)).toLoadRect X3))

/-- One row of chunk 4's accumulation: the eight lane vectors of row `k` of the features, centres and weights slots
    folded into the eight accumulators, `acc + (w · (f − c)) · (f − c)` lane by lane. -/
def step4 (X1 : Buf (Elt F) ((cnS).view.loc (VT d L))) (X2 : Buf (Elt F) ((ftS).view.loc (VT d L))) (X3 : Buf (Elt F) ((wtS).view.loc (VT d L)))
    (k : Fin k0_t4_loop.trips) (acc : FVec F S16 .f32 × FVec F S16 .f32 × FVec F S16 .f32 × FVec F S16 .f32 × FVec F S16 .f32 × FVec F S16 .f32 × FVec F S16 .f32 × FVec F S16 .f32) : FVec F S16 .f32 × FVec F S16 .f32 × FVec F S16 .f32 × FVec F S16 .f32 × FVec F S16 .f32 × FVec F S16 .f32 × FVec F S16 .f32 × FVec F S16 .f32 :=
  (k0_pay25 acc.1 (View.readAt (Elt F) (ftS).view (Rect.unit (s := S2x128x128) (k0_off27 k) S1x1x16.size (k0_off27_inb k)).toLoadRect X2) (View.readAt (Elt F) (cnS).view (Rect.unit (s := S2x128x128) (k0_off27 k) S1x1x16.size (k0_off27_inb k)).toLoadRect X1) (View.readAt (Elt F) (wtS).view (Rect.unit (s := S2x128x128) (k0_off27 k) S1x1x16.size (k0_off27_inb k)).toLoadRect X3),
   k0_pay26 acc.2.1 (View.readAt (Elt F) (ftS).view (Rect.unit (s := S2x128x128) (k0_off28 k) S1x1x16.size (k0_off28_inb k)).toLoadRect X2) (View.readAt (Elt F) (cnS).view (Rect.unit (s := S2x128x128) (k0_off28 k) S1x1x16.size (k0_off28_inb k)).toLoadRect X1) (View.readAt (Elt F) (wtS).view (Rect.unit (s := S2x128x128) (k0_off28 k) S1x1x16.size (k0_off28_inb k)).toLoadRect X3),
   k0_pay29 acc.2.2.1 (k0_pay27 (View.readAt (Elt F) (ftS).view (Rect.unit (s := S2x128x128) (k0_off29 k) S1x1x16.size (k0_off29_inb k)).toLoadRect X2)) (k0_pay28 (View.readAt (Elt F) (cnS).view (Rect.unit (s := S2x128x128) (k0_off29 k) S1x1x16.size (k0_off29_inb k)).toLoadRect X1)) (View.readAt (Elt F) (wtS).view (Rect.unit (s := S2x128x128) (k0_off29 k) S1x1x16.size (k0_off29_inb k)).toLoadRect X3),
   k0_pay30 acc.2.2.2.1 (View.readAt (Elt F) (ftS).view (Rect.unit (s := S2x128x128) (k0_off30 k) S1x1x16.size (k0_off30_inb k)).toLoadRect X2) (View.readAt (Elt F) (cnS).view (Rect.unit (s := S2x128x128) (k0_off30 k) S1x1x16.size (k0_off30_inb k)).toLoadRect X1) (View.readAt (Elt F) (wtS).view (Rect.unit (s := S2x128x128) (k0_off30 k) S1x1x16.size (k0_off30_inb k)).toLoadRect X3),
   k0_pay31 acc.2.2.2.2.1 (View.readAt (Elt F) (ftS).view (Rect.unit (s := S2x128x128) (k0_off31 k) S1x1x16.size (k0_off31_inb k)).toLoadRect X2) (View.readAt (Elt F) (cnS).view (Rect.unit (s := S2x128x128) (k0_off31 k) S1x1x16.size (k0_off31_inb k)).toLoadRect X1) (View.readAt (Elt F) (wtS).view (Rect.unit (s := S2x128x128) (k0_off31 k) S1x1x16.size (k0_off31_inb k)).toLoadRect X3),
   k0_pay50 acc.2.2.2.2.2.1 (k0_pay32 (View.readAt (Elt F) (ftS).view (Rect.unit (s := S2x128x128) (k0_off32 k) S1x1x16.size (k0_off32_inb k)).toLoadRect X2)) (View.readAt (Elt F) (cnS).view (Rect.unit (s := S2x128x128) (k0_off32 k) S1x1x16.size (k0_off32_inb k)).toLoadRect X1) (View.readAt (Elt F) (wtS).view (Rect.unit (s := S2x128x128) (k0_off32 k) S1x1x16.size (k0_off32_inb k)).toLoadRect X3),
   k0_pay51 acc.2.2.2.2.2.2.1 (View.readAt (Elt F) (ftS).view (Rect.unit (s := S2x128x128) (k0_off33 k) S1x1x16.size (k0_off33_inb k)).toLoadRect X2) (View.readAt (Elt F) (cnS).view (Rect.unit (s := S2x128x128) (k0_off33 k) S1x1x16.size (k0_off33_inb k)).toLoadRect X1) (View.readAt (Elt F) (wtS).view (Rect.unit (s := S2x128x128) (k0_off33 k) S1x1x16.size (k0_off33_inb k)).toLoadRect X3),
   k0_pay52 acc.2.2.2.2.2.2.2 (View.readAt (Elt F) (ftS).view (Rect.unit (s := S2x128x128) (k0_off34 k) S1x1x16.size (k0_off34_inb k)).toLoadRect X2) (View.readAt (Elt F) (cnS).view (Rect.unit (s := S2x128x128) (k0_off34 k) S1x1x16.size (k0_off34_inb k)).toLoadRect X1) (View.readAt (Elt F) (wtS).view (Rect.unit (s := S2x128x128) (k0_off34 k) S1x1x16.size (k0_off34_inb k)).toLoadRect X3))

/-- Chunk 1's row loop by its invariant: the three scratches as the loop finds them, the accumulators after `k` rows. -/
abbrev inv1 (X1 : Buf (Elt F) ((cnS).view.loc (VT d L))) (X2 : Buf (Elt F) ((ftS).view.loc (VT d L))) (X3 : Buf (Elt F) ((wtS).view.loc (VT d L)))
    (init : FVec F S16 .f32 × FVec F S16 .f32 × FVec F S16 .f32 × FVec F S16 .f32 × FVec F S16 .f32 × FVec F S16 .f32 × FVec F S16 .f32 × FVec F S16 .f32) (k : ℕ) (acc : FVec F S16 .f32 × FVec F S16 .f32 × FVec F S16 .f32 × FVec F S16 .f32 × FVec F S16 .f32 × FVec F S16 .f32 × FVec F S16 .f32 × FVec F S16 .f32) : sProp 𝕄 :=
  iprop(((cnS).view.loc (VT d L) ↦[(cnS).view.set \ (slot1 cnS).view.set]{fullShare} X1)
    ∗ ((ftS).view.loc (VT d L) ↦[(ftS).view.set \ (slot1 ftS).view.set]{fullShare} X2)
    ∗ ((wtS).view.loc (VT d L) ↦[(wtS).view.set \ (slot1 wtS).view.set]{fullShare} X3)
    ∗ ⌜acc = iter (step1 d L X1 X2 X3) init k⌝)

set_option warn.classDefReducibility false in
@[sl_loop] def loopInv1 (X1 : Buf (Elt F) ((cnS).view.loc (VT d L))) (X2 : Buf (Elt F) ((ftS).view.loc (VT d L))) (X3 : Buf (Elt F) ((wtS).view.loc (VT d L)))
    (v22 v23 v24 v25 v26 v27 v28 v29 : FVec F S16 .f32) (init : FVec F S16 .f32 × FVec F S16 .f32 × FVec F S16 .f32 × FVec F S16 .f32 × FVec F S16 .f32 × FVec F S16 .f32 × FVec F S16 .f32 × FVec F S16 .f32) :
    LoopInv (M := 𝕄) Idealize.ShloMosaic.frame (wpE (defs₀ (F := F)) 𝒱₀ (VT d L) none) Set.univ
      k0_t1_loop.lb k0_t1_loop.ub k0_t1_loop.st k0_t1_ok init
      (k0_t1_body (F := F) L fV (Memref.isWhole_whole _) aV (Memref.isWhole_whole _) lV (Memref.isWhole_whole _) cenV (Memref.isWhole_whole _) oV (Memref.isWhole_whole _)
            ixS (Memref.isWhole_whole _) cnS (Memref.isWhole_whole _) ftS (Memref.isWhole_whole _) wtS (Memref.isWhole_whole _) acS (Memref.isWhole_whole _)
            cc0_scratch5 cc0_scratch6 cc0_scratch7 cc0_scratch8 cc0_scratch9 cc0_scratch10 cc0_scoped0 cc0_scoped1 v22 v23 v24 v25 v26 v27 v28 v29) where
  inv := inv1 d L X1 X2 X3 init
  step k acc := by
    iintro ⟨H1, H2, H3, %hacc⟩
    unfold k0_t1_body
    sl_exec
    sl_step
    isplitl [H1]; · iexact H1
    isplitl [H2]; · iexact H2
    isplitl [H3]; · iexact H3
    ipureintro
    rw [iter_succ, ← hacc]
    rfl

/-- Chunk 2's row loop by its invariant: the three scratches as the loop finds them, the accumulators after `k` rows. -/
abbrev inv2 (X1 : Buf (Elt F) ((cnS).view.loc (VT d L))) (X2 : Buf (Elt F) ((ftS).view.loc (VT d L))) (X3 : Buf (Elt F) ((wtS).view.loc (VT d L)))
    (init : FVec F S16 .f32 × FVec F S16 .f32 × FVec F S16 .f32 × FVec F S16 .f32 × FVec F S16 .f32 × FVec F S16 .f32 × FVec F S16 .f32 × FVec F S16 .f32) (k : ℕ) (acc : FVec F S16 .f32 × FVec F S16 .f32 × FVec F S16 .f32 × FVec F S16 .f32 × FVec F S16 .f32 × FVec F S16 .f32 × FVec F S16 .f32 × FVec F S16 .f32) : sProp 𝕄 :=
  iprop(((cnS).view.loc (VT d L) ↦[(cnS).view.set \ (slot0 cnS).view.set]{fullShare} X1)
    ∗ ((ftS).view.loc (VT d L) ↦[(ftS).view.set \ (slot0 ftS).view.set]{fullShare} X2)
    ∗ ((wtS).view.loc (VT d L) ↦[(wtS).view.set \ (slot0 wtS).view.set]{fullShare} X3)
    ∗ ⌜acc = iter (step2 d L X1 X2 X3) init k⌝)

set_option warn.classDefReducibility false in
@[sl_loop] def loopInv2 (X1 : Buf (Elt F) ((cnS).view.loc (VT d L))) (X2 : Buf (Elt F) ((ftS).view.loc (VT d L))) (X3 : Buf (Elt F) ((wtS).view.loc (VT d L)))
    (v2 : BitVec 32) (v66_0 v66_1 v66_2 v66_3 v66_4 v66_5 v66_6 v66_7 : FVec F S16 .f32) (init : FVec F S16 .f32 × FVec F S16 .f32 × FVec F S16 .f32 × FVec F S16 .f32 × FVec F S16 .f32 × FVec F S16 .f32 × FVec F S16 .f32 × FVec F S16 .f32) :
    LoopInv (M := 𝕄) Idealize.ShloMosaic.frame (wpE (defs₀ (F := F)) 𝒱₀ (VT d L) none) Set.univ
      k0_t2_loop.lb k0_t2_loop.ub k0_t2_loop.st k0_t2_ok init
      (k0_t2_body (F := F) L fV (Memref.isWhole_whole _) aV (Memref.isWhole_whole _) lV (Memref.isWhole_whole _) cenV (Memref.isWhole_whole _) oV (Memref.isWhole_whole _)
            ixS (Memref.isWhole_whole _) cnS (Memref.isWhole_whole _) ftS (Memref.isWhole_whole _) wtS (Memref.isWhole_whole _) acS (Memref.isWhole_whole _)
            cc0_scratch5 cc0_scratch6 cc0_scratch7 cc0_scratch8 cc0_scratch9 cc0_scratch10 cc0_scoped0 cc0_scoped1 v2 v66_0 v66_1 v66_2 v66_3 v66_4 v66_5 v66_6 v66_7) where
  inv := inv2 d L X1 X2 X3 init
  step k acc := by
    iintro ⟨H1, H2, H3, %hacc⟩
    unfold k0_t2_body
    sl_exec
    sl_step
    isplitl [H1]; · iexact H1
    isplitl [H2]; · iexact H2
    isplitl [H3]; · iexact H3
    ipureintro
    rw [iter_succ, ← hacc]
    rfl

/-- Chunk 3's row loop by its invariant: the three scratches as the loop finds them, the accumulators after `k` rows. -/
abbrev inv3 (X1 : Buf (Elt F) ((cnS).view.loc (VT d L))) (X2 : Buf (Elt F) ((ftS).view.loc (VT d L))) (X3 : Buf (Elt F) ((wtS).view.loc (VT d L)))
    (init : FVec F S16 .f32 × FVec F S16 .f32 × FVec F S16 .f32 × FVec F S16 .f32 × FVec F S16 .f32 × FVec F S16 .f32 × FVec F S16 .f32 × FVec F S16 .f32) (k : ℕ) (acc : FVec F S16 .f32 × FVec F S16 .f32 × FVec F S16 .f32 × FVec F S16 .f32 × FVec F S16 .f32 × FVec F S16 .f32 × FVec F S16 .f32 × FVec F S16 .f32) : sProp 𝕄 :=
  iprop(((cnS).view.loc (VT d L) ↦[(cnS).view.set \ (slot1 cnS).view.set]{fullShare} X1)
    ∗ ((ftS).view.loc (VT d L) ↦[(ftS).view.set \ (slot1 ftS).view.set]{fullShare} X2)
    ∗ ((wtS).view.loc (VT d L) ↦[(wtS).view.set \ (slot1 wtS).view.set]{fullShare} X3)
    ∗ ⌜acc = iter (step3 d L X1 X2 X3) init k⌝)

set_option warn.classDefReducibility false in
@[sl_loop] def loopInv3 (X1 : Buf (Elt F) ((cnS).view.loc (VT d L))) (X2 : Buf (Elt F) ((ftS).view.loc (VT d L))) (X3 : Buf (Elt F) ((wtS).view.loc (VT d L)))
    (v103_0 v103_1 v103_2 v103_3 v103_4 v103_5 v103_6 v103_7 : FVec F S16 .f32) (init : FVec F S16 .f32 × FVec F S16 .f32 × FVec F S16 .f32 × FVec F S16 .f32 × FVec F S16 .f32 × FVec F S16 .f32 × FVec F S16 .f32 × FVec F S16 .f32) :
    LoopInv (M := 𝕄) Idealize.ShloMosaic.frame (wpE (defs₀ (F := F)) 𝒱₀ (VT d L) none) Set.univ
      k0_t3_loop.lb k0_t3_loop.ub k0_t3_loop.st k0_t3_ok init
      (k0_t3_body (F := F) L fV (Memref.isWhole_whole _) aV (Memref.isWhole_whole _) lV (Memref.isWhole_whole _) cenV (Memref.isWhole_whole _) oV (Memref.isWhole_whole _)
            ixS (Memref.isWhole_whole _) cnS (Memref.isWhole_whole _) ftS (Memref.isWhole_whole _) wtS (Memref.isWhole_whole _) acS (Memref.isWhole_whole _)
            cc0_scratch5 cc0_scratch6 cc0_scratch7 cc0_scratch8 cc0_scratch9 cc0_scratch10 cc0_scoped0 cc0_scoped1 v103_0 v103_1 v103_2 v103_3 v103_4 v103_5 v103_6 v103_7) where
  inv := inv3 d L X1 X2 X3 init
  step k acc := by
    iintro ⟨H1, H2, H3, %hacc⟩
    unfold k0_t3_body
    sl_exec
    sl_step
    isplitl [H1]; · iexact H1
    isplitl [H2]; · iexact H2
    isplitl [H3]; · iexact H3
    ipureintro
    rw [iter_succ, ← hacc]
    rfl

/-- Chunk 4's row loop by its invariant: the three scratches as the loop finds them, the accumulators after `k` rows. -/
abbrev inv4 (X1 : Buf (Elt F) ((cnS).view.loc (VT d L))) (X2 : Buf (Elt F) ((ftS).view.loc (VT d L))) (X3 : Buf (Elt F) ((wtS).view.loc (VT d L)))
    (init : FVec F S16 .f32 × FVec F S16 .f32 × FVec F S16 .f32 × FVec F S16 .f32 × FVec F S16 .f32 × FVec F S16 .f32 × FVec F S16 .f32 × FVec F S16 .f32) (k : ℕ) (acc : FVec F S16 .f32 × FVec F S16 .f32 × FVec F S16 .f32 × FVec F S16 .f32 × FVec F S16 .f32 × FVec F S16 .f32 × FVec F S16 .f32 × FVec F S16 .f32) : sProp 𝕄 :=
  iprop(((cnS).view.loc (VT d L) ↦[(cnS).view.set]{fullShare} X1)
    ∗ ((ftS).view.loc (VT d L) ↦[(ftS).view.set]{fullShare} X2)
    ∗ ((wtS).view.loc (VT d L) ↦[(wtS).view.set]{fullShare} X3)
    ∗ ⌜acc = iter (step4 d L X1 X2 X3) init k⌝)

set_option warn.classDefReducibility false in
@[sl_loop] def loopInv4 (X1 : Buf (Elt F) ((cnS).view.loc (VT d L))) (X2 : Buf (Elt F) ((ftS).view.loc (VT d L))) (X3 : Buf (Elt F) ((wtS).view.loc (VT d L)))
     (init : FVec F S16 .f32 × FVec F S16 .f32 × FVec F S16 .f32 × FVec F S16 .f32 × FVec F S16 .f32 × FVec F S16 .f32 × FVec F S16 .f32 × FVec F S16 .f32) :
    LoopInv (M := 𝕄) Idealize.ShloMosaic.frame (wpE (defs₀ (F := F)) 𝒱₀ (VT d L) none) Set.univ
      k0_t4_loop.lb k0_t4_loop.ub k0_t4_loop.st k0_t4_ok init
      (k0_t4_body (F := F) L fV (Memref.isWhole_whole _) aV (Memref.isWhole_whole _) lV (Memref.isWhole_whole _) cenV (Memref.isWhole_whole _) oV (Memref.isWhole_whole _)
            ixS (Memref.isWhole_whole _) cnS (Memref.isWhole_whole _) ftS (Memref.isWhole_whole _) wtS (Memref.isWhole_whole _) acS (Memref.isWhole_whole _)
            cc0_scratch5 cc0_scratch6 cc0_scratch7 cc0_scratch8 cc0_scratch9 cc0_scratch10 cc0_scoped0 cc0_scoped1) where
  inv := inv4 d L X1 X2 X3 init
  step k acc := by
    iintro ⟨H1, H2, H3, %hacc⟩
    unfold k0_t4_body
    sl_exec
    sl_step
    isplitl [H1]; · iexact H1
    isplitl [H2]; · iexact H2
    isplitl [H3]; · iexact H3
    ipureintro
    rw [iter_succ, ← hacc]
    rfl

end Cert.Proof.KB

end
-- ==== Proof.KBTileVal.lean ====
/-
  What one tile computes, as closed terms over the launch contents.

  The tile fetches its four label rows, then for each of its four chunks of 128 rows gathers the labelled centre rows
  and copies the feature and weight rows into a slot of its scratches (even chunks into slot 0, odd chunks into slot 1),
  folds the chunk's 128 rows into eight sixteen-lane accumulators, and at the end adds the eight accumulators into one
  sixteen-lane vector that it writes to its piece of the partial-sums vector. This module names each of those values:
  the payload of every copy, the contents of each scratch as each loop finds it, the accumulators after each chunk, and
  the final vector.
-/
import proofs.«216098_g21234318311461_cont_8to1_346_22_alg».proof.Proof.KBLoop

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "fV" => (Memref.whole Cert.Kernel.main_arg0_scv : Memref Cert.Kernel.sig Kind.scVector Space.hbm Cert.Kernel.S16384x128 EltTy.f32)
local notation "aV" => (Memref.whole Cert.Kernel.main_arg1_scv : Memref Cert.Kernel.sig Kind.scVector Space.hbm Cert.Kernel.S16384x128 EltTy.f32)
local notation "lV" => (Memref.whole Cert.Kernel.main_v0_scv : Memref Cert.Kernel.sig Kind.scVector Space.hbm Cert.Kernel.S128x128 EltTy.i32)
local notation "cenV" => (Memref.whole Cert.Kernel.main_arg3_scv : Memref Cert.Kernel.sig Kind.scVector Space.hbm Cert.Kernel.S100000x128 EltTy.f32)
local notation "oV" => (Memref.whole Cert.Kernel.main_v1_scv : Memref Cert.Kernel.sig Kind.scVector Space.hbm Cert.Kernel.S512 EltTy.f32)
local notation "ixS" => (Memref.whole Cert.Kernel.cc0_scratch0 : Memref Cert.Kernel.sig Kind.scVector Space.vmem Cert.Kernel.S4x128 EltTy.i32)
local notation "cnS" => (Memref.whole Cert.Kernel.cc0_scratch1 : Memref Cert.Kernel.sig Kind.scVector Space.vmem Cert.Kernel.S2x128x128 EltTy.f32)
local notation "ftS" => (Memref.whole Cert.Kernel.cc0_scratch2 : Memref Cert.Kernel.sig Kind.scVector Space.vmem Cert.Kernel.S2x128x128 EltTy.f32)
local notation "wtS" => (Memref.whole Cert.Kernel.cc0_scratch3 : Memref Cert.Kernel.sig Kind.scVector Space.vmem Cert.Kernel.S2x128x128 EltTy.f32)
local notation "acS" => (Memref.whole Cert.Kernel.cc0_scratch4 : Memref Cert.Kernel.sig Kind.scVector Space.vmem Cert.Kernel.S16 EltTy.f32)

variable (m : (ℓ : Loc nD τ sig) → Buf (Elt F) ℓ) (d : Dev nD) (L : grid0.Coords) (lab : (d : Dev nD) → Buf (Elt F) (lLoc d))

/-- The gather's row count is the index row's length, and its table has 100000 rows. -/
theorem hn128 : S128.numel = S128x128.size (gathers_S100000x128_S128x128).axis' := rfl
theorem hz100000 : S100000x128.size (gathers_S100000x128_S128x128).axis = 100000 := rfl

/-- The four label rows a tile fetches, as the body slices them. -/
abbrev lRectK (L : grid0.Coords) : Rect S128x128 := Rect.unit (s := S128x128) (k0_off2 L) S4x128.size (k0_off2_inb L)
abbrev lRowK (L : grid0.Coords) : Memref sig .scVector .hbm S4x128 .i32 := (lV).slice (lRectK L) (fun _ => rfl)

/-- What the label fetch lands in the index scratch: the tile's four label rows. -/
abbrev PAY : S4x128.Idx → Elt F .i32 := ReadAs.same.apply ((lRowK L).view.read (Elt F) (lab d))

theorem PAY_apply (x : S4x128.Idx) : PAY d L lab x = lab d ((lRowK L).view.emb x) :=
  (View.read_apply _ _).trans (cast_eq _ _)

/-- Every word of any row of the index scratch, once the fetch has landed, is a label: in range of the table. -/
theorem idx_inb (hlab : ∀ d j, (lab d j).toNat < 100000) (g0 : Buf (Elt F) ((ixS).view.loc (VT d L)))
    (pay : S4x128.Idx → Elt F .i32) (hpay : pay = PAY d L lab) (row : Fin 2 → Nat)
    (hk : ∀ a, row a + S1x128.size a ≤ S4x128.size a) (hs) (hq : (Rect.unit (s := S4x128) row S1x128.size hk).shape.Squeezes S128) :
    ∀ x, (View.read (Elt F) (((ixS).slice (Rect.unit (s := S4x128) row S1x128.size hk) hs).squeeze S128 hq).view
      ((ixS).view.writes (Elt F) g0 [⟨Rect.whole cc0_scratch0.ty.shape, pay⟩]) x).toNat < 100000 := by
  subst hpay; intro x
  have e : View.read (Elt F) (((ixS).slice (Rect.unit (s := S4x128) row S1x128.size hk) hs).squeeze S128 hq).view
        ((ixS).view.writes (Elt F) g0 [⟨Rect.whole cc0_scratch0.ty.shape, PAY d L lab⟩]) x
      = View.read (Elt F) (ixS).view ((ixS).view.writes (Elt F) g0 [⟨Rect.whole cc0_scratch0.ty.shape, PAY d L lab⟩])
          ((Rect.unit (s := S4x128) row S1x128.size hk).emb ((Shape.reshapeEquiv hq.numel_eq) x)) := by
    rw [View.read_apply, View.read_apply]; rfl
  rw [e, View.read_writes_whole, PAY_apply]
  exact hlab d _

/-- The source slices of the chunks' copies and the index scratch's rows, as the body slices them. -/
abbrev fSrc0 : Memref sig .scVector .hbm S128x128 .f32 := (fV).slice (Rect.unit (s := S16384x128) (k0_off1 L 0#32) S128x128.size (k0_off1_inb L 0)) (fun _ => rfl)
abbrev aSrc0 : Memref sig .scVector .hbm S128x128 .f32 := (aV).slice (Rect.unit (s := S16384x128) (k0_off1 L 0#32) S128x128.size (k0_off1_inb L 0)) (fun _ => rfl)
abbrev ixRow0 : Memref sig .scVector .vmem S128 .i32 := ((ixS).slice (Rect.unit (s := S4x128) ![0, 0] S1x128.size inb_S4x128_S1x128_0_0) (fun _ => rfl)).squeeze S128 squeezes_S1x128_S128
abbrev fSrc1 : Memref sig .scVector .hbm S128x128 .f32 := (fV).slice (Rect.unit (s := S16384x128) (k0_off1 L 128#32) S128x128.size (k0_off1_inb L 1)) (fun _ => rfl)
abbrev aSrc1 : Memref sig .scVector .hbm S128x128 .f32 := (aV).slice (Rect.unit (s := S16384x128) (k0_off1 L 128#32) S128x128.size (k0_off1_inb L 1)) (fun _ => rfl)
abbrev ixRow1 : Memref sig .scVector .vmem S128 .i32 := ((ixS).slice (Rect.unit (s := S4x128) ![1, 0] S1x128.size inb_S4x128_S1x128_1_0) (fun _ => rfl)).squeeze S128 squeezes_S1x128_S128
abbrev fSrc2 : Memref sig .scVector .hbm S128x128 .f32 := (fV).slice (Rect.unit (s := S16384x128) (k0_off1 L 256#32) S128x128.size (k0_off1_inb L 2)) (fun _ => rfl)
abbrev aSrc2 : Memref sig .scVector .hbm S128x128 .f32 := (aV).slice (Rect.unit (s := S16384x128) (k0_off1 L 256#32) S128x128.size (k0_off1_inb L 2)) (fun _ => rfl)
abbrev ixRow2 : Memref sig .scVector .vmem S128 .i32 := ((ixS).slice (Rect.unit (s := S4x128) ![2, 0] S1x128.size inb_S4x128_S1x128_2_0) (fun _ => rfl)).squeeze S128 squeezes_S1x128_S128
abbrev fSrc3 : Memref sig .scVector .hbm S128x128 .f32 := (fV).slice (Rect.unit (s := S16384x128) (k0_off1 L 384#32) S128x128.size (k0_off1_inb L 3)) (fun _ => rfl)
abbrev aSrc3 : Memref sig .scVector .hbm S128x128 .f32 := (aV).slice (Rect.unit (s := S16384x128) (k0_off1 L 384#32) S128x128.size (k0_off1_inb L 3)) (fun _ => rfl)
abbrev ixRow3 : Memref sig .scVector .vmem S128 .i32 := ((ixS).slice (Rect.unit (s := S4x128) ![3, 0] S1x128.size inb_S4x128_S1x128_3_0) (fun _ => rfl)).squeeze S128 squeezes_S1x128_S128
abbrev cenSrc : Memref sig .scVector .hbm S100000x128 .f32 := (cenV).slice (Rect.unit (s := S100000x128) ![0, 0] S100000x128.size inb_S100000x128_S100000x128_0_0) (fun _ => rfl)

variable [FloatOps F]

/-- The index scratch once the label fetch has landed. -/
abbrev ixC : Buf (Elt F) ((ixS).view.loc (VT d L)) :=
  (ixS).view.writes (Elt F) (ixS).view.junk [⟨Rect.whole cc0_scratch0.ty.shape, PAY d L lab⟩]

variable (hlab : ∀ d j, (lab d j).toNat < 100000)

/-- Chunk 0's rows of the features, of the weights, and of the centres its labels name, as the copies deliver them. -/
def fPay0 : S128x128.Idx → Elt F .f32 := ReadAs.same.apply (View.read (Elt F) (fSrc0 L).view (m (fLoc d)))
def aPay0 : S128x128.Idx → Elt F .f32 := ReadAs.same.apply (View.read (Elt F) (aSrc0 L).view (m (aLoc d)))
def cPay0 : S128x128.Idx → Elt F .f32 :=
  SparseCore.gatherPayload gathers_S100000x128_S128x128 (View.read (Elt F) (cenSrc).view (m (cLoc d)))
    (SparseCore.rows (o := S128x128.size (gathers_S100000x128_S128x128).axis') (z := S100000x128.size (gathers_S100000x128_S128x128).axis)
      (View.read (Elt F) (ixRow0).view (ixC d L lab)) hn128
      (fun x => lt_of_lt_of_eq (idx_inb d L lab hlab (ixS).view.junk (PAY d L lab) rfl ![0, 0] inb_S4x128_S1x128_0_0 (fun _ => rfl) squeezes_S1x128_S128 x) hz100000.symm))
/-- Chunk 1's rows of the features, of the weights, and of the centres its labels name, as the copies deliver them. -/
def fPay1 : S128x128.Idx → Elt F .f32 := ReadAs.same.apply (View.read (Elt F) (fSrc1 L).view (m (fLoc d)))
def aPay1 : S128x128.Idx → Elt F .f32 := ReadAs.same.apply (View.read (Elt F) (aSrc1 L).view (m (aLoc d)))
def cPay1 : S128x128.Idx → Elt F .f32 :=
  SparseCore.gatherPayload gathers_S100000x128_S128x128 (View.read (Elt F) (cenSrc).view (m (cLoc d)))
    (SparseCore.rows (o := S128x128.size (gathers_S100000x128_S128x128).axis') (z := S100000x128.size (gathers_S100000x128_S128x128).axis)
      (View.read (Elt F) (ixRow1).view (ixC d L lab)) hn128
      (fun x => lt_of_lt_of_eq (idx_inb d L lab hlab (ixS).view.junk (PAY d L lab) rfl ![1, 0] inb_S4x128_S1x128_1_0 (fun _ => rfl) squeezes_S1x128_S128 x) hz100000.symm))
/-- Chunk 2's rows of the features, of the weights, and of the centres its labels name, as the copies deliver them. -/
def fPay2 : S128x128.Idx → Elt F .f32 := ReadAs.same.apply (View.read (Elt F) (fSrc2 L).view (m (fLoc d)))
def aPay2 : S128x128.Idx → Elt F .f32 := ReadAs.same.apply (View.read (Elt F) (aSrc2 L).view (m (aLoc d)))
def cPay2 : S128x128.Idx → Elt F .f32 :=
  SparseCore.gatherPayload gathers_S100000x128_S128x128 (View.read (Elt F) (cenSrc).view (m (cLoc d)))
    (SparseCore.rows (o := S128x128.size (gathers_S100000x128_S128x128).axis') (z := S100000x128.size (gathers_S100000x128_S128x128).axis)
      (View.read (Elt F) (ixRow2).view (ixC d L lab)) hn128
      (fun x => lt_of_lt_of_eq (idx_inb d L lab hlab (ixS).view.junk (PAY d L lab) rfl ![2, 0] inb_S4x128_S1x128_2_0 (fun _ => rfl) squeezes_S1x128_S128 x) hz100000.symm))
/-- Chunk 3's rows of the features, of the weights, and of the centres its labels name, as the copies deliver them. -/
def fPay3 : S128x128.Idx → Elt F .f32 := ReadAs.same.apply (View.read (Elt F) (fSrc3 L).view (m (fLoc d)))
def aPay3 : S128x128.Idx → Elt F .f32 := ReadAs.same.apply (View.read (Elt F) (aSrc3 L).view (m (aLoc d)))
def cPay3 : S128x128.Idx → Elt F .f32 :=
  SparseCore.gatherPayload gathers_S100000x128_S128x128 (View.read (Elt F) (cenSrc).view (m (cLoc d)))
    (SparseCore.rows (o := S128x128.size (gathers_S100000x128_S128x128).axis') (z := S100000x128.size (gathers_S100000x128_S128x128).axis)
      (View.read (Elt F) (ixRow3).view (ixC d L lab)) hn128
      (fun x => lt_of_lt_of_eq (idx_inb d L lab hlab (ixS).view.junk (PAY d L lab) rfl ![3, 0] inb_S4x128_S1x128_3_0 (fun _ => rfl) squeezes_S1x128_S128 x) hz100000.symm))

/-- A payload written into slot 0 / slot 1 of a two-slot scratch. -/
abbrev W0 (b : Memref sig .scVector .vmem S2x128x128 .f32) (f : Buf (Elt F) (b.view.loc (VT d L))) (w : S128x128.Idx → Elt F .f32) : Buf (Elt F) (b.view.loc (VT d L)) :=
  View.write (Elt F) (slot0 b).view f w Finset.univ
abbrev W1 (b : Memref sig .scVector .vmem S2x128x128 .f32) (f : Buf (Elt F) (b.view.loc (VT d L))) (w : S128x128.Idx → Elt F .f32) : Buf (Elt F) (b.view.loc (VT d L)) :=
  View.write (Elt F) (slot1 b).view f w Finset.univ

variable (t1 : Buf (Elt F) ((cnS).view.loc (VT d L))) (t2 : Buf (Elt F) ((ftS).view.loc (VT d L))) (t3 : Buf (Elt F) ((wtS).view.loc (VT d L)))
  (t4 : Buf (Elt F) ((acS).view.loc (VT d L)))

/-- The centres, features and weights scratches as loop 1, loop 2, and loops 3 and 4 find them. -/
def cnC2 := W1 d L cnS (W0 d L cnS t1 (cPay0 m d L lab hlab)) (cPay1 m d L lab hlab)
def cnC3 := W0 d L cnS (cnC2 m d L lab hlab t1) (cPay2 m d L lab hlab)
def cnC4 := W1 d L cnS (cnC3 m d L lab hlab t1) (cPay3 m d L lab hlab)
def ftC2 := W1 d L ftS (W0 d L ftS t2 (fPay0 m d L)) (fPay1 m d L)
def ftC3 := W0 d L ftS (ftC2 m d L t2) (fPay2 m d L)
def ftC4 := W1 d L ftS (ftC3 m d L t2) (fPay3 m d L)
def wtC2 := W1 d L wtS (W0 d L wtS t3 (aPay0 m d L)) (aPay1 m d L)
def wtC3 := W0 d L wtS (wtC2 m d L t3) (aPay2 m d L)
def wtC4 := W1 d L wtS (wtC3 m d L t3) (aPay3 m d L)

/-- The eight accumulators: zero, then after each chunk's 128 rows. -/
def acc0 : FVec F S16 .f32 × FVec F S16 .f32 × FVec F S16 .f32 × FVec F S16 .f32 × FVec F S16 .f32 × FVec F S16 .f32 × FVec F S16 .f32 × FVec F S16 .f32 := (k0_pay33, k0_pay34, k0_pay35, k0_pay36, k0_pay37, k0_pay38, k0_pay39, k0_pay40)
def acc1 := iter (step1 d L (cnC2 m d L lab hlab t1) (ftC2 m d L t2) (wtC2 m d L t3)) (acc0 (F := F)) k0_t1_loop.trips
def acc2 := iter (step2 d L (cnC3 m d L lab hlab t1) (ftC3 m d L t2) (wtC3 m d L t3)) (acc1 m d L lab hlab t1 t2 t3) k0_t2_loop.trips
def acc3 := iter (step3 d L (cnC4 m d L lab hlab t1) (ftC4 m d L t2) (wtC4 m d L t3)) (acc2 m d L lab hlab t1 t2 t3) k0_t3_loop.trips
def acc4 := iter (step4 d L (cnC4 m d L lab hlab t1) (ftC4 m d L t2) (wtC4 m d L t3)) (acc3 m d L lab hlab t1 t2 t3) k0_t4_loop.trips

/-- The tile's sixteen lane totals: the eight accumulators added, left to right. -/
def tileVec : FVec F S16 .f32 :=
  k0_pay53 (acc4 m d L lab hlab t1 t2 t3).1 (acc4 m d L lab hlab t1 t2 t3).2.1 (acc4 m d L lab hlab t1 t2 t3).2.2.1 (acc4 m d L lab hlab t1 t2 t3).2.2.2.1 (acc4 m d L lab hlab t1 t2 t3).2.2.2.2.1 (acc4 m d L lab hlab t1 t2 t3).2.2.2.2.2.1 (acc4 m d L lab hlab t1 t2 t3).2.2.2.2.2.2.1 (acc4 m d L lab hlab t1 t2 t3).2.2.2.2.2.2.2

/-- What the copy-out delivers: the accumulator scratch read back after the store of the lane totals. -/
def outPay : S16.Idx → Elt F .f32 :=
  ReadAs.same.apply (View.read (Elt F) (acS).view
    ((acS).view.writes (Elt F) t4 [⟨Rect.unit (s := S16) ![0] S16.size inb_S16_S16_0, tileVec m d L lab hlab t1 t2 t3⟩]))

end Cert.Proof.KB

end
-- ==== Proof.KBOutSplit.lean ====
/-
  The thirty-two tiles' output pieces partition the partial-sums vector of 512 words.

  Tile (c, s), with c < 2 and s < 16, writes the sixteen words from offset 32·s + 16·c = 16·(2·s + c). The worker number
  w = 2·s + c runs over 0 … 31 exactly once, so the pieces [16·w, 16·w + 16) are pairwise disjoint and every word
  i < 512 lies in the piece of w = i / 16, that is c = w % 2 and s = w / 2. Hence owning the whole vector is owning the
  thirty-two pieces separately.
-/
import proofs.«216098_g21234318311461_cont_8to1_346_22_alg».proof.Proof.KBCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- A tile's piece is its rectangle's set of indices: the vector is addressed whole, so slicing it adds no offset. -/
theorem oSet_eq (L : grid0.Coords) : oSet L = (oRectK L).set := by
  show ((View.whole (main_v1_scv : Ref sig .scVector)).slice (oRectK L)).set = _
  rw [View.set_slice]; exact Finset.map_refl

/-- Two different tiles have different worker numbers 2·s + c, so their sixteen-word pieces do not meet. -/
theorem oSets_disjoint : ∀ p ∈ (Finset.univ : Finset (Fin (grid0.bound 0) × Fin (grid0.bound 1))), ∀ p' ∈ Finset.univ, p ≠ p' → Disjoint (oSet (coordsV p.1 p.2)) (oSet (coordsV p'.1 p'.2)) := by
  intro p _ p' _ h
  rw [oSet_eq, oSet_eq]
  have hc : p.1.val < 2 := p.1.isLt
  have hc' : p'.1.val < 2 := p'.1.isLt
  have hne : p.1.val ≠ p'.1.val ∨ p.2.val ≠ p'.2.val := by
    rcases Decidable.eq_or_ne p.1.val p'.1.val with e1 | e1
    · exact Or.inr fun e2 => h (Prod.ext (Fin.ext e1) (Fin.ext e2))
    · exact Or.inl e1
  refine Rect.unit_disjoint (0 : Fin 1) ?_
  simp only [k0_off35_eq]
  show 32 * p.2.val + 16 * p.1.val + 16 ≤ 32 * p'.2.val + 16 * p'.1.val
    ∨ 32 * p'.2.val + 16 * p'.1.val + 16 ≤ 32 * p.2.val + 16 * p.1.val
  omega

/-- Every word i < 512 lies in the piece of worker i / 16. -/
theorem oSets_cover : (Finset.univ : Finset (Fin (grid0.bound 0) × Fin (grid0.bound 1))).biUnion (fun p => oSet (coordsV p.1 p.2)) = Finset.univ := by
  refine Finset.eq_univ_of_forall fun x => Finset.mem_biUnion.mpr ?_
  have hx : (x 0).val < 512 := (x 0).isLt
  have h1 : (x 0).val / 16 % 2 < grid0.bound 0 := by show _ < 2; omega
  have h2 : (x 0).val / 16 / 2 < grid0.bound 1 := by show _ < 16; omega
  refine ⟨(⟨(x 0).val / 16 % 2, h1⟩, ⟨(x 0).val / 16 / 2, h2⟩), Finset.mem_univ _, ?_⟩
  rw [oSet_eq, Rect.mem_set_unit]
  intro a
  fin_cases a
  simp only [k0_off35_eq]
  show 32 * ((x 0).val / 16 / 2) + 16 * ((x 0).val / 16 % 2) ≤ (x 0).val
    ∧ (x 0).val < 32 * ((x 0).val / 16 / 2) + 16 * ((x 0).val / 16 % 2) + 16
  omega

/-- The whole partial-sums vector is its thirty-two pieces, one per tile. -/
theorem oPts_tiles (d : Dev nD) (f : Buf (Elt F) (oLoc d)) :
    (oLoc d ↦{fullShare} f : sProp 𝕄) = bigSep Finset.univ fun c : Fin (grid0.bound 0) => bigSep Finset.univ fun s : Fin (grid0.bound 1) => oLoc d ↦[oSet (coordsV c s)]{fullShare} f := by
  refine Eq.trans ?_ (BI.bigSep_univ_prod
    (fun p : Fin (grid0.bound 0) × Fin (grid0.bound 1) => (oLoc d ↦[oSet (coordsV p.1 p.2)]{fullShare} f : sProp 𝕄)))
  rw [← pointsTo_biUnion Finset.univ (ℓ := oLoc d)
    (fun p : Fin (grid0.bound 0) × Fin (grid0.bound 1) => oSet (coordsV p.1 p.2)) oSets_disjoint, oSets_cover]; try rfl

end Cert.Proof.KB

end
-- ==== Proof.KBPay.lean ====
/-
  What the launch handshakes carry: each SparseCore is handed a read share of the four arrays the tiles only read (the
  features, the weights, the labels laid out 128 × 128, the centres) and its sixteen tiles' pieces of the partial-sums
  vector at their launch contents; each tile is handed a share of that share and its own piece; every piece comes back
  at the ONE whole-array result `G`.
-/
import proofs.«216098_g21234318311461_cont_8to1_346_22_alg».proof.Proof.KBOutSplit

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "fV" => (Memref.whole Cert.Kernel.main_arg0_scv : Memref Cert.Kernel.sig Kind.scVector Space.hbm Cert.Kernel.S16384x128 EltTy.f32)
local notation "aV" => (Memref.whole Cert.Kernel.main_arg1_scv : Memref Cert.Kernel.sig Kind.scVector Space.hbm Cert.Kernel.S16384x128 EltTy.f32)
local notation "lV" => (Memref.whole Cert.Kernel.main_v0_scv : Memref Cert.Kernel.sig Kind.scVector Space.hbm Cert.Kernel.S128x128 EltTy.i32)
local notation "cenV" => (Memref.whole Cert.Kernel.main_arg3_scv : Memref Cert.Kernel.sig Kind.scVector Space.hbm Cert.Kernel.S100000x128 EltTy.f32)
local notation "oV" => (Memref.whole Cert.Kernel.main_v1_scv : Memref Cert.Kernel.sig Kind.scVector Space.hbm Cert.Kernel.S512 EltTy.f32)
local notation "ixS" => (Memref.whole Cert.Kernel.cc0_scratch0 : Memref Cert.Kernel.sig Kind.scVector Space.vmem Cert.Kernel.S4x128 EltTy.i32)
local notation "cnS" => (Memref.whole Cert.Kernel.cc0_scratch1 : Memref Cert.Kernel.sig Kind.scVector Space.vmem Cert.Kernel.S2x128x128 EltTy.f32)
local notation "ftS" => (Memref.whole Cert.Kernel.cc0_scratch2 : Memref Cert.Kernel.sig Kind.scVector Space.vmem Cert.Kernel.S2x128x128 EltTy.f32)
local notation "wtS" => (Memref.whole Cert.Kernel.cc0_scratch3 : Memref Cert.Kernel.sig Kind.scVector Space.vmem Cert.Kernel.S2x128x128 EltTy.f32)
local notation "acS" => (Memref.whole Cert.Kernel.cc0_scratch4 : Memref Cert.Kernel.sig Kind.scVector Space.vmem Cert.Kernel.S16 EltTy.f32)

variable (m : (ℓ : Loc nD τ sig) → Buf (Elt F) ℓ) (lab : (d : Dev nD) → Buf (Elt F) (lLoc d)) (G : (d : Dev nD) → Buf (Elt F) (oLoc d))

/-- The read share a SparseCore gets of an array, and the share of it a tile gets. -/
abbrev qCore (c : ℕ) : PosShare TreeShare := Transfers.shareTokN fullShare c
abbrev qTile (c s : ℕ) : PosShare TreeShare := Transfers.shareTokN (qCore c) s

/-- The four arrays the tiles only read, each whole at the share `q`. -/
abbrev roPts (d : Dev nD) (q : PosShare TreeShare) : sProp 𝕄 :=
  iprop((fLoc d ↦{q} m (fLoc d)) ∗ (aLoc d ↦{q} m (aLoc d)) ∗ (lLoc d ↦{q} lab d) ∗ (cLoc d ↦{q} m (cLoc d)))

theorem bound_zero : grid0.bound 0 = 2 := rfl
theorem bound_one : grid0.bound 1 = 16 := rfl
/-- A SparseCore's and a tile's number as grid coordinates. -/
abbrev cG (c : Fin ((K (F := F)).nCore 0)) : Fin (grid0.bound 0) := Fin.cast (nCore_zero.trans bound_zero.symm) c
abbrev sG (i : Fin ((K (F := F)).nSub 0)) : Fin (grid0.bound 1) := Fin.cast (nSub_zero.trans bound_one.symm) i

/-- A tile's piece of the partial-sums vector at contents `f`. -/
abbrev oPiece (d : Dev nD) (c : Fin (grid0.bound 0)) (s : Fin (grid0.bound 1)) (f : Buf (Elt F) (oLoc d)) : sProp 𝕄 :=
  oLoc d ↦[oSet (coordsV c s)]{fullShare} f

/-- What a SparseCore is handed and hands back; what a tile is handed and hands back. -/
abbrev stOf (d : Dev nD) (c : Fin ((K (F := F)).nCore 0)) : sProp 𝕄 :=
  iprop(roPts m lab d (qCore c.val) ∗ bigSep Finset.univ fun s : Fin (grid0.bound 1) => oPiece d (cG c) s (m (oLoc d)))
abbrev dnOf (d : Dev nD) (c : Fin ((K (F := F)).nCore 0)) : sProp 𝕄 :=
  iprop(roPts m lab d (qCore c.val) ∗ bigSep Finset.univ fun s : Fin (grid0.bound 1) => oPiece d (cG c) s (G d))
abbrev goOf (d : Dev nD) (c : Fin ((K (F := F)).nCore 0)) (i : Fin ((K (F := F)).nSub 0)) : sProp 𝕄 :=
  iprop(roPts m lab d (qTile c.val i.val) ∗ oPiece d (cG c) (sG i) (m (oLoc d)))
abbrev tdOf (d : Dev nD) (c : Fin ((K (F := F)).nCore 0)) (i : Fin ((K (F := F)).nSub 0)) : sProp 𝕄 :=
  iprop(roPts m lab d (qTile c.val i.val) ∗ oPiece d (cG c) (sG i) (G d))

def P : (K (F := F)).Pay (nD := nD) (Val := Elt F) (Name := ℕ) (U := UU) where
  st := fun q d c => match q with | 0 => stOf m lab d c
  dn := fun q d c => match q with | 0 => dnOf m lab G d c
  go := fun q d c i => match q with | 0 => goOf m lab d c i
  td := fun q d c i => match q with | 0 => tdOf m lab G d c i
  x := fun _ _ => iprop(emp)

instance P_storable : (P (F := F) m lab G).IsStorable where
  st q d c := match q with | 0 => (inferInstance : BI.Storable (upEmb : UEmb _ 𝕄) (stOf m lab d c))
  dn q d c := match q with | 0 => (inferInstance : BI.Storable (upEmb : UEmb _ 𝕄) (dnOf m lab G d c))
  go q d c i := match q with | 0 => (inferInstance : BI.Storable (upEmb : UEmb _ 𝕄) (goOf m lab d c i))
  td q d c i := match q with | 0 => (inferInstance : BI.Storable (upEmb : UEmb _ 𝕄) (tdOf m lab G d c i))

end Cert.Proof.KB

end
-- ==== Proof.KBTile.lean ====
/-
  One tile's task, from what the launch deals it to what it hands back.

  The tile holds, for the whole task, two read tokens of each of the features, the weights and the centres (two copies
  of each are in flight at once, one per slot), a share of the labels, its own sixteen-word piece of the partial-sums
  vector, its five scratch buffers and its eight DMA cells at zero. The body runs through: the label fetch, then per
  chunk the three copies into the chunk's slot, their waits, and the row loop by its invariant, the next chunk's copies
  already issued into the other slot; last the lane totals are stored and copied out. What the piece holds at the end
  is the copy-out's payload, the tile's sixteen lane totals.
-/
import proofs.«216098_g21234318311461_cont_8to1_346_22_alg».proof.Proof.KBTileVal
import proofs.«216098_g21234318311461_cont_8to1_346_22_alg».proof.Proof.KBPay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "fV" => (Memref.whole Cert.Kernel.main_arg0_scv : Memref Cert.Kernel.sig Kind.scVector Space.hbm Cert.Kernel.S16384x128 EltTy.f32)
local notation "aV" => (Memref.whole Cert.Kernel.main_arg1_scv : Memref Cert.Kernel.sig Kind.scVector Space.hbm Cert.Kernel.S16384x128 EltTy.f32)
local notation "lV" => (Memref.whole Cert.Kernel.main_v0_scv : Memref Cert.Kernel.sig Kind.scVector Space.hbm Cert.Kernel.S128x128 EltTy.i32)
local notation "cenV" => (Memref.whole Cert.Kernel.main_arg3_scv : Memref Cert.Kernel.sig Kind.scVector Space.hbm Cert.Kernel.S100000x128 EltTy.f32)
local notation "oV" => (Memref.whole Cert.Kernel.main_v1_scv : Memref Cert.Kernel.sig Kind.scVector Space.hbm Cert.Kernel.S512 EltTy.f32)
local notation "ixS" => (Memref.whole Cert.Kernel.cc0_scratch0 : Memref Cert.Kernel.sig Kind.scVector Space.vmem Cert.Kernel.S4x128 EltTy.i32)
local notation "cnS" => (Memref.whole Cert.Kernel.cc0_scratch1 : Memref Cert.Kernel.sig Kind.scVector Space.vmem Cert.Kernel.S2x128x128 EltTy.f32)
local notation "ftS" => (Memref.whole Cert.Kernel.cc0_scratch2 : Memref Cert.Kernel.sig Kind.scVector Space.vmem Cert.Kernel.S2x128x128 EltTy.f32)
local notation "wtS" => (Memref.whole Cert.Kernel.cc0_scratch3 : Memref Cert.Kernel.sig Kind.scVector Space.vmem Cert.Kernel.S2x128x128 EltTy.f32)
local notation "acS" => (Memref.whole Cert.Kernel.cc0_scratch4 : Memref Cert.Kernel.sig Kind.scVector Space.vmem Cert.Kernel.S16 EltTy.f32)

variable (m : (ℓ : Loc nD τ sig) → Buf (Elt F) ℓ) (d : Dev nD) (L : grid0.Coords) (lab : (d : Dev nD) → Buf (Elt F) (lLoc d))

/-! ## The tile's cells and buffers -/

abbrev csem (k : Nat) (hk : k < 8 := by decide) : DmaSem sig := ⟨k, hk⟩
abbrev dcell (d : Dev nD) (c : Fin τ.nSC) (i : Fin τ.nSub) (k : Fin 8) : GSem nD τ sig := (V d c i, .dma (csem k.val k.isLt))
/-- The eight DMA cells at zero, in the body's spelling. -/
abbrev cells0 (d : Dev nD) (L : grid0.Coords) : sProp 𝕄 :=
  iprop(semVal (VT d L, SemLoc.dma (csem 0)) 0 ∗ semVal (VT d L, SemLoc.dma (csem 1)) 0 ∗ semVal (VT d L, SemLoc.dma (csem 2)) 0
    ∗ semVal (VT d L, SemLoc.dma (csem 3)) 0 ∗ semVal (VT d L, SemLoc.dma (csem 4)) 0 ∗ semVal (VT d L, SemLoc.dma (csem 5)) 0
    ∗ semVal (VT d L, SemLoc.dma (csem 6)) 0 ∗ semVal (VT d L, SemLoc.dma (csem 7)) 0)

theorem dcell_mem (c : Fin τ.nSC) (i : Fin τ.nSub) (k : Fin 8) : dcell d c i k ∈ ownCells (V d c i) :=
  mem_ownCells.mpr ⟨rfl, (show ∀ s : DmaSem sig, (SemLoc.dma s : SemLoc sig).isScoped .scVector = true by decide) _⟩

/-- The subcore's own cells at zero: the eight the task names, one by one, and the rest. -/
theorem ownSems0_V :
    (ownSems0 (VT d L) : sProp 𝕄)
      = iprop(cells0 d L
          ∗ bigSep ((ownCells (VT d L)) \ Finset.univ.image (dcell d (coreOf L) (subOf L))) fun g => semVal g 0) := by
  unfold SparseCore.Cfg.ownSems0
  rw [SparseCore.bigSep_sdiff_split' (t := Finset.univ.image (dcell d (coreOf L) (subOf L)))
      (Finset.image_subset_iff.mpr fun k _ => dcell_mem d (coreOf L) (subOf L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

/-- The five scratch buffers the task names. -/
abbrev scrRef : Fin 5 → Ref sig .scVector := ![cc0_scratch0, cc0_scratch1, cc0_scratch2, cc0_scratch3, cc0_scratch4]
abbrev sref (L : grid0.Coords) (k : Fin 5) : DevRef τ sig := (Proc.scVector (coreOf L) (subOf L)).devRef (scrRef k)
/-- The five scratches, each whole at some contents. -/
abbrev scr0 (d : Dev nD) (L : grid0.Coords) : sProp 𝕄 :=
  iprop((∃ f, (VT d L).loc cc0_scratch0 ↦{fullShare} f) ∗ (∃ f, (VT d L).loc cc0_scratch1 ↦{fullShare} f) ∗ (∃ f, (VT d L).loc cc0_scratch2 ↦{fullShare} f)
    ∗ (∃ f, (VT d L).loc cc0_scratch3 ↦{fullShare} f) ∗ (∃ f, (VT d L).loc cc0_scratch4 ↦{fullShare} f))

theorem scrRef_injective : Function.Injective scrRef := by decide

theorem sref_mem (k : Fin 5) : sref L k ∈ ownRefs (τ := τ) (.scVector (coreOf L) (subOf L)) :=
  SparseCore.Cfg.mem_ownRefs_of_owner (p := Proc.scVector (coreOf L) (subOf L)) (b := sref L k) (by
    match k with | 0 => rfl | 1 => rfl | 2 => rfl | 3 => rfl | 4 => rfl)

/-- The subcore's own buffers: the five scratches, at some contents, and the rest. -/
theorem ownBufs_V :
    (ownBufs (VT d L) : sProp 𝕄)
      = iprop(scr0 d L
          ∗ bigSep ((ownRefs (τ := τ) (.scVector (coreOf L) (subOf L))) \ Finset.univ.image (sref L))
              fun b => iprop(∃ f, ((d, b) : Loc nD τ sig) ↦{fullShare} f)) := by
  unfold SparseCore.Cfg.ownBufs
  rw [SparseCore.bigSep_sdiff_split' (t := Finset.univ.image (sref L)) (Finset.image_subset_iff.mpr fun k _ => sref_mem L k),
    SparseCore.bigSep_image_of_injOn (fun a _ b _ h => scrRef_injective (Proc.devRef_injective _ h))]
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]
  rfl

/-! ## The arrays in the body's spelling -/

theorem pts_hbm {b : Ref sig .scVector} (q : PosShare TreeShare) (f : Buf (Elt F) ((Memref.whole b).view.loc (VT d L))) :
    ((Memref.whole b).view.loc (VT d L) ↦{q} f : sProp 𝕄) = (Memref.whole b).view.loc (VT d L) ↦{q} f := rfl

theorem pts_scr (b : Ref sig .scVector) (f : Buf (Elt F) ((VT d L).loc b)) :
    ((Memref.whole b).view.loc (VT d L) ↦[(Memref.whole b).view.set]{fullShare} f : sProp 𝕄) = (VT d L).loc b ↦{fullShare} f := by
  rw [View.set_whole]

/-! ## Two numbered read tokens of a share -/

/-- Out of a share of an array: read tokens `i` and `j` of its first `n`, and everything else. -/
theorem toks_pair {ℓ : Loc nD τ sig} (f : Buf (Elt F) ℓ) (q : PosShare TreeShare) (n i j : ℕ) (hi : i < n) (hj : j < n) (hij : j ≠ i) :
    (ℓ ↦{q} f : sProp 𝕄) ⊣⊢ iprop((ℓ ↦{Transfers.shareTokN q i} f) ∗ (ℓ ↦{Transfers.shareTokN q j} f)
      ∗ ((ℓ ↦{Transfers.shareDrop q n} f) ∗ bigSep (((Finset.range n).erase i).erase j) fun k => ℓ ↦{Transfers.shareTokN q k} f)) := by
  have h : (ℓ ↦{q} f : sProp 𝕄) ⊣⊢ iprop((ℓ ↦{Transfers.shareDrop q n} f) ∗ bigSep (Finset.range n) fun k => ℓ ↦{Transfers.shareTokN q k} f) :=
    Transfers.pointsTo_toks_range (ℓ := ℓ) (S := Finset.univ) (f := f) q n
  rw [SparseCore.bigSep_erase' (Finset.mem_range.mpr hi),
    SparseCore.bigSep_erase' (Finset.mem_erase.mpr ⟨hij, Finset.mem_range.mpr hj⟩)] at h
  constructor
  · refine h.1.trans ?_
    iintro ⟨HD, Hi, Hj, HR⟩
    isplitl [Hi]; · iexact Hi
    isplitl [Hj]; · iexact Hj
    isplitl [HD]; · iexact HD
    iexact HR
  · have h2 : iprop((ℓ ↦{Transfers.shareTokN q i} f) ∗ (ℓ ↦{Transfers.shareTokN q j} f)
          ∗ ((ℓ ↦{Transfers.shareDrop q n} f) ∗ bigSep (((Finset.range n).erase i).erase j) fun k => ℓ ↦{Transfers.shareTokN q k} f))
        ⊢ (iprop((ℓ ↦{Transfers.shareDrop q n} f) ∗ (ℓ ↦{Transfers.shareTokN q i} f) ∗ (ℓ ↦{Transfers.shareTokN q j} f)
          ∗ bigSep (((Finset.range n).erase i).erase j) fun k => ℓ ↦{Transfers.shareTokN q k} f) : sProp 𝕄) := by
      iintro ⟨Hi, Hj, HD, HR⟩
      isplitl [HD]; · iexact HD
      isplitl [Hi]; · iexact Hi
      isplitl [Hj]; · iexact Hj
      iexact HR
    exact h2.trans h.2

/-! ## The task's run -/

variable [FloatOps F] (hlab : ∀ d j, (lab d j).toNat < 100000)

set_option maxHeartbeats 4000000 in
set_option sl_exec.dmaWindow true in
set_option sl_exec.dmaWindowSet true in
/-- The task's body run from the pieces the launch dealt it, in the body's spelling: the tile's piece of the
    partial-sums vector ends written with the copy-out's payload. -/
theorem tile_run (O : CellTallies nD τ sig (HIx 1)) (W : Waits sig (HIx 1)) (qf qa ql qc : PosShare TreeShare)
    (g0 : Buf (Elt F) ((ixS).view.loc (VT d L))) (t1 : Buf (Elt F) ((cnS).view.loc (VT d L))) (t2 : Buf (Elt F) ((ftS).view.loc (VT d L)))
    (t3 : Buf (Elt F) ((wtS).view.loc (VT d L))) (t4 : Buf (Elt F) ((acS).view.loc (VT d L))) :
    (iprop(Transfers.MayWaits (VT d L) (default : HIx 1) O
        ∗ ((fV).view.loc (VT d L) ↦{Transfers.shareTokN qf 1} m (fLoc d))
        ∗ ((fV).view.loc (VT d L) ↦{Transfers.shareTokN qf 4} m (fLoc d))
        ∗ ((aV).view.loc (VT d L) ↦{Transfers.shareTokN qa 2} m (aLoc d))
        ∗ ((aV).view.loc (VT d L) ↦{Transfers.shareTokN qa 5} m (aLoc d))
        ∗ ((cenV).view.loc (VT d L) ↦{Transfers.shareTokN qc 0} m (cLoc d))
        ∗ ((cenV).view.loc (VT d L) ↦{Transfers.shareTokN qc 3} m (cLoc d))
        ∗ ((lV).view.loc (VT d L) ↦{ql} lab d)
        ∗ ((oSlice L).view.loc (VT d L) ↦[(oSlice L).view.set]{fullShare} m (oLoc d))
        ∗ ((ixS).view.loc (VT d L) ↦[(ixS).view.set]{fullShare} g0)
        ∗ ((cnS).view.loc (VT d L) ↦[(cnS).view.set]{fullShare} t1)
        ∗ ((ftS).view.loc (VT d L) ↦[(ftS).view.set]{fullShare} t2)
        ∗ ((wtS).view.loc (VT d L) ↦[(wtS).view.set]{fullShare} t3)
        ∗ ((acS).view.loc (VT d L) ↦[(acS).view.set]{fullShare} t4)
        ∗ cells0 d L
        ∗ owes (VT d L) O W) : sProp 𝕄)
      ⊢ wp frame (wpE (defs₀ (F := F)) 𝒱₀ (VT d L) none) Set.univ
          (cc0_sc_kernel L fV (Memref.isWhole_whole _) aV (Memref.isWhole_whole _) lV (Memref.isWhole_whole _) cenV (Memref.isWhole_whole _) oV (Memref.isWhole_whole _)
            ixS (Memref.isWhole_whole _) cnS (Memref.isWhole_whole _) ftS (Memref.isWhole_whole _) wtS (Memref.isWhole_whole _) acS (Memref.isWhole_whole _)
            cc0_scratch5 cc0_scratch6 cc0_scratch7 cc0_scratch8 cc0_scratch9 cc0_scratch10 cc0_scoped0 cc0_scoped1)
          fun _ => iprop(
            ((fV).view.loc (VT d L) ↦{Transfers.shareTokN qf 1} m (fLoc d))
        ∗ ((fV).view.loc (VT d L) ↦{Transfers.shareTokN qf 4} m (fLoc d))
        ∗ ((aV).view.loc (VT d L) ↦{Transfers.shareTokN qa 2} m (aLoc d))
        ∗ ((aV).view.loc (VT d L) ↦{Transfers.shareTokN qa 5} m (aLoc d))
        ∗ ((cenV).view.loc (VT d L) ↦{Transfers.shareTokN qc 0} m (cLoc d))
        ∗ ((cenV).view.loc (VT d L) ↦{Transfers.shareTokN qc 3} m (cLoc d))
        ∗ ((lV).view.loc (VT d L) ↦{ql} lab d)
            ∗ ((oSlice L).view.loc (VT d L) ↦[(oSlice L).view.set]{fullShare}
                (oSlice L).view.writes (Elt F) (m (oLoc d)) [⟨Rect.whole S16, outPay m d L lab hlab t1 t2 t3 t4⟩])
            ∗ (∃ g, (ixS).view.loc (VT d L) ↦[(ixS).view.set]{fullShare} g)
            ∗ (∃ g, (cnS).view.loc (VT d L) ↦[(cnS).view.set]{fullShare} g)
            ∗ (∃ g, (ftS).view.loc (VT d L) ↦[(ftS).view.set]{fullShare} g)
            ∗ (∃ g, (wtS).view.loc (VT d L) ↦[(wtS).view.set]{fullShare} g)
            ∗ (∃ g, (acS).view.loc (VT d L) ↦[(acS).view.set]{fullShare} g)
            ∗ cells0 d L
            ∗ ∃ W', owes (VT d L) O W') := by
  iintro ⟨#Hmw, HF1, HF4, HA2, HA5, HC0, HC3, HL, HOut, HG, HT1, HT2, HT3, HT4, ⟨Hc0, Hc1, Hc2, Hc3, Hc4, Hc5, Hc6, Hc7⟩, HO⟩
  sl_unfold [cc0_sc_kernel]
  sl_exec
  -- every word of each row of the index scratch, the fetch landed, is a label: in range of the centres table
  have hidx0 := idx_inb d L lab hlab (ixS).view.junk (tile_run.sl.dma0_2 d L lab) rfl ![0, 0] inb_S4x128_S1x128_0_0 (fun _ => rfl) squeezes_S1x128_S128
  have hidx1 := idx_inb d L lab hlab (ixS).view.junk (tile_run.sl.dma0_2 d L lab) rfl ![1, 0] inb_S4x128_S1x128_1_0 (fun _ => rfl) squeezes_S1x128_S128
  have hidx2 := idx_inb d L lab hlab (ixS).view.junk (tile_run.sl.dma0_2 d L lab) rfl ![2, 0] inb_S4x128_S1x128_2_0 (fun _ => rfl) squeezes_S1x128_S128
  have hidx3 := idx_inb d L lab hlab (ixS).view.junk (tile_run.sl.dma0_2 d L lab) rfl ![3, 0] inb_S4x128_S1x128_3_0 (fun _ => rfl) squeezes_S1x128_S128
  sl_exec
  sl_step
  -- the copy-out's payload is the tile's lane totals read back: the same term, the definitions unfolded
  have e : tile_run.sl.dma2 m d L lab t1 t2 t3 t4 hidx0 hidx1 hidx2 hidx3 = outPay m d L lab hlab t1 t2 t3 t4 := rfl
  irw [← e]
  sl_close

end Cert.Proof.KB

end
-- ==== Proof.KBTileObl.lean ====
/-
  The launch theorem's obligation for the tiles: a tile's task from what the launch deals it — a share of the four
  read-only arrays, its piece of the partial-sums vector, its scoped buffers and cells — to what it hands back, the
  piece at the whole-array result. The share of each array read by two copies at once is cut into two read tokens
  around the run and rejoined after it.
-/
import proofs.«216098_g21234318311461_cont_8to1_346_22_alg».proof.Proof.KBTile

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "fV" => (Memref.whole Cert.Kernel.main_arg0_scv : Memref Cert.Kernel.sig Kind.scVector Space.hbm Cert.Kernel.S16384x128 EltTy.f32)
local notation "aV" => (Memref.whole Cert.Kernel.main_arg1_scv : Memref Cert.Kernel.sig Kind.scVector Space.hbm Cert.Kernel.S16384x128 EltTy.f32)
local notation "lV" => (Memref.whole Cert.Kernel.main_v0_scv : Memref Cert.Kernel.sig Kind.scVector Space.hbm Cert.Kernel.S128x128 EltTy.i32)
local notation "cenV" => (Memref.whole Cert.Kernel.main_arg3_scv : Memref Cert.Kernel.sig Kind.scVector Space.hbm Cert.Kernel.S100000x128 EltTy.f32)
local notation "oV" => (Memref.whole Cert.Kernel.main_v1_scv : Memref Cert.Kernel.sig Kind.scVector Space.hbm Cert.Kernel.S512 EltTy.f32)
local notation "ixS" => (Memref.whole Cert.Kernel.cc0_scratch0 : Memref Cert.Kernel.sig Kind.scVector Space.vmem Cert.Kernel.S4x128 EltTy.i32)
local notation "cnS" => (Memref.whole Cert.Kernel.cc0_scratch1 : Memref Cert.Kernel.sig Kind.scVector Space.vmem Cert.Kernel.S2x128x128 EltTy.f32)
local notation "ftS" => (Memref.whole Cert.Kernel.cc0_scratch2 : Memref Cert.Kernel.sig Kind.scVector Space.vmem Cert.Kernel.S2x128x128 EltTy.f32)
local notation "wtS" => (Memref.whole Cert.Kernel.cc0_scratch3 : Memref Cert.Kernel.sig Kind.scVector Space.vmem Cert.Kernel.S2x128x128 EltTy.f32)
local notation "acS" => (Memref.whole Cert.Kernel.cc0_scratch4 : Memref Cert.Kernel.sig Kind.scVector Space.vmem Cert.Kernel.S16 EltTy.f32)

variable (m : (ℓ : Loc nD τ sig) → Buf (Elt F) ℓ) (d : Dev nD) (L : grid0.Coords) (lab : (d : Dev nD) → Buf (Elt F) (lLoc d))
variable [FloatOps F] (hlab : ∀ d j, (lab d j).toNat < 100000) (G : (d : Dev nD) → Buf (Elt F) (oLoc d))

/-- What the run leaves in the tile's piece, as a whole-array contents. -/
abbrev outAfter (t1 : Buf (Elt F) ((cnS).view.loc (VT d L))) (t2 : Buf (Elt F) ((ftS).view.loc (VT d L)))
    (t3 : Buf (Elt F) ((wtS).view.loc (VT d L))) (t4 : Buf (Elt F) ((acS).view.loc (VT d L))) : Buf (Elt F) (oLoc d) :=
  (oSlice L).view.writes (Elt F) (m (oLoc d)) [⟨Rect.whole S16, outPay m d L lab hlab t1 t2 t3 t4⟩]

/-- The task on vector subcore `(L 0, L 1)` of device `d`, from what the launch deals it to what it hands back. -/
theorem tile_body (hF : (K (F := F)).Facts)
    (hG : ∀ t1 t2 t3 t4, ∀ x ∈ oSet L, outAfter m d L lab hlab t1 t2 t3 t4 x = G d x)
    (q : PosShare TreeShare) (O : CellTallies nD τ sig (HIx 1)) (W : Waits sig (HIx 1)) (hO : ∀ g, O g none = 0) :
    iprop(levAts (K (F := F)).L (K (F := F)).lev ∗ emp
        ∗ (roPts m lab d q ∗ (oLoc d ↦[oSet L]{fullShare} m (oLoc d)))
        ∗ scopedBufs (VT d L) ∗ scopedSems0 (VT d L) ∗ owes (VT d L) O W)
      ⊢ wp frame (wpE (defs₀ (F := F)) 𝒱₀ (VT d L) none) Set.univ
          (cc0_sc_kernel L fV (Memref.isWhole_whole _) aV (Memref.isWhole_whole _) lV (Memref.isWhole_whole _) cenV (Memref.isWhole_whole _) oV (Memref.isWhole_whole _)
            ixS (Memref.isWhole_whole _) cnS (Memref.isWhole_whole _) ftS (Memref.isWhole_whole _) wtS (Memref.isWhole_whole _) acS (Memref.isWhole_whole _)
            cc0_scratch5 cc0_scratch6 cc0_scratch7 cc0_scratch8 cc0_scratch9 cc0_scratch10 cc0_scoped0 cc0_scoped1)
          fun _ => iprop((roPts m lab d q ∗ (oLoc d ↦[oSet L]{fullShare} G d))
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (coreOf L) (subOf L), SparseCore.Cfg.scopedSems0_V (Val := Elt F) d (coreOf L) (subOf L), ownSems0_V, ownBufs_V]
  iintro ⟨#Hlv, -, ⟨⟨Hf, Ha, Hl, Hc⟩, Ho⟩, ⟨⟨⟨%g0, HG⟩, ⟨%t1, HT1⟩, ⟨%t2, HT2⟩, ⟨%t3, HT3⟩, ⟨%t4, HT4⟩⟩, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  -- two read tokens of the features, the weights and the centres, numbered by the cells their copies complete on
  ihave Hf' := (toks_pair (m (fLoc d)) q 5 1 4 (by omega) (by omega) (by omega)).1 $$ Hf
  icases Hf' with ⟨HF1, HF4, HFr⟩
  ihave Ha' := (toks_pair (m (aLoc d)) q 6 2 5 (by omega) (by omega) (by omega)).1 $$ Ha
  icases Ha' with ⟨HA2, HA5, HAr⟩
  ihave Hc' := (toks_pair (m (cLoc d)) q 4 0 3 (by omega) (by omega) (by omega)).1 $$ Hc
  icases Hc' with ⟨HC0, HC3, HCr⟩
  -- the scratches in the body's spelling
  ihave HG' := (Entails.of_eq (pts_scr (F := F) d L cc0_scratch0 _).symm) $$ HG
  ihave HT1' := (Entails.of_eq (pts_scr (F := F) d L cc0_scratch1 _).symm) $$ HT1
  ihave HT2' := (Entails.of_eq (pts_scr (F := F) d L cc0_scratch2 _).symm) $$ HT2
  ihave HT3' := (Entails.of_eq (pts_scr (F := F) d L cc0_scratch3 _).symm) $$ HT3
  ihave HT4' := (Entails.of_eq (pts_scr (F := F) d L cc0_scratch4 _).symm) $$ HT4
  iapply (wp_wand_r Idealize.ShloMosaic.frame (wpE (defs₀ (F := F)) 𝒱₀ (VT d L) none) Set.univ)
  isplitl [HF1 HF4 HA2 HA5 HC0 HC3 Hl Ho HG' HT1' HT2' HT3' HT4' HC HO]
  · iapply (tile_run m d L lab hlab O W q q q q g0 t1 t2 t3 t4)
    isplitr; · iexact Hmw
    isplitl [HF1]; · iexact HF1
    isplitl [HF4]; · iexact HF4
    isplitl [HA2]; · iexact HA2
    isplitl [HA5]; · iexact HA5
    isplitl [HC0]; · iexact HC0
    isplitl [HC3]; · iexact HC3
    isplitl [Hl]; · iexact Hl
    isplitl [Ho]; · iexact Ho
    isplitl [HG']; · iexact HG'
    isplitl [HT1']; · iexact HT1'
    isplitl [HT2']; · iexact HT2'
    isplitl [HT3']; · iexact HT3'
    isplitl [HT4']; · iexact HT4'
    isplitl [HC]; · iexact HC
    iexact HO
  iintro %_ ⟨HF1, HF4, HA2, HA5, HC0, HC3, Hl, Ho, ⟨%g, HG'⟩, ⟨%u1, HT1'⟩, ⟨%u2, HT2'⟩, ⟨%u3, HT3'⟩, ⟨%u4, HT4'⟩, HC, ⟨%W', HO⟩⟩
  ihave Hf := (toks_pair (m (fLoc d)) q 5 1 4 (by omega) (by omega) (by omega)).2 $$ [HF1 HF4 HFr]
  · isplitl [HF1]; · iexact HF1
    isplitl [HF4]; · iexact HF4
    iexact HFr
  ihave Ha := (toks_pair (m (aLoc d)) q 6 2 5 (by omega) (by omega) (by omega)).2 $$ [HA2 HA5 HAr]
  · isplitl [HA2]; · iexact HA2
    isplitl [HA5]; · iexact HA5
    iexact HAr
  ihave Hc := (toks_pair (m (cLoc d)) q 4 0 3 (by omega) (by omega) (by omega)).2 $$ [HC0 HC3 HCr]
  · isplitl [HC0]; · iexact HC0
    isplitl [HC3]; · iexact HC3
    iexact HCr
  -- the piece at the whole-array result: the two contents agree on the piece
  ihave Ho' := (Entails.of_eq (pointsTo_congr (ℓ := oLoc d) (I := oSet L) (q := fullShare) (hG t1 t2 t3 t4))) $$ Ho
  isplitl [Hf Ha Hl Hc Ho']
  · isplitl [Hf Ha Hl Hc]
    · isplitl [Hf]; · iexact Hf
      isplitl [Ha]; · iexact Ha
      isplitl [Hl]; · iexact Hl
      iexact Hc
    iexact Ho'
  isplitl [HG' HT1' HT2' HT3' HT4' Hbufs]
  · isplitl [HG' HT1' HT2' HT3' HT4']
    · isplitl [HG']; · iexists _; iapply (Entails.of_eq (pts_scr (F := F) d L cc0_scratch0 _)); iexact HG'
      isplitl [HT1']; · iexists _; iapply (Entails.of_eq (pts_scr (F := F) d L cc0_scratch1 _)); iexact HT1'
      isplitl [HT2']; · iexists _; iapply (Entails.of_eq (pts_scr (F := F) d L cc0_scratch2 _)); iexact HT2'
      isplitl [HT3']; · iexists _; iapply (Entails.of_eq (pts_scr (F := F) d L cc0_scratch3 _)); iexact HT3'
      iexists _; iapply (Entails.of_eq (pts_scr (F := F) d L cc0_scratch4 _)); iexact HT4'
    iexact Hbufs
  isplitl [HC Hsems]
  · isplitl [HC]; · iexact HC
    iexact Hsems
  iexists W'; isplitr
  · ipureintro; intro p _
    rcases p.2 with _ | q'
    · exact .inr (.inl rfl)
    · exact .inr (.inr (congrArg some (Subsingleton.elim q' 0)))
  · iexact HO

/-! ## The obligation -/

theorem defs₀_vector (c : Fin τ.nSC) (s : Fin τ.nSub) :
    defs₀ (F := F) (.scVector c s) 0 ()
      = SparseCore.onTile hcore0 hsub0 (fun c s => cc0_sc_kernel (coordsV c s) fV (Memref.isWhole_whole _) aV (Memref.isWhole_whole _) lV (Memref.isWhole_whole _) cenV (Memref.isWhole_whole _) oV (Memref.isWhole_whole _)
            ixS (Memref.isWhole_whole _) cnS (Memref.isWhole_whole _) ftS (Memref.isWhole_whole _) wtS (Memref.isWhole_whole _) acS (Memref.isWhole_whole _)
            cc0_scratch5 cc0_scratch6 cc0_scratch7 cc0_scratch8 cc0_scratch9 cc0_scratch10 cc0_scoped0 cc0_scoped1) ⟨⟩ c s := rfl

theorem tileObl (hF : (K (F := F)).Facts)
    (hG : ∀ d L t1 t2 t3 t4, ∀ x ∈ oSet L, outAfter m d L lab hlab t1 t2 t3 t4 x = G d x) :
    (K (F := F)).TileObl (D (F := F)) 𝒱 (P m lab G) v₀ 0 := by
  intro d c i O W hO _ _
  simp only [show (P m lab G).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) lab hlab G hF (hG d _) (qTile c.val i.val) O W hO

end Cert.Proof.KB

end
-- ==== Proof.KBVecSplit.lean ====
/-
  How a SparseCore's hand-out splits among its sixteen tiles and joins back.

  A SparseCore holds a read share of each of the four arrays its tiles only read, and its sixteen tiles' pieces of the
  partial-sums vector. A read share splits into a remainder and sixteen tokens, one per tile; the pieces are already one
  per tile. So the hand-out is the sixteen tiles' hand-outs beside the four remainders, which nobody needs during the
  call: they are kept aside and, when every tile has handed its share and its piece back, rejoined with the sixteen
  tokens into the SparseCore's share.
-/
import proofs.«216098_g21234318311461_cont_8to1_346_22_alg».proof.Proof.KBPay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "fV" => (Memref.whole Cert.Kernel.main_arg0_scv : Memref Cert.Kernel.sig Kind.scVector Space.hbm Cert.Kernel.S16384x128 EltTy.f32)
local notation "aV" => (Memref.whole Cert.Kernel.main_arg1_scv : Memref Cert.Kernel.sig Kind.scVector Space.hbm Cert.Kernel.S16384x128 EltTy.f32)
local notation "lV" => (Memref.whole Cert.Kernel.main_v0_scv : Memref Cert.Kernel.sig Kind.scVector Space.hbm Cert.Kernel.S128x128 EltTy.i32)
local notation "cenV" => (Memref.whole Cert.Kernel.main_arg3_scv : Memref Cert.Kernel.sig Kind.scVector Space.hbm Cert.Kernel.S100000x128 EltTy.f32)
local notation "oV" => (Memref.whole Cert.Kernel.main_v1_scv : Memref Cert.Kernel.sig Kind.scVector Space.hbm Cert.Kernel.S512 EltTy.f32)
local notation "ixS" => (Memref.whole Cert.Kernel.cc0_scratch0 : Memref Cert.Kernel.sig Kind.scVector Space.vmem Cert.Kernel.S4x128 EltTy.i32)
local notation "cnS" => (Memref.whole Cert.Kernel.cc0_scratch1 : Memref Cert.Kernel.sig Kind.scVector Space.vmem Cert.Kernel.S2x128x128 EltTy.f32)
local notation "ftS" => (Memref.whole Cert.Kernel.cc0_scratch2 : Memref Cert.Kernel.sig Kind.scVector Space.vmem Cert.Kernel.S2x128x128 EltTy.f32)
local notation "wtS" => (Memref.whole Cert.Kernel.cc0_scratch3 : Memref Cert.Kernel.sig Kind.scVector Space.vmem Cert.Kernel.S2x128x128 EltTy.f32)
local notation "acS" => (Memref.whole Cert.Kernel.cc0_scratch4 : Memref Cert.Kernel.sig Kind.scVector Space.vmem Cert.Kernel.S16 EltTy.f32)

variable (m : (ℓ : Loc nD τ sig) → Buf (Elt F) ℓ) (lab : (d : Dev nD) → Buf (Elt F) (lLoc d)) (G : (d : Dev nD) → Buf (Elt F) (oLoc d))

/-- One array at a read share is the remainder after sixteen tokens beside the sixteen tokens. -/
theorem pts_toks (q : PosShare TreeShare) (ℓ : Loc nD τ sig) (f : Buf (Elt F) ℓ) :
    (ℓ ↦{q} f : sProp 𝕄)
      = iprop((ℓ ↦{Transfers.shareDrop q 16} f) ∗ bigSep Finset.univ fun i : Fin 16 => ℓ ↦{Transfers.shareTokN q i.val} f) :=
  BI.Entails.antisymm (Transfers.pointsTo_toks q 16).1 (Transfers.pointsTo_toks q 16).2

/-- The four read-only arrays at a read share are the four remainders beside, per tile, the four tokens. -/
theorem roPts_toks (d : Dev nD) (q : PosShare TreeShare) :
    roPts m lab d q
      = iprop(roPts m lab d (Transfers.shareDrop q 16) ∗ bigSep Finset.univ fun i : Fin 16 => roPts m lab d (Transfers.shareTokN q i.val)) := by
  show iprop((fLoc d ↦{q} m (fLoc d)) ∗ (aLoc d ↦{q} m (aLoc d)) ∗ (lLoc d ↦{q} lab d) ∗ (cLoc d ↦{q} m (cLoc d)))
    = iprop(iprop((fLoc d ↦{Transfers.shareDrop q 16} m (fLoc d)) ∗ (aLoc d ↦{Transfers.shareDrop q 16} m (aLoc d))
          ∗ (lLoc d ↦{Transfers.shareDrop q 16} lab d) ∗ (cLoc d ↦{Transfers.shareDrop q 16} m (cLoc d)))
        ∗ bigSep Finset.univ fun i : Fin 16 => iprop((fLoc d ↦{Transfers.shareTokN q i.val} m (fLoc d)) ∗ (aLoc d ↦{Transfers.shareTokN q i.val} m (aLoc d))
          ∗ (lLoc d ↦{Transfers.shareTokN q i.val} lab d) ∗ (cLoc d ↦{Transfers.shareTokN q i.val} m (cLoc d))))
  rw [bigSep_sep', bigSep_sep', bigSep_sep', pts_toks q (fLoc d), pts_toks q (aLoc d), pts_toks q (lLoc d), pts_toks q (cLoc d)]
  refine BI.Entails.antisymm (show (_ : sProp 𝕄) ⊢ _ from ?_) (show (_ : sProp 𝕄) ⊢ _ from ?_)
  · iintro ⟨⟨Hf, Hfs⟩, ⟨Ha, Has⟩, ⟨Hl, Hls⟩, Hc, Hcs⟩
    isplitl [Hf Ha Hl Hc]
    · isplitl [Hf]; · iexact Hf
      isplitl [Ha]; · iexact Ha
      isplitl [Hl]; · iexact Hl
      iexact Hc
    isplitl [Hfs]; · iexact Hfs
    isplitl [Has]; · iexact Has
    isplitl [Hls]; · iexact Hls
    iexact Hcs
  · iintro ⟨⟨Hf, Ha, Hl, Hc⟩, Hfs, Has, Hls, Hcs⟩
    isplitl [Hf Hfs]
    · isplitl [Hf]; · iexact Hf
      iexact Hfs
    isplitl [Ha Has]
    · isplitl [Ha]; · iexact Ha
      iexact Has
    isplitl [Hl Hls]
    · isplitl [Hl]; · iexact Hl
      iexact Hls
    isplitl [Hc]; · iexact Hc
    iexact Hcs

/-- The sixteen tiles' hand-outs are their sixteen tokens of the four arrays beside the sixteen pieces. -/
theorem go_tiles (d : Dev nD) (c : Fin ((K (F := F)).nCore 0)) (f : Buf (Elt F) (oLoc d)) :
    (bigSep Finset.univ fun i : Fin ((K (F := F)).nSub 0) => iprop(roPts m lab d (qTile c.val i.val) ∗ oPiece d (cG c) (sG i) f))
      = iprop((bigSep Finset.univ fun i : Fin 16 => roPts m lab d (Transfers.shareTokN (qCore c.val) i.val))
          ∗ bigSep Finset.univ fun s : Fin (grid0.bound 1) => oPiece d (cG c) s f) := by
  rw [bigSep_sep']
  rfl

/-- THE SPLIT: a SparseCore's hand-out is its tiles' hand-outs, and their returns rejoin into what it hands back. -/
theorem vecSplit : (K (F := F)).VecSplit' (P m lab G) 0 := by
  intro d c
  show iprop(roPts m lab d (qCore c.val) ∗ bigSep Finset.univ fun s : Fin (grid0.bound 1) => oPiece d (cG c) s (m (oLoc d)))
    ⊢ |={Set.univ}=> iprop((bigSep Finset.univ fun i : Fin ((K (F := F)).nSub 0) => iprop(roPts m lab d (qTile c.val i.val) ∗ oPiece d (cG c) (sG i) (m (oLoc d))))
      ∗ ((bigSep Finset.univ fun i : Fin ((K (F := F)).nSub 0) => iprop(roPts m lab d (qTile c.val i.val) ∗ oPiece d (cG c) (sG i) (G d)))
          -∗ iprop(roPts m lab d (qCore c.val) ∗ bigSep Finset.univ fun s : Fin (grid0.bound 1) => oPiece d (cG c) s (G d))))
  rw [go_tiles m lab d c (m (oLoc d)), go_tiles m lab d c (G d), roPts_toks m lab d (qCore c.val)]
  iintro ⟨⟨Hd, Ht⟩, Ho⟩
  imodintro
  isplitl [Ht Ho]
  · isplitl [Ht]; · iexact Ht
    iexact Ho
  iintro ⟨Ht, Ho⟩
  isplitl [Hd Ht]
  · isplitl [Hd]; · iexact Hd
    iexact Ht
  iexact Ho

end Cert.Proof.KB

end
-- ==== Proof.LabelRange.lean ====
/-
  The label range, read out of the input-domain precondition.

  The precondition is a conjunction of four "every element satisfies p" statements, each an all-axes reduction by
  `and` of a one-bit array. Its last conjunct is the reduction of `(0 ≤ label[b]) ∧ (label[b] ≤ 99999)`, both compares
  signed. A reduction by `and` that is 1 had a 1 at every operand index, so each label word lies in [0, 99999] as a
  signed integer, and hence also as a natural number.
-/
import proofs.«216098_g21234318311461_cont_8to1_346_22_alg».proof.Pre_input_domain
import proofs.«216098_g21234318311461_cont_8to1_346_22_alg».proof.Proof.Gen.Pre_input_domain
import Idealize.ShloMosaic.Lib.ReduceAll

namespace Cert.Hand

open Idealize.ShloMosaic

/-- The scalar shape has one index. -/
instance subsingleton_scalar_idx : Subsingleton Cert.Pre_input_domain.S_.Idx := ⟨fun a b => funext fun d => d.elim0⟩

/-- Every label word is in [0, 99999], signed. -/
theorem label_range {F : FTy → Type} [FloatOps F] (feat A : FVec F Cert.Pre_input_domain.S16384x128 .f32) (label : IVec Cert.Pre_input_domain.S16384 32) (centers : FVec F Cert.Pre_input_domain.S100000x128 .f32)
    (h : Cert.Pre_input_domain.fn (F := F) feat A label centers = fun _ => 1#1) :
    ∀ b : Cert.Pre_input_domain.S16384.Idx, 0 ≤ (label b).toInt ∧ (label b).toInt ≤ 99999 := by
  intro b
  have e := congrFun h (fun a => a.elim0)
  dsimp only [Cert.Pre_input_domain.fn, Cert.Pre_input_domain.fn_part1] at e
  -- the outer conjunction: (the three float conjuncts) ∧ (the label conjunct)
  have e2 := (IntOp.andi_eq_one.1 e).2
  -- the label conjunct is an all-axes reduction by `and`: read it at b
  have e3 := Host.reduce_andi_all _ _ _ _ _ e2 b
  obtain ⟨hge, hle⟩ := IntOp.andi_eq_one.1 e3
  have hge' := IntOp.cmpi_sge.1 hge
  have hle' := IntOp.cmpi_sle.1 hle
  have z0 : (0#32 : BitVec 32).toInt = 0 := by decide
  have z1 : (99999#32 : BitVec 32).toInt = 99999 := by decide
  exact ⟨z0 ▸ hge', z1 ▸ hle'⟩

/-- Every label word is at most 99999 as a natural number. -/
theorem label_le {F : FTy → Type} [FloatOps F] (feat A : FVec F Cert.Pre_input_domain.S16384x128 .f32) (label : IVec Cert.Pre_input_domain.S16384 32) (centers : FVec F Cert.Pre_input_domain.S100000x128 .f32)
    (h : Cert.Pre_input_domain.fn (F := F) feat A label centers = fun _ => 1#1) :
    ∀ b : Cert.Pre_input_domain.S16384.Idx, (label b).toNat ≤ 99999 := by
  intro b
  obtain ⟨h0, h1⟩ := label_range feat A label centers h b
  have hlt := (label b).isLt
  unfold BitVec.toInt at h0 h1
  split at h0 <;> omega

end Cert.Hand
-- ==== Proof.KBLabels.lean ====
/-
  The labels as the kernel's tiles read them.

  The kernel's first host operation lays the 16384 labels out as a 128 × 128 array, in row-major order: the word at
  row r, column x of the laid-out array is label 128·r + x. This module names that array as one pure function of the
  given labels, reads it at an index, and carries the label range over to it: when every label is at most 99999, so is
  every word of the laid-out array.
-/
import proofs.«216098_g21234318311461_cont_8to1_346_22_alg».proof.Proof.KBCommon
import proofs.«216098_g21234318311461_cont_8to1_346_22_alg».proof.Proof.LabelRange
import Idealize.ShloMosaic.Lib.Pipeline.Value
import Idealize.ShloMosaic.Lib.ValueIdx

noncomputable section

namespace Cert.Proof.KB

open Cert.Kernel Cert.Kernel.Gen

open Idealize.ShloMosaic

variable {F : FTy → Type}

/-- The labels laid out 128 × 128: the same words in row-major order. -/
def lab2 (g : IVec S16384 32) : IVec S128x128 32 := shapeCast S128x128 g shapeCasts_S16384_S128x128

/-- After the first host operation the laid-out buffer holds `lab2` of the labels as given. -/
theorem reshape_result_v0 (V : Valuation τ sig (Elt F)) :
    (StableHlo.reshape (Val := Elt F) main_arg2 main_v0 rfl shapeCasts_S16384_S128x128).result V (Proc.devRef .tc main_v0)
      = lab2 (V (Proc.devRef .tc main_arg2)) :=
  StableHlo.reshape_result main_arg2 main_v0 rfl shapeCasts_S16384_S128x128 ⟨by decide, rfl⟩ ⟨by decide, rfl⟩ V

/-- Every other buffer holds what it held. -/
theorem reshape_result_ne_v0 (V : Valuation τ sig (Elt F)) {r : Ref sig .tc} (h : r ≠ main_v0) :
    (StableHlo.reshape (Val := Elt F) main_arg2 main_v0 rfl shapeCasts_S16384_S128x128).result V (Proc.devRef .tc r)
      = V (Proc.devRef .tc r) :=
  StableHlo.reshape_result_ne (x := main_arg2) (y := main_v0) rfl shapeCasts_S16384_S128x128 ⟨by decide, rfl⟩ ⟨by decide, rfl⟩ V h

/-- The word at row r, column x is label 128·r + x. -/
theorem lab2_apply (g : IVec S16384 32) (r x : Fin 128) :
    lab2 g (ValueIdx.ix2 r x) = g (ValueIdx.ix1 ⟨r.val * 128 + x.val, by omega⟩) := by
  unfold lab2
  refine shapeCast_apply g _ _ _ ?_
  rw [Shape.rowMajor_val_one, Shape.rowMajor_val_two]
  rfl

/-- Labels at most 99999 stay so when laid out: every word of the laid-out array is below 100000. -/
theorem lab2_lt (g : IVec S16384 32) (h : ∀ b, (g b).toNat ≤ 99999) : ∀ j, (lab2 g j).toNat < 100000 := by
  intro j
  unfold lab2 shapeCast
  exact Nat.lt_succ_of_le (h _)

/-- Under the input-domain precondition every word of the laid-out labels is below 100000. -/
theorem lab2_lt_of_pre [FloatOps F] (feat A : FVec F Cert.Pre_input_domain.S16384x128 .f32) (label : IVec Cert.Pre_input_domain.S16384 32)
    (centers : FVec F Cert.Pre_input_domain.S100000x128 .f32)
    (h : Cert.Pre_input_domain.fn (F := F) feat A label centers = fun _ => 1#1) : ∀ j, (lab2 label j).toNat < 100000 :=
  lab2_lt label (Cert.Hand.label_le feat A label centers h)

end Cert.Proof.KB

end
-- ==== Proof.KBMain.lean ====
/-
  @main on the TensorCore, and what the final memory tells the claim.

  @main lays the labels out 128 × 128, calls the SparseCore kernel on the features, the weights, the laid-out labels
  and the centres table, and then sums the kernel's vector of 512 partial sums and scales the sum. For the call, the
  TensorCore splits its full share of each of the four arrays the kernel only reads into a remainder it keeps and one
  read token per SparseCore, and the partial-sums vector into the thirty-two tiles' pieces; when the call returns it
  rejoins them, the vector now at the kernel's result. The four operations after the call run over the TensorCore's
  buffers held whole. At the end the four argument arrays are at their launch contents and the result buffer is at
  the scaled sum of the kernel's vector; the final memory agrees with the buffers held.
-/
import proofs.«216098_g21234318311461_cont_8to1_346_22_alg».proof.Proof.KBVecSplit
import proofs.«216098_g21234318311461_cont_8to1_346_22_alg».proof.Proof.KBLabels

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within)
open Idealize.ShloMosaic.Tactic

variable {F : FTy → Type} [FloatOps F]

local notation "𝕄" => MT nD τ sig (HIx 1) (Elt F) ℕ UU ℕ
local notation "fV" => (Memref.whole Cert.Kernel.main_arg0_scv : Memref Cert.Kernel.sig Kind.scVector Space.hbm Cert.Kernel.S16384x128 EltTy.f32)
local notation "aV" => (Memref.whole Cert.Kernel.main_arg1_scv : Memref Cert.Kernel.sig Kind.scVector Space.hbm Cert.Kernel.S16384x128 EltTy.f32)
local notation "lV" => (Memref.whole Cert.Kernel.main_v0_scv : Memref Cert.Kernel.sig Kind.scVector Space.hbm Cert.Kernel.S128x128 EltTy.i32)
local notation "cenV" => (Memref.whole Cert.Kernel.main_arg3_scv : Memref Cert.Kernel.sig Kind.scVector Space.hbm Cert.Kernel.S100000x128 EltTy.f32)
local notation "oV" => (Memref.whole Cert.Kernel.main_v1_scv : Memref Cert.Kernel.sig Kind.scVector Space.hbm Cert.Kernel.S512 EltTy.f32)
local notation "ixS" => (Memref.whole Cert.Kernel.cc0_scratch0 : Memref Cert.Kernel.sig Kind.scVector Space.vmem Cert.Kernel.S4x128 EltTy.i32)
local notation "cnS" => (Memref.whole Cert.Kernel.cc0_scratch1 : Memref Cert.Kernel.sig Kind.scVector Space.vmem Cert.Kernel.S2x128x128 EltTy.f32)
local notation "ftS" => (Memref.whole Cert.Kernel.cc0_scratch2 : Memref Cert.Kernel.sig Kind.scVector Space.vmem Cert.Kernel.S2x128x128 EltTy.f32)
local notation "wtS" => (Memref.whole Cert.Kernel.cc0_scratch3 : Memref Cert.Kernel.sig Kind.scVector Space.vmem Cert.Kernel.S2x128x128 EltTy.f32)
local notation "acS" => (Memref.whole Cert.Kernel.cc0_scratch4 : Memref Cert.Kernel.sig Kind.scVector Space.vmem Cert.Kernel.S16 EltTy.f32)

variable (m : (ℓ : Loc nD τ sig) → Buf (Elt F) ℓ) (ρ : Dev nD → PrngReg) (G : (d : Dev nD) → Buf (Elt F) (oLoc d))

/-! ## The buffers and the operations -/

abbrev f' : DevRef τ sig := Proc.devRef .tc (main_arg0 : Ref sig .tc)
abbrev a' : DevRef τ sig := Proc.devRef .tc (main_arg1 : Ref sig .tc)
abbrev g' : DevRef τ sig := Proc.devRef .tc (main_arg2 : Ref sig .tc)
abbrev c' : DevRef τ sig := Proc.devRef .tc (main_arg3 : Ref sig .tc)
abbrev l' : DevRef τ sig := Proc.devRef .tc (main_v0 : Ref sig .tc)
abbrev o' : DevRef τ sig := Proc.devRef .tc (main_v1 : Ref sig .tc)
abbrev v3' : DevRef τ sig := Proc.devRef .tc (main_v3 : Ref sig .tc)

/-- The labels as the tiles read them: the given labels laid out 128 × 128. -/
abbrev lab (d : Dev nD) : Buf (Elt F) (lLoc d) := lab2 (m (gLoc d))

/-- @main's first operation: the labels laid out. -/
abbrev opReshape : HloOp τ sig (Elt F) := StableHlo.reshape main_arg2 main_v0 rfl shapeCasts_S16384_S128x128

/-- The four operations after the call, in order: zero, the sum of the partial sums, the scale, the product. -/
abbrev op1 : HloOp τ sig (Elt F) := StableHlo.nullary main_cst (constant S_ .f32 0x00000000#32)
abbrev op2 : HloOp τ sig (Elt F) := StableHlo.binary main_v1 main_cst main_v2 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F))
abbrev op3 : HloOp τ sig (Elt F) := StableHlo.nullary main_cst_0 (constant S_ .f32 0x38000000#32)
abbrev op4 : HloOp τ sig (Elt F) := StableHlo.binary main_v2 main_cst_0 main_v3 (mulf : (⟨S_, .f32⟩ : BufTy).Contents (Elt F) → (⟨S_, .f32⟩ : BufTy).Contents (Elt F) → (⟨S_, .f32⟩ : BufTy).Contents (Elt F))
abbrev hostOps : List (HloOp τ sig (Elt F)) := [op1, op2, op3, op4]

/-! ## The valuations -/

/-- The launch valuation. -/
def V0 (d : Dev nD) : Valuation τ sig (Elt F) := fun b => m (d, b)
/-- Before the call: the laid-out labels in their buffer. -/
def Vb (d : Dev nD) : Valuation τ sig (Elt F) := Function.update (V0 m d) l' (lab m d)
/-- After the call: the kernel's result in the partial-sums vector besides. -/
def Vc (d : Dev nD) : Valuation τ sig (Elt F) := Function.update (Vb m d) o' (G d)
/-- At the end: the four operations after the call applied to that. -/
def VEnd (d : Dev nD) : Valuation τ sig (Elt F) := StableHlo.after hostOps (Vc m G d)

theorem Vb_l (d : Dev nD) : Vb m d l' = lab m d := Function.update_self _ _ _
theorem Vb_of_ne (d : Dev nD) (b : DevRef τ sig) (hl : b ≠ l') : Vb m d b = V0 m d b := Function.update_of_ne hl _ _
theorem Vc_l (d : Dev nD) : Vc m G d l' = lab m d :=
  (Function.update_of_ne (show l' ≠ o' by decide) _ _).trans (Vb_l m d)
theorem Vc_o (d : Dev nD) : Vc m G d o' = G d := Function.update_self _ _ _
theorem Vc_of_ne (d : Dev nD) (b : DevRef τ sig) (hl : b ≠ l') (ho : b ≠ o') : Vc m G d b = V0 m d b :=
  (Function.update_of_ne ho _ _).trans (Vb_of_ne m d b hl)

/-- The result buffer at the end: the kernel's 512 partial sums added up from zero, times the scale. -/
theorem v3_eq (d : Dev nD) :
    VEnd m G d (Proc.devRef .tc main_v3)
      = mulf (Host.reduceAdd (G d) (constant (F := F) S_ .f32 0x00000000#32) reducesTo_S512_S_d0 h_S_) (constant (F := F) S_ .f32 0x38000000#32) := by
  unfold VEnd
  after_results
  rw [Vc_o]

/-- The operations after the call write none of the four argument arrays. -/
theorem VEnd_f (d : Dev nD) : VEnd m G d f' = m (fLoc d) := by
  unfold VEnd; after_results; exact Vc_of_ne m G d f' (by decide) (by decide)
theorem VEnd_a (d : Dev nD) : VEnd m G d a' = m (aLoc d) := by
  unfold VEnd; after_results; exact Vc_of_ne m G d a' (by decide) (by decide)
theorem VEnd_g (d : Dev nD) : VEnd m G d g' = m (gLoc d) := by
  unfold VEnd; after_results; exact Vc_of_ne m G d g' (by decide) (by decide)
theorem VEnd_c (d : Dev nD) : VEnd m G d c' = m (cLoc d) := by
  unfold VEnd; after_results; exact Vc_of_ne m G d c' (by decide) (by decide)

/-! ## What @main leaves the claim -/

/-- The four argument arrays whole at their launch contents and the result buffer whole at its final contents. -/
abbrev FIN (d : Dev nD) : sProp 𝕄 :=
  iprop((fLoc d ↦{fullShare} m (fLoc d)) ∗ (aLoc d ↦{fullShare} m (aLoc d)) ∗ (gLoc d ↦{fullShare} m (gLoc d)) ∗ (cLoc d ↦{fullShare} m (cLoc d))
    ∗ ((SparseCore.T d).loc main_v3 ↦{fullShare} VEnd m G d (Proc.devRef .tc main_v3)))

def fq (d : Dev nD) (s' : Phys nD τ sig (Elt F)) : Prop :=
  s'.mem.mem (fLoc d) = m (fLoc d) ∧ s'.mem.mem (aLoc d) = m (aLoc d) ∧ s'.mem.mem (gLoc d) = m (gLoc d) ∧ s'.mem.mem (cLoc d) = m (cLoc d)
    ∧ s'.mem.mem ((SparseCore.T d).loc main_v3) = VEnd m G d (Proc.devRef .tc main_v3)

/-- The final memory agrees with every buffer held whole. -/
theorem hfin (d : Dev nD) (s' : Phys nD τ sig (Elt F)) : iprop(FIN m G d ∗ SI s') ⊢ (⌜fq m G d s'⌝ : sProp 𝕄) := by
  iintro ⟨⟨Hf, Ha, Hg, Hc, Hv⟩, HSI⟩
  ihave H := (persistent_entails_right (SI_pointsTo_agree (st := s') (ℓ := fLoc d) (I := Finset.univ) (q := fullShare) (f := m (fLoc d)))) $$ [HSI Hf]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (persistent_entails_right (SI_pointsTo_agree (st := s') (ℓ := gLoc d) (I := Finset.univ) (q := fullShare) (f := m (gLoc d)))) $$ [HSI Hg]
  · isplitl [HSI] <;> iassumption
  icases H with ⟨%h3, HSI, -⟩
  ihave H := (persistent_entails_right (SI_pointsTo_agree (st := s') (ℓ := cLoc d) (I := Finset.univ) (q := fullShare) (f := m (cLoc d)))) $$ [HSI Hc]
  · isplitl [HSI] <;> iassumption
  icases H with ⟨%h4, HSI, -⟩
  ihave H := (SI_pointsTo_agree (st := s') (ℓ := (SparseCore.T d).loc main_v3) (I := Finset.univ) (q := fullShare) (f := VEnd m G d (Proc.devRef .tc main_v3))) $$ [HSI Hv]
  · isplitl [HSI] <;> iassumption
  icases H with %h5
  ipureintro
  exact ⟨funext fun (i : Idx (fLoc d)) => h1 i (Finset.mem_univ i), funext fun (i : Idx (aLoc d)) => h2 i (Finset.mem_univ i),
    funext fun (i : Idx (gLoc d)) => h3 i (Finset.mem_univ i), funext fun (i : Idx (cLoc d)) => h4 i (Finset.mem_univ i),
    funext fun (i : Idx ((SparseCore.T d).loc main_v3)) => h5 i (Finset.mem_univ i)⟩

/-! ## The buffers @main holds, by parts -/

/-- The buffers the call takes: the features, the weights, the laid-out labels, the centres, the partial-sums vector. -/
abbrev S5 : Finset (DevRef τ sig) := {f', a', l', c', o'}
/-- The buffers the claim reads: the four arguments and the result. -/
abbrev SF : Finset (DevRef τ sig) := {f', a', g', c', v3'}

theorem S5_sub : S5 ⊆ Pipeline.ucRefs τ sig := by decide
theorem SF_sub : SF ⊆ Pipeline.ucRefs τ sig := by decide

omit [FloatOps F] in
theorem held_S5 (d : Dev nD) (W : Valuation τ sig (Elt F)) :
    (held (T d) S5 W : sProp 𝕄)
      = iprop((fLoc d ↦{fullShare} W f') ∗ (aLoc d ↦{fullShare} W a') ∗ (lLoc d ↦{fullShare} W l') ∗ (cLoc d ↦{fullShare} W c') ∗ (oLoc d ↦{fullShare} W o')) := by
  unfold held S5
  rw [SparseCore.bigSep_insert' (by decide), SparseCore.bigSep_insert' (by decide), SparseCore.bigSep_insert' (by decide),
    SparseCore.bigSep_insert' (by decide), bigSep_singleton]

omit [FloatOps F] in
theorem held_SF (d : Dev nD) (W : Valuation τ sig (Elt F)) :
    (held (T d) SF W : sProp 𝕄)
      = iprop((fLoc d ↦{fullShare} W f') ∗ (aLoc d ↦{fullShare} W a') ∗ (gLoc d ↦{fullShare} W g') ∗ (cLoc d ↦{fullShare} W c')
          ∗ ((SparseCore.T d).loc main_v3 ↦{fullShare} W v3')) := by
  unfold held SF
  rw [SparseCore.bigSep_insert' (by decide), SparseCore.bigSep_insert' (by decide), SparseCore.bigSep_insert' (by decide),
    SparseCore.bigSep_insert' (by decide), bigSep_singleton]

/-- The launch's unscoped buffers are the TensorCore's unscoped references held at the launch valuation. -/
theorem unscoped_held (d : Dev nD) :
    (unscopedBufs d (fun b => m ((SparseCore.T d).loc b)) : sProp 𝕄) = held (T d) (Pipeline.ucRefs τ sig) (V0 m d) :=
  Pipeline.unscopedBufs_held d (V0 m d)

/-- After the first operation the buffers are at `Vb`: the laid-out labels in their buffer, every other as launched. -/
theorem result_reshape (d : Dev nD) (b : DevRef τ sig) : (opReshape (F := F)).result (V0 m d) b = Vb m d b := by
  by_cases hb : b = l'
  · subst hb
    rw [Vb_l]
    exact reshape_result_v0 (F := F) (V0 m d)
  · rw [Vb_of_ne m d b hb]
    exact (opReshape (F := F)).result_of_not_mem (V0 m d) (b := b) (by
      show b ∉ ({l'} : Finset (DevRef τ sig))
      rw [Finset.mem_singleton]; exact hb)

theorem hReshape : (opReshape (F := F)).bufs ⊆ Pipeline.ucRefs τ sig := Pipeline.sub_ucRefs _ (StableHlo.reshape_bufs_sub ..)
theorem hOp1 : (op1 (F := F)).bufs ⊆ Pipeline.ucRefs τ sig := Pipeline.sub_ucRefs _ (StableHlo.nullary_bufs_sub ..)
theorem hOp2 : (op2 (F := F)).bufs ⊆ Pipeline.ucRefs τ sig := Pipeline.sub_ucRefs _ (StableHlo.binary_bufs_sub ..)
theorem hOp3 : (op3 (F := F)).bufs ⊆ Pipeline.ucRefs τ sig := Pipeline.sub_ucRefs _ (StableHlo.nullary_bufs_sub ..)
theorem hOp4 : (op4 (F := F)).bufs ⊆ Pipeline.ucRefs τ sig := Pipeline.sub_ucRefs _ (StableHlo.binary_bufs_sub ..)

/-! ## The split for the call -/

omit [FloatOps F] in
/-- One array at a read share is the remainder after two tokens beside the two tokens. -/
theorem pts_toks2 (q : PosShare TreeShare) (ℓ : Loc nD τ sig) (f : Buf (Elt F) ℓ) :
    (ℓ ↦{q} f : sProp 𝕄)
      = iprop((ℓ ↦{Transfers.shareDrop q 2} f) ∗ bigSep Finset.univ fun i : Fin 2 => ℓ ↦{Transfers.shareTokN q i.val} f) :=
  BI.Entails.antisymm (Transfers.pointsTo_toks q 2).1 (Transfers.pointsTo_toks q 2).2

omit [FloatOps F] in
/-- The four read-only arrays at a read share are the four remainders beside, per SparseCore, the four tokens. -/
theorem roPts_toks2 (lb : (d : Dev nD) → Buf (Elt F) (lLoc d)) (d : Dev nD) (q : PosShare TreeShare) :
    roPts m lb d q
      = iprop(roPts m lb d (Transfers.shareDrop q 2) ∗ bigSep Finset.univ fun i : Fin 2 => roPts m lb d (Transfers.shareTokN q i.val)) := by
  show iprop((fLoc d ↦{q} m (fLoc d)) ∗ (aLoc d ↦{q} m (aLoc d)) ∗ (lLoc d ↦{q} lb d) ∗ (cLoc d ↦{q} m (cLoc d)))
    = iprop(iprop((fLoc d ↦{Transfers.shareDrop q 2} m (fLoc d)) ∗ (aLoc d ↦{Transfers.shareDrop q 2} m (aLoc d))
          ∗ (lLoc d ↦{Transfers.shareDrop q 2} lb d) ∗ (cLoc d ↦{Transfers.shareDrop q 2} m (cLoc d)))
        ∗ bigSep Finset.univ fun i : Fin 2 => iprop((fLoc d ↦{Transfers.shareTokN q i.val} m (fLoc d)) ∗ (aLoc d ↦{Transfers.shareTokN q i.val} m (aLoc d))
          ∗ (lLoc d ↦{Transfers.shareTokN q i.val} lb d) ∗ (cLoc d ↦{Transfers.shareTokN q i.val} m (cLoc d))))
  rw [bigSep_sep', bigSep_sep', bigSep_sep', pts_toks2 q (fLoc d), pts_toks2 q (aLoc d), pts_toks2 q (lLoc d), pts_toks2 q (cLoc d)]
  refine BI.Entails.antisymm (show (_ : sProp 𝕄) ⊢ _ from ?_) (show (_ : sProp 𝕄) ⊢ _ from ?_)
  · iintro ⟨⟨Hf, Hfs⟩, ⟨Ha, Has⟩, ⟨Hl, Hls⟩, Hc, Hcs⟩
    isplitl [Hf Ha Hl Hc]
    · isplitl [Hf]; · iexact Hf
      isplitl [Ha]; · iexact Ha
      isplitl [Hl]; · iexact Hl
      iexact Hc
    isplitl [Hfs]; · iexact Hfs
    isplitl [Has]; · iexact Has
    isplitl [Hls]; · iexact Hls
    iexact Hcs
  · iintro ⟨⟨Hf, Ha, Hl, Hc⟩, Hfs, Has, Hls, Hcs⟩
    isplitl [Hf Hfs]
    · isplitl [Hf]; · iexact Hf
      iexact Hfs
    isplitl [Ha Has]
    · isplitl [Ha]; · iexact Ha
      iexact Has
    isplitl [Hl Hls]
    · isplitl [Hl]; · iexact Hl
      iexact Hls
    isplitl [Hc]; · iexact Hc
    iexact Hcs

omit [FloatOps F] in
/-- What the call takes for the two SparseCores: their tokens of the four arrays beside the thirty-two pieces. -/
theorem st0_eq (d : Dev nD) :
    (bigSep Finset.univ fun c : Fin ((K (F := F)).nCore 0) => (P m (lab m) G).st 0 d c)
      = iprop((bigSep Finset.univ fun i : Fin 2 => roPts m (lab m) d (Transfers.shareTokN fullShare i.val))
          ∗ bigSep Finset.univ fun c : Fin (grid0.bound 0) => bigSep Finset.univ fun s : Fin (grid0.bound 1) => oLoc d ↦[oSet (coordsV c s)]{fullShare} m (oLoc d)) := by
  show (bigSep Finset.univ fun c : Fin ((K (F := F)).nCore 0) => iprop(roPts m (lab m) d (qCore c.val)
      ∗ bigSep Finset.univ fun s : Fin (grid0.bound 1) => oPiece d (cG c) s (m (oLoc d)))) = _
  rw [bigSep_sep']
  rfl
omit [FloatOps F] in
/-- What it hands back: the same, the pieces at the kernel's result. -/
theorem dn0_eq (d : Dev nD) :
    (bigSep Finset.univ fun c : Fin ((K (F := F)).nCore 0) => (P m (lab m) G).dn 0 d c)
      = iprop((bigSep Finset.univ fun i : Fin 2 => roPts m (lab m) d (Transfers.shareTokN fullShare i.val))
          ∗ bigSep Finset.univ fun c : Fin (grid0.bound 0) => bigSep Finset.univ fun s : Fin (grid0.bound 1) => oLoc d ↦[oSet (coordsV c s)]{fullShare} G d) := by
  show (bigSep Finset.univ fun c : Fin ((K (F := F)).nCore 0) => iprop(roPts m (lab m) d (qCore c.val)
      ∗ bigSep Finset.univ fun s : Fin (grid0.bound 1) => oPiece d (cG c) s (G d))) = _
  rw [bigSep_sep']
  rfl

/-! ## The buffers held before the call, after it, and at the end -/

theorem held_before (d : Dev nD) :
    (held (T d) (Pipeline.ucRefs τ sig) ((opReshape (F := F)).result (V0 m d)) : sProp 𝕄)
      = iprop(((fLoc d ↦{fullShare} m (fLoc d)) ∗ (aLoc d ↦{fullShare} m (aLoc d)) ∗ (lLoc d ↦{fullShare} lab m d) ∗ (cLoc d ↦{fullShare} m (cLoc d))
            ∗ (oLoc d ↦{fullShare} m (oLoc d)))
          ∗ held (T d) (Pipeline.ucRefs τ sig \ S5) (Vb m d)) := by
  rw [held_congr (T d) (fun b _ => result_reshape m d b), held_sub_split (T d) S5_sub, held_S5, Vb_l,
    Vb_of_ne m d f' (by decide), Vb_of_ne m d a' (by decide), Vb_of_ne m d c' (by decide), Vb_of_ne m d o' (by decide)]
  rfl

theorem held_after (d : Dev nD) :
    (held (T d) (Pipeline.ucRefs τ sig) (Vc m G d) : sProp 𝕄)
      = iprop(((fLoc d ↦{fullShare} m (fLoc d)) ∗ (aLoc d ↦{fullShare} m (aLoc d)) ∗ (lLoc d ↦{fullShare} lab m d) ∗ (cLoc d ↦{fullShare} m (cLoc d))
            ∗ (oLoc d ↦{fullShare} G d))
          ∗ held (T d) (Pipeline.ucRefs τ sig \ S5) (Vb m d)) := by
  rw [held_sub_split (T d) S5_sub, held_S5, Vc_l, Vc_o,
    Vc_of_ne m G d f' (by decide) (by decide), Vc_of_ne m G d a' (by decide) (by decide), Vc_of_ne m G d c' (by decide) (by decide),
    held_congr (T d) (S := Pipeline.ucRefs τ sig \ S5) (V := Vc m G d) (V' := Vb m d) (fun b hb =>
      Function.update_of_ne (fun h => (Finset.mem_sdiff.1 hb).2 (by rw [h]; decide)) _ _)]
  rfl

theorem held_end (d : Dev nD) :
    (held (T d) (Pipeline.ucRefs τ sig) (VEnd m G d) : sProp 𝕄)
      = iprop(FIN m G d ∗ held (T d) (Pipeline.ucRefs τ sig \ SF) (VEnd m G d)) := by
  rw [held_sub_split (T d) SF_sub, held_SF, VEnd_f, VEnd_a, VEnd_g, VEnd_c]

/-- The same with the final valuation spelt as the four results in a row, as the run reaches it. -/
theorem held_end' (d : Dev nD) :
    (held (T d) (Pipeline.ucRefs τ sig)
        ((op4 (F := F)).result ((op3 (F := F)).result ((op2 (F := F)).result ((op1 (F := F)).result (Vc m G d))))) : sProp 𝕄)
      = iprop(FIN m G d ∗ held (T d) (Pipeline.ucRefs τ sig \ SF) (VEnd m G d)) :=
  held_end m G d

/-! ## @main -/

/-- @main on device `d`'s TensorCore: the labels laid out, the call, the four operations after it. -/
theorem hmain (κ : GSem nD τ sig → ℕ) (d : Dev nD) :
    iprop((K (F := F)).ctx EH (P m (lab m) G) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m G d) := by
  unfold SparseCore.Cfg.tcRes
  rw [unscoped_held]
  simp only [main, wp_bind, wp_pure]
  iintro ⟨#Hctx, Hst, ⟨Hb, Hheld, -, -⟩, -⟩
  -- the labels laid out
  iapply (wp_hlo_within 𝒱 (SparseCore.T d) none Set.univ (op := opReshape) (S := Pipeline.ucRefs τ sig) hReshape (V := V0 m d)) $$ [Hb Hheld]
  · isplitl [Hb]; · iexact Hb
    iexact Hheld
  iintro ⟨Hb, Hheld⟩
  rw [wp_ret]; imodintro
  ihave Hh := (Entails.of_eq (held_before m d)) $$ Hheld
  icases Hh with ⟨⟨Hf, Ha, Hl, Hc, Ho⟩, Hrest⟩
  -- the four read-only arrays: a remainder kept, a token per SparseCore; the partial-sums vector: the tiles' pieces
  ihave Hro := (Entails.of_eq (roPts_toks2 m (lab m) d fullShare)) $$ [Hf Ha Hl Hc]
  · isplitl [Hf]; · iexact Hf
    isplitl [Ha]; · iexact Ha
    isplitl [Hl]; · iexact Hl
    iexact Hc
  icases Hro with ⟨Hkeep, Htoks⟩
  ihave Hos := (Entails.of_eq (oPts_tiles d (m (oLoc d)))) $$ Ho
  -- the call
  iapply ((K (F := F)).wp_run (D (F := F)) 𝒱 (EH := EH) (P := P m (lab m) G) κ d 0) $$ [Hst Htoks Hos Hb Hkeep Hrest]
  isplitr; · iexact Hctx
  isplitl [Hst]; · iexact Hst
  isplitl [Htoks Hos]
  · rw [st0_eq]
    isplitl [Htoks]; · iexact Htoks
    iexact Hos
  iintro ⟨Hst, Hdn⟩
  ihave Hdn' := (Entails.of_eq (dn0_eq m G d)) $$ Hdn
  icases Hdn' with ⟨Htoks, Hos⟩
  -- rejoined: the four arrays whole again, the vector whole at the kernel's result
  ihave Ho := (Entails.of_eq (oPts_tiles d (G d)).symm) $$ Hos
  ihave Hro := (Entails.of_eq (roPts_toks2 m (lab m) d fullShare).symm) $$ [Hkeep Htoks]
  · isplitl [Hkeep]; · iexact Hkeep
    iexact Htoks
  icases Hro with ⟨Hf, Ha, Hl, Hc⟩
  ihave Hheld := (Entails.of_eq (held_after m G d).symm) $$ [Hf Ha Hl Hc Ho Hrest]
  · isplitl [Hf Ha Hl Hc Ho]
    · isplitl [Hf]; · iexact Hf
      isplitl [Ha]; · iexact Ha
      isplitl [Hl]; · iexact Hl
      isplitl [Hc]; · iexact Hc
      iexact Ho
    iexact Hrest
  -- the four operations after the call
  iapply (wp_hlo_within 𝒱 (SparseCore.T d) none Set.univ (op := op1) (S := Pipeline.ucRefs τ sig) hOp1 (V := Vc m G d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := Pipeline.ucRefs τ sig) hOp2 (V := (op1 (F := F)).result (Vc m G d))) $$ [Hb Hheld]
  · isplitl [Hb]; · iexact Hb
    iexact Hheld
  iintro ⟨Hb, Hheld⟩
  rw [wp_ret]; imodintro
  iapply (wp_hlo_within 𝒱 (SparseCore.T d) none Set.univ (op := op3) (S := Pipeline.ucRefs τ sig) hOp3
      (V := (op2 (F := F)).result ((op1 (F := F)).result (Vc m G d)))) $$ [Hb Hheld]
  · isplitl [Hb]; · iexact Hb
    iexact Hheld
  iintro ⟨Hb, Hheld⟩
  rw [wp_ret]; imodintro
  iapply (wp_hlo_within 𝒱 (SparseCore.T d) none Set.univ (op := op4) (S := Pipeline.ucRefs τ sig) hOp4
      (V := (op3 (F := F)).result ((op2 (F := F)).result ((op1 (F := F)).result (Vc m G d))))) $$ [Hb Hheld]
  · isplitl [Hb]; · iexact Hb
    iexact Hheld
  iintro ⟨Hb, Hheld⟩
  rw [wp_ret]; imodintro; imodintro
  isplitl [Hst]; · iexact Hst
  ihave Hh := (Entails.of_eq (held_end' m G d)) $$ Hheld
  icases Hh with ⟨HF, -⟩
  iexact HF

end Cert.Proof.KB

end
-- ==== Proof.KBScratchRead.lean ====
/-
  What the tile's scratches hold, read at an index, in terms of the source arrays.

  A two-slot scratch is 2 × 128 × 128; slot s is its rows (s, ·, ·), addressed as a 128 × 128 array by dropping the unit
  axis: position (r, c) of the slot is position (s, r, c) of the scratch, because dropping a unit axis keeps the
  row-major position. Writing a 128 × 128 payload into a slot therefore makes the scratch hold the payload at (s, r, c)
  and leaves the other slot as it was. The payloads are the copies of the tile's rows of the source arrays: worker
  w = 2·(L 1) + (L 0) owns rows 512·w … 512·w + 511 of the features and of the weights, chunk i being rows
  512·w + 128·i … + 127, and label rows 4·w … 4·w + 3; the centres payload of chunk i holds, at row r, the table row
  that word r of label row 4·w + i names.
-/
import proofs.«216098_g21234318311461_cont_8to1_346_22_alg».proof.Proof.KBTileVal
import Idealize.ShloMosaic.Lib.ValueIdx
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "fV" => (Memref.whole Cert.Kernel.main_arg0_scv : Memref Cert.Kernel.sig Kind.scVector Space.hbm Cert.Kernel.S16384x128 EltTy.f32)
local notation "aV" => (Memref.whole Cert.Kernel.main_arg1_scv : Memref Cert.Kernel.sig Kind.scVector Space.hbm Cert.Kernel.S16384x128 EltTy.f32)
local notation "lV" => (Memref.whole Cert.Kernel.main_v0_scv : Memref Cert.Kernel.sig Kind.scVector Space.hbm Cert.Kernel.S128x128 EltTy.i32)
local notation "cenV" => (Memref.whole Cert.Kernel.main_arg3_scv : Memref Cert.Kernel.sig Kind.scVector Space.hbm Cert.Kernel.S100000x128 EltTy.f32)
local notation "ixS" => (Memref.whole Cert.Kernel.cc0_scratch0 : Memref Cert.Kernel.sig Kind.scVector Space.vmem Cert.Kernel.S4x128 EltTy.i32)
local notation "cnS" => (Memref.whole Cert.Kernel.cc0_scratch1 : Memref Cert.Kernel.sig Kind.scVector Space.vmem Cert.Kernel.S2x128x128 EltTy.f32)
local notation "ftS" => (Memref.whole Cert.Kernel.cc0_scratch2 : Memref Cert.Kernel.sig Kind.scVector Space.vmem Cert.Kernel.S2x128x128 EltTy.f32)
local notation "wtS" => (Memref.whole Cert.Kernel.cc0_scratch3 : Memref Cert.Kernel.sig Kind.scVector Space.vmem Cert.Kernel.S2x128x128 EltTy.f32)

/-! ## A slot of a two-slot scratch -/

/-- Dropping the unit axis of 1 × 128 × 128 matches (r, c) with (0, r, c): the same row-major position. -/
theorem unsqueeze_ix (h : S128x128.numel = S1x128x128.numel) (r c : Fin 128) :
    Shape.reshapeEquiv (s := S1x128x128) (s' := S128x128) h (ix2 r c) = ix3 (0 : Fin 1) r c :=
  Shape.reshapeEquiv_eq_of_rowMajor h (by
    rw [Shape.rowMajor_val_three, Shape.rowMajor_val_two]
    show (0 * 128 + r.val) * 128 + c.val = r.val * 128 + c.val
    omega)

/-- Position (r, c) of slot 0 is position (0, r, c) of the scratch. -/
theorem slot0_emb (b : Memref sig .scVector .vmem S2x128x128 .f32) (r c : Fin 128) :
    (slot0 b).view.emb (ix2 r c) = b.view.emb (ix3 (0 : Fin 2) r c) := by
  show b.view.emb ((Rect.unit (s := S2x128x128) ![0, 0, 0] S1x128x128.size inb_S2x128x128_S1x128x128_0_0_0).emb
    (Shape.reshapeEquiv (s := S1x128x128) (s' := S128x128) squeezes_S1x128x128_S128x128.numel_eq (ix2 r c))) = _
  rw [unsqueeze_ix]
  refine congrArg b.view.emb (funext fun a => ?_)
  match a with
  | ⟨0, _⟩ => exact Fin.ext (by show 0 + 1 * 0 = 0; rfl)
  | ⟨1, _⟩ => exact Fin.ext (by show 0 + 1 * r.val = r.val; omega)
  | ⟨2, _⟩ => exact Fin.ext (by show 0 + 1 * c.val = c.val; omega)

/-- Position (r, c) of slot 1 is position (1, r, c) of the scratch. -/
theorem slot1_emb (b : Memref sig .scVector .vmem S2x128x128 .f32) (r c : Fin 128) :
    (slot1 b).view.emb (ix2 r c) = b.view.emb (ix3 (1 : Fin 2) r c) := by
  show b.view.emb ((Rect.unit (s := S2x128x128) ![1, 0, 0] S1x128x128.size inb_S2x128x128_S1x128x128_1_0_0).emb
    (Shape.reshapeEquiv (s := S1x128x128) (s' := S128x128) squeezes_S1x128x128_S128x128.numel_eq (ix2 r c))) = _
  rw [unsqueeze_ix]
  refine congrArg b.view.emb (funext fun a => ?_)
  match a with
  | ⟨0, _⟩ => exact Fin.ext (by show 1 + 1 * 0 = 1; rfl)
  | ⟨1, _⟩ => exact Fin.ext (by show 0 + 1 * r.val = r.val; omega)
  | ⟨2, _⟩ => exact Fin.ext (by show 0 + 1 * c.val = c.val; omega)

variable [FloatOps F] (d : Dev nD) (L : grid0.Coords)

/-- No position of slot 0 is a position (1, ·, ·) of the scratch, and no position of slot 1 is a position (0, ·, ·). -/
theorem slot0_emb_ne (b : Memref sig .scVector .vmem S2x128x128 .f32) (x : S128x128.Idx) (r c : Fin 128) :
    (slot0 b).view.emb x ≠ b.view.emb (ix3 (1 : Fin 2) r c) := by
  obtain ⟨r', c', rfl⟩ : ∃ r' c' : Fin 128, x = ix2 r' c' := ⟨x 0, x 1, eq_ix2 x⟩
  rw [slot0_emb]
  intro h
  have := congrFun (b.view.emb.injective h) ⟨0, by decide⟩
  exact Nat.zero_ne_one (congrArg Fin.val this)

theorem slot1_emb_ne (b : Memref sig .scVector .vmem S2x128x128 .f32) (x : S128x128.Idx) (r c : Fin 128) :
    (slot1 b).view.emb x ≠ b.view.emb (ix3 (0 : Fin 2) r c) := by
  obtain ⟨r', c', rfl⟩ : ∃ r' c' : Fin 128, x = ix2 r' c' := ⟨x 0, x 1, eq_ix2 x⟩
  rw [slot1_emb]
  intro h
  have := congrFun (b.view.emb.injective h) ⟨0, by decide⟩
  exact Nat.one_ne_zero (congrArg Fin.val this)

/-- A payload written into slot 0 is what the scratch then holds at (0, r, c); slot 1 is as before. -/
theorem W0_hit (b : Memref sig .scVector .vmem S2x128x128 .f32) (f : Buf (Elt F) (b.view.loc (VT d L))) (w : S128x128.Idx → Elt F .f32) (r c : Fin 128) :
    W0 d L b f w (b.view.emb (ix3 (0 : Fin 2) r c)) = _root_.cast (congrArg (Elt F) (slot0 b).view.elt_eq.symm) (w (ix2 r c)) := by
  rw [← slot0_emb]
  exact View.write_emb_of_mem _ _ (Finset.mem_univ _)

theorem W0_miss (b : Memref sig .scVector .vmem S2x128x128 .f32) (f : Buf (Elt F) (b.view.loc (VT d L))) (w : S128x128.Idx → Elt F .f32) (r c : Fin 128) :
    W0 d L b f w (b.view.emb (ix3 (1 : Fin 2) r c)) = f (b.view.emb (ix3 (1 : Fin 2) r c)) :=
  View.write_of_not_mem _ _ _ fun hm => by
    obtain ⟨x, _, hx⟩ := Finset.mem_map.mp hm
    exact slot0_emb_ne b x r c hx

/-- A payload written into slot 1 is what the scratch then holds at (1, r, c); slot 0 is as before. -/
theorem W1_hit (b : Memref sig .scVector .vmem S2x128x128 .f32) (f : Buf (Elt F) (b.view.loc (VT d L))) (w : S128x128.Idx → Elt F .f32) (r c : Fin 128) :
    W1 d L b f w (b.view.emb (ix3 (1 : Fin 2) r c)) = _root_.cast (congrArg (Elt F) (slot1 b).view.elt_eq.symm) (w (ix2 r c)) := by
  rw [← slot1_emb]
  exact View.write_emb_of_mem _ _ (Finset.mem_univ _)

theorem W1_miss (b : Memref sig .scVector .vmem S2x128x128 .f32) (f : Buf (Elt F) (b.view.loc (VT d L))) (w : S128x128.Idx → Elt F .f32) (r c : Fin 128) :
    W1 d L b f w (b.view.emb (ix3 (0 : Fin 2) r c)) = f (b.view.emb (ix3 (0 : Fin 2) r c)) :=
  View.write_of_not_mem _ _ _ fun hm => by
    obtain ⟨x, _, hx⟩ := Finset.mem_map.mp hm
    exact slot1_emb_ne b x r c hx

/-- The same four facts for the centres scratch, addressed whole: its position (s, r, c) is the index (s, r, c) itself. -/
theorem W0_cn_0 (f : Buf (Elt F) ((cnS).view.loc (VT d L))) (w : S128x128.Idx → Elt F .f32) (r c : Fin 128) :
    W0 d L cnS f w (ix3 (0 : Fin 2) r c) = w (ix2 r c) :=
  (W0_hit d L cnS f w r c).trans (cast_eq _ _)
theorem W0_cn_1 (f : Buf (Elt F) ((cnS).view.loc (VT d L))) (w : S128x128.Idx → Elt F .f32) (r c : Fin 128) :
    W0 d L cnS f w (ix3 (1 : Fin 2) r c) = f (ix3 (1 : Fin 2) r c) :=
  W0_miss d L cnS f w r c
theorem W1_cn_1 (f : Buf (Elt F) ((cnS).view.loc (VT d L))) (w : S128x128.Idx → Elt F .f32) (r c : Fin 128) :
    W1 d L cnS f w (ix3 (1 : Fin 2) r c) = w (ix2 r c) :=
  (W1_hit d L cnS f w r c).trans (cast_eq _ _)
theorem W1_cn_0 (f : Buf (Elt F) ((cnS).view.loc (VT d L))) (w : S128x128.Idx → Elt F .f32) (r c : Fin 128) :
    W1 d L cnS f w (ix3 (0 : Fin 2) r c) = f (ix3 (0 : Fin 2) r c) :=
  W1_miss d L cnS f w r c

/-- The same four facts for the features scratch, addressed whole: its position (s, r, c) is the index (s, r, c) itself. -/
theorem W0_ft_0 (f : Buf (Elt F) ((ftS).view.loc (VT d L))) (w : S128x128.Idx → Elt F .f32) (r c : Fin 128) :
    W0 d L ftS f w (ix3 (0 : Fin 2) r c) = w (ix2 r c) :=
  (W0_hit d L ftS f w r c).trans (cast_eq _ _)
theorem W0_ft_1 (f : Buf (Elt F) ((ftS).view.loc (VT d L))) (w : S128x128.Idx → Elt F .f32) (r c : Fin 128) :
    W0 d L ftS f w (ix3 (1 : Fin 2) r c) = f (ix3 (1 : Fin 2) r c) :=
  W0_miss d L ftS f w r c
theorem W1_ft_1 (f : Buf (Elt F) ((ftS).view.loc (VT d L))) (w : S128x128.Idx → Elt F .f32) (r c : Fin 128) :
    W1 d L ftS f w (ix3 (1 : Fin 2) r c) = w (ix2 r c) :=
  (W1_hit d L ftS f w r c).trans (cast_eq _ _)
theorem W1_ft_0 (f : Buf (Elt F) ((ftS).view.loc (VT d L))) (w : S128x128.Idx → Elt F .f32) (r c : Fin 128) :
    W1 d L ftS f w (ix3 (0 : Fin 2) r c) = f (ix3 (0 : Fin 2) r c) :=
  W1_miss d L ftS f w r c

/-- The same four facts for the weights scratch, addressed whole: its position (s, r, c) is the index (s, r, c) itself. -/
theorem W0_wt_0 (f : Buf (Elt F) ((wtS).view.loc (VT d L))) (w : S128x128.Idx → Elt F .f32) (r c : Fin 128) :
    W0 d L wtS f w (ix3 (0 : Fin 2) r c) = w (ix2 r c) :=
  (W0_hit d L wtS f w r c).trans (cast_eq _ _)
theorem W0_wt_1 (f : Buf (Elt F) ((wtS).view.loc (VT d L))) (w : S128x128.Idx → Elt F .f32) (r c : Fin 128) :
    W0 d L wtS f w (ix3 (1 : Fin 2) r c) = f (ix3 (1 : Fin 2) r c) :=
  W0_miss d L wtS f w r c
theorem W1_wt_1 (f : Buf (Elt F) ((wtS).view.loc (VT d L))) (w : S128x128.Idx → Elt F .f32) (r c : Fin 128) :
    W1 d L wtS f w (ix3 (1 : Fin 2) r c) = w (ix2 r c) :=
  (W1_hit d L wtS f w r c).trans (cast_eq _ _)
theorem W1_wt_0 (f : Buf (Elt F) ((wtS).view.loc (VT d L))) (w : S128x128.Idx → Elt F .f32) (r c : Fin 128) :
    W1 d L wtS f w (ix3 (0 : Fin 2) r c) = f (ix3 (0 : Fin 2) r c) :=
  W1_miss d L wtS f w r c

/-! ## The tile's rows of the source arrays -/

variable (m : (ℓ : Loc nD τ sig) → Buf (Elt F) ℓ) (lab : (d : Dev nD) → Buf (Elt F) (lLoc d))

/-- The grid's coordinates: two SparseCores, sixteen subcores each. -/
theorem L0_lt (L : grid0.Coords) : (L 0).val < 2 := (L 0).isLt
theorem L1_lt (L : grid0.Coords) : (L 1).val < 16 := (L 1).isLt

/-- Row r of chunk ci of worker w = 2·(L 1) + (L 0) is one of the 16384 rows; label row ci of worker w one of the 128. -/
theorem frow_lt (L : grid0.Coords) (ci : Fin 4) (r : Fin 128) :
    512 * (2 * (L 1).val + (L 0).val) + 128 * ci.val + r.val < 16384 := by
  have := L0_lt L; have := L1_lt L; omega
theorem lrow_lt (L : grid0.Coords) (ci : Fin 4) : 4 * (2 * (L 1).val + (L 0).val) + ci.val < 128 := by
  have := L0_lt L; have := L1_lt L; omega

/-- Position (r, c) of chunk ci's window of a 16384 × 128 array is row 512·w + 128·ci + r, column c. -/
theorem chunk_emb (ci : Fin 4) (r c : Fin 128) :
    (Rect.unit (s := S16384x128) (k0_off1 L (BitVec.ofNat 32 (128 * ci.val))) S128x128.size (k0_off1_inb L ci)).emb (ix2 r c)
      = ix2 (⟨512 * (2 * (L 1).val + (L 0).val) + 128 * ci.val + r.val, frow_lt L ci r⟩ : Fin 16384) c := by
  funext a
  match a with
  | ⟨0, _⟩ =>
    refine Fin.ext ?_
    show (k0_off1 L (BitVec.ofNat 32 (128 * ci.val))) 0 + 1 * r.val = _
    rw [k0_off1_eq]
    show 1024 * (L 1).val + 512 * (L 0).val + 128 * ci.val + 1 * r.val
      = 512 * (2 * (L 1).val + (L 0).val) + 128 * ci.val + r.val
    omega
  | ⟨1, _⟩ =>
    refine Fin.ext ?_
    show (k0_off1 L (BitVec.ofNat 32 (128 * ci.val))) 1 + 1 * c.val = c.val
    rw [k0_off1_eq]
    show 0 + 1 * c.val = c.val
    omega

/-- Chunk ci's window of the features, read at (r, c), is the features at row 512·w + 128·ci + r, column c. -/
theorem fSrc_read (ci : Fin 4) (g : Buf (Elt F) (fLoc d)) (r c : Fin 128) :
    View.read (Elt F) ((fV).slice (Rect.unit (s := S16384x128) (k0_off1 L (BitVec.ofNat 32 (128 * ci.val))) S128x128.size (k0_off1_inb L ci)) (fun _ => rfl)).view g (ix2 r c)
      = g (ix2 (⟨512 * (2 * (L 1).val + (L 0).val) + 128 * ci.val + r.val, frow_lt L ci r⟩ : Fin 16384) c) :=
  (View.read_apply _ _).trans ((cast_eq _ _).trans (congrArg g (chunk_emb L ci r c)))

/-- The same for the weights. -/
theorem aSrc_read (ci : Fin 4) (g : Buf (Elt F) (aLoc d)) (r c : Fin 128) :
    View.read (Elt F) ((aV).slice (Rect.unit (s := S16384x128) (k0_off1 L (BitVec.ofNat 32 (128 * ci.val))) S128x128.size (k0_off1_inb L ci)) (fun _ => rfl)).view g (ix2 r c)
      = g (ix2 (⟨512 * (2 * (L 1).val + (L 0).val) + 128 * ci.val + r.val, frow_lt L ci r⟩ : Fin 16384) c) :=
  (View.read_apply _ _).trans ((cast_eq _ _).trans (congrArg g (chunk_emb L ci r c)))

theorem fPay0_apply (r c : Fin 128) :
    fPay0 m d L (ix2 r c) = m (fLoc d) (ix2 (⟨512 * (2 * (L 1).val + (L 0).val) + 128 * 0 + r.val, frow_lt L 0 r⟩ : Fin 16384) c) :=
  fSrc_read d L 0 (m (fLoc d)) r c
theorem aPay0_apply (r c : Fin 128) :
    aPay0 m d L (ix2 r c) = m (aLoc d) (ix2 (⟨512 * (2 * (L 1).val + (L 0).val) + 128 * 0 + r.val, frow_lt L 0 r⟩ : Fin 16384) c) :=
  aSrc_read d L 0 (m (aLoc d)) r c

theorem fPay1_apply (r c : Fin 128) :
    fPay1 m d L (ix2 r c) = m (fLoc d) (ix2 (⟨512 * (2 * (L 1).val + (L 0).val) + 128 * 1 + r.val, frow_lt L 1 r⟩ : Fin 16384) c) :=
  fSrc_read d L 1 (m (fLoc d)) r c
theorem aPay1_apply (r c : Fin 128) :
    aPay1 m d L (ix2 r c) = m (aLoc d) (ix2 (⟨512 * (2 * (L 1).val + (L 0).val) + 128 * 1 + r.val, frow_lt L 1 r⟩ : Fin 16384) c) :=
  aSrc_read d L 1 (m (aLoc d)) r c

theorem fPay2_apply (r c : Fin 128) :
    fPay2 m d L (ix2 r c) = m (fLoc d) (ix2 (⟨512 * (2 * (L 1).val + (L 0).val) + 128 * 2 + r.val, frow_lt L 2 r⟩ : Fin 16384) c) :=
  fSrc_read d L 2 (m (fLoc d)) r c
theorem aPay2_apply (r c : Fin 128) :
    aPay2 m d L (ix2 r c) = m (aLoc d) (ix2 (⟨512 * (2 * (L 1).val + (L 0).val) + 128 * 2 + r.val, frow_lt L 2 r⟩ : Fin 16384) c) :=
  aSrc_read d L 2 (m (aLoc d)) r c

theorem fPay3_apply (r c : Fin 128) :
    fPay3 m d L (ix2 r c) = m (fLoc d) (ix2 (⟨512 * (2 * (L 1).val + (L 0).val) + 128 * 3 + r.val, frow_lt L 3 r⟩ : Fin 16384) c) :=
  fSrc_read d L 3 (m (fLoc d)) r c
theorem aPay3_apply (r c : Fin 128) :
    aPay3 m d L (ix2 r c) = m (aLoc d) (ix2 (⟨512 * (2 * (L 1).val + (L 0).val) + 128 * 3 + r.val, frow_lt L 3 r⟩ : Fin 16384) c) :=
  aSrc_read d L 3 (m (aLoc d)) r c

/-- Position (ci, x) of the tile's four label rows is label row 4·w + ci, word x. -/
theorem lrow_emb (ci : Fin 4) (x : Fin 128) :
    (lRectK L).emb (ix2 ci x) = ix2 (⟨4 * (2 * (L 1).val + (L 0).val) + ci.val, lrow_lt L ci⟩ : Fin 128) x := by
  funext a
  match a with
  | ⟨0, _⟩ =>
    refine Fin.ext ?_
    show (k0_off2 L) 0 + 1 * ci.val = _
    rw [k0_off2_eq]
    show 8 * (L 1).val + 4 * (L 0).val + 1 * ci.val = 4 * (2 * (L 1).val + (L 0).val) + ci.val
    omega
  | ⟨1, _⟩ =>
    refine Fin.ext ?_
    show (k0_off2 L) 1 + 1 * x.val = x.val
    rw [k0_off2_eq]
    show 0 + 1 * x.val = x.val
    omega

/-- What the label fetch lands at (ci, x) of the index scratch: word x of label row 4·w + ci. -/
theorem PAY_ix (ci : Fin 4) (x : Fin 128) :
    PAY d L lab (ix2 ci x) = lab d (ix2 (⟨4 * (2 * (L 1).val + (L 0).val) + ci.val, lrow_lt L ci⟩ : Fin 128) x) :=
  (PAY_apply d L lab _).trans (congrArg (lab d) (lrow_emb L ci x))

/-! ## The gathered centre rows -/

/-- Dropping the unit axis of 1 × 128 matches x with (0, x). -/
theorem unsqueeze_ix1 (h : S128.numel = S1x128.numel) (x : Fin 128) :
    Shape.reshapeEquiv (s := S1x128) (s' := S128) h (ix1 x) = ix2 (0 : Fin 1) x :=
  Shape.reshapeEquiv_eq_of_rowMajor h (by
    rw [Shape.rowMajor_val_two, Shape.rowMajor_val_one]
    show 0 * 128 + x.val = x.val
    omega)

/-- Word x of row ci of the index scratch, once the label fetch has landed, is word x of label row 4·w + ci. -/
theorem ixRow_read (ci : Fin 4) (row : Fin 2 → Nat) (hrow : row = ![ci.val, 0]) (hk : ∀ a, row a + S1x128.size a ≤ S4x128.size a) (hs)
    (hq : (Rect.unit (s := S4x128) row S1x128.size hk).shape.Squeezes S128) (x : Fin 128) :
    View.read (Elt F) (((ixS).slice (Rect.unit (s := S4x128) row S1x128.size hk) hs).squeeze S128 hq).view (ixC d L lab) (ix1 x)
      = lab d (ix2 (⟨4 * (2 * (L 1).val + (L 0).val) + ci.val, lrow_lt L ci⟩ : Fin 128) x) := by
  subst hrow
  have e : View.read (Elt F) (((ixS).slice (Rect.unit (s := S4x128) ![ci.val, 0] S1x128.size hk) hs).squeeze S128 hq).view (ixC d L lab) (ix1 x)
      = View.read (Elt F) (ixS).view (ixC d L lab)
          ((Rect.unit (s := S4x128) ![ci.val, 0] S1x128.size hk).emb (Shape.reshapeEquiv (s := S1x128) (s' := S128) hq.numel_eq (ix1 x))) := by
    rw [View.read_apply, View.read_apply]; rfl
  have e2 : (Rect.unit (s := S4x128) ![ci.val, 0] S1x128.size hk).emb (Shape.reshapeEquiv (s := S1x128) (s' := S128) hq.numel_eq (ix1 x))
      = ix2 ci x := by
    rw [unsqueeze_ix1]
    funext a
    match a with
    | ⟨0, _⟩ => exact Fin.ext (by show ci.val + 1 * 0 = ci.val; omega)
    | ⟨1, _⟩ => exact Fin.ext (by show 0 + 1 * x.val = x.val; omega)
  rw [e, e2]
  show View.read (Elt F) (ixS).view ((ixS).view.writes (Elt F) (ixS).view.junk [⟨Rect.whole cc0_scratch0.ty.shape, PAY d L lab⟩]) (ix2 ci x) = _
  rw [View.read_writes_whole]
  exact PAY_ix d L lab ci x

/-- The row an offset list of 128 words names for entry k is word k of the list, as a number. -/
theorem rows_ix {o z : ℕ} (idx : S128.Idx → Elt F .i32) (hn : S128.numel = o) (h : ∀ x, (idx x).toNat < z) (k : Fin o) (hk : k.val < 128) :
    (SparseCore.rows (F := F) (si := S128) idx hn h k).val = (idx (ix1 (⟨k.val, hk⟩ : Fin 128))).toNat := by
  show (idx (S128.rowMajor.symm (k.cast hn.symm))).toNat = _
  have e : S128.rowMajor.symm (k.cast hn.symm) = ix1 (⟨k.val, hk⟩ : Fin 128) :=
    (Equiv.symm_apply_eq _).mpr (Fin.ext (by rw [Shape.rowMajor_val_one]; rfl))
  rw [e]

/-- The gather's payload at (r, c) is the table at the row named for r, column c. -/
theorem gather_ix (g : S100000x128.Idx → Elt F .f32)
    (rows : Fin (S128x128.size (gathers_S100000x128_S128x128).axis') → Fin (S100000x128.size (gathers_S100000x128_S128x128).axis)) (r c : Fin 128) :
    SparseCore.gatherPayload (F := F) gathers_S100000x128_S128x128 g rows (ix2 r c)
      = g (ix2 (⟨(rows r).val, (rows r).isLt⟩ : Fin 100000) c) := by
  unfold SparseCore.gatherPayload
  refine congrArg g (funext fun a => ?_)
  match a with
  | ⟨0, _⟩ => exact Fin.ext rfl
  | ⟨1, _⟩ => exact Fin.ext rfl

/-- The centres table is addressed whole: position (q, c) of its window is the index (q, c). -/
theorem cenSrc_emb (q : Fin 100000) (c : Fin 128) : (cenSrc).view.emb (ix2 q c) = ix2 q c := by
  funext a
  match a with
  | ⟨0, _⟩ => exact Fin.ext (by show 0 + 1 * q.val = q.val; omega)
  | ⟨1, _⟩ => exact Fin.ext (by show 0 + 1 * c.val = c.val; omega)

/-- The row the gather's offset list (row ci of the index scratch) names for entry k: word k of label row 4·w + ci. -/
theorem rows_ixRow (ci : Fin 4) (row : Fin 2 → Nat) (hrow : row = ![ci.val, 0]) (hk : ∀ a, row a + S1x128.size a ≤ S4x128.size a) (hs)
    (hq : (Rect.unit (s := S4x128) row S1x128.size hk).shape.Squeezes S128) {o z : ℕ} (hn : S128.numel = o)
    (h : ∀ x, (View.read (Elt F) (((ixS).slice (Rect.unit (s := S4x128) row S1x128.size hk) hs).squeeze S128 hq).view (ixC d L lab) x).toNat < z)
    (k : Fin o) (hk' : k.val < 128) :
    (SparseCore.rows (F := F) (si := S128)
        (View.read (Elt F) (((ixS).slice (Rect.unit (s := S4x128) row S1x128.size hk) hs).squeeze S128 hq).view (ixC d L lab)) hn h k).val
      = (lab d (ix2 (⟨4 * (2 * (L 1).val + (L 0).val) + ci.val, lrow_lt L ci⟩ : Fin 128) (⟨k.val, hk'⟩ : Fin 128))).toNat := by
  rw [rows_ix _ _ _ _ hk', ixRow_read d L lab ci row hrow]

variable (hlab : ∀ d j, (lab d j).toNat < 100000)

/-- Chunk 0's centres payload at (r, c): the table row that word r of label row 4·w + 0 names, column c. -/
theorem cPay0_apply (r c : Fin 128) :
    cPay0 m d L lab hlab (ix2 r c)
      = m (cLoc d) (ix2 (⟨(lab d (ix2 (⟨4 * (2 * (L 1).val + (L 0).val) + 0, lrow_lt L 0⟩ : Fin 128) r)).toNat, hlab d _⟩ : Fin 100000) c) := by
  unfold cPay0
  rw [gather_ix]
  refine (View.read_apply _ _).trans ((cast_eq _ _).trans ?_)
  rw [cenSrc_emb]
  refine congrArg (m (cLoc d)) (congrArg (fun q : Fin 100000 => ix2 q c) (Fin.ext ?_))
  exact rows_ixRow d L lab 0 ![0, 0] rfl inb_S4x128_S1x128_0_0 (fun _ => rfl) squeezes_S1x128_S128 hn128
    (fun x => lt_of_lt_of_eq (idx_inb d L lab hlab (ixS).view.junk (PAY d L lab) rfl ![0, 0] inb_S4x128_S1x128_0_0 (fun _ => rfl) squeezes_S1x128_S128 x) hz100000.symm)
    r r.isLt

/-- Chunk 1's centres payload at (r, c): the table row that word r of label row 4·w + 1 names, column c. -/
theorem cPay1_apply (r c : Fin 128) :
    cPay1 m d L lab hlab (ix2 r c)
      = m (cLoc d) (ix2 (⟨(lab d (ix2 (⟨4 * (2 * (L 1).val + (L 0).val) + 1, lrow_lt L 1⟩ : Fin 128) r)).toNat, hlab d _⟩ : Fin 100000) c) := by
  unfold cPay1
  rw [gather_ix]
  refine (View.read_apply _ _).trans ((cast_eq _ _).trans ?_)
  rw [cenSrc_emb]
  refine congrArg (m (cLoc d)) (congrArg (fun q : Fin 100000 => ix2 q c) (Fin.ext ?_))
  exact rows_ixRow d L lab 1 ![1, 0] rfl inb_S4x128_S1x128_1_0 (fun _ => rfl) squeezes_S1x128_S128 hn128
    (fun x => lt_of_lt_of_eq (idx_inb d L lab hlab (ixS).view.junk (PAY d L lab) rfl ![1, 0] inb_S4x128_S1x128_1_0 (fun _ => rfl) squeezes_S1x128_S128 x) hz100000.symm)
    r r.isLt

/-- Chunk 2's centres payload at (r, c): the table row that word r of label row 4·w + 2 names, column c. -/
theorem cPay2_apply (r c : Fin 128) :
    cPay2 m d L lab hlab (ix2 r c)
      = m (cLoc d) (ix2 (⟨(lab d (ix2 (⟨4 * (2 * (L 1).val + (L 0).val) + 2, lrow_lt L 2⟩ : Fin 128) r)).toNat, hlab d _⟩ : Fin 100000) c) := by
  unfold cPay2
  rw [gather_ix]
  refine (View.read_apply _ _).trans ((cast_eq _ _).trans ?_)
  rw [cenSrc_emb]
  refine congrArg (m (cLoc d)) (congrArg (fun q : Fin 100000 => ix2 q c) (Fin.ext ?_))
  exact rows_ixRow d L lab 2 ![2, 0] rfl inb_S4x128_S1x128_2_0 (fun _ => rfl) squeezes_S1x128_S128 hn128
    (fun x => lt_of_lt_of_eq (idx_inb d L lab hlab (ixS).view.junk (PAY d L lab) rfl ![2, 0] inb_S4x128_S1x128_2_0 (fun _ => rfl) squeezes_S1x128_S128 x) hz100000.symm)
    r r.isLt

/-- Chunk 3's centres payload at (r, c): the table row that word r of label row 4·w + 3 names, column c. -/
theorem cPay3_apply (r c : Fin 128) :
    cPay3 m d L lab hlab (ix2 r c)
      = m (cLoc d) (ix2 (⟨(lab d (ix2 (⟨4 * (2 * (L 1).val + (L 0).val) + 3, lrow_lt L 3⟩ : Fin 128) r)).toNat, hlab d _⟩ : Fin 100000) c) := by
  unfold cPay3
  rw [gather_ix]
  refine (View.read_apply _ _).trans ((cast_eq _ _).trans ?_)
  rw [cenSrc_emb]
  refine congrArg (m (cLoc d)) (congrArg (fun q : Fin 100000 => ix2 q c) (Fin.ext ?_))
  exact rows_ixRow d L lab 3 ![3, 0] rfl inb_S4x128_S1x128_3_0 (fun _ => rfl) squeezes_S1x128_S128 hn128
    (fun x => lt_of_lt_of_eq (idx_inb d L lab hlab (ixS).view.junk (PAY d L lab) rfl ![3, 0] inb_S4x128_S1x128_3_0 (fun _ => rfl) squeezes_S1x128_S128 x) hz100000.symm)
    r r.isLt

/-! ## What each row loop reads

Loop 1 consumes chunk 0 from slot 0 of the scratches as they stand after chunks 0 and 1 have landed; loop 2 chunk 1 from
slot 1 after chunk 2 has landed in slot 0; loop 3 chunk 2 from slot 0 and loop 4 chunk 3 from slot 1, after chunk 3 has
landed in slot 1. -/

variable (t1 : Buf (Elt F) ((cnS).view.loc (VT d L))) (t2 : Buf (Elt F) ((ftS).view.loc (VT d L))) (t3 : Buf (Elt F) ((wtS).view.loc (VT d L)))

/-- The features scratch as loop 1 finds it holds, at slot 0, chunk 0's rows. -/
theorem ftC2_0 (r c : Fin 128) :
    ftC2 m d L t2 (ix3 (0 : Fin 2) r c) = m (fLoc d) (ix2 (⟨512 * (2 * (L 1).val + (L 0).val) + 128 * 0 + r.val, frow_lt L 0 r⟩ : Fin 16384) c) := by
  unfold ftC2; rw [W1_ft_0, W0_ft_0, fPay0_apply]

/-- The features scratch as loop 2 finds it holds, at slot 1, chunk 1's rows. -/
theorem ftC3_1 (r c : Fin 128) :
    ftC3 m d L t2 (ix3 (1 : Fin 2) r c) = m (fLoc d) (ix2 (⟨512 * (2 * (L 1).val + (L 0).val) + 128 * 1 + r.val, frow_lt L 1 r⟩ : Fin 16384) c) := by
  unfold ftC3; rw [W0_ft_1]; unfold ftC2; rw [W1_ft_1, fPay1_apply]

/-- The features scratch as loop 3 finds it holds, at slot 0, chunk 2's rows. -/
theorem ftC4_0 (r c : Fin 128) :
    ftC4 m d L t2 (ix3 (0 : Fin 2) r c) = m (fLoc d) (ix2 (⟨512 * (2 * (L 1).val + (L 0).val) + 128 * 2 + r.val, frow_lt L 2 r⟩ : Fin 16384) c) := by
  unfold ftC4; rw [W1_ft_0]; unfold ftC3; rw [W0_ft_0, fPay2_apply]

/-- The features scratch as loop 4 finds it holds, at slot 1, chunk 3's rows. -/
theorem ftC4_1 (r c : Fin 128) :
    ftC4 m d L t2 (ix3 (1 : Fin 2) r c) = m (fLoc d) (ix2 (⟨512 * (2 * (L 1).val + (L 0).val) + 128 * 3 + r.val, frow_lt L 3 r⟩ : Fin 16384) c) := by
  unfold ftC4; rw [W1_ft_1, fPay3_apply]

/-- The weights scratch as loop 1 finds it holds, at slot 0, chunk 0's rows. -/
theorem wtC2_0 (r c : Fin 128) :
    wtC2 m d L t3 (ix3 (0 : Fin 2) r c) = m (aLoc d) (ix2 (⟨512 * (2 * (L 1).val + (L 0).val) + 128 * 0 + r.val, frow_lt L 0 r⟩ : Fin 16384) c) := by
  unfold wtC2; rw [W1_wt_0, W0_wt_0, aPay0_apply]

/-- The weights scratch as loop 2 finds it holds, at slot 1, chunk 1's rows. -/
theorem wtC3_1 (r c : Fin 128) :
    wtC3 m d L t3 (ix3 (1 : Fin 2) r c) = m (aLoc d) (ix2 (⟨512 * (2 * (L 1).val + (L 0).val) + 128 * 1 + r.val, frow_lt L 1 r⟩ : Fin 16384) c) := by
  unfold wtC3; rw [W0_wt_1]; unfold wtC2; rw [W1_wt_1, aPay1_apply]

/-- The weights scratch as loop 3 finds it holds, at slot 0, chunk 2's rows. -/
theorem wtC4_0 (r c : Fin 128) :
    wtC4 m d L t3 (ix3 (0 : Fin 2) r c) = m (aLoc d) (ix2 (⟨512 * (2 * (L 1).val + (L 0).val) + 128 * 2 + r.val, frow_lt L 2 r⟩ : Fin 16384) c) := by
  unfold wtC4; rw [W1_wt_0]; unfold wtC3; rw [W0_wt_0, aPay2_apply]

/-- The weights scratch as loop 4 finds it holds, at slot 1, chunk 3's rows. -/
theorem wtC4_1 (r c : Fin 128) :
    wtC4 m d L t3 (ix3 (1 : Fin 2) r c) = m (aLoc d) (ix2 (⟨512 * (2 * (L 1).val + (L 0).val) + 128 * 3 + r.val, frow_lt L 3 r⟩ : Fin 16384) c) := by
  unfold wtC4; rw [W1_wt_1, aPay3_apply]

/-- The centres scratch as loop 1 finds it holds, at slot 0, chunk 0's rows. -/
theorem cnC2_0 (r c : Fin 128) :
    cnC2 m d L lab hlab t1 (ix3 (0 : Fin 2) r c) = m (cLoc d) (ix2 (⟨(lab d (ix2 (⟨4 * (2 * (L 1).val + (L 0).val) + 0, lrow_lt L 0⟩ : Fin 128) r)).toNat, hlab d _⟩ : Fin 100000) c) := by
  unfold cnC2; rw [W1_cn_0, W0_cn_0, cPay0_apply]

/-- The centres scratch as loop 2 finds it holds, at slot 1, chunk 1's rows. -/
theorem cnC3_1 (r c : Fin 128) :
    cnC3 m d L lab hlab t1 (ix3 (1 : Fin 2) r c) = m (cLoc d) (ix2 (⟨(lab d (ix2 (⟨4 * (2 * (L 1).val + (L 0).val) + 1, lrow_lt L 1⟩ : Fin 128) r)).toNat, hlab d _⟩ : Fin 100000) c) := by
  unfold cnC3; rw [W0_cn_1]; unfold cnC2; rw [W1_cn_1, cPay1_apply]

/-- The centres scratch as loop 3 finds it holds, at slot 0, chunk 2's rows. -/
theorem cnC4_0 (r c : Fin 128) :
    cnC4 m d L lab hlab t1 (ix3 (0 : Fin 2) r c) = m (cLoc d) (ix2 (⟨(lab d (ix2 (⟨4 * (2 * (L 1).val + (L 0).val) + 2, lrow_lt L 2⟩ : Fin 128) r)).toNat, hlab d _⟩ : Fin 100000) c) := by
  unfold cnC4; rw [W1_cn_0]; unfold cnC3; rw [W0_cn_0, cPay2_apply]

/-- The centres scratch as loop 4 finds it holds, at slot 1, chunk 3's rows. -/
theorem cnC4_1 (r c : Fin 128) :
    cnC4 m d L lab hlab t1 (ix3 (1 : Fin 2) r c) = m (cLoc d) (ix2 (⟨(lab d (ix2 (⟨4 * (2 * (L 1).val + (L 0).val) + 3, lrow_lt L 3⟩ : Fin 128) r)).toNat, hlab d _⟩ : Fin 100000) c) := by
  unfold cnC4; rw [W1_cn_1, cPay3_apply]

end Cert.Proof.KB

end
-- ==== Proof.KBResult.lean ====
/-
  The one whole-array result the tiles leave, and that each tile's piece is it.

  A tile's sixteen lane totals are computed from the scratches' contents as its four row loops find them, and every word
  a loop reads was put there by a copy before the loop: loop 1 and loop 3 read slot 0, loop 2 and loop 4 read slot 1,
  and each slot was filled with the chunk's rows just before. So the totals do not depend on what the scratches held
  before the task. That makes one function of the launch contents, `G`: the word at position 16·w + l of the
  partial-sums vector is lane l of worker w's totals, computed from any fixed prior contents. Each tile's copy-out
  writes exactly its sixteen words of `G`.
-/
import proofs.«216098_g21234318311461_cont_8to1_346_22_alg».proof.Proof.KBScratchRead
import proofs.«216098_g21234318311461_cont_8to1_346_22_alg».proof.Proof.KBOutSplit
import Idealize.ShloMosaic.Lib.WritesUnit

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "fV" => (Memref.whole Cert.Kernel.main_arg0_scv : Memref Cert.Kernel.sig Kind.scVector Space.hbm Cert.Kernel.S16384x128 EltTy.f32)
local notation "aV" => (Memref.whole Cert.Kernel.main_arg1_scv : Memref Cert.Kernel.sig Kind.scVector Space.hbm Cert.Kernel.S16384x128 EltTy.f32)
local notation "lV" => (Memref.whole Cert.Kernel.main_v0_scv : Memref Cert.Kernel.sig Kind.scVector Space.hbm Cert.Kernel.S128x128 EltTy.i32)
local notation "cenV" => (Memref.whole Cert.Kernel.main_arg3_scv : Memref Cert.Kernel.sig Kind.scVector Space.hbm Cert.Kernel.S100000x128 EltTy.f32)
local notation "oV" => (Memref.whole Cert.Kernel.main_v1_scv : Memref Cert.Kernel.sig Kind.scVector Space.hbm Cert.Kernel.S512 EltTy.f32)
local notation "ixS" => (Memref.whole Cert.Kernel.cc0_scratch0 : Memref Cert.Kernel.sig Kind.scVector Space.vmem Cert.Kernel.S4x128 EltTy.i32)
local notation "cnS" => (Memref.whole Cert.Kernel.cc0_scratch1 : Memref Cert.Kernel.sig Kind.scVector Space.vmem Cert.Kernel.S2x128x128 EltTy.f32)
local notation "ftS" => (Memref.whole Cert.Kernel.cc0_scratch2 : Memref Cert.Kernel.sig Kind.scVector Space.vmem Cert.Kernel.S2x128x128 EltTy.f32)
local notation "wtS" => (Memref.whole Cert.Kernel.cc0_scratch3 : Memref Cert.Kernel.sig Kind.scVector Space.vmem Cert.Kernel.S2x128x128 EltTy.f32)
local notation "acS" => (Memref.whole Cert.Kernel.cc0_scratch4 : Memref Cert.Kernel.sig Kind.scVector Space.vmem Cert.Kernel.S16 EltTy.f32)

variable (d : Dev nD) (L : grid0.Coords)

/-! ## A row step reads one slot -/

/-- A sixteen-lane load from a two-slot scratch at an offset in slot `sl` reads only positions (sl, ·, ·): contents that
    agree there are read the same. -/
theorem readAt_slot (b : Memref sig .scVector .vmem S2x128x128 .f32) (sl : Fin 2) (off : Fin 3 → ℕ) (h0 : off 0 = sl.val)
    (inb : ∀ a, off a + S1x1x16.size a ≤ S2x128x128.size a) (X X' : Buf (Elt F) (b.view.loc (VT d L)))
    (h : ∀ r c : Fin 128, X (b.view.emb (ix3 sl r c)) = X' (b.view.emb (ix3 sl r c))) :
    View.readAt (Elt F) b.view (Rect.unit (s := S2x128x128) off S1x1x16.size inb).toLoadRect X
      = View.readAt (Elt F) b.view (Rect.unit (s := S2x128x128) off S1x1x16.size inb).toLoadRect X' := by
  refine View.readAt_congr fun i hi => ?_
  obtain ⟨y, hy, rfl⟩ := Finset.mem_map.mp hi
  have hy0 := (Rect.mem_set_unit.mp hy) 0
  obtain ⟨s', r, c, rfl⟩ : ∃ (s' : Fin 2) (r c : Fin 128), y = ix3 s' r c := ⟨y 0, y 1, y 2, eq_ix3 y⟩
  have hs : s' = sl := Fin.ext (by
    have e1 : S1x1x16.size 0 = 1 := rfl
    have e2 : ((ix3 s' r c : S2x128x128.Idx) 0 : ℕ) = s'.val := rfl
    omega)
  subst hs
  exact h r c

/-- Chunk 1's row step reads slot 0 only: contents that agree there give the same step. -/
theorem step1_congr (X1 X1' : Buf (Elt F) ((cnS).view.loc (VT d L))) (X2 X2' : Buf (Elt F) ((ftS).view.loc (VT d L))) (X3 X3' : Buf (Elt F) ((wtS).view.loc (VT d L)))
    (h1 : ∀ r c : Fin 128, X1 (ix3 (0 : Fin 2) r c) = X1' (ix3 (0 : Fin 2) r c))
    (h2 : ∀ r c : Fin 128, X2 (ix3 (0 : Fin 2) r c) = X2' (ix3 (0 : Fin 2) r c))
    (h3 : ∀ r c : Fin 128, X3 (ix3 (0 : Fin 2) r c) = X3' (ix3 (0 : Fin 2) r c)) :
    step1 d L X1 X2 X3 = step1 d L X1' X2' X3' := by
  funext k acc
  unfold step1
  exact (congr (congrArg Prod.mk
      (congr (congr (congrArg (k0_pay1 acc.1) (readAt_slot d L ftS 0 (k0_off3 k) (by rw [k0_off3_eq]; rfl) (k0_off3_inb k) X2 X2' h2)) (readAt_slot d L cnS 0 (k0_off3 k) (by rw [k0_off3_eq]; rfl) (k0_off3_inb k) X1 X1' h1)) (readAt_slot d L wtS 0 (k0_off3 k) (by rw [k0_off3_eq]; rfl) (k0_off3_inb k) X3 X3' h3)))
    (congr (congrArg Prod.mk
      (congr (congr (congrArg (k0_pay2 acc.2.1) (readAt_slot d L ftS 0 (k0_off4 k) (by rw [k0_off4_eq]; rfl) (k0_off4_inb k) X2 X2' h2)) (readAt_slot d L cnS 0 (k0_off4 k) (by rw [k0_off4_eq]; rfl) (k0_off4_inb k) X1 X1' h1)) (readAt_slot d L wtS 0 (k0_off4 k) (by rw [k0_off4_eq]; rfl) (k0_off4_inb k) X3 X3' h3)))
    (congr (congrArg Prod.mk
      (congr (congr (congrArg (k0_pay5 acc.2.2.1) (congrArg k0_pay3 (readAt_slot d L ftS 0 (k0_off5 k) (by rw [k0_off5_eq]; rfl) (k0_off5_inb k) X2 X2' h2))) (congrArg k0_pay4 (readAt_slot d L cnS 0 (k0_off5 k) (by rw [k0_off5_eq]; rfl) (k0_off5_inb k) X1 X1' h1))) (readAt_slot d L wtS 0 (k0_off5 k) (by rw [k0_off5_eq]; rfl) (k0_off5_inb k) X3 X3' h3)))
    (congr (congrArg Prod.mk
      (congr (congr (congrArg (k0_pay6 acc.2.2.2.1) (readAt_slot d L ftS 0 (k0_off6 k) (by rw [k0_off6_eq]; rfl) (k0_off6_inb k) X2 X2' h2)) (readAt_slot d L cnS 0 (k0_off6 k) (by rw [k0_off6_eq]; rfl) (k0_off6_inb k) X1 X1' h1)) (readAt_slot d L wtS 0 (k0_off6 k) (by rw [k0_off6_eq]; rfl) (k0_off6_inb k) X3 X3' h3)))
    (congr (congrArg Prod.mk
      (congr (congr (congrArg (k0_pay7 acc.2.2.2.2.1) (readAt_slot d L ftS 0 (k0_off7 k) (by rw [k0_off7_eq]; rfl) (k0_off7_inb k) X2 X2' h2)) (readAt_slot d L cnS 0 (k0_off7 k) (by rw [k0_off7_eq]; rfl) (k0_off7_inb k) X1 X1' h1)) (readAt_slot d L wtS 0 (k0_off7 k) (by rw [k0_off7_eq]; rfl) (k0_off7_inb k) X3 X3' h3)))
    (congr (congrArg Prod.mk
      (congr (congr (congrArg (k0_pay41 acc.2.2.2.2.2.1) (congrArg k0_pay8 (readAt_slot d L ftS 0 (k0_off8 k) (by rw [k0_off8_eq]; rfl) (k0_off8_inb k) X2 X2' h2))) (readAt_slot d L cnS 0 (k0_off8 k) (by rw [k0_off8_eq]; rfl) (k0_off8_inb k) X1 X1' h1)) (readAt_slot d L wtS 0 (k0_off8 k) (by rw [k0_off8_eq]; rfl) (k0_off8_inb k) X3 X3' h3)))
    (congr (congrArg Prod.mk
      (congr (congr (congrArg (k0_pay42 acc.2.2.2.2.2.2.1) (readAt_slot d L ftS 0 (k0_off9 k) (by rw [k0_off9_eq]; rfl) (k0_off9_inb k) X2 X2' h2)) (readAt_slot d L cnS 0 (k0_off9 k) (by rw [k0_off9_eq]; rfl) (k0_off9_inb k) X1 X1' h1)) (readAt_slot d L wtS 0 (k0_off9 k) (by rw [k0_off9_eq]; rfl) (k0_off9_inb k) X3 X3' h3)))
    (congr (congr (congrArg (k0_pay43 acc.2.2.2.2.2.2.2) (readAt_slot d L ftS 0 (k0_off10 k) (by rw [k0_off10_eq]; rfl) (k0_off10_inb k) X2 X2' h2)) (readAt_slot d L cnS 0 (k0_off10 k) (by rw [k0_off10_eq]; rfl) (k0_off10_inb k) X1 X1' h1)) (readAt_slot d L wtS 0 (k0_off10 k) (by rw [k0_off10_eq]; rfl) (k0_off10_inb k) X3 X3' h3)))))))))

/-- Chunk 2's row step reads slot 1 only: contents that agree there give the same step. -/
theorem step2_congr (X1 X1' : Buf (Elt F) ((cnS).view.loc (VT d L))) (X2 X2' : Buf (Elt F) ((ftS).view.loc (VT d L))) (X3 X3' : Buf (Elt F) ((wtS).view.loc (VT d L)))
    (h1 : ∀ r c : Fin 128, X1 (ix3 (1 : Fin 2) r c) = X1' (ix3 (1 : Fin 2) r c))
    (h2 : ∀ r c : Fin 128, X2 (ix3 (1 : Fin 2) r c) = X2' (ix3 (1 : Fin 2) r c))
    (h3 : ∀ r c : Fin 128, X3 (ix3 (1 : Fin 2) r c) = X3' (ix3 (1 : Fin 2) r c)) :
    step2 d L X1 X2 X3 = step2 d L X1' X2' X3' := by
  funext k acc
  unfold step2
  exact (congr (congrArg Prod.mk
      (congr (congr (congrArg (k0_pay9 acc.1) (readAt_slot d L ftS 1 (k0_off11 k) (by rw [k0_off11_eq]; rfl) (k0_off11_inb k) X2 X2' h2)) (readAt_slot d L cnS 1 (k0_off11 k) (by rw [k0_off11_eq]; rfl) (k0_off11_inb k) X1 X1' h1)) (readAt_slot d L wtS 1 (k0_off11 k) (by rw [k0_off11_eq]; rfl) (k0_off11_inb k) X3 X3' h3)))
    (congr (congrArg Prod.mk
      (congr (congr (congrArg (k0_pay10 acc.2.1) (readAt_slot d L ftS 1 (k0_off12 k) (by rw [k0_off12_eq]; rfl) (k0_off12_inb k) X2 X2' h2)) (readAt_slot d L cnS 1 (k0_off12 k) (by rw [k0_off12_eq]; rfl) (k0_off12_inb k) X1 X1' h1)) (readAt_slot d L wtS 1 (k0_off12 k) (by rw [k0_off12_eq]; rfl) (k0_off12_inb k) X3 X3' h3)))
    (congr (congrArg Prod.mk
      (congr (congr (congrArg (k0_pay13 acc.2.2.1) (congrArg k0_pay11 (readAt_slot d L ftS 1 (k0_off13 k) (by rw [k0_off13_eq]; rfl) (k0_off13_inb k) X2 X2' h2))) (congrArg k0_pay12 (readAt_slot d L cnS 1 (k0_off13 k) (by rw [k0_off13_eq]; rfl) (k0_off13_inb k) X1 X1' h1))) (readAt_slot d L wtS 1 (k0_off13 k) (by rw [k0_off13_eq]; rfl) (k0_off13_inb k) X3 X3' h3)))
    (congr (congrArg Prod.mk
      (congr (congr (congrArg (k0_pay14 acc.2.2.2.1) (readAt_slot d L ftS 1 (k0_off14 k) (by rw [k0_off14_eq]; rfl) (k0_off14_inb k) X2 X2' h2)) (readAt_slot d L cnS 1 (k0_off14 k) (by rw [k0_off14_eq]; rfl) (k0_off14_inb k) X1 X1' h1)) (readAt_slot d L wtS 1 (k0_off14 k) (by rw [k0_off14_eq]; rfl) (k0_off14_inb k) X3 X3' h3)))
    (congr (congrArg Prod.mk
      (congr (congr (congrArg (k0_pay15 acc.2.2.2.2.1) (readAt_slot d L ftS 1 (k0_off15 k) (by rw [k0_off15_eq]; rfl) (k0_off15_inb k) X2 X2' h2)) (readAt_slot d L cnS 1 (k0_off15 k) (by rw [k0_off15_eq]; rfl) (k0_off15_inb k) X1 X1' h1)) (readAt_slot d L wtS 1 (k0_off15 k) (by rw [k0_off15_eq]; rfl) (k0_off15_inb k) X3 X3' h3)))
    (congr (congrArg Prod.mk
      (congr (congr (congrArg (k0_pay44 acc.2.2.2.2.2.1) (congrArg k0_pay16 (readAt_slot d L ftS 1 (k0_off16 k) (by rw [k0_off16_eq]; rfl) (k0_off16_inb k) X2 X2' h2))) (readAt_slot d L cnS 1 (k0_off16 k) (by rw [k0_off16_eq]; rfl) (k0_off16_inb k) X1 X1' h1)) (readAt_slot d L wtS 1 (k0_off16 k) (by rw [k0_off16_eq]; rfl) (k0_off16_inb k) X3 X3' h3)))
    (congr (congrArg Prod.mk
      (congr (congr (congrArg (k0_pay45 acc.2.2.2.2.2.2.1) (readAt_slot d L ftS 1 (k0_off17 k) (by rw [k0_off17_eq]; rfl) (k0_off17_inb k) X2 X2' h2)) (readAt_slot d L cnS 1 (k0_off17 k) (by rw [k0_off17_eq]; rfl) (k0_off17_inb k) X1 X1' h1)) (readAt_slot d L wtS 1 (k0_off17 k) (by rw [k0_off17_eq]; rfl) (k0_off17_inb k) X3 X3' h3)))
    (congr (congr (congrArg (k0_pay46 acc.2.2.2.2.2.2.2) (readAt_slot d L ftS 1 (k0_off18 k) (by rw [k0_off18_eq]; rfl) (k0_off18_inb k) X2 X2' h2)) (readAt_slot d L cnS 1 (k0_off18 k) (by rw [k0_off18_eq]; rfl) (k0_off18_inb k) X1 X1' h1)) (readAt_slot d L wtS 1 (k0_off18 k) (by rw [k0_off18_eq]; rfl) (k0_off18_inb k) X3 X3' h3)))))))))

/-- Chunk 3's row step reads slot 0 only: contents that agree there give the same step. -/
theorem step3_congr (X1 X1' : Buf (Elt F) ((cnS).view.loc (VT d L))) (X2 X2' : Buf (Elt F) ((ftS).view.loc (VT d L))) (X3 X3' : Buf (Elt F) ((wtS).view.loc (VT d L)))
    (h1 : ∀ r c : Fin 128, X1 (ix3 (0 : Fin 2) r c) = X1' (ix3 (0 : Fin 2) r c))
    (h2 : ∀ r c : Fin 128, X2 (ix3 (0 : Fin 2) r c) = X2' (ix3 (0 : Fin 2) r c))
    (h3 : ∀ r c : Fin 128, X3 (ix3 (0 : Fin 2) r c) = X3' (ix3 (0 : Fin 2) r c)) :
    step3 d L X1 X2 X3 = step3 d L X1' X2' X3' := by
  funext k acc
  unfold step3
  exact (congr (congrArg Prod.mk
      (congr (congr (congrArg (k0_pay17 acc.1) (readAt_slot d L ftS 0 (k0_off19 k) (by rw [k0_off19_eq]; rfl) (k0_off19_inb k) X2 X2' h2)) (readAt_slot d L cnS 0 (k0_off19 k) (by rw [k0_off19_eq]; rfl) (k0_off19_inb k) X1 X1' h1)) (readAt_slot d L wtS 0 (k0_off19 k) (by rw [k0_off19_eq]; rfl) (k0_off19_inb k) X3 X3' h3)))
    (congr (congrArg Prod.mk
      (congr (congr (congrArg (k0_pay18 acc.2.1) (readAt_slot d L ftS 0 (k0_off20 k) (by rw [k0_off20_eq]; rfl) (k0_off20_inb k) X2 X2' h2)) (readAt_slot d L cnS 0 (k0_off20 k) (by rw [k0_off20_eq]; rfl) (k0_off20_inb k) X1 X1' h1)) (readAt_slot d L wtS 0 (k0_off20 k) (by rw [k0_off20_eq]; rfl) (k0_off20_inb k) X3 X3' h3)))
    (congr (congrArg Prod.mk
      (congr (congr (congrArg (k0_pay21 acc.2.2.1) (congrArg k0_pay19 (readAt_slot d L ftS 0 (k0_off21 k) (by rw [k0_off21_eq]; rfl) (k0_off21_inb k) X2 X2' h2))) (congrArg k0_pay20 (readAt_slot d L cnS 0 (k0_off21 k) (by rw [k0_off21_eq]; rfl) (k0_off21_inb k) X1 X1' h1))) (readAt_slot d L wtS 0 (k0_off21 k) (by rw [k0_off21_eq]; rfl) (k0_off21_inb k) X3 X3' h3)))
    (congr (congrArg Prod.mk
      (congr (congr (congrArg (k0_pay22 acc.2.2.2.1) (readAt_slot d L ftS 0 (k0_off22 k) (by rw [k0_off22_eq]; rfl) (k0_off22_inb k) X2 X2' h2)) (readAt_slot d L cnS 0 (k0_off22 k) (by rw [k0_off22_eq]; rfl) (k0_off22_inb k) X1 X1' h1)) (readAt_slot d L wtS 0 (k0_off22 k) (by rw [k0_off22_eq]; rfl) (k0_off22_inb k) X3 X3' h3)))
    (congr (congrArg Prod.mk
      (congr (congr (congrArg (k0_pay23 acc.2.2.2.2.1) (readAt_slot d L ftS 0 (k0_off23 k) (by rw [k0_off23_eq]; rfl) (k0_off23_inb k) X2 X2' h2)) (readAt_slot d L cnS 0 (k0_off23 k) (by rw [k0_off23_eq]; rfl) (k0_off23_inb k) X1 X1' h1)) (readAt_slot d L wtS 0 (k0_off23 k) (by rw [k0_off23_eq]; rfl) (k0_off23_inb k) X3 X3' h3)))
    (congr (congrArg Prod.mk
      (congr (congr (congrArg (k0_pay47 acc.2.2.2.2.2.1) (congrArg k0_pay24 (readAt_slot d L ftS 0 (k0_off24 k) (by rw [k0_off24_eq]; rfl) (k0_off24_inb k) X2 X2' h2))) (readAt_slot d L cnS 0 (k0_off24 k) (by rw [k0_off24_eq]; rfl) (k0_off24_inb k) X1 X1' h1)) (readAt_slot d L wtS 0 (k0_off24 k) (by rw [k0_off24_eq]; rfl) (k0_off24_inb k) X3 X3' h3)))
    (congr (congrArg Prod.mk
      (congr (congr (congrArg (k0_pay48 acc.2.2.2.2.2.2.1) (readAt_slot d L ftS 0 (k0_off25 k) (by rw [k0_off25_eq]; rfl) (k0_off25_inb k) X2 X2' h2)) (readAt_slot d L cnS 0 (k0_off25 k) (by rw [k0_off25_eq]; rfl) (k0_off25_inb k) X1 X1' h1)) (readAt_slot d L wtS 0 (k0_off25 k) (by rw [k0_off25_eq]; rfl) (k0_off25_inb k) X3 X3' h3)))
    (congr (congr (congrArg (k0_pay49 acc.2.2.2.2.2.2.2) (readAt_slot d L ftS 0 (k0_off26 k) (by rw [k0_off26_eq]; rfl) (k0_off26_inb k) X2 X2' h2)) (readAt_slot d L cnS 0 (k0_off26 k) (by rw [k0_off26_eq]; rfl) (k0_off26_inb k) X1 X1' h1)) (readAt_slot d L wtS 0 (k0_off26 k) (by rw [k0_off26_eq]; rfl) (k0_off26_inb k) X3 X3' h3)))))))))

/-- Chunk 4's row step reads slot 1 only: contents that agree there give the same step. -/
theorem step4_congr (X1 X1' : Buf (Elt F) ((cnS).view.loc (VT d L))) (X2 X2' : Buf (Elt F) ((ftS).view.loc (VT d L))) (X3 X3' : Buf (Elt F) ((wtS).view.loc (VT d L)))
    (h1 : ∀ r c : Fin 128, X1 (ix3 (1 : Fin 2) r c) = X1' (ix3 (1 : Fin 2) r c))
    (h2 : ∀ r c : Fin 128, X2 (ix3 (1 : Fin 2) r c) = X2' (ix3 (1 : Fin 2) r c))
    (h3 : ∀ r c : Fin 128, X3 (ix3 (1 : Fin 2) r c) = X3' (ix3 (1 : Fin 2) r c)) :
    step4 d L X1 X2 X3 = step4 d L X1' X2' X3' := by
  funext k acc
  unfold step4
  exact (congr (congrArg Prod.mk
      (congr (congr (congrArg (k0_pay25 acc.1) (readAt_slot d L ftS 1 (k0_off27 k) (by rw [k0_off27_eq]; rfl) (k0_off27_inb k) X2 X2' h2)) (readAt_slot d L cnS 1 (k0_off27 k) (by rw [k0_off27_eq]; rfl) (k0_off27_inb k) X1 X1' h1)) (readAt_slot d L wtS 1 (k0_off27 k) (by rw [k0_off27_eq]; rfl) (k0_off27_inb k) X3 X3' h3)))
    (congr (congrArg Prod.mk
      (congr (congr (congrArg (k0_pay26 acc.2.1) (readAt_slot d L ftS 1 (k0_off28 k) (by rw [k0_off28_eq]; rfl) (k0_off28_inb k) X2 X2' h2)) (readAt_slot d L cnS 1 (k0_off28 k) (by rw [k0_off28_eq]; rfl) (k0_off28_inb k) X1 X1' h1)) (readAt_slot d L wtS 1 (k0_off28 k) (by rw [k0_off28_eq]; rfl) (k0_off28_inb k) X3 X3' h3)))
    (congr (congrArg Prod.mk
      (congr (congr (congrArg (k0_pay29 acc.2.2.1) (congrArg k0_pay27 (readAt_slot d L ftS 1 (k0_off29 k) (by rw [k0_off29_eq]; rfl) (k0_off29_inb k) X2 X2' h2))) (congrArg k0_pay28 (readAt_slot d L cnS 1 (k0_off29 k) (by rw [k0_off29_eq]; rfl) (k0_off29_inb k) X1 X1' h1))) (readAt_slot d L wtS 1 (k0_off29 k) (by rw [k0_off29_eq]; rfl) (k0_off29_inb k) X3 X3' h3)))
    (congr (congrArg Prod.mk
      (congr (congr (congrArg (k0_pay30 acc.2.2.2.1) (readAt_slot d L ftS 1 (k0_off30 k) (by rw [k0_off30_eq]; rfl) (k0_off30_inb k) X2 X2' h2)) (readAt_slot d L cnS 1 (k0_off30 k) (by rw [k0_off30_eq]; rfl) (k0_off30_inb k) X1 X1' h1)) (readAt_slot d L wtS 1 (k0_off30 k) (by rw [k0_off30_eq]; rfl) (k0_off30_inb k) X3 X3' h3)))
    (congr (congrArg Prod.mk
      (congr (congr (congrArg (k0_pay31 acc.2.2.2.2.1) (readAt_slot d L ftS 1 (k0_off31 k) (by rw [k0_off31_eq]; rfl) (k0_off31_inb k) X2 X2' h2)) (readAt_slot d L cnS 1 (k0_off31 k) (by rw [k0_off31_eq]; rfl) (k0_off31_inb k) X1 X1' h1)) (readAt_slot d L wtS 1 (k0_off31 k) (by rw [k0_off31_eq]; rfl) (k0_off31_inb k) X3 X3' h3)))
    (congr (congrArg Prod.mk
      (congr (congr (congrArg (k0_pay50 acc.2.2.2.2.2.1) (congrArg k0_pay32 (readAt_slot d L ftS 1 (k0_off32 k) (by rw [k0_off32_eq]; rfl) (k0_off32_inb k) X2 X2' h2))) (readAt_slot d L cnS 1 (k0_off32 k) (by rw [k0_off32_eq]; rfl) (k0_off32_inb k) X1 X1' h1)) (readAt_slot d L wtS 1 (k0_off32 k) (by rw [k0_off32_eq]; rfl) (k0_off32_inb k) X3 X3' h3)))
    (congr (congrArg Prod.mk
      (congr (congr (congrArg (k0_pay51 acc.2.2.2.2.2.2.1) (readAt_slot d L ftS 1 (k0_off33 k) (by rw [k0_off33_eq]; rfl) (k0_off33_inb k) X2 X2' h2)) (readAt_slot d L cnS 1 (k0_off33 k) (by rw [k0_off33_eq]; rfl) (k0_off33_inb k) X1 X1' h1)) (readAt_slot d L wtS 1 (k0_off33 k) (by rw [k0_off33_eq]; rfl) (k0_off33_inb k) X3 X3' h3)))
    (congr (congr (congrArg (k0_pay52 acc.2.2.2.2.2.2.2) (readAt_slot d L ftS 1 (k0_off34 k) (by rw [k0_off34_eq]; rfl) (k0_off34_inb k) X2 X2' h2)) (readAt_slot d L cnS 1 (k0_off34 k) (by rw [k0_off34_eq]; rfl) (k0_off34_inb k) X1 X1' h1)) (readAt_slot d L wtS 1 (k0_off34 k) (by rw [k0_off34_eq]; rfl) (k0_off34_inb k) X3 X3' h3)))))))))

/-! ## The lane totals do not depend on the scratches' prior contents -/

variable (m : (ℓ : Loc nD τ sig) → Buf (Elt F) ℓ) (lab : (d : Dev nD) → Buf (Elt F) (lLoc d)) (hlab : ∀ d j, (lab d j).toNat < 100000)

theorem acc1_indep (t1 t1' : Buf (Elt F) ((cnS).view.loc (VT d L))) (t2 t2' : Buf (Elt F) ((ftS).view.loc (VT d L))) (t3 t3' : Buf (Elt F) ((wtS).view.loc (VT d L))) :
    acc1 m d L lab hlab t1 t2 t3 = acc1 m d L lab hlab t1' t2' t3' := by
  unfold acc1
  rw [step1_congr d L _ (cnC2 m d L lab hlab t1') _ (ftC2 m d L t2') _ (wtC2 m d L t3')
    (fun r c => (cnC2_0 d L m lab hlab t1 r c).trans (cnC2_0 d L m lab hlab t1' r c).symm)
    (fun r c => (ftC2_0 d L m t2 r c).trans (ftC2_0 d L m t2' r c).symm)
    (fun r c => (wtC2_0 d L m t3 r c).trans (wtC2_0 d L m t3' r c).symm)]

theorem acc2_indep (t1 t1' : Buf (Elt F) ((cnS).view.loc (VT d L))) (t2 t2' : Buf (Elt F) ((ftS).view.loc (VT d L))) (t3 t3' : Buf (Elt F) ((wtS).view.loc (VT d L))) :
    acc2 m d L lab hlab t1 t2 t3 = acc2 m d L lab hlab t1' t2' t3' := by
  unfold acc2
  rw [acc1_indep d L m lab hlab t1 t1' t2 t2' t3 t3',
    step2_congr d L _ (cnC3 m d L lab hlab t1') _ (ftC3 m d L t2') _ (wtC3 m d L t3')
    (fun r c => (cnC3_1 d L m lab hlab t1 r c).trans (cnC3_1 d L m lab hlab t1' r c).symm)
    (fun r c => (ftC3_1 d L m t2 r c).trans (ftC3_1 d L m t2' r c).symm)
    (fun r c => (wtC3_1 d L m t3 r c).trans (wtC3_1 d L m t3' r c).symm)]

theorem acc3_indep (t1 t1' : Buf (Elt F) ((cnS).view.loc (VT d L))) (t2 t2' : Buf (Elt F) ((ftS).view.loc (VT d L))) (t3 t3' : Buf (Elt F) ((wtS).view.loc (VT d L))) :
    acc3 m d L lab hlab t1 t2 t3 = acc3 m d L lab hlab t1' t2' t3' := by
  unfold acc3
  rw [acc2_indep d L m lab hlab t1 t1' t2 t2' t3 t3',
    step3_congr d L _ (cnC4 m d L lab hlab t1') _ (ftC4 m d L t2') _ (wtC4 m d L t3')
    (fun r c => (cnC4_0 d L m lab hlab t1 r c).trans (cnC4_0 d L m lab hlab t1' r c).symm)
    (fun r c => (ftC4_0 d L m t2 r c).trans (ftC4_0 d L m t2' r c).symm)
    (fun r c => (wtC4_0 d L m t3 r c).trans (wtC4_0 d L m t3' r c).symm)]

theorem acc4_indep (t1 t1' : Buf (Elt F) ((cnS).view.loc (VT d L))) (t2 t2' : Buf (Elt F) ((ftS).view.loc (VT d L))) (t3 t3' : Buf (Elt F) ((wtS).view.loc (VT d L))) :
    acc4 m d L lab hlab t1 t2 t3 = acc4 m d L lab hlab t1' t2' t3' := by
  unfold acc4
  rw [acc3_indep d L m lab hlab t1 t1' t2 t2' t3 t3',
    step4_congr d L _ (cnC4 m d L lab hlab t1') _ (ftC4 m d L t2') _ (wtC4 m d L t3')
    (fun r c => (cnC4_1 d L m lab hlab t1 r c).trans (cnC4_1 d L m lab hlab t1' r c).symm)
    (fun r c => (ftC4_1 d L m t2 r c).trans (ftC4_1 d L m t2' r c).symm)
    (fun r c => (wtC4_1 d L m t3 r c).trans (wtC4_1 d L m t3' r c).symm)]

/-- The tile's lane totals are the same whatever the three scratches held before the task. -/
theorem tileVec_indep (t1 t1' : Buf (Elt F) ((cnS).view.loc (VT d L))) (t2 t2' : Buf (Elt F) ((ftS).view.loc (VT d L))) (t3 t3' : Buf (Elt F) ((wtS).view.loc (VT d L))) :
    tileVec m d L lab hlab t1 t2 t3 = tileVec m d L lab hlab t1' t2' t3' := by
  unfold tileVec
  rw [acc4_indep d L m lab hlab t1 t1' t2 t2' t3 t3']

/-! ## The one result -/

/-- A tile's lane totals from fixed prior contents of the scratches. -/
def tileRes (d : Dev nD) (L : grid0.Coords) : FVec F S16 .f32 :=
  tileVec m d L lab hlab (cnS).view.junk (ftS).view.junk (wtS).view.junk

/-- The tile whose piece holds position x of the partial-sums vector: position 16·w + l belongs to worker w = 2·s + c,
    core c = w % 2, subcore s = w / 2. -/
def tileOfIdx (x : S512.Idx) : grid0.Coords :=
  coordsV ⟨((x 0).val / 16) % 2, by show _ < 2; omega⟩
    ⟨((x 0).val / 16) / 2, by have hx : (x 0).val < 512 := (x 0).isLt; show _ < 16; omega⟩

/-- THE RESULT: position 16·w + l of the partial-sums vector holds lane l of worker w's totals. -/
def G (d : Dev nD) : Buf (Elt F) (oLoc d) := fun (x : S512.Idx) =>
  tileRes m lab hlab d (tileOfIdx x) (ix1 ⟨(x 0).val % 16, Nat.mod_lt _ (by decide)⟩)

/-- Each tile's copy-out writes its sixteen words of the result. -/
theorem hG (d : Dev nD) (L : grid0.Coords) (t1 : Buf (Elt F) ((cnS).view.loc (VT d L))) (t2 : Buf (Elt F) ((ftS).view.loc (VT d L)))
    (t3 : Buf (Elt F) ((wtS).view.loc (VT d L))) (t4 : Buf (Elt F) ((acS).view.loc (VT d L))) : ∀ x ∈ oSet L,
    ((oSlice L).view.writes (Elt F) (m (oLoc d)) [⟨Rect.whole S16, outPay m d L lab hlab t1 t2 t3 t4⟩] : Buf (Elt F) (oLoc d)) x
      = G m lab hlab d x := by
  intro x hx
  obtain ⟨y, -, rfl⟩ := Finset.mem_map.mp hx
  have e1 : ((oSlice L).view.writes (Elt F) (m (oLoc d)) [⟨Rect.whole S16, outPay m d L lab hlab t1 t2 t3 t4⟩] : Buf (Elt F) (oLoc d))
        ((oSlice L).view.emb y) = outPay m d L lab hlab t1 t2 t3 t4 y :=
    ((View.read_apply _ _).trans (cast_eq _ _)).symm.trans
      (congrFun (View.read_writes_whole (oSlice L).view (m (oLoc d)) (outPay m d L lab hlab t1 t2 t3 t4)) y)
  rw [e1]
  -- the accumulator scratch read back after the store of the lane totals is the lane totals
  have e2 : outPay m d L lab hlab t1 t2 t3 t4 y = tileVec m d L lab hlab t1 t2 t3 y := by
    unfold outPay
    exact View.read_writes_cons_unit_of_mem (acS).view t4 inb_S16_S16_0 (tileVec m d L lab hlab t1 t2 t3) [] y y rfl
      (fun a => match a with | ⟨0, _⟩ => (Nat.zero_add _).symm)
  rw [e2]
  -- the position: 16·(2·s + c) + lane
  have hx0 : (((oSlice L).view.emb y : S512.Idx) 0).val = 32 * (L 1).val + 16 * (L 0).val + (y 0).val := by
    show (k0_off35 L) 0 + 1 * (y 0).val = _
    rw [k0_off35_eq]
    show 32 * (L 1).val + 16 * (L 0).val + 1 * (y 0).val = _
    omega
  have hy : (y 0).val < 16 := (y 0).isLt
  have hL0 := L0_lt L
  have hL1 := L1_lt L
  have hT : tileOfIdx ((oSlice L).view.emb y) = L := by
    funext a
    unfold tileOfIdx
    match a with
    | ⟨0, _⟩ => exact Fin.ext (by show ((((oSlice L).view.emb y : S512.Idx) 0).val / 16) % 2 = (L 0).val; rw [hx0]; omega)
    | ⟨1, _⟩ => exact Fin.ext (by show ((((oSlice L).view.emb y : S512.Idx) 0).val / 16) / 2 = (L 1).val; rw [hx0]; omega)
  have hl : (ix1 ⟨(((oSlice L).view.emb y : S512.Idx) 0).val % 16, Nat.mod_lt _ (by decide)⟩ : S16.Idx) = y := by
    funext a
    match a with
    | ⟨0, _⟩ => exact Fin.ext (by show (((oSlice L).view.emb y : S512.Idx) 0).val % 16 = (y 0).val; rw [hx0]; omega)
  show _ = tileRes m lab hlab d (tileOfIdx ((oSlice L).view.emb y)) (ix1 ⟨(((oSlice L).view.emb y : S512.Idx) 0).val % 16, Nat.mod_lt _ (by decide)⟩)
  rw [hT, hl]
  unfold tileRes
  rw [tileVec_indep d L m lab hlab t1 (cnS).view.junk t2 (ftS).view.junk t3 (wtS).view.junk]

end Cert.Proof.KB

end
-- ==== Proof.KBLaunch.lean ====
/-
  The kernel program's run: every weakly fair execution of the TensorCore's @main and the thirty-two tiles terminates
  without a fault, the four argument arrays end as they began, and the result holds the partial sums' total times
  2⁻¹⁵, the partial sums being the tiles' lane totals. The launch theorem applied to the tiles' obligation, the split of
  a SparseCore's hand-out among its tiles, @main's proof, and the launch element (the handshakes' rounds; this kernel
  has no protocol of its own).
-/
import proofs.«216098_g21234318311461_cont_8to1_346_22_alg».proof.Proof.KBTileObl
import proofs.«216098_g21234318311461_cont_8to1_346_22_alg».proof.Proof.KBVecSplit
import proofs.«216098_g21234318311461_cont_8to1_346_22_alg».proof.Proof.KBMain
import proofs.«216098_g21234318311461_cont_8to1_346_22_alg».proof.Proof.KBResult

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "fV" => (Memref.whole Cert.Kernel.main_arg0_scv : Memref Cert.Kernel.sig Kind.scVector Space.hbm Cert.Kernel.S16384x128 EltTy.f32)
local notation "aV" => (Memref.whole Cert.Kernel.main_arg1_scv : Memref Cert.Kernel.sig Kind.scVector Space.hbm Cert.Kernel.S16384x128 EltTy.f32)
local notation "lV" => (Memref.whole Cert.Kernel.main_v0_scv : Memref Cert.Kernel.sig Kind.scVector Space.hbm Cert.Kernel.S128x128 EltTy.i32)
local notation "cenV" => (Memref.whole Cert.Kernel.main_arg3_scv : Memref Cert.Kernel.sig Kind.scVector Space.hbm Cert.Kernel.S100000x128 EltTy.f32)
local notation "oV" => (Memref.whole Cert.Kernel.main_v1_scv : Memref Cert.Kernel.sig Kind.scVector Space.hbm Cert.Kernel.S512 EltTy.f32)
local notation "ixS" => (Memref.whole Cert.Kernel.cc0_scratch0 : Memref Cert.Kernel.sig Kind.scVector Space.vmem Cert.Kernel.S4x128 EltTy.i32)
local notation "cnS" => (Memref.whole Cert.Kernel.cc0_scratch1 : Memref Cert.Kernel.sig Kind.scVector Space.vmem Cert.Kernel.S2x128x128 EltTy.f32)
local notation "ftS" => (Memref.whole Cert.Kernel.cc0_scratch2 : Memref Cert.Kernel.sig Kind.scVector Space.vmem Cert.Kernel.S2x128x128 EltTy.f32)
local notation "wtS" => (Memref.whole Cert.Kernel.cc0_scratch3 : Memref Cert.Kernel.sig Kind.scVector Space.vmem Cert.Kernel.S2x128x128 EltTy.f32)
local notation "acS" => (Memref.whole Cert.Kernel.cc0_scratch4 : Memref Cert.Kernel.sig Kind.scVector Space.vmem Cert.Kernel.S16 EltTy.f32)

variable [FloatOps F] (m : (ℓ : Loc nD τ sig) → Buf (Elt F) ℓ) (ρ : Dev nD → PrngReg)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ (lab : (d : Dev nD) → Buf (Elt F) (lLoc d)) (G : (d : Dev nD) → Buf (Elt F) (oLoc d)) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m lab G).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The program's run -/

variable (hlab : ∀ d j, (lab m d j).toNat < 100000)

/-- The whole-array result at the labels the reshape lays out. -/
abbrev GG : (d : Dev nD) → Buf (Elt F) (oLoc d) := G m (lab m) hlab

/-- What the run leaves: the four arguments as they were, the result at the scaled total of the partial sums. -/
def QC : PUnit × MemSt nD τ sig (Elt F) → Prop := fun r => ∀ c : Dev nD,
  r.2.mem (fLoc c) = m (fLoc c) ∧ r.2.mem (aLoc c) = m (aLoc c) ∧ r.2.mem (gLoc c) = m (gLoc c) ∧ r.2.mem (cLoc c) = m (cLoc c)
    ∧ r.2.mem ((SparseCore.T c).loc main_v3) = VEnd m (GG m hlab) c (Proc.devRef .tc main_v3)

theorem run_main [∀ e, Nonempty (Elt F e)] :
    θ_run (Cert.Kernel.defs (F := F)) (Cert.Kernel.threads (F := F)) ⟨m, fun _ => 0, ρ⟩ (QC m hlab) :=
  SparseCore.Cfg.θ_run_sc (K := K (F := F)) (D := D (F := F)) (𝒱 := 𝒱) (EH := EH) (P := P m (lab m) (GG m hlab)) facts v₀
    (fun q hq => match q with | 0 => nomatch hq)
    (fun q _ => match q with | 0 => tileObl m (lab m) hlab (GG m hlab) facts (fun d L t1 t2 t3 t4 => hG m (lab m) hlab d L t1 t2 t3 t4))
    (fun q _ => match q with | 0 => SparseCore.Cfg.VecSplit.of_plain (vecSplit m (lab m) (GG m hlab)))
    m ρ main (fun _ => iprop(emp)) (FIN m (GG m hlab)) (u₀ (F := F)) (sep_elim_left.trans (hu₀ m (lab m) (GG m hlab)))
    (hmain m ρ (GG m hlab)) (fq m (GG m hlab)) (hfin m (GG m hlab)) (QC m hlab) (fun _ h => h)

end Cert.Proof.KB

end
-- ==== Proof.KICommon.lean ====
/-
  The SparseCore launch of the kernel, as the launch theorem sees it: the configuration, the ghost state (the launch
  handshakes' rounds beside the transfer counters), the arrays and scratch buffers as the tile body addresses them.

  Thirty-two tiles (two SparseCores of sixteen vector subcores) run the body once each. Tile (c, s) is worker
  w = 2·s + c; it reads rows 512·w … 512·w + 511 of the features and of the weights in four chunks of 128 rows, the four
  label rows 4·w … 4·w + 3 of the labels laid out as 128 × 128, and, through those labels, rows of the centres table; it
  writes the sixteen words 16·w … 16·w + 15 of the partial-sums vector. The four arrays that are only read are shared out
  as read shares of the whole arrays; the partial-sums vector is split into the tiles' sixteen-word pieces.
-/
import proofs.«216098_g21234318311461_cont_8to1_346_22_alg».proof.KernelIdeal
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«216098_g21234318311461_cont_8to1_346_22_alg».proof.Proof.Gen.KernelIdeal
import proofs.«216098_g21234318311461_cont_8to1_346_22_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

/-- The features, the weights, the labels as given (one per row), the labels laid out 128 × 128, the centres table, and
    the vector of partial sums, as the TensorCore names them. -/
abbrev fLoc (d : Dev nD) : Loc nD τ sig := (SparseCore.T d).loc main_arg0
abbrev aLoc (d : Dev nD) : Loc nD τ sig := (SparseCore.T d).loc main_arg1
abbrev gLoc (d : Dev nD) : Loc nD τ sig := (SparseCore.T d).loc main_arg2
abbrev lLoc (d : Dev nD) : Loc nD τ sig := (SparseCore.T d).loc main_v0
abbrev cLoc (d : Dev nD) : Loc nD τ sig := (SparseCore.T d).loc main_arg3
abbrev oLoc (d : Dev nD) : Loc nD τ sig := (SparseCore.T d).loc main_v1

-- the kernel's memrefs, spelt as the body table passes them
local notation "fV" => (Memref.whole Cert.KernelIdeal.main_arg0_scv : Memref Cert.KernelIdeal.sig Kind.scVector Space.hbm Cert.KernelIdeal.S16384x128 EltTy.f32)
local notation "aV" => (Memref.whole Cert.KernelIdeal.main_arg1_scv : Memref Cert.KernelIdeal.sig Kind.scVector Space.hbm Cert.KernelIdeal.S16384x128 EltTy.f32)
local notation "lV" => (Memref.whole Cert.KernelIdeal.main_v0_scv : Memref Cert.KernelIdeal.sig Kind.scVector Space.hbm Cert.KernelIdeal.S128x128 EltTy.i32)
local notation "cenV" => (Memref.whole Cert.KernelIdeal.main_arg3_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S512 EltTy.f32)
local notation "ixS" => (Memref.whole Cert.KernelIdeal.cc0_scratch0 : Memref Cert.KernelIdeal.sig Kind.scVector Space.vmem Cert.KernelIdeal.S4x128 EltTy.i32)
local notation "cnS" => (Memref.whole Cert.KernelIdeal.cc0_scratch1 : Memref Cert.KernelIdeal.sig Kind.scVector Space.vmem Cert.KernelIdeal.S2x128x128 EltTy.f32)
local notation "ftS" => (Memref.whole Cert.KernelIdeal.cc0_scratch2 : Memref Cert.KernelIdeal.sig Kind.scVector Space.vmem Cert.KernelIdeal.S2x128x128 EltTy.f32)
local notation "wtS" => (Memref.whole Cert.KernelIdeal.cc0_scratch3 : Memref Cert.KernelIdeal.sig Kind.scVector Space.vmem Cert.KernelIdeal.S2x128x128 EltTy.f32)
local notation "acS" => (Memref.whole Cert.KernelIdeal.cc0_scratch4 : Memref Cert.KernelIdeal.sig Kind.scVector Space.vmem Cert.KernelIdeal.S16 EltTy.f32)

/-- The tile a pair of grid coordinates names. -/
abbrev coreOf (L : grid0.Coords) : Fin τ.nSC := (L 0).castLE hcore0
abbrev subOf (L : grid0.Coords) : Fin τ.nSub := (L 1).castLE hsub0
abbrev VT (d : Dev nD) (L : grid0.Coords) : Thread nD τ := V d (coreOf L) (subOf L)

def coordsV (c : Fin (grid0.bound 0)) (s : Fin (grid0.bound 1)) : grid0.Coords :=
  fun | 0 => c | 1 => s | ⟨_ + 2, h⟩ => absurd h (Nat.not_lt.2 (Nat.le_add_left _ _))

/-- The sixteen words of the partial-sums vector a tile writes, as the body slices them. -/
abbrev oRectK (L : grid0.Coords) : Rect S512 := Rect.unit (s := S512) (k0_off35 L) S16.size (k0_off35_inb L)
abbrev oSlice (L : grid0.Coords) : Memref sig .scVector .hbm S16 .f32 := (oV).slice (oRectK L) (fun _ => rfl)
abbrev oSet (L : grid0.Coords) : Finset S512.Idx := (oSlice L).view.set

end Cert.Proof.KI

end
-- ==== Proof.KILoop.lean ====
/-
  The four row loops of the tile body, one per chunk of 128 rows.

  A trip loads row `k` of the current slot of the three scratches (features, gathered centres, weights) as eight
  vectors of sixteen lanes each and adds `(w · (f − c)) · (f − c)` to the eight accumulators it carries. Nothing is
  stored: the invariant keeps the scratches as they are and says the accumulators are the first `k` rows folded into the
  values the loop started from. While a loop runs, the copies for the next chunk may be landing in the other slot, so
  the scratches are held less that slot's window.
-/
import proofs.«216098_g21234318311461_cont_8to1_346_22_alg».proof.Proof.KICommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "fV" => (Memref.whole Cert.KernelIdeal.main_arg0_scv : Memref Cert.KernelIdeal.sig Kind.scVector Space.hbm Cert.KernelIdeal.S16384x128 EltTy.f32)
local notation "aV" => (Memref.whole Cert.KernelIdeal.main_arg1_scv : Memref Cert.KernelIdeal.sig Kind.scVector Space.hbm Cert.KernelIdeal.S16384x128 EltTy.f32)
local notation "lV" => (Memref.whole Cert.KernelIdeal.main_v0_scv : Memref Cert.KernelIdeal.sig Kind.scVector Space.hbm Cert.KernelIdeal.S128x128 EltTy.i32)
local notation "cenV" => (Memref.whole Cert.KernelIdeal.main_arg3_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S512 EltTy.f32)
local notation "ixS" => (Memref.whole Cert.KernelIdeal.cc0_scratch0 : Memref Cert.KernelIdeal.sig Kind.scVector Space.vmem Cert.KernelIdeal.S4x128 EltTy.i32)
local notation "cnS" => (Memref.whole Cert.KernelIdeal.cc0_scratch1 : Memref Cert.KernelIdeal.sig Kind.scVector Space.vmem Cert.KernelIdeal.S2x128x128 EltTy.f32)
local notation "ftS" => (Memref.whole Cert.KernelIdeal.cc0_scratch2 : Memref Cert.KernelIdeal.sig Kind.scVector Space.vmem Cert.KernelIdeal.S2x128x128 EltTy.f32)
local notation "wtS" => (Memref.whole Cert.KernelIdeal.cc0_scratch3 : Memref Cert.KernelIdeal.sig Kind.scVector Space.vmem Cert.KernelIdeal.S2x128x128 EltTy.f32)
local notation "acS" => (Memref.whole Cert.KernelIdeal.cc0_scratch4 : Memref Cert.KernelIdeal.sig Kind.scVector Space.vmem Cert.KernelIdeal.S16 EltTy.f32)

/-- `step` folded over the first `k` trips from `init` (trips past the count change nothing). -/
def iterCore {σ : Type} {n : ℕ} (step : Fin n → σ → σ) (init : σ) : ℕ → σ
  | 0 => init
  | k + 1 => if h : k < n then step ⟨k, h⟩ (iterCore step init k) else iterCore step init k

theorem iterCore_succ {σ : Type} {n : ℕ} (step : Fin n → σ → σ) (init : σ) (k : Fin n) :
    iterCore step init (k.val + 1) = step k (iterCore step init k.val) := by
  show (if h : k.val < n then step ⟨k.val, h⟩ (iterCore step init k.val) else iterCore step init k.val) = _
  rw [dif_pos k.isLt]

/-- The same fold, with the empty fold decided before the fold is opened: at no trip it is the start value. -/
def iter {σ : Type} {n : ℕ} (step : Fin n → σ → σ) (init : σ) (k : ℕ) : σ :=
  if k = 0 then init else iterCore step init k

theorem iter_zero {σ : Type} {n : ℕ} (step : Fin n → σ → σ) (init : σ) : iter step init 0 = init := rfl

theorem iter_eq_core {σ : Type} {n : ℕ} (step : Fin n → σ → σ) (init : σ) (k : ℕ) : iter step init k = iterCore step init k := by
  unfold iter
  split
  · next h => subst h; rfl
  · rfl

theorem iter_succ {σ : Type} {n : ℕ} (step : Fin n → σ → σ) (init : σ) (k : Fin n) :
    iter step init (k.val + 1) = step k (iter step init k.val) := by
  rw [iter_eq_core, iter_eq_core, iterCore_succ]

attribute [irreducible] iterCore

variable [FloatOps F] (d : Dev nD) (L : grid0.Coords)

/-- Slot 0 and slot 1 of a two-slot scratch, as the body slices them. -/
abbrev slot0 (b : Memref sig .scVector .vmem S2x128x128 .f32) : Memref sig .scVector .vmem S128x128 .f32 :=
  (b.slice (Rect.unit (s := S2x128x128) ![0, 0, 0] S1x128x128.size inb_S2x128x128_S1x128x128_0_0_0) (fun _ => rfl)).squeeze S128x128 squeezes_S1x128x128_S128x128
abbrev slot1 (b : Memref sig .scVector .vmem S2x128x128 .f32) : Memref sig .scVector .vmem S128x128 .f32 :=
  (b.slice (Rect.unit (s := S2x128x128) ![1, 0, 0] S1x128x128.size inb_S2x128x128_S1x128x128_1_0_0) (fun _ => rfl)).squeeze S128x128 squeezes_S1x128x128_S128x128

/-- One row of chunk 1's accumulation: the eight lane vectors of row `k` of the features, centres and weights slots
    folded into the eight accumulators, `acc + (w · (f − c)) · (f − c)` lane by lane. -/
def step1 (X1 : Buf (Elt F) ((cnS).view.loc (VT d L))) (X2 : Buf (Elt F) ((ftS).view.loc (VT d L))) (X3 : Buf (Elt F) ((wtS).view.loc (VT d L)))
    (k : Fin k0_t1_loop.trips) (acc : FVec F S16 .f32 × FVec F S16 .f32 × FVec F S16 .f32 × FVec F S16 .f32 × FVec F S16 .f32 × FVec F S16 .f32 × FVec F S16 .f32 × FVec F S16 .f32) : FVec F S16 .f32 × FVec F S16 .f32 × FVec F S16 .f32 × FVec F S16 .f32 × FVec F S16 .f32 × FVec F S16 .f32 × FVec F S16 .f32 × FVec F S16 .f32 :=
  (k0_pay1 acc.1 (View.readAt (Elt F) (ftS).view (Rect.unit (s := S2x128x128) (k0_off3 k) S1x1x16.size (k0_off3_inb k)).toLoadRect X2) (View.readAt (Elt F) (cnS).view (Rect.unit (s := S2x128x128) (k0_off3 k) S1x1x16.size (k0_off3_inb k)).toLoadRect X1) (View.readAt (Elt F) (wtS).view (Rect.unit (s := S2x128x128) (k0_off3 k) S1x1x16.size (k0_off3_inb k)).toLoadRect X3),
   k0_pay2 acc.2.1 (View.readAt (Elt F) (ftS).view (Rect.unit (s := S2x128x128) (k0_off4 k) S1x1x16.size (k0_off4_inb k)).toLoadRect X2) (View.readAt (Elt F) (cnS).view (Rect.unit (s := S2x128x128) (k0_off4 k) S1x1x16.size (k0_off4_inb k)).toLoadRect X1) (View.readAt (Elt F) (wtS).view (Rect.unit (s := S2x128x128) (k0_off4 k) S1x1x16.size (k0_off4_inb k)).toLoadRect X3),
   k0_pay5 acc.2.2.1 (k0_pay3 (View.readAt (Elt F) (ftS).view (Rect.unit (s := S2x128x128) (k0_off5 k) S1x1x16.size (k0_off5_inb k)).toLoadRect X2)) (k0_pay4 (View.readAt (Elt F) (cnS).view (Rect.unit (s := S2x128x128) (k0_off5 k) S1x1x16.size (k0_off5_inb k)).toLoadRect X1)) (View.readAt (Elt F) (wtS).view (Rect.unit (s := S2x128x128) (k0_off5 k) S1x1x16.size (k0_off5_inb k)).toLoadRect X3),
   k0_pay6 acc.2.2.2.1 (View.readAt (Elt F) (ftS).view (Rect.unit (s := S2x128x128) (k0_off6 k) S1x1x16.size (k0_off6_inb k)).toLoadRect X2) (View.readAt (Elt F) (cnS).view (Rect.unit (s := S2x128x128) (k0_off6 k) S1x1x16.size (k0_off6_inb k)).toLoadRect X1) (View.readAt (Elt F) (wtS).view (Rect.unit (s := S2x128x128) (k0_off6 k) S1x1x16.size (k0_off6_inb k)).toLoadRect X3),
   k0_pay7 acc.2.2.2.2.1 (View.readAt (Elt F) (ftS).view (Rect.unit (s := S2x128x128) (k0_off7 k) S1x1x16.size (k0_off7_inb k)).toLoadRect X2) (View.readAt (Elt F) (cnS).view (Rect.unit (s := S2x128x128) (k0_off7 k) S1x1x16.size (k0_off7_inb k)).toLoadRect X1) (View.readAt (Elt F) (wtS).view (Rect.unit (s := S2x128x128) (k0_off7 k) S1x1x16.size (k0_off7_inb k)).toLoadRect X3),
   k0_pay41 acc.2.2.2.2.2.1 (k0_pay8 (View.readAt (Elt F) (ftS).view (Rect.unit (s := S2x128x128) (k0_off8 k) S1x1x16.size (k0_off8_inb k)).toLoadRect X2)) (View.readAt (Elt F) (cnS).view (Rect.unit (s := S2x128x128) (k0_off8 k) S1x1x16.size (k0_off8_inb k)).toLoadRect X1) (View.readAt (Elt F) (wtS).view (Rect.unit (s := S2x128x128) (k0_off8 k) S1x1x16.size (k0_off8_inb k)).toLoadRect X3),
   k0_pay42 acc.2.2.2.2.2.2.1 (View.readAt (Elt F) (ftS).view (Rect.unit (s := S2x128x128) (k0_off9 k) S1x1x16.size (k0_off9_inb k)).toLoadRect X2) (View.readAt (Elt F) (cnS).view (Rect.unit (s := S2x128x128) (k0_off9 k) S1x1x16.size (k0_off9_inb k)).toLoadRect X1) (View.readAt (Elt F) (wtS).view (Rect.unit (s := S2x128x128) (k0_off9 k) S1x1x16.size (k0_off9_inb k)).toLoadRect X3),
   k0_pay43 acc.2.2.2.2.2.2.2 (View.readAt (Elt F) (ftS).view (Rect.unit (s := S2x128x128) (k0_off10 k) S1x1x16.size (k0_off10_inb k)).toLoadRect X2) (View.readAt (Elt F) (cnS).view (Rect.unit (s := S2x128x128) (k0_off10 k) S1x1x16.size (k0_off10_inb k)).toLoadRect X1) (View.readAt (Elt F) (wtS).view (Rect.unit (s := S2x128x128) (k0_off10 k) S1x1x16.size (k0_off10_inb k)).toLoadRect X3))

/-- One row of chunk 2's accumulation: the eight lane vectors of row `k` of the features, centres and weights slots
    folded into the eight accumulators, `acc + (w · (f − c)) · (f − c)` lane by lane. -/
def step2 (X1 : Buf (Elt F) ((cnS).view.loc (VT d L))) (X2 : Buf (Elt F) ((ftS).view.loc (VT d L))) (X3 : Buf (Elt F) ((wtS).view.loc (VT d L)))
    (k : Fin k0_t2_loop.trips) (acc : FVec F S16 .f32 × FVec F S16 .f32 × FVec F S16 .f32 × FVec F S16 .f32 × FVec F S16 .f32 × FVec F S16 .f32 × FVec F S16 .f32 × FVec F S16 .f32) : FVec F S16 .f32 × FVec F S16 .f32 × FVec F S16 .f32 × FVec F S16 .f32 × FVec F S16 .f32 × FVec F S16 .f32 × FVec F S16 .f32 × FVec F S16 .f32 :=
  (k0_pay9 acc.1 (View.readAt (Elt F) (ftS).view (Rect.unit (s := S2x128x128) (k0_off11 k) S1x1x16.size (k0_off11_inb k)).toLoadRect X2) (View.readAt (Elt F) (cnS).view (Rect.unit (s := S2x128x128) (k0_off11 k) S1x1x16.size (k0_off11_inb k)).toLoadRect X1) (View.readAt (Elt F) (wtS).view (Rect.unit (s := S2x128x128) (k0_off11 k) S1x1x16.size (k0_off11_inb k)).toLoadRect X3),
   k0_pay10 acc.2.1 (View.readAt (Elt F) (ftS).view (Rect.unit (s := S2x128x128) (k0_off12 k) S1x1x16.size (k0_off12_inb k)).toLoadRect X2) (View.readAt (Elt F) (cnS).view (Rect.unit (s := S2x128x128) (k0_off12 k) S1x1x16.size (k0_off12_inb k)).toLoadRect X1) (View.readAt (Elt F) (wtS).view (Rect.unit (s := S2x128x128) (k0_off12 k) S1x1x16.size (k0_off12_inb k)).toLoadRect X3),
   k0_pay13 acc.2.2.1 (k0_pay11 (View.readAt (Elt F) (ftS).view (Rect.unit (s := S2x128x128) (k0_off13 k) S1x1x16.size (k0_off13_inb k)).toLoadRect X2)) (k0_pay12 (View.readAt (Elt F) (cnS).view (Rect.unit (s := S2x128x128) (k0_off13 k) S1x1x16.size (k0_off13_inb k)).toLoadRect X1)) (View.readAt (Elt F) (wtS).view (Rect.unit (s := S2x128x128) (k0_off13 k) S1x1x16.size (k0_off13_inb k)).toLoadRect X3),
   k0_pay14 acc.2.2.2.1 (View.readAt (Elt F) (ftS).view (Rect.unit (s := S2x128x128) (k0_off14 k) S1x1x16.size (k0_off14_inb k)).toLoadRect X2) (View.readAt (Elt F) (cnS).view (Rect.unit (s := S2x128x128) (k0_off14 k) S1x1x16.size (k0_off14_inb k)).toLoadRect X1) (View.readAt (Elt F) (wtS).view (Rect.unit (s := S2x128x128) (k0_off14 k) S1x1x16.size (k0_off14_inb k)).toLoadRect X3),
   k0_pay15 acc.2.2.2.2.1 (View.readAt (Elt F) (ftS).view (Rect.unit (s := S2x128x128) (k0_off15 k) S1x1x16.size (k0_off15_inb k)).toLoadRect X2) (View.readAt (Elt F) (cnS).view (Rect.unit (s := S2x128x128) (k0_off15 k) S1x1x16.size (k0_off15_inb k)).toLoadRect X1) (View.readAt (Elt F) (wtS).view (Rect.unit (s := S2x128x128) (k0_off15 k) S1x1x16.size (k0_off15_inb k)).toLoadRect X3),
   k0_pay44 acc.2.2.2.2.2.1 (k0_pay16 (View.readAt (Elt F) (ftS).view (Rect.unit (s := S2x128x128) (k0_off16 k) S1x1x16.size (k0_off16_inb k)).toLoadRect X2)) (View.readAt (Elt F) (cnS).view (Rect.unit (s := S2x128x128) (k0_off16 k) S1x1x16.size (k0_off16_inb k)).toLoadRect X1) (View.readAt (Elt F) (wtS).view (Rect.unit (s := S2x128x128) (k0_off16 k) S1x1x16.size (k0_off16_inb k)).toLoadRect X3),
   k0_pay45 acc.2.2.2.2.2.2.1 (View.readAt (Elt F) (ftS).view (Rect.unit (s := S2x128x128) (k0_off17 k) S1x1x16.size (k0_off17_inb k)).toLoadRect X2) (View.readAt (Elt F) (cnS).view (Rect.unit (s := S2x128x128) (k0_off17 k) S1x1x16.size (k0_off17_inb k)).toLoadRect X1) (View.readAt (Elt F) (wtS).view (Rect.unit (s := S2x128x128) (k0_off17 k) S1x1x16.size (k0_off17_inb k)).toLoadRect X3),
   k0_pay46 acc.2.2.2.2.2.2.2 (View.readAt (Elt F) (ftS).view (Rect.unit (s := S2x128x128) (k0_off18 k) S1x1x16.size (k0_off18_inb k)).toLoadRect X2) (View.readAt (Elt F) (cnS).view (Rect.unit (s := S2x128x128) (k0_off18 k) S1x1x16.size (k0_off18_inb k)).toLoadRect X1) (View.readAt (Elt F) (wtS).view (Rect.unit (s := S2x128x128) (k0_off18 k) S1x1x16.size (k0_off18_inb k)).toLoadRect X3))

/-- One row of chunk 3's accumulation: the eight lane vectors of row `k` of the features, centres and weights slots
    folded into the eight accumulators, `acc + (w · (f − c)) · (f − c)` lane by lane. -/
def step3 (X1 : Buf (Elt F) ((cnS).view.loc (VT d L))) (X2 : Buf (Elt F) ((ftS).view.loc (VT d L))) (X3 : Buf (Elt F) ((wtS).view.loc (VT d L)))
    (k : Fin k0_t3_loop.trips) (acc : FVec F S16 .f32 × FVec F S16 .f32 × FVec F S16 .f32 × FVec F S16 .f32 × FVec F S16 .f32 × FVec F S16 .f32 × FVec F S16 .f32 × FVec F S16 .f32) : FVec F S16 .f32 × FVec F S16 .f32 × FVec F S16 .f32 × FVec F S16 .f32 × FVec F S16 .f32 × FVec F S16 .f32 × FVec F S16 .f32 × FVec F S16 .f32 :=
  (k0_pay17 acc.1 (View.readAt (Elt F) (ftS).view (Rect.unit (s := S2x128x128) (k0_off19 k) S1x1x16.size (k0_off19_inb k)).toLoadRect X2) (View.readAt (Elt F) (cnS).view (Rect.unit (s := S2x128x128) (k0_off19 k) S1x1x16.size (k0_off19_inb k)).toLoadRect X1) (View.readAt (Elt F) (wtS).view (Rect.unit (s := S2x128x128) (k0_off19 k) S1x1x16.size (k0_off19_inb k)).toLoadRect X3),
   k0_pay18 acc.2.1 (View.readAt (Elt F) (ftS).view (Rect.unit (s := S2x128x128) (k0_off20 k) S1x1x16.size (k0_off20_inb k)).toLoadRect X2) (View.readAt (Elt F) (cnS).view (Rect.unit (s := S2x128x128) (k0_off20 k) S1x1x16.size (k0_off20_inb k)).toLoadRect X1) (View.readAt (Elt F) (wtS).view (Rect.unit (s := S2x128x128) (k0_off20 k) S1x1x16.size (k0_off20_inb k)).toLoadRect X3),
   k0_pay21 acc.2.2.1 (k0_pay19 (View.readAt (Elt F) (ftS).view (Rect.unit (s := S2x128x128) (k0_off21 k) S1x1x16.size (k0_off21_inb k)).toLoadRect X2)) (k0_pay20 (View.readAt (Elt F) (cnS).view (Rect.unit (s := S2x128x128) (k0_off21 k) S1x1x16.size (k0_off21_inb k)).toLoadRect X1)) (View.readAt (Elt F) (wtS).view (Rect.unit (s := S2x128x128) (k0_off21 k) S1x1x16.size (k0_off21_inb k)).toLoadRect X3),
   k0_pay22 acc.2.2.2.1 (View.readAt (Elt F) (ftS).view (Rect.unit (s := S2x128x128) (k0_off22 k) S1x1x16.size (k0_off22_inb k)).toLoadRect X2) (View.readAt (Elt F) (cnS).view (Rect.unit (s := S2x128x128) (k0_off22 k) S1x1x16.size (k0_off22_inb k)).toLoadRect X1) (View.readAt (Elt F) (wtS).view (Rect.unit (s := S2x128x128) (k0_off22 k) S1x1x16.size (k0_off22_inb k)).toLoadRect X3),
   k0_pay23 acc.2.2.2.2.1 (View.readAt (Elt F) (ftS).view (Rect.unit (s := S2x128x128) (k0_off23 k) S1x1x16.size (k0_off23_inb k)).toLoadRect X2) (View.readAt (Elt F) (cnS).view (Rect.unit (s := S2x128x128) (k0_off23 k) S1x1x16.size (k0_off23_inb k)).toLoadRect X1) (View.readAt (Elt F) (wtS).view (Rect.unit (s := S2x128x128) (k0_off23 k) S1x1x16.size (k0_off23_inb k)).toLoadRect X3),
   k0_pay47 acc.2.2.2.2.2.1 (k0_pay24 (View.readAt (Elt F) (ftS).view (Rect.unit (s := S2x128x128) (k0_off24 k) S1x1x16.size (k0_off24_inb k)).toLoadRect X2)) (View.readAt (Elt F) (cnS).view (Rect.unit (s := S2x128x128) (k0_off24 k) S1x1x16.size (k0_off24_inb k)).toLoadRect X1) (View.readAt (Elt F) (wtS).view (Rect.unit (s := S2x128x128) (k0_off24 k) S1x1x16.size (k0_off24_inb k)).toLoadRect X3),
   k0_pay48 acc.2.2.2.2.2.2.1 (View.readAt (Elt F) (ftS).view (Rect.unit (s := S2x128x128) (k0_off25 k) S1x1x16.size (k0_off25_inb k)).toLoadRect X2) (View.readAt (Elt F) (cnS).view (Rect.unit (s := S2x128x128) (k0_off25 k) S1x1x16.size (k0_off25_inb k)).toLoadRect X1) (View.readAt (Elt F) (wtS).view (Rect.unit (s := S2x128x128) (k0_off25 k) S1x1x16.size (k0_off25_inb k)).toLoadRect X3),
   k0_pay49 acc.2.2.2.2.2.2.2 (View.readAt (Elt F) (ftS).view (Rect.unit (s := S2x128x128) (k0_off26 k) S1x1x16.size (k0_off26_inb k)).toLoadRect X2) (View.readAt (Elt F) (cnS).view (Rect.unit (s := S2x128x128) (k0_off26 k) S1x1x16.size (k0_off26_inb k)).toLoadRect X1) (View.readAt (Elt F) (wtS).view (Rect.unit (s := S2x128x128) (k0_off26 k) S1x1x16.size (k0_off26_inb k)).toLoadRect X3))

/-- One row of chunk 4's accumulation: the eight lane vectors of row `k` of the features, centres and weights slots
    folded into the eight accumulators, `acc + (w · (f − c)) · (f − c)` lane by lane. -/
def step4 (X1 : Buf (Elt F) ((cnS).view.loc (VT d L))) (X2 : Buf (Elt F) ((ftS).view.loc (VT d L))) (X3 : Buf (Elt F) ((wtS).view.loc (VT d L)))
    (k : Fin k0_t4_loop.trips) (acc : FVec F S16 .f32 × FVec F S16 .f32 × FVec F S16 .f32 × FVec F S16 .f32 × FVec F S16 .f32 × FVec F S16 .f32 × FVec F S16 .f32 × FVec F S16 .f32) : FVec F S16 .f32 × FVec F S16 .f32 × FVec F S16 .f32 × FVec F S16 .f32 × FVec F S16 .f32 × FVec F S16 .f32 × FVec F S16 .f32 × FVec F S16 .f32 :=
  (k0_pay25 acc.1 (View.readAt (Elt F) (ftS).view (Rect.unit (s := S2x128x128) (k0_off27 k) S1x1x16.size (k0_off27_inb k)).toLoadRect X2) (View.readAt (Elt F) (cnS).view (Rect.unit (s := S2x128x128) (k0_off27 k) S1x1x16.size (k0_off27_inb k)).toLoadRect X1) (View.readAt (Elt F) (wtS).view (Rect.unit (s := S2x128x128) (k0_off27 k) S1x1x16.size (k0_off27_inb k)).toLoadRect X3),
   k0_pay26 acc.2.1 (View.readAt (Elt F) (ftS).view (Rect.unit (s := S2x128x128) (k0_off28 k) S1x1x16.size (k0_off28_inb k)).toLoadRect X2) (View.readAt (Elt F) (cnS).view (Rect.unit (s := S2x128x128) (k0_off28 k) S1x1x16.size (k0_off28_inb k)).toLoadRect X1) (View.readAt (Elt F) (wtS).view (Rect.unit (s := S2x128x128) (k0_off28 k) S1x1x16.size (k0_off28_inb k)).toLoadRect X3),
   k0_pay29 acc.2.2.1 (k0_pay27 (View.readAt (Elt F) (ftS).view (Rect.unit (s := S2x128x128) (k0_off29 k) S1x1x16.size (k0_off29_inb k)).toLoadRect X2)) (k0_pay28 (View.readAt (Elt F) (cnS).view (Rect.unit (s := S2x128x128) (k0_off29 k) S1x1x16.size (k0_off29_inb k)).toLoadRect X1)) (View.readAt (Elt F) (wtS).view (Rect.unit (s := S2x128x128) (k0_off29 k) S1x1x16.size (k0_off29_inb k)).toLoadRect X3),
   k0_pay30 acc.2.2.2.1 (View.readAt (Elt F) (ftS).view (Rect.unit (s := S2x128x128) (k0_off30 k) S1x1x16.size (k0_off30_inb k)).toLoadRect X2) (View.readAt (Elt F) (cnS).view (Rect.unit (s := S2x128x128) (k0_off30 k) S1x1x16.size (k0_off30_inb k)).toLoadRect X1) (View.readAt (Elt F) (wtS).view (Rect.unit (s := S2x128x128) (k0_off30 k) S1x1x16.size (k0_off30_inb k)).toLoadRect X3),
   k0_pay31 acc.2.2.2.2.1 (View.readAt (Elt F) (ftS).view (Rect.unit (s := S2x128x128) (k0_off31 k) S1x1x16.size (k0_off31_inb k)).toLoadRect X2) (View.readAt (Elt F) (cnS).view (Rect.unit (s := S2x128x128) (k0_off31 k) S1x1x16.size (k0_off31_inb k)).toLoadRect X1) (View.readAt (Elt F) (wtS).view (Rect.unit (s := S2x128x128) (k0_off31 k) S1x1x16.size (k0_off31_inb k)).toLoadRect X3),
   k0_pay50 acc.2.2.2.2.2.1 (k0_pay32 (View.readAt (Elt F) (ftS).view (Rect.unit (s := S2x128x128) (k0_off32 k) S1x1x16.size (k0_off32_inb k)).toLoadRect X2)) (View.readAt (Elt F) (cnS).view (Rect.unit (s := S2x128x128) (k0_off32 k) S1x1x16.size (k0_off32_inb k)).toLoadRect X1) (View.readAt (Elt F) (wtS).view (Rect.unit (s := S2x128x128) (k0_off32 k) S1x1x16.size (k0_off32_inb k)).toLoadRect X3),
   k0_pay51 acc.2.2.2.2.2.2.1 (View.readAt (Elt F) (ftS).view (Rect.unit (s := S2x128x128) (k0_off33 k) S1x1x16.size (k0_off33_inb k)).toLoadRect X2) (View.readAt (Elt F) (cnS).view (Rect.unit (s := S2x128x128) (k0_off33 k) S1x1x16.size (k0_off33_inb k)).toLoadRect X1) (View.readAt (Elt F) (wtS).view (Rect.unit (s := S2x128x128) (k0_off33 k) S1x1x16.size (k0_off33_inb k)).toLoadRect X3),
   k0_pay52 acc.2.2.2.2.2.2.2 (View.readAt (Elt F) (ftS).view (Rect.unit (s := S2x128x128) (k0_off34 k) S1x1x16.size (k0_off34_inb k)).toLoadRect X2) (View.readAt (Elt F) (cnS).view (Rect.unit (s := S2x128x128) (k0_off34 k) S1x1x16.size (k0_off34_inb k)).toLoadRect X1) (View.readAt (Elt F) (wtS).view (Rect.unit (s := S2x128x128) (k0_off34 k) S1x1x16.size (k0_off34_inb k)).toLoadRect X3))

/-- Chunk 1's row loop by its invariant: the three scratches as the loop finds them, the accumulators after `k` rows. -/
abbrev inv1 (X1 : Buf (Elt F) ((cnS).view.loc (VT d L))) (X2 : Buf (Elt F) ((ftS).view.loc (VT d L))) (X3 : Buf (Elt F) ((wtS).view.loc (VT d L)))
    (init : FVec F S16 .f32 × FVec F S16 .f32 × FVec F S16 .f32 × FVec F S16 .f32 × FVec F S16 .f32 × FVec F S16 .f32 × FVec F S16 .f32 × FVec F S16 .f32) (k : ℕ) (acc : FVec F S16 .f32 × FVec F S16 .f32 × FVec F S16 .f32 × FVec F S16 .f32 × FVec F S16 .f32 × FVec F S16 .f32 × FVec F S16 .f32 × FVec F S16 .f32) : sProp 𝕄 :=
  iprop(((cnS).view.loc (VT d L) ↦[(cnS).view.set \ (slot1 cnS).view.set]{fullShare} X1)
    ∗ ((ftS).view.loc (VT d L) ↦[(ftS).view.set \ (slot1 ftS).view.set]{fullShare} X2)
    ∗ ((wtS).view.loc (VT d L) ↦[(wtS).view.set \ (slot1 wtS).view.set]{fullShare} X3)
    ∗ ⌜acc = iter (step1 d L X1 X2 X3) init k⌝)

set_option warn.classDefReducibility false in
@[sl_loop] def loopInv1 (X1 : Buf (Elt F) ((cnS).view.loc (VT d L))) (X2 : Buf (Elt F) ((ftS).view.loc (VT d L))) (X3 : Buf (Elt F) ((wtS).view.loc (VT d L)))
    (v22 v23 v24 v25 v26 v27 v28 v29 : FVec F S16 .f32) (init : FVec F S16 .f32 × FVec F S16 .f32 × FVec F S16 .f32 × FVec F S16 .f32 × FVec F S16 .f32 × FVec F S16 .f32 × FVec F S16 .f32 × FVec F S16 .f32) :
    LoopInv (M := 𝕄) Idealize.ShloMosaic.frame (wpE (defs₀ (F := F)) 𝒱₀ (VT d L) none) Set.univ
      k0_t1_loop.lb k0_t1_loop.ub k0_t1_loop.st k0_t1_ok init
      (k0_t1_body (F := F) L fV (Memref.isWhole_whole _) aV (Memref.isWhole_whole _) lV (Memref.isWhole_whole _) cenV (Memref.isWhole_whole _) oV (Memref.isWhole_whole _)
            ixS (Memref.isWhole_whole _) cnS (Memref.isWhole_whole _) ftS (Memref.isWhole_whole _) wtS (Memref.isWhole_whole _) acS (Memref.isWhole_whole _)
            cc0_scratch5 cc0_scratch6 cc0_scratch7 cc0_scratch8 cc0_scratch9 cc0_scratch10 cc0_scoped0 cc0_scoped1 v22 v23 v24 v25 v26 v27 v28 v29) where
  inv := inv1 d L X1 X2 X3 init
  step k acc := by
    iintro ⟨H1, H2, H3, %hacc⟩
    unfold k0_t1_body
    sl_exec
    sl_step
    isplitl [H1]; · iexact H1
    isplitl [H2]; · iexact H2
    isplitl [H3]; · iexact H3
    ipureintro
    rw [iter_succ, ← hacc]
    rfl

/-- Chunk 2's row loop by its invariant: the three scratches as the loop finds them, the accumulators after `k` rows. -/
abbrev inv2 (X1 : Buf (Elt F) ((cnS).view.loc (VT d L))) (X2 : Buf (Elt F) ((ftS).view.loc (VT d L))) (X3 : Buf (Elt F) ((wtS).view.loc (VT d L)))
    (init : FVec F S16 .f32 × FVec F S16 .f32 × FVec F S16 .f32 × FVec F S16 .f32 × FVec F S16 .f32 × FVec F S16 .f32 × FVec F S16 .f32 × FVec F S16 .f32) (k : ℕ) (acc : FVec F S16 .f32 × FVec F S16 .f32 × FVec F S16 .f32 × FVec F S16 .f32 × FVec F S16 .f32 × FVec F S16 .f32 × FVec F S16 .f32 × FVec F S16 .f32) : sProp 𝕄 :=
  iprop(((cnS).view.loc (VT d L) ↦[(cnS).view.set \ (slot0 cnS).view.set]{fullShare} X1)
    ∗ ((ftS).view.loc (VT d L) ↦[(ftS).view.set \ (slot0 ftS).view.set]{fullShare} X2)
    ∗ ((wtS).view.loc (VT d L) ↦[(wtS).view.set \ (slot0 wtS).view.set]{fullShare} X3)
    ∗ ⌜acc = iter (step2 d L X1 X2 X3) init k⌝)

set_option warn.classDefReducibility false in
@[sl_loop] def loopInv2 (X1 : Buf (Elt F) ((cnS).view.loc (VT d L))) (X2 : Buf (Elt F) ((ftS).view.loc (VT d L))) (X3 : Buf (Elt F) ((wtS).view.loc (VT d L)))
    (v2 : BitVec 32) (v66_0 v66_1 v66_2 v66_3 v66_4 v66_5 v66_6 v66_7 : FVec F S16 .f32) (init : FVec F S16 .f32 × FVec F S16 .f32 × FVec F S16 .f32 × FVec F S16 .f32 × FVec F S16 .f32 × FVec F S16 .f32 × FVec F S16 .f32 × FVec F S16 .f32) :
    LoopInv (M := 𝕄) Idealize.ShloMosaic.frame (wpE (defs₀ (F := F)) 𝒱₀ (VT d L) none) Set.univ
      k0_t2_loop.lb k0_t2_loop.ub k0_t2_loop.st k0_t2_ok init
      (k0_t2_body (F := F) L fV (Memref.isWhole_whole _) aV (Memref.isWhole_whole _) lV (Memref.isWhole_whole _) cenV (Memref.isWhole_whole _) oV (Memref.isWhole_whole _)
            ixS (Memref.isWhole_whole _) cnS (Memref.isWhole_whole _) ftS (Memref.isWhole_whole _) wtS (Memref.isWhole_whole _) acS (Memref.isWhole_whole _)
            cc0_scratch5 cc0_scratch6 cc0_scratch7 cc0_scratch8 cc0_scratch9 cc0_scratch10 cc0_scoped0 cc0_scoped1 v2 v66_0 v66_1 v66_2 v66_3 v66_4 v66_5 v66_6 v66_7) where
  inv := inv2 d L X1 X2 X3 init
  step k acc := by
    iintro ⟨H1, H2, H3, %hacc⟩
    unfold k0_t2_body
    sl_exec
    sl_step
    isplitl [H1]; · iexact H1
    isplitl [H2]; · iexact H2
    isplitl [H3]; · iexact H3
    ipureintro
    rw [iter_succ, ← hacc]
    rfl

/-- Chunk 3's row loop by its invariant: the three scratches as the loop finds them, the accumulators after `k` rows. -/
abbrev inv3 (X1 : Buf (Elt F) ((cnS).view.loc (VT d L))) (X2 : Buf (Elt F) ((ftS).view.loc (VT d L))) (X3 : Buf (Elt F) ((wtS).view.loc (VT d L)))
    (init : FVec F S16 .f32 × FVec F S16 .f32 × FVec F S16 .f32 × FVec F S16 .f32 × FVec F S16 .f32 × FVec F S16 .f32 × FVec F S16 .f32 × FVec F S16 .f32) (k : ℕ) (acc : FVec F S16 .f32 × FVec F S16 .f32 × FVec F S16 .f32 × FVec F S16 .f32 × FVec F S16 .f32 × FVec F S16 .f32 × FVec F S16 .f32 × FVec F S16 .f32) : sProp 𝕄 :=
  iprop(((cnS).view.loc (VT d L) ↦[(cnS).view.set \ (slot1 cnS).view.set]{fullShare} X1)
    ∗ ((ftS).view.loc (VT d L) ↦[(ftS).view.set \ (slot1 ftS).view.set]{fullShare} X2)
    ∗ ((wtS).view.loc (VT d L) ↦[(wtS).view.set \ (slot1 wtS).view.set]{fullShare} X3)
    ∗ ⌜acc = iter (step3 d L X1 X2 X3) init k⌝)

set_option warn.classDefReducibility false in
@[sl_loop] def loopInv3 (X1 : Buf (Elt F) ((cnS).view.loc (VT d L))) (X2 : Buf (Elt F) ((ftS).view.loc (VT d L))) (X3 : Buf (Elt F) ((wtS).view.loc (VT d L)))
    (v103_0 v103_1 v103_2 v103_3 v103_4 v103_5 v103_6 v103_7 : FVec F S16 .f32) (init : FVec F S16 .f32 × FVec F S16 .f32 × FVec F S16 .f32 × FVec F S16 .f32 × FVec F S16 .f32 × FVec F S16 .f32 × FVec F S16 .f32 × FVec F S16 .f32) :
    LoopInv (M := 𝕄) Idealize.ShloMosaic.frame (wpE (defs₀ (F := F)) 𝒱₀ (VT d L) none) Set.univ
      k0_t3_loop.lb k0_t3_loop.ub k0_t3_loop.st k0_t3_ok init
      (k0_t3_body (F := F) L fV (Memref.isWhole_whole _) aV (Memref.isWhole_whole _) lV (Memref.isWhole_whole _) cenV (Memref.isWhole_whole _) oV (Memref.isWhole_whole _)
            ixS (Memref.isWhole_whole _) cnS (Memref.isWhole_whole _) ftS (Memref.isWhole_whole _) wtS (Memref.isWhole_whole _) acS (Memref.isWhole_whole _)
            cc0_scratch5 cc0_scratch6 cc0_scratch7 cc0_scratch8 cc0_scratch9 cc0_scratch10 cc0_scoped0 cc0_scoped1 v103_0 v103_1 v103_2 v103_3 v103_4 v103_5 v103_6 v103_7) where
  inv := inv3 d L X1 X2 X3 init
  step k acc := by
    iintro ⟨H1, H2, H3, %hacc⟩
    unfold k0_t3_body
    sl_exec
    sl_step
    isplitl [H1]; · iexact H1
    isplitl [H2]; · iexact H2
    isplitl [H3]; · iexact H3
    ipureintro
    rw [iter_succ, ← hacc]
    rfl

/-- Chunk 4's row loop by its invariant: the three scratches as the loop finds them, the accumulators after `k` rows. -/
abbrev inv4 (X1 : Buf (Elt F) ((cnS).view.loc (VT d L))) (X2 : Buf (Elt F) ((ftS).view.loc (VT d L))) (X3 : Buf (Elt F) ((wtS).view.loc (VT d L)))
    (init : FVec F S16 .f32 × FVec F S16 .f32 × FVec F S16 .f32 × FVec F S16 .f32 × FVec F S16 .f32 × FVec F S16 .f32 × FVec F S16 .f32 × FVec F S16 .f32) (k : ℕ) (acc : FVec F S16 .f32 × FVec F S16 .f32 × FVec F S16 .f32 × FVec F S16 .f32 × FVec F S16 .f32 × FVec F S16 .f32 × FVec F S16 .f32 × FVec F S16 .f32) : sProp 𝕄 :=
  iprop(((cnS).view.loc (VT d L) ↦[(cnS).view.set]{fullShare} X1)
    ∗ ((ftS).view.loc (VT d L) ↦[(ftS).view.set]{fullShare} X2)
    ∗ ((wtS).view.loc (VT d L) ↦[(wtS).view.set]{fullShare} X3)
    ∗ ⌜acc = iter (step4 d L X1 X2 X3) init k⌝)

set_option warn.classDefReducibility false in
@[sl_loop] def loopInv4 (X1 : Buf (Elt F) ((cnS).view.loc (VT d L))) (X2 : Buf (Elt F) ((ftS).view.loc (VT d L))) (X3 : Buf (Elt F) ((wtS).view.loc (VT d L)))
     (init : FVec F S16 .f32 × FVec F S16 .f32 × FVec F S16 .f32 × FVec F S16 .f32 × FVec F S16 .f32 × FVec F S16 .f32 × FVec F S16 .f32 × FVec F S16 .f32) :
    LoopInv (M := 𝕄) Idealize.ShloMosaic.frame (wpE (defs₀ (F := F)) 𝒱₀ (VT d L) none) Set.univ
      k0_t4_loop.lb k0_t4_loop.ub k0_t4_loop.st k0_t4_ok init
      (k0_t4_body (F := F) L fV (Memref.isWhole_whole _) aV (Memref.isWhole_whole _) lV (Memref.isWhole_whole _) cenV (Memref.isWhole_whole _) oV (Memref.isWhole_whole _)
            ixS (Memref.isWhole_whole _) cnS (Memref.isWhole_whole _) ftS (Memref.isWhole_whole _) wtS (Memref.isWhole_whole _) acS (Memref.isWhole_whole _)
            cc0_scratch5 cc0_scratch6 cc0_scratch7 cc0_scratch8 cc0_scratch9 cc0_scratch10 cc0_scoped0 cc0_scoped1) where
  inv := inv4 d L X1 X2 X3 init
  step k acc := by
    iintro ⟨H1, H2, H3, %hacc⟩
    unfold k0_t4_body
    sl_exec
    sl_step
    isplitl [H1]; · iexact H1
    isplitl [H2]; · iexact H2
    isplitl [H3]; · iexact H3
    ipureintro
    rw [iter_succ, ← hacc]
    rfl

end Cert.Proof.KI

end
-- ==== Proof.KITileVal.lean ====
/-
  What one tile computes, as closed terms over the launch contents.

  The tile fetches its four label rows, then for each of its four chunks of 128 rows gathers the labelled centre rows
  and copies the feature and weight rows into a slot of its scratches (even chunks into slot 0, odd chunks into slot 1),
  folds the chunk's 128 rows into eight sixteen-lane accumulators, and at the end adds the eight accumulators into one
  sixteen-lane vector that it writes to its piece of the partial-sums vector. This module names each of those values:
  the payload of every copy, the contents of each scratch as each loop finds it, the accumulators after each chunk, and
  the final vector.
-/
import proofs.«216098_g21234318311461_cont_8to1_346_22_alg».proof.Proof.KILoop

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "fV" => (Memref.whole Cert.KernelIdeal.main_arg0_scv : Memref Cert.KernelIdeal.sig Kind.scVector Space.hbm Cert.KernelIdeal.S16384x128 EltTy.f32)
local notation "aV" => (Memref.whole Cert.KernelIdeal.main_arg1_scv : Memref Cert.KernelIdeal.sig Kind.scVector Space.hbm Cert.KernelIdeal.S16384x128 EltTy.f32)
local notation "lV" => (Memref.whole Cert.KernelIdeal.main_v0_scv : Memref Cert.KernelIdeal.sig Kind.scVector Space.hbm Cert.KernelIdeal.S128x128 EltTy.i32)
local notation "cenV" => (Memref.whole Cert.KernelIdeal.main_arg3_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S512 EltTy.f32)
local notation "ixS" => (Memref.whole Cert.KernelIdeal.cc0_scratch0 : Memref Cert.KernelIdeal.sig Kind.scVector Space.vmem Cert.KernelIdeal.S4x128 EltTy.i32)
local notation "cnS" => (Memref.whole Cert.KernelIdeal.cc0_scratch1 : Memref Cert.KernelIdeal.sig Kind.scVector Space.vmem Cert.KernelIdeal.S2x128x128 EltTy.f32)
local notation "ftS" => (Memref.whole Cert.KernelIdeal.cc0_scratch2 : Memref Cert.KernelIdeal.sig Kind.scVector Space.vmem Cert.KernelIdeal.S2x128x128 EltTy.f32)
local notation "wtS" => (Memref.whole Cert.KernelIdeal.cc0_scratch3 : Memref Cert.KernelIdeal.sig Kind.scVector Space.vmem Cert.KernelIdeal.S2x128x128 EltTy.f32)
local notation "acS" => (Memref.whole Cert.KernelIdeal.cc0_scratch4 : Memref Cert.KernelIdeal.sig Kind.scVector Space.vmem Cert.KernelIdeal.S16 EltTy.f32)

variable (m : (ℓ : Loc nD τ sig) → Buf (Elt F) ℓ) (d : Dev nD) (L : grid0.Coords) (lab : (d : Dev nD) → Buf (Elt F) (lLoc d))

/-- The gather's row count is the index row's length, and its table has 100000 rows. -/
theorem hn128 : S128.numel = S128x128.size (gathers_S100000x128_S128x128).axis' := rfl
theorem hz100000 : S100000x128.size (gathers_S100000x128_S128x128).axis = 100000 := rfl

/-- The four label rows a tile fetches, as the body slices them. -/
abbrev lRectK (L : grid0.Coords) : Rect S128x128 := Rect.unit (s := S128x128) (k0_off2 L) S4x128.size (k0_off2_inb L)
abbrev lRowK (L : grid0.Coords) : Memref sig .scVector .hbm S4x128 .i32 := (lV).slice (lRectK L) (fun _ => rfl)

/-- What the label fetch lands in the index scratch: the tile's four label rows. -/
abbrev PAY : S4x128.Idx → Elt F .i32 := ReadAs.same.apply ((lRowK L).view.read (Elt F) (lab d))

theorem PAY_apply (x : S4x128.Idx) : PAY d L lab x = lab d ((lRowK L).view.emb x) :=
  (View.read_apply _ _).trans (cast_eq _ _)

/-- Every word of any row of the index scratch, once the fetch has landed, is a label: in range of the table. -/
theorem idx_inb (hlab : ∀ d j, (lab d j).toNat < 100000) (g0 : Buf (Elt F) ((ixS).view.loc (VT d L)))
    (pay : S4x128.Idx → Elt F .i32) (hpay : pay = PAY d L lab) (row : Fin 2 → Nat)
    (hk : ∀ a, row a + S1x128.size a ≤ S4x128.size a) (hs) (hq : (Rect.unit (s := S4x128) row S1x128.size hk).shape.Squeezes S128) :
    ∀ x, (View.read (Elt F) (((ixS).slice (Rect.unit (s := S4x128) row S1x128.size hk) hs).squeeze S128 hq).view
      ((ixS).view.writes (Elt F) g0 [⟨Rect.whole cc0_scratch0.ty.shape, pay⟩]) x).toNat < 100000 := by
  subst hpay; intro x
  have e : View.read (Elt F) (((ixS).slice (Rect.unit (s := S4x128) row S1x128.size hk) hs).squeeze S128 hq).view
        ((ixS).view.writes (Elt F) g0 [⟨Rect.whole cc0_scratch0.ty.shape, PAY d L lab⟩]) x
      = View.read (Elt F) (ixS).view ((ixS).view.writes (Elt F) g0 [⟨Rect.whole cc0_scratch0.ty.shape, PAY d L lab⟩])
          ((Rect.unit (s := S4x128) row S1x128.size hk).emb ((Shape.reshapeEquiv hq.numel_eq) x)) := by
    rw [View.read_apply, View.read_apply]; rfl
  rw [e, View.read_writes_whole, PAY_apply]
  exact hlab d _

/-- The source slices of the chunks' copies and the index scratch's rows, as the body slices them. -/
abbrev fSrc0 : Memref sig .scVector .hbm S128x128 .f32 := (fV).slice (Rect.unit (s := S16384x128) (k0_off1 L 0#32) S128x128.size (k0_off1_inb L 0)) (fun _ => rfl)
abbrev aSrc0 : Memref sig .scVector .hbm S128x128 .f32 := (aV).slice (Rect.unit (s := S16384x128) (k0_off1 L 0#32) S128x128.size (k0_off1_inb L 0)) (fun _ => rfl)
abbrev ixRow0 : Memref sig .scVector .vmem S128 .i32 := ((ixS).slice (Rect.unit (s := S4x128) ![0, 0] S1x128.size inb_S4x128_S1x128_0_0) (fun _ => rfl)).squeeze S128 squeezes_S1x128_S128
abbrev fSrc1 : Memref sig .scVector .hbm S128x128 .f32 := (fV).slice (Rect.unit (s := S16384x128) (k0_off1 L 128#32) S128x128.size (k0_off1_inb L 1)) (fun _ => rfl)
abbrev aSrc1 : Memref sig .scVector .hbm S128x128 .f32 := (aV).slice (Rect.unit (s := S16384x128) (k0_off1 L 128#32) S128x128.size (k0_off1_inb L 1)) (fun _ => rfl)
abbrev ixRow1 : Memref sig .scVector .vmem S128 .i32 := ((ixS).slice (Rect.unit (s := S4x128) ![1, 0] S1x128.size inb_S4x128_S1x128_1_0) (fun _ => rfl)).squeeze S128 squeezes_S1x128_S128
abbrev fSrc2 : Memref sig .scVector .hbm S128x128 .f32 := (fV).slice (Rect.unit (s := S16384x128) (k0_off1 L 256#32) S128x128.size (k0_off1_inb L 2)) (fun _ => rfl)
abbrev aSrc2 : Memref sig .scVector .hbm S128x128 .f32 := (aV).slice (Rect.unit (s := S16384x128) (k0_off1 L 256#32) S128x128.size (k0_off1_inb L 2)) (fun _ => rfl)
abbrev ixRow2 : Memref sig .scVector .vmem S128 .i32 := ((ixS).slice (Rect.unit (s := S4x128) ![2, 0] S1x128.size inb_S4x128_S1x128_2_0) (fun _ => rfl)).squeeze S128 squeezes_S1x128_S128
abbrev fSrc3 : Memref sig .scVector .hbm S128x128 .f32 := (fV).slice (Rect.unit (s := S16384x128) (k0_off1 L 384#32) S128x128.size (k0_off1_inb L 3)) (fun _ => rfl)
abbrev aSrc3 : Memref sig .scVector .hbm S128x128 .f32 := (aV).slice (Rect.unit (s := S16384x128) (k0_off1 L 384#32) S128x128.size (k0_off1_inb L 3)) (fun _ => rfl)
abbrev ixRow3 : Memref sig .scVector .vmem S128 .i32 := ((ixS).slice (Rect.unit (s := S4x128) ![3, 0] S1x128.size inb_S4x128_S1x128_3_0) (fun _ => rfl)).squeeze S128 squeezes_S1x128_S128
abbrev cenSrc : Memref sig .scVector .hbm S100000x128 .f32 := (cenV).slice (Rect.unit (s := S100000x128) ![0, 0] S100000x128.size inb_S100000x128_S100000x128_0_0) (fun _ => rfl)

variable [FloatOps F]

/-- The index scratch once the label fetch has landed. -/
abbrev ixC : Buf (Elt F) ((ixS).view.loc (VT d L)) :=
  (ixS).view.writes (Elt F) (ixS).view.junk [⟨Rect.whole cc0_scratch0.ty.shape, PAY d L lab⟩]

variable (hlab : ∀ d j, (lab d j).toNat < 100000)

/-- Chunk 0's rows of the features, of the weights, and of the centres its labels name, as the copies deliver them. -/
def fPay0 : S128x128.Idx → Elt F .f32 := ReadAs.same.apply (View.read (Elt F) (fSrc0 L).view (m (fLoc d)))
def aPay0 : S128x128.Idx → Elt F .f32 := ReadAs.same.apply (View.read (Elt F) (aSrc0 L).view (m (aLoc d)))
def cPay0 : S128x128.Idx → Elt F .f32 :=
  SparseCore.gatherPayload gathers_S100000x128_S128x128 (View.read (Elt F) (cenSrc).view (m (cLoc d)))
    (SparseCore.rows (o := S128x128.size (gathers_S100000x128_S128x128).axis') (z := S100000x128.size (gathers_S100000x128_S128x128).axis)
      (View.read (Elt F) (ixRow0).view (ixC d L lab)) hn128
      (fun x => lt_of_lt_of_eq (idx_inb d L lab hlab (ixS).view.junk (PAY d L lab) rfl ![0, 0] inb_S4x128_S1x128_0_0 (fun _ => rfl) squeezes_S1x128_S128 x) hz100000.symm))
/-- Chunk 1's rows of the features, of the weights, and of the centres its labels name, as the copies deliver them. -/
def fPay1 : S128x128.Idx → Elt F .f32 := ReadAs.same.apply (View.read (Elt F) (fSrc1 L).view (m (fLoc d)))
def aPay1 : S128x128.Idx → Elt F .f32 := ReadAs.same.apply (View.read (Elt F) (aSrc1 L).view (m (aLoc d)))
def cPay1 : S128x128.Idx → Elt F .f32 :=
  SparseCore.gatherPayload gathers_S100000x128_S128x128 (View.read (Elt F) (cenSrc).view (m (cLoc d)))
    (SparseCore.rows (o := S128x128.size (gathers_S100000x128_S128x128).axis') (z := S100000x128.size (gathers_S100000x128_S128x128).axis)
      (View.read (Elt F) (ixRow1).view (ixC d L lab)) hn128
      (fun x => lt_of_lt_of_eq (idx_inb d L lab hlab (ixS).view.junk (PAY d L lab) rfl ![1, 0] inb_S4x128_S1x128_1_0 (fun _ => rfl) squeezes_S1x128_S128 x) hz100000.symm))
/-- Chunk 2's rows of the features, of the weights, and of the centres its labels name, as the copies deliver them. -/
def fPay2 : S128x128.Idx → Elt F .f32 := ReadAs.same.apply (View.read (Elt F) (fSrc2 L).view (m (fLoc d)))
def aPay2 : S128x128.Idx → Elt F .f32 := ReadAs.same.apply (View.read (Elt F) (aSrc2 L).view (m (aLoc d)))
def cPay2 : S128x128.Idx → Elt F .f32 :=
  SparseCore.gatherPayload gathers_S100000x128_S128x128 (View.read (Elt F) (cenSrc).view (m (cLoc d)))
    (SparseCore.rows (o := S128x128.size (gathers_S100000x128_S128x128).axis') (z := S100000x128.size (gathers_S100000x128_S128x128).axis)
      (View.read (Elt F) (ixRow2).view (ixC d L lab)) hn128
      (fun x => lt_of_lt_of_eq (idx_inb d L lab hlab (ixS).view.junk (PAY d L lab) rfl ![2, 0] inb_S4x128_S1x128_2_0 (fun _ => rfl) squeezes_S1x128_S128 x) hz100000.symm))
/-- Chunk 3's rows of the features, of the weights, and of the centres its labels name, as the copies deliver them. -/
def fPay3 : S128x128.Idx → Elt F .f32 := ReadAs.same.apply (View.read (Elt F) (fSrc3 L).view (m (fLoc d)))
def aPay3 : S128x128.Idx → Elt F .f32 := ReadAs.same.apply (View.read (Elt F) (aSrc3 L).view (m (aLoc d)))
def cPay3 : S128x128.Idx → Elt F .f32 :=
  SparseCore.gatherPayload gathers_S100000x128_S128x128 (View.read (Elt F) (cenSrc).view (m (cLoc d)))
    (SparseCore.rows (o := S128x128.size (gathers_S100000x128_S128x128).axis') (z := S100000x128.size (gathers_S100000x128_S128x128).axis)
      (View.read (Elt F) (ixRow3).view (ixC d L lab)) hn128
      (fun x => lt_of_lt_of_eq (idx_inb d L lab hlab (ixS).view.junk (PAY d L lab) rfl ![3, 0] inb_S4x128_S1x128_3_0 (fun _ => rfl) squeezes_S1x128_S128 x) hz100000.symm))

/-- A payload written into slot 0 / slot 1 of a two-slot scratch. -/
abbrev W0 (b : Memref sig .scVector .vmem S2x128x128 .f32) (f : Buf (Elt F) (b.view.loc (VT d L))) (w : S128x128.Idx → Elt F .f32) : Buf (Elt F) (b.view.loc (VT d L)) :=
  View.write (Elt F) (slot0 b).view f w Finset.univ
abbrev W1 (b : Memref sig .scVector .vmem S2x128x128 .f32) (f : Buf (Elt F) (b.view.loc (VT d L))) (w : S128x128.Idx → Elt F .f32) : Buf (Elt F) (b.view.loc (VT d L)) :=
  View.write (Elt F) (slot1 b).view f w Finset.univ

variable (t1 : Buf (Elt F) ((cnS).view.loc (VT d L))) (t2 : Buf (Elt F) ((ftS).view.loc (VT d L))) (t3 : Buf (Elt F) ((wtS).view.loc (VT d L)))
  (t4 : Buf (Elt F) ((acS).view.loc (VT d L)))

/-- The centres, features and weights scratches as loop 1, loop 2, and loops 3 and 4 find them. -/
def cnC2 := W1 d L cnS (W0 d L cnS t1 (cPay0 m d L lab hlab)) (cPay1 m d L lab hlab)
def cnC3 := W0 d L cnS (cnC2 m d L lab hlab t1) (cPay2 m d L lab hlab)
def cnC4 := W1 d L cnS (cnC3 m d L lab hlab t1) (cPay3 m d L lab hlab)
def ftC2 := W1 d L ftS (W0 d L ftS t2 (fPay0 m d L)) (fPay1 m d L)
def ftC3 := W0 d L ftS (ftC2 m d L t2) (fPay2 m d L)
def ftC4 := W1 d L ftS (ftC3 m d L t2) (fPay3 m d L)
def wtC2 := W1 d L wtS (W0 d L wtS t3 (aPay0 m d L)) (aPay1 m d L)
def wtC3 := W0 d L wtS (wtC2 m d L t3) (aPay2 m d L)
def wtC4 := W1 d L wtS (wtC3 m d L t3) (aPay3 m d L)

/-- The eight accumulators: zero, then after each chunk's 128 rows. -/
def acc0 : FVec F S16 .f32 × FVec F S16 .f32 × FVec F S16 .f32 × FVec F S16 .f32 × FVec F S16 .f32 × FVec F S16 .f32 × FVec F S16 .f32 × FVec F S16 .f32 := (k0_pay33, k0_pay34, k0_pay35, k0_pay36, k0_pay37, k0_pay38, k0_pay39, k0_pay40)
def acc1 := iter (step1 d L (cnC2 m d L lab hlab t1) (ftC2 m d L t2) (wtC2 m d L t3)) (acc0 (F := F)) k0_t1_loop.trips
def acc2 := iter (step2 d L (cnC3 m d L lab hlab t1) (ftC3 m d L t2) (wtC3 m d L t3)) (acc1 m d L lab hlab t1 t2 t3) k0_t2_loop.trips
def acc3 := iter (step3 d L (cnC4 m d L lab hlab t1) (ftC4 m d L t2) (wtC4 m d L t3)) (acc2 m d L lab hlab t1 t2 t3) k0_t3_loop.trips
def acc4 := iter (step4 d L (cnC4 m d L lab hlab t1) (ftC4 m d L t2) (wtC4 m d L t3)) (acc3 m d L lab hlab t1 t2 t3) k0_t4_loop.trips

/-- The tile's sixteen lane totals: the eight accumulators added, left to right. -/
def tileVec : FVec F S16 .f32 :=
  k0_pay53 (acc4 m d L lab hlab t1 t2 t3).1 (acc4 m d L lab hlab t1 t2 t3).2.1 (acc4 m d L lab hlab t1 t2 t3).2.2.1 (acc4 m d L lab hlab t1 t2 t3).2.2.2.1 (acc4 m d L lab hlab t1 t2 t3).2.2.2.2.1 (acc4 m d L lab hlab t1 t2 t3).2.2.2.2.2.1 (acc4 m d L lab hlab t1 t2 t3).2.2.2.2.2.2.1 (acc4 m d L lab hlab t1 t2 t3).2.2.2.2.2.2.2

/-- What the copy-out delivers: the accumulator scratch read back after the store of the lane totals. -/
def outPay : S16.Idx → Elt F .f32 :=
  ReadAs.same.apply (View.read (Elt F) (acS).view
    ((acS).view.writes (Elt F) t4 [⟨Rect.unit (s := S16) ![0] S16.size inb_S16_S16_0, tileVec m d L lab hlab t1 t2 t3⟩]))

end Cert.Proof.KI

end
-- ==== Proof.KIOutSplit.lean ====
/-
  The thirty-two tiles' output pieces partition the partial-sums vector of 512 words.

  Tile (c, s), with c < 2 and s < 16, writes the sixteen words from offset 32·s + 16·c = 16·(2·s + c). The worker number
  w = 2·s + c runs over 0 … 31 exactly once, so the pieces [16·w, 16·w + 16) are pairwise disjoint and every word
  i < 512 lies in the piece of w = i / 16, that is c = w % 2 and s = w / 2. Hence owning the whole vector is owning the
  thirty-two pieces separately.
-/
import proofs.«216098_g21234318311461_cont_8to1_346_22_alg».proof.Proof.KICommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- A tile's piece is its rectangle's set of indices: the vector is addressed whole, so slicing it adds no offset. -/
theorem oSet_eq (L : grid0.Coords) : oSet L = (oRectK L).set := by
  show ((View.whole (main_v1_scv : Ref sig .scVector)).slice (oRectK L)).set = _
  rw [View.set_slice]; exact Finset.map_refl

/-- Two different tiles have different worker numbers 2·s + c, so their sixteen-word pieces do not meet. -/
theorem oSets_disjoint : ∀ p ∈ (Finset.univ : Finset (Fin (grid0.bound 0) × Fin (grid0.bound 1))), ∀ p' ∈ Finset.univ, p ≠ p' → Disjoint (oSet (coordsV p.1 p.2)) (oSet (coordsV p'.1 p'.2)) := by
  intro p _ p' _ h
  rw [oSet_eq, oSet_eq]
  have hc : p.1.val < 2 := p.1.isLt
  have hc' : p'.1.val < 2 := p'.1.isLt
  have hne : p.1.val ≠ p'.1.val ∨ p.2.val ≠ p'.2.val := by
    rcases Decidable.eq_or_ne p.1.val p'.1.val with e1 | e1
    · exact Or.inr fun e2 => h (Prod.ext (Fin.ext e1) (Fin.ext e2))
    · exact Or.inl e1
  refine Rect.unit_disjoint (0 : Fin 1) ?_
  simp only [k0_off35_eq]
  show 32 * p.2.val + 16 * p.1.val + 16 ≤ 32 * p'.2.val + 16 * p'.1.val
    ∨ 32 * p'.2.val + 16 * p'.1.val + 16 ≤ 32 * p.2.val + 16 * p.1.val
  omega

/-- Every word i < 512 lies in the piece of worker i / 16. -/
theorem oSets_cover : (Finset.univ : Finset (Fin (grid0.bound 0) × Fin (grid0.bound 1))).biUnion (fun p => oSet (coordsV p.1 p.2)) = Finset.univ := by
  refine Finset.eq_univ_of_forall fun x => Finset.mem_biUnion.mpr ?_
  have hx : (x 0).val < 512 := (x 0).isLt
  have h1 : (x 0).val / 16 % 2 < grid0.bound 0 := by show _ < 2; omega
  have h2 : (x 0).val / 16 / 2 < grid0.bound 1 := by show _ < 16; omega
  refine ⟨(⟨(x 0).val / 16 % 2, h1⟩, ⟨(x 0).val / 16 / 2, h2⟩), Finset.mem_univ _, ?_⟩
  rw [oSet_eq, Rect.mem_set_unit]
  intro a
  fin_cases a
  simp only [k0_off35_eq]
  show 32 * ((x 0).val / 16 / 2) + 16 * ((x 0).val / 16 % 2) ≤ (x 0).val
    ∧ (x 0).val < 32 * ((x 0).val / 16 / 2) + 16 * ((x 0).val / 16 % 2) + 16
  omega

/-- The whole partial-sums vector is its thirty-two pieces, one per tile. -/
theorem oPts_tiles (d : Dev nD) (f : Buf (Elt F) (oLoc d)) :
    (oLoc d ↦{fullShare} f : sProp 𝕄) = bigSep Finset.univ fun c : Fin (grid0.bound 0) => bigSep Finset.univ fun s : Fin (grid0.bound 1) => oLoc d ↦[oSet (coordsV c s)]{fullShare} f := by
  refine Eq.trans ?_ (BI.bigSep_univ_prod
    (fun p : Fin (grid0.bound 0) × Fin (grid0.bound 1) => (oLoc d ↦[oSet (coordsV p.1 p.2)]{fullShare} f : sProp 𝕄)))
  rw [← pointsTo_biUnion Finset.univ (ℓ := oLoc d)
    (fun p : Fin (grid0.bound 0) × Fin (grid0.bound 1) => oSet (coordsV p.1 p.2)) oSets_disjoint, oSets_cover]; try rfl

end Cert.Proof.KI

end
-- ==== Proof.KIPay.lean ====
/-
  What the launch handshakes carry: each SparseCore is handed a read share of the four arrays the tiles only read (the
  features, the weights, the labels laid out 128 × 128, the centres) and its sixteen tiles' pieces of the partial-sums
  vector at their launch contents; each tile is handed a share of that share and its own piece; every piece comes back
  at the ONE whole-array result `G`.
-/
import proofs.«216098_g21234318311461_cont_8to1_346_22_alg».proof.Proof.KIOutSplit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "fV" => (Memref.whole Cert.KernelIdeal.main_arg0_scv : Memref Cert.KernelIdeal.sig Kind.scVector Space.hbm Cert.KernelIdeal.S16384x128 EltTy.f32)
local notation "aV" => (Memref.whole Cert.KernelIdeal.main_arg1_scv : Memref Cert.KernelIdeal.sig Kind.scVector Space.hbm Cert.KernelIdeal.S16384x128 EltTy.f32)
local notation "lV" => (Memref.whole Cert.KernelIdeal.main_v0_scv : Memref Cert.KernelIdeal.sig Kind.scVector Space.hbm Cert.KernelIdeal.S128x128 EltTy.i32)
local notation "cenV" => (Memref.whole Cert.KernelIdeal.main_arg3_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S512 EltTy.f32)
local notation "ixS" => (Memref.whole Cert.KernelIdeal.cc0_scratch0 : Memref Cert.KernelIdeal.sig Kind.scVector Space.vmem Cert.KernelIdeal.S4x128 EltTy.i32)
local notation "cnS" => (Memref.whole Cert.KernelIdeal.cc0_scratch1 : Memref Cert.KernelIdeal.sig Kind.scVector Space.vmem Cert.KernelIdeal.S2x128x128 EltTy.f32)
local notation "ftS" => (Memref.whole Cert.KernelIdeal.cc0_scratch2 : Memref Cert.KernelIdeal.sig Kind.scVector Space.vmem Cert.KernelIdeal.S2x128x128 EltTy.f32)
local notation "wtS" => (Memref.whole Cert.KernelIdeal.cc0_scratch3 : Memref Cert.KernelIdeal.sig Kind.scVector Space.vmem Cert.KernelIdeal.S2x128x128 EltTy.f32)
local notation "acS" => (Memref.whole Cert.KernelIdeal.cc0_scratch4 : Memref Cert.KernelIdeal.sig Kind.scVector Space.vmem Cert.KernelIdeal.S16 EltTy.f32)

variable (m : (ℓ : Loc nD τ sig) → Buf (Elt F) ℓ) (lab : (d : Dev nD) → Buf (Elt F) (lLoc d)) (G : (d : Dev nD) → Buf (Elt F) (oLoc d))

/-- The read share a SparseCore gets of an array, and the share of it a tile gets. -/
abbrev qCore (c : ℕ) : PosShare TreeShare := Transfers.shareTokN fullShare c
abbrev qTile (c s : ℕ) : PosShare TreeShare := Transfers.shareTokN (qCore c) s

/-- The four arrays the tiles only read, each whole at the share `q`. -/
abbrev roPts (d : Dev nD) (q : PosShare TreeShare) : sProp 𝕄 :=
  iprop((fLoc d ↦{q} m (fLoc d)) ∗ (aLoc d ↦{q} m (aLoc d)) ∗ (lLoc d ↦{q} lab d) ∗ (cLoc d ↦{q} m (cLoc d)))

theorem bound_zero : grid0.bound 0 = 2 := rfl
theorem bound_one : grid0.bound 1 = 16 := rfl
/-- A SparseCore's and a tile's number as grid coordinates. -/
abbrev cG (c : Fin ((K (F := F)).nCore 0)) : Fin (grid0.bound 0) := Fin.cast (nCore_zero.trans bound_zero.symm) c
abbrev sG (i : Fin ((K (F := F)).nSub 0)) : Fin (grid0.bound 1) := Fin.cast (nSub_zero.trans bound_one.symm) i

/-- A tile's piece of the partial-sums vector at contents `f`. -/
abbrev oPiece (d : Dev nD) (c : Fin (grid0.bound 0)) (s : Fin (grid0.bound 1)) (f : Buf (Elt F) (oLoc d)) : sProp 𝕄 :=
  oLoc d ↦[oSet (coordsV c s)]{fullShare} f

/-- What a SparseCore is handed and hands back; what a tile is handed and hands back. -/
abbrev stOf (d : Dev nD) (c : Fin ((K (F := F)).nCore 0)) : sProp 𝕄 :=
  iprop(roPts m lab d (qCore c.val) ∗ bigSep Finset.univ fun s : Fin (grid0.bound 1) => oPiece d (cG c) s (m (oLoc d)))
abbrev dnOf (d : Dev nD) (c : Fin ((K (F := F)).nCore 0)) : sProp 𝕄 :=
  iprop(roPts m lab d (qCore c.val) ∗ bigSep Finset.univ fun s : Fin (grid0.bound 1) => oPiece d (cG c) s (G d))
abbrev goOf (d : Dev nD) (c : Fin ((K (F := F)).nCore 0)) (i : Fin ((K (F := F)).nSub 0)) : sProp 𝕄 :=
  iprop(roPts m lab d (qTile c.val i.val) ∗ oPiece d (cG c) (sG i) (m (oLoc d)))
abbrev tdOf (d : Dev nD) (c : Fin ((K (F := F)).nCore 0)) (i : Fin ((K (F := F)).nSub 0)) : sProp 𝕄 :=
  iprop(roPts m lab d (qTile c.val i.val) ∗ oPiece d (cG c) (sG i) (G d))

def P : (K (F := F)).Pay (nD := nD) (Val := Elt F) (Name := ℕ) (U := UU) where
  st := fun q d c => match q with | 0 => stOf m lab d c
  dn := fun q d c => match q with | 0 => dnOf m lab G d c
  go := fun q d c i => match q with | 0 => goOf m lab d c i
  td := fun q d c i => match q with | 0 => tdOf m lab G d c i
  x := fun _ _ => iprop(emp)

instance P_storable : (P (F := F) m lab G).IsStorable where
  st q d c := match q with | 0 => (inferInstance : BI.Storable (upEmb : UEmb _ 𝕄) (stOf m lab d c))
  dn q d c := match q with | 0 => (inferInstance : BI.Storable (upEmb : UEmb _ 𝕄) (dnOf m lab G d c))
  go q d c i := match q with | 0 => (inferInstance : BI.Storable (upEmb : UEmb _ 𝕄) (goOf m lab d c i))
  td q d c i := match q with | 0 => (inferInstance : BI.Storable (upEmb : UEmb _ 𝕄) (tdOf m lab G d c i))

end Cert.Proof.KI

end
-- ==== Proof.KITile.lean ====
/-
  One tile's task, from what the launch deals it to what it hands back.

  The tile holds, for the whole task, two read tokens of each of the features, the weights and the centres (two copies
  of each are in flight at once, one per slot), a share of the labels, its own sixteen-word piece of the partial-sums
  vector, its five scratch buffers and its eight DMA cells at zero. The body runs through: the label fetch, then per
  chunk the three copies into the chunk's slot, their waits, and the row loop by its invariant, the next chunk's copies
  already issued into the other slot; last the lane totals are stored and copied out. What the piece holds at the end
  is the copy-out's payload, the tile's sixteen lane totals.
-/
import proofs.«216098_g21234318311461_cont_8to1_346_22_alg».proof.Proof.KITileVal
import proofs.«216098_g21234318311461_cont_8to1_346_22_alg».proof.Proof.KIPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "fV" => (Memref.whole Cert.KernelIdeal.main_arg0_scv : Memref Cert.KernelIdeal.sig Kind.scVector Space.hbm Cert.KernelIdeal.S16384x128 EltTy.f32)
local notation "aV" => (Memref.whole Cert.KernelIdeal.main_arg1_scv : Memref Cert.KernelIdeal.sig Kind.scVector Space.hbm Cert.KernelIdeal.S16384x128 EltTy.f32)
local notation "lV" => (Memref.whole Cert.KernelIdeal.main_v0_scv : Memref Cert.KernelIdeal.sig Kind.scVector Space.hbm Cert.KernelIdeal.S128x128 EltTy.i32)
local notation "cenV" => (Memref.whole Cert.KernelIdeal.main_arg3_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S512 EltTy.f32)
local notation "ixS" => (Memref.whole Cert.KernelIdeal.cc0_scratch0 : Memref Cert.KernelIdeal.sig Kind.scVector Space.vmem Cert.KernelIdeal.S4x128 EltTy.i32)
local notation "cnS" => (Memref.whole Cert.KernelIdeal.cc0_scratch1 : Memref Cert.KernelIdeal.sig Kind.scVector Space.vmem Cert.KernelIdeal.S2x128x128 EltTy.f32)
local notation "ftS" => (Memref.whole Cert.KernelIdeal.cc0_scratch2 : Memref Cert.KernelIdeal.sig Kind.scVector Space.vmem Cert.KernelIdeal.S2x128x128 EltTy.f32)
local notation "wtS" => (Memref.whole Cert.KernelIdeal.cc0_scratch3 : Memref Cert.KernelIdeal.sig Kind.scVector Space.vmem Cert.KernelIdeal.S2x128x128 EltTy.f32)
local notation "acS" => (Memref.whole Cert.KernelIdeal.cc0_scratch4 : Memref Cert.KernelIdeal.sig Kind.scVector Space.vmem Cert.KernelIdeal.S16 EltTy.f32)

variable (m : (ℓ : Loc nD τ sig) → Buf (Elt F) ℓ) (d : Dev nD) (L : grid0.Coords) (lab : (d : Dev nD) → Buf (Elt F) (lLoc d))

/-! ## The tile's cells and buffers -/

abbrev csem (k : Nat) (hk : k < 8 := by decide) : DmaSem sig := ⟨k, hk⟩
abbrev dcell (d : Dev nD) (c : Fin τ.nSC) (i : Fin τ.nSub) (k : Fin 8) : GSem nD τ sig := (V d c i, .dma (csem k.val k.isLt))
/-- The eight DMA cells at zero, in the body's spelling. -/
abbrev cells0 (d : Dev nD) (L : grid0.Coords) : sProp 𝕄 :=
  iprop(semVal (VT d L, SemLoc.dma (csem 0)) 0 ∗ semVal (VT d L, SemLoc.dma (csem 1)) 0 ∗ semVal (VT d L, SemLoc.dma (csem 2)) 0
    ∗ semVal (VT d L, SemLoc.dma (csem 3)) 0 ∗ semVal (VT d L, SemLoc.dma (csem 4)) 0 ∗ semVal (VT d L, SemLoc.dma (csem 5)) 0
    ∗ semVal (VT d L, SemLoc.dma (csem 6)) 0 ∗ semVal (VT d L, SemLoc.dma (csem 7)) 0)

theorem dcell_mem (c : Fin τ.nSC) (i : Fin τ.nSub) (k : Fin 8) : dcell d c i k ∈ ownCells (V d c i) :=
  mem_ownCells.mpr ⟨rfl, (show ∀ s : DmaSem sig, (SemLoc.dma s : SemLoc sig).isScoped .scVector = true by decide) _⟩

/-- The subcore's own cells at zero: the eight the task names, one by one, and the rest. -/
theorem ownSems0_V :
    (ownSems0 (VT d L) : sProp 𝕄)
      = iprop(cells0 d L
          ∗ bigSep ((ownCells (VT d L)) \ Finset.univ.image (dcell d (coreOf L) (subOf L))) fun g => semVal g 0) := by
  unfold SparseCore.Cfg.ownSems0
  rw [SparseCore.bigSep_sdiff_split' (t := Finset.univ.image (dcell d (coreOf L) (subOf L)))
      (Finset.image_subset_iff.mpr fun k _ => dcell_mem d (coreOf L) (subOf L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

/-- The five scratch buffers the task names. -/
abbrev scrRef : Fin 5 → Ref sig .scVector := ![cc0_scratch0, cc0_scratch1, cc0_scratch2, cc0_scratch3, cc0_scratch4]
abbrev sref (L : grid0.Coords) (k : Fin 5) : DevRef τ sig := (Proc.scVector (coreOf L) (subOf L)).devRef (scrRef k)
/-- The five scratches, each whole at some contents. -/
abbrev scr0 (d : Dev nD) (L : grid0.Coords) : sProp 𝕄 :=
  iprop((∃ f, (VT d L).loc cc0_scratch0 ↦{fullShare} f) ∗ (∃ f, (VT d L).loc cc0_scratch1 ↦{fullShare} f) ∗ (∃ f, (VT d L).loc cc0_scratch2 ↦{fullShare} f)
    ∗ (∃ f, (VT d L).loc cc0_scratch3 ↦{fullShare} f) ∗ (∃ f, (VT d L).loc cc0_scratch4 ↦{fullShare} f))

theorem scrRef_injective : Function.Injective scrRef := by decide

theorem sref_mem (k : Fin 5) : sref L k ∈ ownRefs (τ := τ) (.scVector (coreOf L) (subOf L)) :=
  SparseCore.Cfg.mem_ownRefs_of_owner (p := Proc.scVector (coreOf L) (subOf L)) (b := sref L k) (by
    match k with | 0 => rfl | 1 => rfl | 2 => rfl | 3 => rfl | 4 => rfl)

/-- The subcore's own buffers: the five scratches, at some contents, and the rest. -/
theorem ownBufs_V :
    (ownBufs (VT d L) : sProp 𝕄)
      = iprop(scr0 d L
          ∗ bigSep ((ownRefs (τ := τ) (.scVector (coreOf L) (subOf L))) \ Finset.univ.image (sref L))
              fun b => iprop(∃ f, ((d, b) : Loc nD τ sig) ↦{fullShare} f)) := by
  unfold SparseCore.Cfg.ownBufs
  rw [SparseCore.bigSep_sdiff_split' (t := Finset.univ.image (sref L)) (Finset.image_subset_iff.mpr fun k _ => sref_mem L k),
    SparseCore.bigSep_image_of_injOn (fun a _ b _ h => scrRef_injective (Proc.devRef_injective _ h))]
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]
  rfl

/-! ## The arrays in the body's spelling -/

theorem pts_hbm {b : Ref sig .scVector} (q : PosShare TreeShare) (f : Buf (Elt F) ((Memref.whole b).view.loc (VT d L))) :
    ((Memref.whole b).view.loc (VT d L) ↦{q} f : sProp 𝕄) = (Memref.whole b).view.loc (VT d L) ↦{q} f := rfl

theorem pts_scr (b : Ref sig .scVector) (f : Buf (Elt F) ((VT d L).loc b)) :
    ((Memref.whole b).view.loc (VT d L) ↦[(Memref.whole b).view.set]{fullShare} f : sProp 𝕄) = (VT d L).loc b ↦{fullShare} f := by
  rw [View.set_whole]

/-! ## Two numbered read tokens of a share -/

/-- Out of a share of an array: read tokens `i` and `j` of its first `n`, and everything else. -/
theorem toks_pair {ℓ : Loc nD τ sig} (f : Buf (Elt F) ℓ) (q : PosShare TreeShare) (n i j : ℕ) (hi : i < n) (hj : j < n) (hij : j ≠ i) :
    (ℓ ↦{q} f : sProp 𝕄) ⊣⊢ iprop((ℓ ↦{Transfers.shareTokN q i} f) ∗ (ℓ ↦{Transfers.shareTokN q j} f)
      ∗ ((ℓ ↦{Transfers.shareDrop q n} f) ∗ bigSep (((Finset.range n).erase i).erase j) fun k => ℓ ↦{Transfers.shareTokN q k} f)) := by
  have h : (ℓ ↦{q} f : sProp 𝕄) ⊣⊢ iprop((ℓ ↦{Transfers.shareDrop q n} f) ∗ bigSep (Finset.range n) fun k => ℓ ↦{Transfers.shareTokN q k} f) :=
    Transfers.pointsTo_toks_range (ℓ := ℓ) (S := Finset.univ) (f := f) q n
  rw [SparseCore.bigSep_erase' (Finset.mem_range.mpr hi),
    SparseCore.bigSep_erase' (Finset.mem_erase.mpr ⟨hij, Finset.mem_range.mpr hj⟩)] at h
  constructor
  · refine h.1.trans ?_
    iintro ⟨HD, Hi, Hj, HR⟩
    isplitl [Hi]; · iexact Hi
    isplitl [Hj]; · iexact Hj
    isplitl [HD]; · iexact HD
    iexact HR
  · have h2 : iprop((ℓ ↦{Transfers.shareTokN q i} f) ∗ (ℓ ↦{Transfers.shareTokN q j} f)
          ∗ ((ℓ ↦{Transfers.shareDrop q n} f) ∗ bigSep (((Finset.range n).erase i).erase j) fun k => ℓ ↦{Transfers.shareTokN q k} f))
        ⊢ (iprop((ℓ ↦{Transfers.shareDrop q n} f) ∗ (ℓ ↦{Transfers.shareTokN q i} f) ∗ (ℓ ↦{Transfers.shareTokN q j} f)
          ∗ bigSep (((Finset.range n).erase i).erase j) fun k => ℓ ↦{Transfers.shareTokN q k} f) : sProp 𝕄) := by
      iintro ⟨Hi, Hj, HD, HR⟩
      isplitl [HD]; · iexact HD
      isplitl [Hi]; · iexact Hi
      isplitl [Hj]; · iexact Hj
      iexact HR
    exact h2.trans h.2

/-! ## The task's run -/

variable [FloatOps F] (hlab : ∀ d j, (lab d j).toNat < 100000)

set_option maxHeartbeats 4000000 in
set_option sl_exec.dmaWindow true in
set_option sl_exec.dmaWindowSet true in
/-- The task's body run from the pieces the launch dealt it, in the body's spelling: the tile's piece of the
    partial-sums vector ends written with the copy-out's payload. -/
theorem tile_run (O : CellTallies nD τ sig (HIx 1)) (W : Waits sig (HIx 1)) (qf qa ql qc : PosShare TreeShare)
    (g0 : Buf (Elt F) ((ixS).view.loc (VT d L))) (t1 : Buf (Elt F) ((cnS).view.loc (VT d L))) (t2 : Buf (Elt F) ((ftS).view.loc (VT d L)))
    (t3 : Buf (Elt F) ((wtS).view.loc (VT d L))) (t4 : Buf (Elt F) ((acS).view.loc (VT d L))) :
    (iprop(Transfers.MayWaits (VT d L) (default : HIx 1) O
        ∗ ((fV).view.loc (VT d L) ↦{Transfers.shareTokN qf 1} m (fLoc d))
        ∗ ((fV).view.loc (VT d L) ↦{Transfers.shareTokN qf 4} m (fLoc d))
        ∗ ((aV).view.loc (VT d L) ↦{Transfers.shareTokN qa 2} m (aLoc d))
        ∗ ((aV).view.loc (VT d L) ↦{Transfers.shareTokN qa 5} m (aLoc d))
        ∗ ((cenV).view.loc (VT d L) ↦{Transfers.shareTokN qc 0} m (cLoc d))
        ∗ ((cenV).view.loc (VT d L) ↦{Transfers.shareTokN qc 3} m (cLoc d))
        ∗ ((lV).view.loc (VT d L) ↦{ql} lab d)
        ∗ ((oSlice L).view.loc (VT d L) ↦[(oSlice L).view.set]{fullShare} m (oLoc d))
        ∗ ((ixS).view.loc (VT d L) ↦[(ixS).view.set]{fullShare} g0)
        ∗ ((cnS).view.loc (VT d L) ↦[(cnS).view.set]{fullShare} t1)
        ∗ ((ftS).view.loc (VT d L) ↦[(ftS).view.set]{fullShare} t2)
        ∗ ((wtS).view.loc (VT d L) ↦[(wtS).view.set]{fullShare} t3)
        ∗ ((acS).view.loc (VT d L) ↦[(acS).view.set]{fullShare} t4)
        ∗ cells0 d L
        ∗ owes (VT d L) O W) : sProp 𝕄)
      ⊢ wp frame (wpE (defs₀ (F := F)) 𝒱₀ (VT d L) none) Set.univ
          (cc0_sc_kernel L fV (Memref.isWhole_whole _) aV (Memref.isWhole_whole _) lV (Memref.isWhole_whole _) cenV (Memref.isWhole_whole _) oV (Memref.isWhole_whole _)
            ixS (Memref.isWhole_whole _) cnS (Memref.isWhole_whole _) ftS (Memref.isWhole_whole _) wtS (Memref.isWhole_whole _) acS (Memref.isWhole_whole _)
            cc0_scratch5 cc0_scratch6 cc0_scratch7 cc0_scratch8 cc0_scratch9 cc0_scratch10 cc0_scoped0 cc0_scoped1)
          fun _ => iprop(
            ((fV).view.loc (VT d L) ↦{Transfers.shareTokN qf 1} m (fLoc d))
        ∗ ((fV).view.loc (VT d L) ↦{Transfers.shareTokN qf 4} m (fLoc d))
        ∗ ((aV).view.loc (VT d L) ↦{Transfers.shareTokN qa 2} m (aLoc d))
        ∗ ((aV).view.loc (VT d L) ↦{Transfers.shareTokN qa 5} m (aLoc d))
        ∗ ((cenV).view.loc (VT d L) ↦{Transfers.shareTokN qc 0} m (cLoc d))
        ∗ ((cenV).view.loc (VT d L) ↦{Transfers.shareTokN qc 3} m (cLoc d))
        ∗ ((lV).view.loc (VT d L) ↦{ql} lab d)
            ∗ ((oSlice L).view.loc (VT d L) ↦[(oSlice L).view.set]{fullShare}
                (oSlice L).view.writes (Elt F) (m (oLoc d)) [⟨Rect.whole S16, outPay m d L lab hlab t1 t2 t3 t4⟩])
            ∗ (∃ g, (ixS).view.loc (VT d L) ↦[(ixS).view.set]{fullShare} g)
            ∗ (∃ g, (cnS).view.loc (VT d L) ↦[(cnS).view.set]{fullShare} g)
            ∗ (∃ g, (ftS).view.loc (VT d L) ↦[(ftS).view.set]{fullShare} g)
            ∗ (∃ g, (wtS).view.loc (VT d L) ↦[(wtS).view.set]{fullShare} g)
            ∗ (∃ g, (acS).view.loc (VT d L) ↦[(acS).view.set]{fullShare} g)
            ∗ cells0 d L
            ∗ ∃ W', owes (VT d L) O W') := by
  iintro ⟨#Hmw, HF1, HF4, HA2, HA5, HC0, HC3, HL, HOut, HG, HT1, HT2, HT3, HT4, ⟨Hc0, Hc1, Hc2, Hc3, Hc4, Hc5, Hc6, Hc7⟩, HO⟩
  sl_unfold [cc0_sc_kernel]
  sl_exec
  -- every word of each row of the index scratch, the fetch landed, is a label: in range of the centres table
  have hidx0 := idx_inb d L lab hlab (ixS).view.junk (tile_run.sl.dma0_2 d L lab) rfl ![0, 0] inb_S4x128_S1x128_0_0 (fun _ => rfl) squeezes_S1x128_S128
  have hidx1 := idx_inb d L lab hlab (ixS).view.junk (tile_run.sl.dma0_2 d L lab) rfl ![1, 0] inb_S4x128_S1x128_1_0 (fun _ => rfl) squeezes_S1x128_S128
  have hidx2 := idx_inb d L lab hlab (ixS).view.junk (tile_run.sl.dma0_2 d L lab) rfl ![2, 0] inb_S4x128_S1x128_2_0 (fun _ => rfl) squeezes_S1x128_S128
  have hidx3 := idx_inb d L lab hlab (ixS).view.junk (tile_run.sl.dma0_2 d L lab) rfl ![3, 0] inb_S4x128_S1x128_3_0 (fun _ => rfl) squeezes_S1x128_S128
  sl_exec
  sl_step
  -- the copy-out's payload is the tile's lane totals read back: the same term, the definitions unfolded
  have e : tile_run.sl.dma2 m d L lab t1 t2 t3 t4 hidx0 hidx1 hidx2 hidx3 = outPay m d L lab hlab t1 t2 t3 t4 := rfl
  irw [← e]
  sl_close

end Cert.Proof.KI

end
-- ==== Proof.KITileObl.lean ====
/-
  The launch theorem's obligation for the tiles: a tile's task from what the launch deals it — a share of the four
  read-only arrays, its piece of the partial-sums vector, its scoped buffers and cells — to what it hands back, the
  piece at the whole-array result. The share of each array read by two copies at once is cut into two read tokens
  around the run and rejoined after it.
-/
import proofs.«216098_g21234318311461_cont_8to1_346_22_alg».proof.Proof.KITile

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "fV" => (Memref.whole Cert.KernelIdeal.main_arg0_scv : Memref Cert.KernelIdeal.sig Kind.scVector Space.hbm Cert.KernelIdeal.S16384x128 EltTy.f32)
local notation "aV" => (Memref.whole Cert.KernelIdeal.main_arg1_scv : Memref Cert.KernelIdeal.sig Kind.scVector Space.hbm Cert.KernelIdeal.S16384x128 EltTy.f32)
local notation "lV" => (Memref.whole Cert.KernelIdeal.main_v0_scv : Memref Cert.KernelIdeal.sig Kind.scVector Space.hbm Cert.KernelIdeal.S128x128 EltTy.i32)
local notation "cenV" => (Memref.whole Cert.KernelIdeal.main_arg3_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S512 EltTy.f32)
local notation "ixS" => (Memref.whole Cert.KernelIdeal.cc0_scratch0 : Memref Cert.KernelIdeal.sig Kind.scVector Space.vmem Cert.KernelIdeal.S4x128 EltTy.i32)
local notation "cnS" => (Memref.whole Cert.KernelIdeal.cc0_scratch1 : Memref Cert.KernelIdeal.sig Kind.scVector Space.vmem Cert.KernelIdeal.S2x128x128 EltTy.f32)
local notation "ftS" => (Memref.whole Cert.KernelIdeal.cc0_scratch2 : Memref Cert.KernelIdeal.sig Kind.scVector Space.vmem Cert.KernelIdeal.S2x128x128 EltTy.f32)
local notation "wtS" => (Memref.whole Cert.KernelIdeal.cc0_scratch3 : Memref Cert.KernelIdeal.sig Kind.scVector Space.vmem Cert.KernelIdeal.S2x128x128 EltTy.f32)
local notation "acS" => (Memref.whole Cert.KernelIdeal.cc0_scratch4 : Memref Cert.KernelIdeal.sig Kind.scVector Space.vmem Cert.KernelIdeal.S16 EltTy.f32)

variable (m : (ℓ : Loc nD τ sig) → Buf (Elt F) ℓ) (d : Dev nD) (L : grid0.Coords) (lab : (d : Dev nD) → Buf (Elt F) (lLoc d))
variable [FloatOps F] (hlab : ∀ d j, (lab d j).toNat < 100000) (G : (d : Dev nD) → Buf (Elt F) (oLoc d))

/-- What the run leaves in the tile's piece, as a whole-array contents. -/
abbrev outAfter (t1 : Buf (Elt F) ((cnS).view.loc (VT d L))) (t2 : Buf (Elt F) ((ftS).view.loc (VT d L)))
    (t3 : Buf (Elt F) ((wtS).view.loc (VT d L))) (t4 : Buf (Elt F) ((acS).view.loc (VT d L))) : Buf (Elt F) (oLoc d) :=
  (oSlice L).view.writes (Elt F) (m (oLoc d)) [⟨Rect.whole S16, outPay m d L lab hlab t1 t2 t3 t4⟩]

/-- The task on vector subcore `(L 0, L 1)` of device `d`, from what the launch deals it to what it hands back. -/
theorem tile_body (hF : (K (F := F)).Facts)
    (hG : ∀ t1 t2 t3 t4, ∀ x ∈ oSet L, outAfter m d L lab hlab t1 t2 t3 t4 x = G d x)
    (q : PosShare TreeShare) (O : CellTallies nD τ sig (HIx 1)) (W : Waits sig (HIx 1)) (hO : ∀ g, O g none = 0) :
    iprop(levAts (K (F := F)).L (K (F := F)).lev ∗ emp
        ∗ (roPts m lab d q ∗ (oLoc d ↦[oSet L]{fullShare} m (oLoc d)))
        ∗ scopedBufs (VT d L) ∗ scopedSems0 (VT d L) ∗ owes (VT d L) O W)
      ⊢ wp frame (wpE (defs₀ (F := F)) 𝒱₀ (VT d L) none) Set.univ
          (cc0_sc_kernel L fV (Memref.isWhole_whole _) aV (Memref.isWhole_whole _) lV (Memref.isWhole_whole _) cenV (Memref.isWhole_whole _) oV (Memref.isWhole_whole _)
            ixS (Memref.isWhole_whole _) cnS (Memref.isWhole_whole _) ftS (Memref.isWhole_whole _) wtS (Memref.isWhole_whole _) acS (Memref.isWhole_whole _)
            cc0_scratch5 cc0_scratch6 cc0_scratch7 cc0_scratch8 cc0_scratch9 cc0_scratch10 cc0_scoped0 cc0_scoped1)
          fun _ => iprop((roPts m lab d q ∗ (oLoc d ↦[oSet L]{fullShare} G d))
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (coreOf L) (subOf L), SparseCore.Cfg.scopedSems0_V (Val := Elt F) d (coreOf L) (subOf L), ownSems0_V, ownBufs_V]
  iintro ⟨#Hlv, -, ⟨⟨Hf, Ha, Hl, Hc⟩, Ho⟩, ⟨⟨⟨%g0, HG⟩, ⟨%t1, HT1⟩, ⟨%t2, HT2⟩, ⟨%t3, HT3⟩, ⟨%t4, HT4⟩⟩, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  -- two read tokens of the features, the weights and the centres, numbered by the cells their copies complete on
  ihave Hf' := (toks_pair (m (fLoc d)) q 5 1 4 (by omega) (by omega) (by omega)).1 $$ Hf
  icases Hf' with ⟨HF1, HF4, HFr⟩
  ihave Ha' := (toks_pair (m (aLoc d)) q 6 2 5 (by omega) (by omega) (by omega)).1 $$ Ha
  icases Ha' with ⟨HA2, HA5, HAr⟩
  ihave Hc' := (toks_pair (m (cLoc d)) q 4 0 3 (by omega) (by omega) (by omega)).1 $$ Hc
  icases Hc' with ⟨HC0, HC3, HCr⟩
  -- the scratches in the body's spelling
  ihave HG' := (Entails.of_eq (pts_scr (F := F) d L cc0_scratch0 _).symm) $$ HG
  ihave HT1' := (Entails.of_eq (pts_scr (F := F) d L cc0_scratch1 _).symm) $$ HT1
  ihave HT2' := (Entails.of_eq (pts_scr (F := F) d L cc0_scratch2 _).symm) $$ HT2
  ihave HT3' := (Entails.of_eq (pts_scr (F := F) d L cc0_scratch3 _).symm) $$ HT3
  ihave HT4' := (Entails.of_eq (pts_scr (F := F) d L cc0_scratch4 _).symm) $$ HT4
  iapply (wp_wand_r Idealize.ShloMosaic.frame (wpE (defs₀ (F := F)) 𝒱₀ (VT d L) none) Set.univ)
  isplitl [HF1 HF4 HA2 HA5 HC0 HC3 Hl Ho HG' HT1' HT2' HT3' HT4' HC HO]
  · iapply (tile_run m d L lab hlab O W q q q q g0 t1 t2 t3 t4)
    isplitr; · iexact Hmw
    isplitl [HF1]; · iexact HF1
    isplitl [HF4]; · iexact HF4
    isplitl [HA2]; · iexact HA2
    isplitl [HA5]; · iexact HA5
    isplitl [HC0]; · iexact HC0
    isplitl [HC3]; · iexact HC3
    isplitl [Hl]; · iexact Hl
    isplitl [Ho]; · iexact Ho
    isplitl [HG']; · iexact HG'
    isplitl [HT1']; · iexact HT1'
    isplitl [HT2']; · iexact HT2'
    isplitl [HT3']; · iexact HT3'
    isplitl [HT4']; · iexact HT4'
    isplitl [HC]; · iexact HC
    iexact HO
  iintro %_ ⟨HF1, HF4, HA2, HA5, HC0, HC3, Hl, Ho, ⟨%g, HG'⟩, ⟨%u1, HT1'⟩, ⟨%u2, HT2'⟩, ⟨%u3, HT3'⟩, ⟨%u4, HT4'⟩, HC, ⟨%W', HO⟩⟩
  ihave Hf := (toks_pair (m (fLoc d)) q 5 1 4 (by omega) (by omega) (by omega)).2 $$ [HF1 HF4 HFr]
  · isplitl [HF1]; · iexact HF1
    isplitl [HF4]; · iexact HF4
    iexact HFr
  ihave Ha := (toks_pair (m (aLoc d)) q 6 2 5 (by omega) (by omega) (by omega)).2 $$ [HA2 HA5 HAr]
  · isplitl [HA2]; · iexact HA2
    isplitl [HA5]; · iexact HA5
    iexact HAr
  ihave Hc := (toks_pair (m (cLoc d)) q 4 0 3 (by omega) (by omega) (by omega)).2 $$ [HC0 HC3 HCr]
  · isplitl [HC0]; · iexact HC0
    isplitl [HC3]; · iexact HC3
    iexact HCr
  -- the piece at the whole-array result: the two contents agree on the piece
  ihave Ho' := (Entails.of_eq (pointsTo_congr (ℓ := oLoc d) (I := oSet L) (q := fullShare) (hG t1 t2 t3 t4))) $$ Ho
  isplitl [Hf Ha Hl Hc Ho']
  · isplitl [Hf Ha Hl Hc]
    · isplitl [Hf]; · iexact Hf
      isplitl [Ha]; · iexact Ha
      isplitl [Hl]; · iexact Hl
      iexact Hc
    iexact Ho'
  isplitl [HG' HT1' HT2' HT3' HT4' Hbufs]
  · isplitl [HG' HT1' HT2' HT3' HT4']
    · isplitl [HG']; · iexists _; iapply (Entails.of_eq (pts_scr (F := F) d L cc0_scratch0 _)); iexact HG'
      isplitl [HT1']; · iexists _; iapply (Entails.of_eq (pts_scr (F := F) d L cc0_scratch1 _)); iexact HT1'
      isplitl [HT2']; · iexists _; iapply (Entails.of_eq (pts_scr (F := F) d L cc0_scratch2 _)); iexact HT2'
      isplitl [HT3']; · iexists _; iapply (Entails.of_eq (pts_scr (F := F) d L cc0_scratch3 _)); iexact HT3'
      iexists _; iapply (Entails.of_eq (pts_scr (F := F) d L cc0_scratch4 _)); iexact HT4'
    iexact Hbufs
  isplitl [HC Hsems]
  · isplitl [HC]; · iexact HC
    iexact Hsems
  iexists W'; isplitr
  · ipureintro; intro p _
    rcases p.2 with _ | q'
    · exact .inr (.inl rfl)
    · exact .inr (.inr (congrArg some (Subsingleton.elim q' 0)))
  · iexact HO

/-! ## The obligation -/

theorem defs₀_vector (c : Fin τ.nSC) (s : Fin τ.nSub) :
    defs₀ (F := F) (.scVector c s) 0 ()
      = SparseCore.onTile hcore0 hsub0 (fun c s => cc0_sc_kernel (coordsV c s) fV (Memref.isWhole_whole _) aV (Memref.isWhole_whole _) lV (Memref.isWhole_whole _) cenV (Memref.isWhole_whole _) oV (Memref.isWhole_whole _)
            ixS (Memref.isWhole_whole _) cnS (Memref.isWhole_whole _) ftS (Memref.isWhole_whole _) wtS (Memref.isWhole_whole _) acS (Memref.isWhole_whole _)
            cc0_scratch5 cc0_scratch6 cc0_scratch7 cc0_scratch8 cc0_scratch9 cc0_scratch10 cc0_scoped0 cc0_scoped1) ⟨⟩ c s := rfl

theorem tileObl (hF : (K (F := F)).Facts)
    (hG : ∀ d L t1 t2 t3 t4, ∀ x ∈ oSet L, outAfter m d L lab hlab t1 t2 t3 t4 x = G d x) :
    (K (F := F)).TileObl (D (F := F)) 𝒱 (P m lab G) v₀ 0 := by
  intro d c i O W hO _ _
  simp only [show (P m lab G).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) lab hlab G hF (hG d _) (qTile c.val i.val) O W hO

end Cert.Proof.KI

end
-- ==== Proof.KIVecSplit.lean ====
/-
  How a SparseCore's hand-out splits among its sixteen tiles and joins back.

  A SparseCore holds a read share of each of the four arrays its tiles only read, and its sixteen tiles' pieces of the
  partial-sums vector. A read share splits into a remainder and sixteen tokens, one per tile; the pieces are already one
  per tile. So the hand-out is the sixteen tiles' hand-outs beside the four remainders, which nobody needs during the
  call: they are kept aside and, when every tile has handed its share and its piece back, rejoined with the sixteen
  tokens into the SparseCore's share.
-/
import proofs.«216098_g21234318311461_cont_8to1_346_22_alg».proof.Proof.KIPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "fV" => (Memref.whole Cert.KernelIdeal.main_arg0_scv : Memref Cert.KernelIdeal.sig Kind.scVector Space.hbm Cert.KernelIdeal.S16384x128 EltTy.f32)
local notation "aV" => (Memref.whole Cert.KernelIdeal.main_arg1_scv : Memref Cert.KernelIdeal.sig Kind.scVector Space.hbm Cert.KernelIdeal.S16384x128 EltTy.f32)
local notation "lV" => (Memref.whole Cert.KernelIdeal.main_v0_scv : Memref Cert.KernelIdeal.sig Kind.scVector Space.hbm Cert.KernelIdeal.S128x128 EltTy.i32)
local notation "cenV" => (Memref.whole Cert.KernelIdeal.main_arg3_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S512 EltTy.f32)
local notation "ixS" => (Memref.whole Cert.KernelIdeal.cc0_scratch0 : Memref Cert.KernelIdeal.sig Kind.scVector Space.vmem Cert.KernelIdeal.S4x128 EltTy.i32)
local notation "cnS" => (Memref.whole Cert.KernelIdeal.cc0_scratch1 : Memref Cert.KernelIdeal.sig Kind.scVector Space.vmem Cert.KernelIdeal.S2x128x128 EltTy.f32)
local notation "ftS" => (Memref.whole Cert.KernelIdeal.cc0_scratch2 : Memref Cert.KernelIdeal.sig Kind.scVector Space.vmem Cert.KernelIdeal.S2x128x128 EltTy.f32)
local notation "wtS" => (Memref.whole Cert.KernelIdeal.cc0_scratch3 : Memref Cert.KernelIdeal.sig Kind.scVector Space.vmem Cert.KernelIdeal.S2x128x128 EltTy.f32)
local notation "acS" => (Memref.whole Cert.KernelIdeal.cc0_scratch4 : Memref Cert.KernelIdeal.sig Kind.scVector Space.vmem Cert.KernelIdeal.S16 EltTy.f32)

variable (m : (ℓ : Loc nD τ sig) → Buf (Elt F) ℓ) (lab : (d : Dev nD) → Buf (Elt F) (lLoc d)) (G : (d : Dev nD) → Buf (Elt F) (oLoc d))

/-- One array at a read share is the remainder after sixteen tokens beside the sixteen tokens. -/
theorem pts_toks (q : PosShare TreeShare) (ℓ : Loc nD τ sig) (f : Buf (Elt F) ℓ) :
    (ℓ ↦{q} f : sProp 𝕄)
      = iprop((ℓ ↦{Transfers.shareDrop q 16} f) ∗ bigSep Finset.univ fun i : Fin 16 => ℓ ↦{Transfers.shareTokN q i.val} f) :=
  BI.Entails.antisymm (Transfers.pointsTo_toks q 16).1 (Transfers.pointsTo_toks q 16).2

/-- The four read-only arrays at a read share are the four remainders beside, per tile, the four tokens. -/
theorem roPts_toks (d : Dev nD) (q : PosShare TreeShare) :
    roPts m lab d q
      = iprop(roPts m lab d (Transfers.shareDrop q 16) ∗ bigSep Finset.univ fun i : Fin 16 => roPts m lab d (Transfers.shareTokN q i.val)) := by
  show iprop((fLoc d ↦{q} m (fLoc d)) ∗ (aLoc d ↦{q} m (aLoc d)) ∗ (lLoc d ↦{q} lab d) ∗ (cLoc d ↦{q} m (cLoc d)))
    = iprop(iprop((fLoc d ↦{Transfers.shareDrop q 16} m (fLoc d)) ∗ (aLoc d ↦{Transfers.shareDrop q 16} m (aLoc d))
          ∗ (lLoc d ↦{Transfers.shareDrop q 16} lab d) ∗ (cLoc d ↦{Transfers.shareDrop q 16} m (cLoc d)))
        ∗ bigSep Finset.univ fun i : Fin 16 => iprop((fLoc d ↦{Transfers.shareTokN q i.val} m (fLoc d)) ∗ (aLoc d ↦{Transfers.shareTokN q i.val} m (aLoc d))
          ∗ (lLoc d ↦{Transfers.shareTokN q i.val} lab d) ∗ (cLoc d ↦{Transfers.shareTokN q i.val} m (cLoc d))))
  rw [bigSep_sep', bigSep_sep', bigSep_sep', pts_toks q (fLoc d), pts_toks q (aLoc d), pts_toks q (lLoc d), pts_toks q (cLoc d)]
  refine BI.Entails.antisymm (show (_ : sProp 𝕄) ⊢ _ from ?_) (show (_ : sProp 𝕄) ⊢ _ from ?_)
  · iintro ⟨⟨Hf, Hfs⟩, ⟨Ha, Has⟩, ⟨Hl, Hls⟩, Hc, Hcs⟩
    isplitl [Hf Ha Hl Hc]
    · isplitl [Hf]; · iexact Hf
      isplitl [Ha]; · iexact Ha
      isplitl [Hl]; · iexact Hl
      iexact Hc
    isplitl [Hfs]; · iexact Hfs
    isplitl [Has]; · iexact Has
    isplitl [Hls]; · iexact Hls
    iexact Hcs
  · iintro ⟨⟨Hf, Ha, Hl, Hc⟩, Hfs, Has, Hls, Hcs⟩
    isplitl [Hf Hfs]
    · isplitl [Hf]; · iexact Hf
      iexact Hfs
    isplitl [Ha Has]
    · isplitl [Ha]; · iexact Ha
      iexact Has
    isplitl [Hl Hls]
    · isplitl [Hl]; · iexact Hl
      iexact Hls
    isplitl [Hc]; · iexact Hc
    iexact Hcs

/-- The sixteen tiles' hand-outs are their sixteen tokens of the four arrays beside the sixteen pieces. -/
theorem go_tiles (d : Dev nD) (c : Fin ((K (F := F)).nCore 0)) (f : Buf (Elt F) (oLoc d)) :
    (bigSep Finset.univ fun i : Fin ((K (F := F)).nSub 0) => iprop(roPts m lab d (qTile c.val i.val) ∗ oPiece d (cG c) (sG i) f))
      = iprop((bigSep Finset.univ fun i : Fin 16 => roPts m lab d (Transfers.shareTokN (qCore c.val) i.val))
          ∗ bigSep Finset.univ fun s : Fin (grid0.bound 1) => oPiece d (cG c) s f) := by
  rw [bigSep_sep']
  rfl

/-- THE SPLIT: a SparseCore's hand-out is its tiles' hand-outs, and their returns rejoin into what it hands back. -/
theorem vecSplit : (K (F := F)).VecSplit' (P m lab G) 0 := by
  intro d c
  show iprop(roPts m lab d (qCore c.val) ∗ bigSep Finset.univ fun s : Fin (grid0.bound 1) => oPiece d (cG c) s (m (oLoc d)))
    ⊢ |={Set.univ}=> iprop((bigSep Finset.univ fun i : Fin ((K (F := F)).nSub 0) => iprop(roPts m lab d (qTile c.val i.val) ∗ oPiece d (cG c) (sG i) (m (oLoc d))))
      ∗ ((bigSep Finset.univ fun i : Fin ((K (F := F)).nSub 0) => iprop(roPts m lab d (qTile c.val i.val) ∗ oPiece d (cG c) (sG i) (G d)))
          -∗ iprop(roPts m lab d (qCore c.val) ∗ bigSep Finset.univ fun s : Fin (grid0.bound 1) => oPiece d (cG c) s (G d))))
  rw [go_tiles m lab d c (m (oLoc d)), go_tiles m lab d c (G d), roPts_toks m lab d (qCore c.val)]
  iintro ⟨⟨Hd, Ht⟩, Ho⟩
  imodintro
  isplitl [Ht Ho]
  · isplitl [Ht]; · iexact Ht
    iexact Ho
  iintro ⟨Ht, Ho⟩
  isplitl [Hd Ht]
  · isplitl [Hd]; · iexact Hd
    iexact Ht
  iexact Ho

end Cert.Proof.KI

end
-- ==== Proof.KILabels.lean ====
/-
  The labels as the kernel's tiles read them.

  The kernel's first host operation lays the 16384 labels out as a 128 × 128 array, in row-major order: the word at
  row r, column x of the laid-out array is label 128·r + x. This module names that array as one pure function of the
  given labels, reads it at an index, and carries the label range over to it: when every label is at most 99999, so is
  every word of the laid-out array.
-/
import proofs.«216098_g21234318311461_cont_8to1_346_22_alg».proof.Proof.KICommon
import proofs.«216098_g21234318311461_cont_8to1_346_22_alg».proof.Proof.LabelRange
import Idealize.ShloMosaic.Lib.Pipeline.Value
import Idealize.ShloMosaic.Lib.ValueIdx

noncomputable section

namespace Cert.Proof.KI

open Cert.KernelIdeal Cert.KernelIdeal.Gen

open Idealize.ShloMosaic

variable {F : FTy → Type}

/-- The labels laid out 128 × 128: the same words in row-major order. -/
def lab2 (g : IVec S16384 32) : IVec S128x128 32 := shapeCast S128x128 g shapeCasts_S16384_S128x128

/-- After the first host operation the laid-out buffer holds `lab2` of the labels as given. -/
theorem reshape_result_v0 (V : Valuation τ sig (Elt F)) :
    (StableHlo.reshape (Val := Elt F) main_arg2 main_v0 rfl shapeCasts_S16384_S128x128).result V (Proc.devRef .tc main_v0)
      = lab2 (V (Proc.devRef .tc main_arg2)) :=
  StableHlo.reshape_result main_arg2 main_v0 rfl shapeCasts_S16384_S128x128 ⟨by decide, rfl⟩ ⟨by decide, rfl⟩ V

/-- Every other buffer holds what it held. -/
theorem reshape_result_ne_v0 (V : Valuation τ sig (Elt F)) {r : Ref sig .tc} (h : r ≠ main_v0) :
    (StableHlo.reshape (Val := Elt F) main_arg2 main_v0 rfl shapeCasts_S16384_S128x128).result V (Proc.devRef .tc r)
      = V (Proc.devRef .tc r) :=
  StableHlo.reshape_result_ne (x := main_arg2) (y := main_v0) rfl shapeCasts_S16384_S128x128 ⟨by decide, rfl⟩ ⟨by decide, rfl⟩ V h

/-- The word at row r, column x is label 128·r + x. -/
theorem lab2_apply (g : IVec S16384 32) (r x : Fin 128) :
    lab2 g (ValueIdx.ix2 r x) = g (ValueIdx.ix1 ⟨r.val * 128 + x.val, by omega⟩) := by
  unfold lab2
  refine shapeCast_apply g _ _ _ ?_
  rw [Shape.rowMajor_val_one, Shape.rowMajor_val_two]
  rfl

/-- Labels at most 99999 stay so when laid out: every word of the laid-out array is below 100000. -/
theorem lab2_lt (g : IVec S16384 32) (h : ∀ b, (g b).toNat ≤ 99999) : ∀ j, (lab2 g j).toNat < 100000 := by
  intro j
  unfold lab2 shapeCast
  exact Nat.lt_succ_of_le (h _)

/-- Under the input-domain precondition every word of the laid-out labels is below 100000. -/
theorem lab2_lt_of_pre [FloatOps F] (feat A : FVec F Cert.Pre_input_domain.S16384x128 .f32) (label : IVec Cert.Pre_input_domain.S16384 32)
    (centers : FVec F Cert.Pre_input_domain.S100000x128 .f32)
    (h : Cert.Pre_input_domain.fn (F := F) feat A label centers = fun _ => 1#1) : ∀ j, (lab2 label j).toNat < 100000 :=
  lab2_lt label (Cert.Hand.label_le feat A label centers h)

end Cert.Proof.KI

end
-- ==== Proof.KIMain.lean ====
/-
  @main on the TensorCore, and what the final memory tells the claim.

  @main lays the labels out 128 × 128, calls the SparseCore kernel on the features, the weights, the laid-out labels
  and the centres table, and then sums the kernel's vector of 512 partial sums and scales the sum. For the call, the
  TensorCore splits its full share of each of the four arrays the kernel only reads into a remainder it keeps and one
  read token per SparseCore, and the partial-sums vector into the thirty-two tiles' pieces; when the call returns it
  rejoins them, the vector now at the kernel's result. The four operations after the call run over the TensorCore's
  buffers held whole. At the end the four argument arrays are at their launch contents and the result buffer is at
  the scaled sum of the kernel's vector; the final memory agrees with the buffers held.
-/
import proofs.«216098_g21234318311461_cont_8to1_346_22_alg».proof.Proof.KIVecSplit
import proofs.«216098_g21234318311461_cont_8to1_346_22_alg».proof.Proof.KILabels

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within)
open Idealize.ShloMosaic.Tactic

variable {F : FTy → Type} [FloatOps F]

local notation "𝕄" => MT nD τ sig (HIx 1) (Elt F) ℕ UU ℕ
local notation "fV" => (Memref.whole Cert.KernelIdeal.main_arg0_scv : Memref Cert.KernelIdeal.sig Kind.scVector Space.hbm Cert.KernelIdeal.S16384x128 EltTy.f32)
local notation "aV" => (Memref.whole Cert.KernelIdeal.main_arg1_scv : Memref Cert.KernelIdeal.sig Kind.scVector Space.hbm Cert.KernelIdeal.S16384x128 EltTy.f32)
local notation "lV" => (Memref.whole Cert.KernelIdeal.main_v0_scv : Memref Cert.KernelIdeal.sig Kind.scVector Space.hbm Cert.KernelIdeal.S128x128 EltTy.i32)
local notation "cenV" => (Memref.whole Cert.KernelIdeal.main_arg3_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S512 EltTy.f32)
local notation "ixS" => (Memref.whole Cert.KernelIdeal.cc0_scratch0 : Memref Cert.KernelIdeal.sig Kind.scVector Space.vmem Cert.KernelIdeal.S4x128 EltTy.i32)
local notation "cnS" => (Memref.whole Cert.KernelIdeal.cc0_scratch1 : Memref Cert.KernelIdeal.sig Kind.scVector Space.vmem Cert.KernelIdeal.S2x128x128 EltTy.f32)
local notation "ftS" => (Memref.whole Cert.KernelIdeal.cc0_scratch2 : Memref Cert.KernelIdeal.sig Kind.scVector Space.vmem Cert.KernelIdeal.S2x128x128 EltTy.f32)
local notation "wtS" => (Memref.whole Cert.KernelIdeal.cc0_scratch3 : Memref Cert.KernelIdeal.sig Kind.scVector Space.vmem Cert.KernelIdeal.S2x128x128 EltTy.f32)
local notation "acS" => (Memref.whole Cert.KernelIdeal.cc0_scratch4 : Memref Cert.KernelIdeal.sig Kind.scVector Space.vmem Cert.KernelIdeal.S16 EltTy.f32)

variable (m : (ℓ : Loc nD τ sig) → Buf (Elt F) ℓ) (ρ : Dev nD → PrngReg) (G : (d : Dev nD) → Buf (Elt F) (oLoc d))

/-! ## The buffers and the operations -/

abbrev f' : DevRef τ sig := Proc.devRef .tc (main_arg0 : Ref sig .tc)
abbrev a' : DevRef τ sig := Proc.devRef .tc (main_arg1 : Ref sig .tc)
abbrev g' : DevRef τ sig := Proc.devRef .tc (main_arg2 : Ref sig .tc)
abbrev c' : DevRef τ sig := Proc.devRef .tc (main_arg3 : Ref sig .tc)
abbrev l' : DevRef τ sig := Proc.devRef .tc (main_v0 : Ref sig .tc)
abbrev o' : DevRef τ sig := Proc.devRef .tc (main_v1 : Ref sig .tc)
abbrev v3' : DevRef τ sig := Proc.devRef .tc (main_v3 : Ref sig .tc)

/-- The labels as the tiles read them: the given labels laid out 128 × 128. -/
abbrev lab (d : Dev nD) : Buf (Elt F) (lLoc d) := lab2 (m (gLoc d))

/-- @main's first operation: the labels laid out. -/
abbrev opReshape : HloOp τ sig (Elt F) := StableHlo.reshape main_arg2 main_v0 rfl shapeCasts_S16384_S128x128

/-- The four operations after the call, in order: zero, the sum of the partial sums, the scale, the product. -/
abbrev op1 : HloOp τ sig (Elt F) := StableHlo.nullary main_cst (constant S_ .f32 0x00000000#32)
abbrev op2 : HloOp τ sig (Elt F) := StableHlo.binary main_v1 main_cst main_v2 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F))
abbrev op3 : HloOp τ sig (Elt F) := StableHlo.nullary main_cst_0 (constant S_ .f32 0x38000000#32)
abbrev op4 : HloOp τ sig (Elt F) := StableHlo.binary main_v2 main_cst_0 main_v3 (mulf : (⟨S_, .f32⟩ : BufTy).Contents (Elt F) → (⟨S_, .f32⟩ : BufTy).Contents (Elt F) → (⟨S_, .f32⟩ : BufTy).Contents (Elt F))
abbrev hostOps : List (HloOp τ sig (Elt F)) := [op1, op2, op3, op4]

/-! ## The valuations -/

/-- The launch valuation. -/
def V0 (d : Dev nD) : Valuation τ sig (Elt F) := fun b => m (d, b)
/-- Before the call: the laid-out labels in their buffer. -/
def Vb (d : Dev nD) : Valuation τ sig (Elt F) := Function.update (V0 m d) l' (lab m d)
/-- After the call: the kernel's result in the partial-sums vector besides. -/
def Vc (d : Dev nD) : Valuation τ sig (Elt F) := Function.update (Vb m d) o' (G d)
/-- At the end: the four operations after the call applied to that. -/
def VEnd (d : Dev nD) : Valuation τ sig (Elt F) := StableHlo.after hostOps (Vc m G d)

theorem Vb_l (d : Dev nD) : Vb m d l' = lab m d := Function.update_self _ _ _
theorem Vb_of_ne (d : Dev nD) (b : DevRef τ sig) (hl : b ≠ l') : Vb m d b = V0 m d b := Function.update_of_ne hl _ _
theorem Vc_l (d : Dev nD) : Vc m G d l' = lab m d :=
  (Function.update_of_ne (show l' ≠ o' by decide) _ _).trans (Vb_l m d)
theorem Vc_o (d : Dev nD) : Vc m G d o' = G d := Function.update_self _ _ _
theorem Vc_of_ne (d : Dev nD) (b : DevRef τ sig) (hl : b ≠ l') (ho : b ≠ o') : Vc m G d b = V0 m d b :=
  (Function.update_of_ne ho _ _).trans (Vb_of_ne m d b hl)

/-- The result buffer at the end: the kernel's 512 partial sums added up from zero, times the scale. -/
theorem v3_eq (d : Dev nD) :
    VEnd m G d (Proc.devRef .tc main_v3)
      = mulf (Host.reduceAdd (G d) (constant (F := F) S_ .f32 0x00000000#32) reducesTo_S512_S_d0 h_S_) (constant (F := F) S_ .f32 0x38000000#32) := by
  unfold VEnd
  after_results
  rw [Vc_o]

/-- The operations after the call write none of the four argument arrays. -/
theorem VEnd_f (d : Dev nD) : VEnd m G d f' = m (fLoc d) := by
  unfold VEnd; after_results; exact Vc_of_ne m G d f' (by decide) (by decide)
theorem VEnd_a (d : Dev nD) : VEnd m G d a' = m (aLoc d) := by
  unfold VEnd; after_results; exact Vc_of_ne m G d a' (by decide) (by decide)
theorem VEnd_g (d : Dev nD) : VEnd m G d g' = m (gLoc d) := by
  unfold VEnd; after_results; exact Vc_of_ne m G d g' (by decide) (by decide)
theorem VEnd_c (d : Dev nD) : VEnd m G d c' = m (cLoc d) := by
  unfold VEnd; after_results; exact Vc_of_ne m G d c' (by decide) (by decide)

/-! ## What @main leaves the claim -/

/-- The four argument arrays whole at their launch contents and the result buffer whole at its final contents. -/
abbrev FIN (d : Dev nD) : sProp 𝕄 :=
  iprop((fLoc d ↦{fullShare} m (fLoc d)) ∗ (aLoc d ↦{fullShare} m (aLoc d)) ∗ (gLoc d ↦{fullShare} m (gLoc d)) ∗ (cLoc d ↦{fullShare} m (cLoc d))
    ∗ ((SparseCore.T d).loc main_v3 ↦{fullShare} VEnd m G d (Proc.devRef .tc main_v3)))

def fq (d : Dev nD) (s' : Phys nD τ sig (Elt F)) : Prop :=
  s'.mem.mem (fLoc d) = m (fLoc d) ∧ s'.mem.mem (aLoc d) = m (aLoc d) ∧ s'.mem.mem (gLoc d) = m (gLoc d) ∧ s'.mem.mem (cLoc d) = m (cLoc d)
    ∧ s'.mem.mem ((SparseCore.T d).loc main_v3) = VEnd m G d (Proc.devRef .tc main_v3)

/-- The final memory agrees with every buffer held whole. -/
theorem hfin (d : Dev nD) (s' : Phys nD τ sig (Elt F)) : iprop(FIN m G d ∗ SI s') ⊢ (⌜fq m G d s'⌝ : sProp 𝕄) := by
  iintro ⟨⟨Hf, Ha, Hg, Hc, Hv⟩, HSI⟩
  ihave H := (persistent_entails_right (SI_pointsTo_agree (st := s') (ℓ := fLoc d) (I := Finset.univ) (q := fullShare) (f := m (fLoc d)))) $$ [HSI Hf]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (persistent_entails_right (SI_pointsTo_agree (st := s') (ℓ := gLoc d) (I := Finset.univ) (q := fullShare) (f := m (gLoc d)))) $$ [HSI Hg]
  · isplitl [HSI] <;> iassumption
  icases H with ⟨%h3, HSI, -⟩
  ihave H := (persistent_entails_right (SI_pointsTo_agree (st := s') (ℓ := cLoc d) (I := Finset.univ) (q := fullShare) (f := m (cLoc d)))) $$ [HSI Hc]
  · isplitl [HSI] <;> iassumption
  icases H with ⟨%h4, HSI, -⟩
  ihave H := (SI_pointsTo_agree (st := s') (ℓ := (SparseCore.T d).loc main_v3) (I := Finset.univ) (q := fullShare) (f := VEnd m G d (Proc.devRef .tc main_v3))) $$ [HSI Hv]
  · isplitl [HSI] <;> iassumption
  icases H with %h5
  ipureintro
  exact ⟨funext fun (i : Idx (fLoc d)) => h1 i (Finset.mem_univ i), funext fun (i : Idx (aLoc d)) => h2 i (Finset.mem_univ i),
    funext fun (i : Idx (gLoc d)) => h3 i (Finset.mem_univ i), funext fun (i : Idx (cLoc d)) => h4 i (Finset.mem_univ i),
    funext fun (i : Idx ((SparseCore.T d).loc main_v3)) => h5 i (Finset.mem_univ i)⟩

/-! ## The buffers @main holds, by parts -/

/-- The buffers the call takes: the features, the weights, the laid-out labels, the centres, the partial-sums vector. -/
abbrev S5 : Finset (DevRef τ sig) := {f', a', l', c', o'}
/-- The buffers the claim reads: the four arguments and the result. -/
abbrev SF : Finset (DevRef τ sig) := {f', a', g', c', v3'}

theorem S5_sub : S5 ⊆ Pipeline.ucRefs τ sig := by decide
theorem SF_sub : SF ⊆ Pipeline.ucRefs τ sig := by decide

omit [FloatOps F] in
theorem held_S5 (d : Dev nD) (W : Valuation τ sig (Elt F)) :
    (held (T d) S5 W : sProp 𝕄)
      = iprop((fLoc d ↦{fullShare} W f') ∗ (aLoc d ↦{fullShare} W a') ∗ (lLoc d ↦{fullShare} W l') ∗ (cLoc d ↦{fullShare} W c') ∗ (oLoc d ↦{fullShare} W o')) := by
  unfold held S5
  rw [SparseCore.bigSep_insert' (by decide), SparseCore.bigSep_insert' (by decide), SparseCore.bigSep_insert' (by decide),
    SparseCore.bigSep_insert' (by decide), bigSep_singleton]

omit [FloatOps F] in
theorem held_SF (d : Dev nD) (W : Valuation τ sig (Elt F)) :
    (held (T d) SF W : sProp 𝕄)
      = iprop((fLoc d ↦{fullShare} W f') ∗ (aLoc d ↦{fullShare} W a') ∗ (gLoc d ↦{fullShare} W g') ∗ (cLoc d ↦{fullShare} W c')
          ∗ ((SparseCore.T d).loc main_v3 ↦{fullShare} W v3')) := by
  unfold held SF
  rw [SparseCore.bigSep_insert' (by decide), SparseCore.bigSep_insert' (by decide), SparseCore.bigSep_insert' (by decide),
    SparseCore.bigSep_insert' (by decide), bigSep_singleton]

/-- The launch's unscoped buffers are the TensorCore's unscoped references held at the launch valuation. -/
theorem unscoped_held (d : Dev nD) :
    (unscopedBufs d (fun b => m ((SparseCore.T d).loc b)) : sProp 𝕄) = held (T d) (Pipeline.ucRefs τ sig) (V0 m d) :=
  Pipeline.unscopedBufs_held d (V0 m d)

/-- After the first operation the buffers are at `Vb`: the laid-out labels in their buffer, every other as launched. -/
theorem result_reshape (d : Dev nD) (b : DevRef τ sig) : (opReshape (F := F)).result (V0 m d) b = Vb m d b := by
  by_cases hb : b = l'
  · subst hb
    rw [Vb_l]
    exact reshape_result_v0 (F := F) (V0 m d)
  · rw [Vb_of_ne m d b hb]
    exact (opReshape (F := F)).result_of_not_mem (V0 m d) (b := b) (by
      show b ∉ ({l'} : Finset (DevRef τ sig))
      rw [Finset.mem_singleton]; exact hb)

theorem hReshape : (opReshape (F := F)).bufs ⊆ Pipeline.ucRefs τ sig := Pipeline.sub_ucRefs _ (StableHlo.reshape_bufs_sub ..)
theorem hOp1 : (op1 (F := F)).bufs ⊆ Pipeline.ucRefs τ sig := Pipeline.sub_ucRefs _ (StableHlo.nullary_bufs_sub ..)
theorem hOp2 : (op2 (F := F)).bufs ⊆ Pipeline.ucRefs τ sig := Pipeline.sub_ucRefs _ (StableHlo.binary_bufs_sub ..)
theorem hOp3 : (op3 (F := F)).bufs ⊆ Pipeline.ucRefs τ sig := Pipeline.sub_ucRefs _ (StableHlo.nullary_bufs_sub ..)
theorem hOp4 : (op4 (F := F)).bufs ⊆ Pipeline.ucRefs τ sig := Pipeline.sub_ucRefs _ (StableHlo.binary_bufs_sub ..)

/-! ## The split for the call -/

omit [FloatOps F] in
/-- One array at a read share is the remainder after two tokens beside the two tokens. -/
theorem pts_toks2 (q : PosShare TreeShare) (ℓ : Loc nD τ sig) (f : Buf (Elt F) ℓ) :
    (ℓ ↦{q} f : sProp 𝕄)
      = iprop((ℓ ↦{Transfers.shareDrop q 2} f) ∗ bigSep Finset.univ fun i : Fin 2 => ℓ ↦{Transfers.shareTokN q i.val} f) :=
  BI.Entails.antisymm (Transfers.pointsTo_toks q 2).1 (Transfers.pointsTo_toks q 2).2

omit [FloatOps F] in
/-- The four read-only arrays at a read share are the four remainders beside, per SparseCore, the four tokens. -/
theorem roPts_toks2 (lb : (d : Dev nD) → Buf (Elt F) (lLoc d)) (d : Dev nD) (q : PosShare TreeShare) :
    roPts m lb d q
      = iprop(roPts m lb d (Transfers.shareDrop q 2) ∗ bigSep Finset.univ fun i : Fin 2 => roPts m lb d (Transfers.shareTokN q i.val)) := by
  show iprop((fLoc d ↦{q} m (fLoc d)) ∗ (aLoc d ↦{q} m (aLoc d)) ∗ (lLoc d ↦{q} lb d) ∗ (cLoc d ↦{q} m (cLoc d)))
    = iprop(iprop((fLoc d ↦{Transfers.shareDrop q 2} m (fLoc d)) ∗ (aLoc d ↦{Transfers.shareDrop q 2} m (aLoc d))
          ∗ (lLoc d ↦{Transfers.shareDrop q 2} lb d) ∗ (cLoc d ↦{Transfers.shareDrop q 2} m (cLoc d)))
        ∗ bigSep Finset.univ fun i : Fin 2 => iprop((fLoc d ↦{Transfers.shareTokN q i.val} m (fLoc d)) ∗ (aLoc d ↦{Transfers.shareTokN q i.val} m (aLoc d))
          ∗ (lLoc d ↦{Transfers.shareTokN q i.val} lb d) ∗ (cLoc d ↦{Transfers.shareTokN q i.val} m (cLoc d))))
  rw [bigSep_sep', bigSep_sep', bigSep_sep', pts_toks2 q (fLoc d), pts_toks2 q (aLoc d), pts_toks2 q (lLoc d), pts_toks2 q (cLoc d)]
  refine BI.Entails.antisymm (show (_ : sProp 𝕄) ⊢ _ from ?_) (show (_ : sProp 𝕄) ⊢ _ from ?_)
  · iintro ⟨⟨Hf, Hfs⟩, ⟨Ha, Has⟩, ⟨Hl, Hls⟩, Hc, Hcs⟩
    isplitl [Hf Ha Hl Hc]
    · isplitl [Hf]; · iexact Hf
      isplitl [Ha]; · iexact Ha
      isplitl [Hl]; · iexact Hl
      iexact Hc
    isplitl [Hfs]; · iexact Hfs
    isplitl [Has]; · iexact Has
    isplitl [Hls]; · iexact Hls
    iexact Hcs
  · iintro ⟨⟨Hf, Ha, Hl, Hc⟩, Hfs, Has, Hls, Hcs⟩
    isplitl [Hf Hfs]
    · isplitl [Hf]; · iexact Hf
      iexact Hfs
    isplitl [Ha Has]
    · isplitl [Ha]; · iexact Ha
      iexact Has
    isplitl [Hl Hls]
    · isplitl [Hl]; · iexact Hl
      iexact Hls
    isplitl [Hc]; · iexact Hc
    iexact Hcs

omit [FloatOps F] in
/-- What the call takes for the two SparseCores: their tokens of the four arrays beside the thirty-two pieces. -/
theorem st0_eq (d : Dev nD) :
    (bigSep Finset.univ fun c : Fin ((K (F := F)).nCore 0) => (P m (lab m) G).st 0 d c)
      = iprop((bigSep Finset.univ fun i : Fin 2 => roPts m (lab m) d (Transfers.shareTokN fullShare i.val))
          ∗ bigSep Finset.univ fun c : Fin (grid0.bound 0) => bigSep Finset.univ fun s : Fin (grid0.bound 1) => oLoc d ↦[oSet (coordsV c s)]{fullShare} m (oLoc d)) := by
  show (bigSep Finset.univ fun c : Fin ((K (F := F)).nCore 0) => iprop(roPts m (lab m) d (qCore c.val)
      ∗ bigSep Finset.univ fun s : Fin (grid0.bound 1) => oPiece d (cG c) s (m (oLoc d)))) = _
  rw [bigSep_sep']
  rfl
omit [FloatOps F] in
/-- What it hands back: the same, the pieces at the kernel's result. -/
theorem dn0_eq (d : Dev nD) :
    (bigSep Finset.univ fun c : Fin ((K (F := F)).nCore 0) => (P m (lab m) G).dn 0 d c)
      = iprop((bigSep Finset.univ fun i : Fin 2 => roPts m (lab m) d (Transfers.shareTokN fullShare i.val))
          ∗ bigSep Finset.univ fun c : Fin (grid0.bound 0) => bigSep Finset.univ fun s : Fin (grid0.bound 1) => oLoc d ↦[oSet (coordsV c s)]{fullShare} G d) := by
  show (bigSep Finset.univ fun c : Fin ((K (F := F)).nCore 0) => iprop(roPts m (lab m) d (qCore c.val)
      ∗ bigSep Finset.univ fun s : Fin (grid0.bound 1) => oPiece d (cG c) s (G d))) = _
  rw [bigSep_sep']
  rfl

/-! ## The buffers held before the call, after it, and at the end -/

theorem held_before (d : Dev nD) :
    (held (T d) (Pipeline.ucRefs τ sig) ((opReshape (F := F)).result (V0 m d)) : sProp 𝕄)
      = iprop(((fLoc d ↦{fullShare} m (fLoc d)) ∗ (aLoc d ↦{fullShare} m (aLoc d)) ∗ (lLoc d ↦{fullShare} lab m d) ∗ (cLoc d ↦{fullShare} m (cLoc d))
            ∗ (oLoc d ↦{fullShare} m (oLoc d)))
          ∗ held (T d) (Pipeline.ucRefs τ sig \ S5) (Vb m d)) := by
  rw [held_congr (T d) (fun b _ => result_reshape m d b), held_sub_split (T d) S5_sub, held_S5, Vb_l,
    Vb_of_ne m d f' (by decide), Vb_of_ne m d a' (by decide), Vb_of_ne m d c' (by decide), Vb_of_ne m d o' (by decide)]
  rfl

theorem held_after (d : Dev nD) :
    (held (T d) (Pipeline.ucRefs τ sig) (Vc m G d) : sProp 𝕄)
      = iprop(((fLoc d ↦{fullShare} m (fLoc d)) ∗ (aLoc d ↦{fullShare} m (aLoc d)) ∗ (lLoc d ↦{fullShare} lab m d) ∗ (cLoc d ↦{fullShare} m (cLoc d))
            ∗ (oLoc d ↦{fullShare} G d))
          ∗ held (T d) (Pipeline.ucRefs τ sig \ S5) (Vb m d)) := by
  rw [held_sub_split (T d) S5_sub, held_S5, Vc_l, Vc_o,
    Vc_of_ne m G d f' (by decide) (by decide), Vc_of_ne m G d a' (by decide) (by decide), Vc_of_ne m G d c' (by decide) (by decide),
    held_congr (T d) (S := Pipeline.ucRefs τ sig \ S5) (V := Vc m G d) (V' := Vb m d) (fun b hb =>
      Function.update_of_ne (fun h => (Finset.mem_sdiff.1 hb).2 (by rw [h]; decide)) _ _)]
  rfl

theorem held_end (d : Dev nD) :
    (held (T d) (Pipeline.ucRefs τ sig) (VEnd m G d) : sProp 𝕄)
      = iprop(FIN m G d ∗ held (T d) (Pipeline.ucRefs τ sig \ SF) (VEnd m G d)) := by
  rw [held_sub_split (T d) SF_sub, held_SF, VEnd_f, VEnd_a, VEnd_g, VEnd_c]

/-- The same with the final valuation spelt as the four results in a row, as the run reaches it. -/
theorem held_end' (d : Dev nD) :
    (held (T d) (Pipeline.ucRefs τ sig)
        ((op4 (F := F)).result ((op3 (F := F)).result ((op2 (F := F)).result ((op1 (F := F)).result (Vc m G d))))) : sProp 𝕄)
      = iprop(FIN m G d ∗ held (T d) (Pipeline.ucRefs τ sig \ SF) (VEnd m G d)) :=
  held_end m G d

/-! ## @main -/

/-- @main on device `d`'s TensorCore: the labels laid out, the call, the four operations after it. -/
theorem hmain (κ : GSem nD τ sig → ℕ) (d : Dev nD) :
    iprop((K (F := F)).ctx EH (P m (lab m) G) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m G d) := by
  unfold SparseCore.Cfg.tcRes
  rw [unscoped_held]
  simp only [main, wp_bind, wp_pure]
  iintro ⟨#Hctx, Hst, ⟨Hb, Hheld, -, -⟩, -⟩
  -- the labels laid out
  iapply (wp_hlo_within 𝒱 (SparseCore.T d) none Set.univ (op := opReshape) (S := Pipeline.ucRefs τ sig) hReshape (V := V0 m d)) $$ [Hb Hheld]
  · isplitl [Hb]; · iexact Hb
    iexact Hheld
  iintro ⟨Hb, Hheld⟩
  rw [wp_ret]; imodintro
  ihave Hh := (Entails.of_eq (held_before m d)) $$ Hheld
  icases Hh with ⟨⟨Hf, Ha, Hl, Hc, Ho⟩, Hrest⟩
  -- the four read-only arrays: a remainder kept, a token per SparseCore; the partial-sums vector: the tiles' pieces
  ihave Hro := (Entails.of_eq (roPts_toks2 m (lab m) d fullShare)) $$ [Hf Ha Hl Hc]
  · isplitl [Hf]; · iexact Hf
    isplitl [Ha]; · iexact Ha
    isplitl [Hl]; · iexact Hl
    iexact Hc
  icases Hro with ⟨Hkeep, Htoks⟩
  ihave Hos := (Entails.of_eq (oPts_tiles d (m (oLoc d)))) $$ Ho
  -- the call
  iapply ((K (F := F)).wp_run (D (F := F)) 𝒱 (EH := EH) (P := P m (lab m) G) κ d 0) $$ [Hst Htoks Hos Hb Hkeep Hrest]
  isplitr; · iexact Hctx
  isplitl [Hst]; · iexact Hst
  isplitl [Htoks Hos]
  · rw [st0_eq]
    isplitl [Htoks]; · iexact Htoks
    iexact Hos
  iintro ⟨Hst, Hdn⟩
  ihave Hdn' := (Entails.of_eq (dn0_eq m G d)) $$ Hdn
  icases Hdn' with ⟨Htoks, Hos⟩
  -- rejoined: the four arrays whole again, the vector whole at the kernel's result
  ihave Ho := (Entails.of_eq (oPts_tiles d (G d)).symm) $$ Hos
  ihave Hro := (Entails.of_eq (roPts_toks2 m (lab m) d fullShare).symm) $$ [Hkeep Htoks]
  · isplitl [Hkeep]; · iexact Hkeep
    iexact Htoks
  icases Hro with ⟨Hf, Ha, Hl, Hc⟩
  ihave Hheld := (Entails.of_eq (held_after m G d).symm) $$ [Hf Ha Hl Hc Ho Hrest]
  · isplitl [Hf Ha Hl Hc Ho]
    · isplitl [Hf]; · iexact Hf
      isplitl [Ha]; · iexact Ha
      isplitl [Hl]; · iexact Hl
      isplitl [Hc]; · iexact Hc
      iexact Ho
    iexact Hrest
  -- the four operations after the call
  iapply (wp_hlo_within 𝒱 (SparseCore.T d) none Set.univ (op := op1) (S := Pipeline.ucRefs τ sig) hOp1 (V := Vc m G d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := Pipeline.ucRefs τ sig) hOp2 (V := (op1 (F := F)).result (Vc m G d))) $$ [Hb Hheld]
  · isplitl [Hb]; · iexact Hb
    iexact Hheld
  iintro ⟨Hb, Hheld⟩
  rw [wp_ret]; imodintro
  iapply (wp_hlo_within 𝒱 (SparseCore.T d) none Set.univ (op := op3) (S := Pipeline.ucRefs τ sig) hOp3
      (V := (op2 (F := F)).result ((op1 (F := F)).result (Vc m G d)))) $$ [Hb Hheld]
  · isplitl [Hb]; · iexact Hb
    iexact Hheld
  iintro ⟨Hb, Hheld⟩
  rw [wp_ret]; imodintro
  iapply (wp_hlo_within 𝒱 (SparseCore.T d) none Set.univ (op := op4) (S := Pipeline.ucRefs τ sig) hOp4
      (V := (op3 (F := F)).result ((op2 (F := F)).result ((op1 (F := F)).result (Vc m G d))))) $$ [Hb Hheld]
  · isplitl [Hb]; · iexact Hb
    iexact Hheld
  iintro ⟨Hb, Hheld⟩
  rw [wp_ret]; imodintro; imodintro
  isplitl [Hst]; · iexact Hst
  ihave Hh := (Entails.of_eq (held_end' m G d)) $$ Hheld
  icases Hh with ⟨HF, -⟩
  iexact HF

end Cert.Proof.KI

end
-- ==== Proof.KIScratchRead.lean ====
/-
  What the tile's scratches hold, read at an index, in terms of the source arrays.

  A two-slot scratch is 2 × 128 × 128; slot s is its rows (s, ·, ·), addressed as a 128 × 128 array by dropping the unit
  axis: position (r, c) of the slot is position (s, r, c) of the scratch, because dropping a unit axis keeps the
  row-major position. Writing a 128 × 128 payload into a slot therefore makes the scratch hold the payload at (s, r, c)
  and leaves the other slot as it was. The payloads are the copies of the tile's rows of the source arrays: worker
  w = 2·(L 1) + (L 0) owns rows 512·w … 512·w + 511 of the features and of the weights, chunk i being rows
  512·w + 128·i … + 127, and label rows 4·w … 4·w + 3; the centres payload of chunk i holds, at row r, the table row
  that word r of label row 4·w + i names.
-/
import proofs.«216098_g21234318311461_cont_8to1_346_22_alg».proof.Proof.KITileVal
import Idealize.ShloMosaic.Lib.ValueIdx
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "fV" => (Memref.whole Cert.KernelIdeal.main_arg0_scv : Memref Cert.KernelIdeal.sig Kind.scVector Space.hbm Cert.KernelIdeal.S16384x128 EltTy.f32)
local notation "aV" => (Memref.whole Cert.KernelIdeal.main_arg1_scv : Memref Cert.KernelIdeal.sig Kind.scVector Space.hbm Cert.KernelIdeal.S16384x128 EltTy.f32)
local notation "lV" => (Memref.whole Cert.KernelIdeal.main_v0_scv : Memref Cert.KernelIdeal.sig Kind.scVector Space.hbm Cert.KernelIdeal.S128x128 EltTy.i32)
local notation "cenV" => (Memref.whole Cert.KernelIdeal.main_arg3_scv : Memref Cert.KernelIdeal.sig Kind.scVector Space.hbm Cert.KernelIdeal.S100000x128 EltTy.f32)
local notation "ixS" => (Memref.whole Cert.KernelIdeal.cc0_scratch0 : Memref Cert.KernelIdeal.sig Kind.scVector Space.vmem Cert.KernelIdeal.S4x128 EltTy.i32)
local notation "cnS" => (Memref.whole Cert.KernelIdeal.cc0_scratch1 : Memref Cert.KernelIdeal.sig Kind.scVector Space.vmem Cert.KernelIdeal.S2x128x128 EltTy.f32)
local notation "ftS" => (Memref.whole Cert.KernelIdeal.cc0_scratch2 : Memref Cert.KernelIdeal.sig Kind.scVector Space.vmem Cert.KernelIdeal.S2x128x128 EltTy.f32)
local notation "wtS" => (Memref.whole Cert.KernelIdeal.cc0_scratch3 : Memref Cert.KernelIdeal.sig Kind.scVector Space.vmem Cert.KernelIdeal.S2x128x128 EltTy.f32)

/-! ## A slot of a two-slot scratch -/

/-- Dropping the unit axis of 1 × 128 × 128 matches (r, c) with (0, r, c): the same row-major position. -/
theorem unsqueeze_ix (h : S128x128.numel = S1x128x128.numel) (r c : Fin 128) :
    Shape.reshapeEquiv (s := S1x128x128) (s' := S128x128) h (ix2 r c) = ix3 (0 : Fin 1) r c :=
  Shape.reshapeEquiv_eq_of_rowMajor h (by
    rw [Shape.rowMajor_val_three, Shape.rowMajor_val_two]
    show (0 * 128 + r.val) * 128 + c.val = r.val * 128 + c.val
    omega)

/-- Position (r, c) of slot 0 is position (0, r, c) of the scratch. -/
theorem slot0_emb (b : Memref sig .scVector .vmem S2x128x128 .f32) (r c : Fin 128) :
    (slot0 b).view.emb (ix2 r c) = b.view.emb (ix3 (0 : Fin 2) r c) := by
  show b.view.emb ((Rect.unit (s := S2x128x128) ![0, 0, 0] S1x128x128.size inb_S2x128x128_S1x128x128_0_0_0).emb
    (Shape.reshapeEquiv (s := S1x128x128) (s' := S128x128) squeezes_S1x128x128_S128x128.numel_eq (ix2 r c))) = _
  rw [unsqueeze_ix]
  refine congrArg b.view.emb (funext fun a => ?_)
  match a with
  | ⟨0, _⟩ => exact Fin.ext (by show 0 + 1 * 0 = 0; rfl)
  | ⟨1, _⟩ => exact Fin.ext (by show 0 + 1 * r.val = r.val; omega)
  | ⟨2, _⟩ => exact Fin.ext (by show 0 + 1 * c.val = c.val; omega)

/-- Position (r, c) of slot 1 is position (1, r, c) of the scratch. -/
theorem slot1_emb (b : Memref sig .scVector .vmem S2x128x128 .f32) (r c : Fin 128) :
    (slot1 b).view.emb (ix2 r c) = b.view.emb (ix3 (1 : Fin 2) r c) := by
  show b.view.emb ((Rect.unit (s := S2x128x128) ![1, 0, 0] S1x128x128.size inb_S2x128x128_S1x128x128_1_0_0).emb
    (Shape.reshapeEquiv (s := S1x128x128) (s' := S128x128) squeezes_S1x128x128_S128x128.numel_eq (ix2 r c))) = _
  rw [unsqueeze_ix]
  refine congrArg b.view.emb (funext fun a => ?_)
  match a with
  | ⟨0, _⟩ => exact Fin.ext (by show 1 + 1 * 0 = 1; rfl)
  | ⟨1, _⟩ => exact Fin.ext (by show 0 + 1 * r.val = r.val; omega)
  | ⟨2, _⟩ => exact Fin.ext (by show 0 + 1 * c.val = c.val; omega)

variable [FloatOps F] (d : Dev nD) (L : grid0.Coords)

/-- No position of slot 0 is a position (1, ·, ·) of the scratch, and no position of slot 1 is a position (0, ·, ·). -/
theorem slot0_emb_ne (b : Memref sig .scVector .vmem S2x128x128 .f32) (x : S128x128.Idx) (r c : Fin 128) :
    (slot0 b).view.emb x ≠ b.view.emb (ix3 (1 : Fin 2) r c) := by
  obtain ⟨r', c', rfl⟩ : ∃ r' c' : Fin 128, x = ix2 r' c' := ⟨x 0, x 1, eq_ix2 x⟩
  rw [slot0_emb]
  intro h
  have := congrFun (b.view.emb.injective h) ⟨0, by decide⟩
  exact Nat.zero_ne_one (congrArg Fin.val this)

theorem slot1_emb_ne (b : Memref sig .scVector .vmem S2x128x128 .f32) (x : S128x128.Idx) (r c : Fin 128) :
    (slot1 b).view.emb x ≠ b.view.emb (ix3 (0 : Fin 2) r c) := by
  obtain ⟨r', c', rfl⟩ : ∃ r' c' : Fin 128, x = ix2 r' c' := ⟨x 0, x 1, eq_ix2 x⟩
  rw [slot1_emb]
  intro h
  have := congrFun (b.view.emb.injective h) ⟨0, by decide⟩
  exact Nat.one_ne_zero (congrArg Fin.val this)

/-- A payload written into slot 0 is what the scratch then holds at (0, r, c); slot 1 is as before. -/
theorem W0_hit (b : Memref sig .scVector .vmem S2x128x128 .f32) (f : Buf (Elt F) (b.view.loc (VT d L))) (w : S128x128.Idx → Elt F .f32) (r c : Fin 128) :
    W0 d L b f w (b.view.emb (ix3 (0 : Fin 2) r c)) = _root_.cast (congrArg (Elt F) (slot0 b).view.elt_eq.symm) (w (ix2 r c)) := by
  rw [← slot0_emb]
  exact View.write_emb_of_mem _ _ (Finset.mem_univ _)

theorem W0_miss (b : Memref sig .scVector .vmem S2x128x128 .f32) (f : Buf (Elt F) (b.view.loc (VT d L))) (w : S128x128.Idx → Elt F .f32) (r c : Fin 128) :
    W0 d L b f w (b.view.emb (ix3 (1 : Fin 2) r c)) = f (b.view.emb (ix3 (1 : Fin 2) r c)) :=
  View.write_of_not_mem _ _ _ fun hm => by
    obtain ⟨x, _, hx⟩ := Finset.mem_map.mp hm
    exact slot0_emb_ne b x r c hx

/-- A payload written into slot 1 is what the scratch then holds at (1, r, c); slot 0 is as before. -/
theorem W1_hit (b : Memref sig .scVector .vmem S2x128x128 .f32) (f : Buf (Elt F) (b.view.loc (VT d L))) (w : S128x128.Idx → Elt F .f32) (r c : Fin 128) :
    W1 d L b f w (b.view.emb (ix3 (1 : Fin 2) r c)) = _root_.cast (congrArg (Elt F) (slot1 b).view.elt_eq.symm) (w (ix2 r c)) := by
  rw [← slot1_emb]
  exact View.write_emb_of_mem _ _ (Finset.mem_univ _)

theorem W1_miss (b : Memref sig .scVector .vmem S2x128x128 .f32) (f : Buf (Elt F) (b.view.loc (VT d L))) (w : S128x128.Idx → Elt F .f32) (r c : Fin 128) :
    W1 d L b f w (b.view.emb (ix3 (0 : Fin 2) r c)) = f (b.view.emb (ix3 (0 : Fin 2) r c)) :=
  View.write_of_not_mem _ _ _ fun hm => by
    obtain ⟨x, _, hx⟩ := Finset.mem_map.mp hm
    exact slot1_emb_ne b x r c hx

/-- The same four facts for the centres scratch, addressed whole: its position (s, r, c) is the index (s, r, c) itself. -/
theorem W0_cn_0 (f : Buf (Elt F) ((cnS).view.loc (VT d L))) (w : S128x128.Idx → Elt F .f32) (r c : Fin 128) :
    W0 d L cnS f w (ix3 (0 : Fin 2) r c) = w (ix2 r c) :=
  (W0_hit d L cnS f w r c).trans (cast_eq _ _)
theorem W0_cn_1 (f : Buf (Elt F) ((cnS).view.loc (VT d L))) (w : S128x128.Idx → Elt F .f32) (r c : Fin 128) :
    W0 d L cnS f w (ix3 (1 : Fin 2) r c) = f (ix3 (1 : Fin 2) r c) :=
  W0_miss d L cnS f w r c
theorem W1_cn_1 (f : Buf (Elt F) ((cnS).view.loc (VT d L))) (w : S128x128.Idx → Elt F .f32) (r c : Fin 128) :
    W1 d L cnS f w (ix3 (1 : Fin 2) r c) = w (ix2 r c) :=
  (W1_hit d L cnS f w r c).trans (cast_eq _ _)
theorem W1_cn_0 (f : Buf (Elt F) ((cnS).view.loc (VT d L))) (w : S128x128.Idx → Elt F .f32) (r c : Fin 128) :
    W1 d L cnS f w (ix3 (0 : Fin 2) r c) = f (ix3 (0 : Fin 2) r c) :=
  W1_miss d L cnS f w r c

/-- The same four facts for the features scratch, addressed whole: its position (s, r, c) is the index (s, r, c) itself. -/
theorem W0_ft_0 (f : Buf (Elt F) ((ftS).view.loc (VT d L))) (w : S128x128.Idx → Elt F .f32) (r c : Fin 128) :
    W0 d L ftS f w (ix3 (0 : Fin 2) r c) = w (ix2 r c) :=
  (W0_hit d L ftS f w r c).trans (cast_eq _ _)
theorem W0_ft_1 (f : Buf (Elt F) ((ftS).view.loc (VT d L))) (w : S128x128.Idx → Elt F .f32) (r c : Fin 128) :
    W0 d L ftS f w (ix3 (1 : Fin 2) r c) = f (ix3 (1 : Fin 2) r c) :=
  W0_miss d L ftS f w r c
theorem W1_ft_1 (f : Buf (Elt F) ((ftS).view.loc (VT d L))) (w : S128x128.Idx → Elt F .f32) (r c : Fin 128) :
    W1 d L ftS f w (ix3 (1 : Fin 2) r c) = w (ix2 r c) :=
  (W1_hit d L ftS f w r c).trans (cast_eq _ _)
theorem W1_ft_0 (f : Buf (Elt F) ((ftS).view.loc (VT d L))) (w : S128x128.Idx → Elt F .f32) (r c : Fin 128) :
    W1 d L ftS f w (ix3 (0 : Fin 2) r c) = f (ix3 (0 : Fin 2) r c) :=
  W1_miss d L ftS f w r c

/-- The same four facts for the weights scratch, addressed whole: its position (s, r, c) is the index (s, r, c) itself. -/
theorem W0_wt_0 (f : Buf (Elt F) ((wtS).view.loc (VT d L))) (w : S128x128.Idx → Elt F .f32) (r c : Fin 128) :
    W0 d L wtS f w (ix3 (0 : Fin 2) r c) = w (ix2 r c) :=
  (W0_hit d L wtS f w r c).trans (cast_eq _ _)
theorem W0_wt_1 (f : Buf (Elt F) ((wtS).view.loc (VT d L))) (w : S128x128.Idx → Elt F .f32) (r c : Fin 128) :
    W0 d L wtS f w (ix3 (1 : Fin 2) r c) = f (ix3 (1 : Fin 2) r c) :=
  W0_miss d L wtS f w r c
theorem W1_wt_1 (f : Buf (Elt F) ((wtS).view.loc (VT d L))) (w : S128x128.Idx → Elt F .f32) (r c : Fin 128) :
    W1 d L wtS f w (ix3 (1 : Fin 2) r c) = w (ix2 r c) :=
  (W1_hit d L wtS f w r c).trans (cast_eq _ _)
theorem W1_wt_0 (f : Buf (Elt F) ((wtS).view.loc (VT d L))) (w : S128x128.Idx → Elt F .f32) (r c : Fin 128) :
    W1 d L wtS f w (ix3 (0 : Fin 2) r c) = f (ix3 (0 : Fin 2) r c) :=
  W1_miss d L wtS f w r c

/-! ## The tile's rows of the source arrays -/

variable (m : (ℓ : Loc nD τ sig) → Buf (Elt F) ℓ) (lab : (d : Dev nD) → Buf (Elt F) (lLoc d))

/-- The grid's coordinates: two SparseCores, sixteen subcores each. -/
theorem L0_lt (L : grid0.Coords) : (L 0).val < 2 := (L 0).isLt
theorem L1_lt (L : grid0.Coords) : (L 1).val < 16 := (L 1).isLt

/-- Row r of chunk ci of worker w = 2·(L 1) + (L 0) is one of the 16384 rows; label row ci of worker w one of the 128. -/
theorem frow_lt (L : grid0.Coords) (ci : Fin 4) (r : Fin 128) :
    512 * (2 * (L 1).val + (L 0).val) + 128 * ci.val + r.val < 16384 := by
  have := L0_lt L; have := L1_lt L; omega
theorem lrow_lt (L : grid0.Coords) (ci : Fin 4) : 4 * (2 * (L 1).val + (L 0).val) + ci.val < 128 := by
  have := L0_lt L; have := L1_lt L; omega

/-- Position (r, c) of chunk ci's window of a 16384 × 128 array is row 512·w + 128·ci + r, column c. -/
theorem chunk_emb (ci : Fin 4) (r c : Fin 128) :
    (Rect.unit (s := S16384x128) (k0_off1 L (BitVec.ofNat 32 (128 * ci.val))) S128x128.size (k0_off1_inb L ci)).emb (ix2 r c)
      = ix2 (⟨512 * (2 * (L 1).val + (L 0).val) + 128 * ci.val + r.val, frow_lt L ci r⟩ : Fin 16384) c := by
  funext a
  match a with
  | ⟨0, _⟩ =>
    refine Fin.ext ?_
    show (k0_off1 L (BitVec.ofNat 32 (128 * ci.val))) 0 + 1 * r.val = _
    rw [k0_off1_eq]
    show 1024 * (L 1).val + 512 * (L 0).val + 128 * ci.val + 1 * r.val
      = 512 * (2 * (L 1).val + (L 0).val) + 128 * ci.val + r.val
    omega
  | ⟨1, _⟩ =>
    refine Fin.ext ?_
    show (k0_off1 L (BitVec.ofNat 32 (128 * ci.val))) 1 + 1 * c.val = c.val
    rw [k0_off1_eq]
    show 0 + 1 * c.val = c.val
    omega

/-- Chunk ci's window of the features, read at (r, c), is the features at row 512·w + 128·ci + r, column c. -/
theorem fSrc_read (ci : Fin 4) (g : Buf (Elt F) (fLoc d)) (r c : Fin 128) :
    View.read (Elt F) ((fV).slice (Rect.unit (s := S16384x128) (k0_off1 L (BitVec.ofNat 32 (128 * ci.val))) S128x128.size (k0_off1_inb L ci)) (fun _ => rfl)).view g (ix2 r c)
      = g (ix2 (⟨512 * (2 * (L 1).val + (L 0).val) + 128 * ci.val + r.val, frow_lt L ci r⟩ : Fin 16384) c) :=
  (View.read_apply _ _).trans ((cast_eq _ _).trans (congrArg g (chunk_emb L ci r c)))

/-- The same for the weights. -/
theorem aSrc_read (ci : Fin 4) (g : Buf (Elt F) (aLoc d)) (r c : Fin 128) :
    View.read (Elt F) ((aV).slice (Rect.unit (s := S16384x128) (k0_off1 L (BitVec.ofNat 32 (128 * ci.val))) S128x128.size (k0_off1_inb L ci)) (fun _ => rfl)).view g (ix2 r c)
      = g (ix2 (⟨512 * (2 * (L 1).val + (L 0).val) + 128 * ci.val + r.val, frow_lt L ci r⟩ : Fin 16384) c) :=
  (View.read_apply _ _).trans ((cast_eq _ _).trans (congrArg g (chunk_emb L ci r c)))

theorem fPay0_apply (r c : Fin 128) :
    fPay0 m d L (ix2 r c) = m (fLoc d) (ix2 (⟨512 * (2 * (L 1).val + (L 0).val) + 128 * 0 + r.val, frow_lt L 0 r⟩ : Fin 16384) c) :=
  fSrc_read d L 0 (m (fLoc d)) r c
theorem aPay0_apply (r c : Fin 128) :
    aPay0 m d L (ix2 r c) = m (aLoc d) (ix2 (⟨512 * (2 * (L 1).val + (L 0).val) + 128 * 0 + r.val, frow_lt L 0 r⟩ : Fin 16384) c) :=
  aSrc_read d L 0 (m (aLoc d)) r c

theorem fPay1_apply (r c : Fin 128) :
    fPay1 m d L (ix2 r c) = m (fLoc d) (ix2 (⟨512 * (2 * (L 1).val + (L 0).val) + 128 * 1 + r.val, frow_lt L 1 r⟩ : Fin 16384) c) :=
  fSrc_read d L 1 (m (fLoc d)) r c
theorem aPay1_apply (r c : Fin 128) :
    aPay1 m d L (ix2 r c) = m (aLoc d) (ix2 (⟨512 * (2 * (L 1).val + (L 0).val) + 128 * 1 + r.val, frow_lt L 1 r⟩ : Fin 16384) c) :=
  aSrc_read d L 1 (m (aLoc d)) r c

theorem fPay2_apply (r c : Fin 128) :
    fPay2 m d L (ix2 r c) = m (fLoc d) (ix2 (⟨512 * (2 * (L 1).val + (L 0).val) + 128 * 2 + r.val, frow_lt L 2 r⟩ : Fin 16384) c) :=
  fSrc_read d L 2 (m (fLoc d)) r c
theorem aPay2_apply (r c : Fin 128) :
    aPay2 m d L (ix2 r c) = m (aLoc d) (ix2 (⟨512 * (2 * (L 1).val + (L 0).val) + 128 * 2 + r.val, frow_lt L 2 r⟩ : Fin 16384) c) :=
  aSrc_read d L 2 (m (aLoc d)) r c

theorem fPay3_apply (r c : Fin 128) :
    fPay3 m d L (ix2 r c) = m (fLoc d) (ix2 (⟨512 * (2 * (L 1).val + (L 0).val) + 128 * 3 + r.val, frow_lt L 3 r⟩ : Fin 16384) c) :=
  fSrc_read d L 3 (m (fLoc d)) r c
theorem aPay3_apply (r c : Fin 128) :
    aPay3 m d L (ix2 r c) = m (aLoc d) (ix2 (⟨512 * (2 * (L 1).val + (L 0).val) + 128 * 3 + r.val, frow_lt L 3 r⟩ : Fin 16384) c) :=
  aSrc_read d L 3 (m (aLoc d)) r c

/-- Position (ci, x) of the tile's four label rows is label row 4·w + ci, word x. -/
theorem lrow_emb (ci : Fin 4) (x : Fin 128) :
    (lRectK L).emb (ix2 ci x) = ix2 (⟨4 * (2 * (L 1).val + (L 0).val) + ci.val, lrow_lt L ci⟩ : Fin 128) x := by
  funext a
  match a with
  | ⟨0, _⟩ =>
    refine Fin.ext ?_
    show (k0_off2 L) 0 + 1 * ci.val = _
    rw [k0_off2_eq]
    show 8 * (L 1).val + 4 * (L 0).val + 1 * ci.val = 4 * (2 * (L 1).val + (L 0).val) + ci.val
    omega
  | ⟨1, _⟩ =>
    refine Fin.ext ?_
    show (k0_off2 L) 1 + 1 * x.val = x.val
    rw [k0_off2_eq]
    show 0 + 1 * x.val = x.val
    omega

/-- What the label fetch lands at (ci, x) of the index scratch: word x of label row 4·w + ci. -/
theorem PAY_ix (ci : Fin 4) (x : Fin 128) :
    PAY d L lab (ix2 ci x) = lab d (ix2 (⟨4 * (2 * (L 1).val + (L 0).val) + ci.val, lrow_lt L ci⟩ : Fin 128) x) :=
  (PAY_apply d L lab _).trans (congrArg (lab d) (lrow_emb L ci x))

/-! ## The gathered centre rows -/

/-- Dropping the unit axis of 1 × 128 matches x with (0, x). -/
theorem unsqueeze_ix1 (h : S128.numel = S1x128.numel) (x : Fin 128) :
    Shape.reshapeEquiv (s := S1x128) (s' := S128) h (ix1 x) = ix2 (0 : Fin 1) x :=
  Shape.reshapeEquiv_eq_of_rowMajor h (by
    rw [Shape.rowMajor_val_two, Shape.rowMajor_val_one]
    show 0 * 128 + x.val = x.val
    omega)

/-- Word x of row ci of the index scratch, once the label fetch has landed, is word x of label row 4·w + ci. -/
theorem ixRow_read (ci : Fin 4) (row : Fin 2 → Nat) (hrow : row = ![ci.val, 0]) (hk : ∀ a, row a + S1x128.size a ≤ S4x128.size a) (hs)
    (hq : (Rect.unit (s := S4x128) row S1x128.size hk).shape.Squeezes S128) (x : Fin 128) :
    View.read (Elt F) (((ixS).slice (Rect.unit (s := S4x128) row S1x128.size hk) hs).squeeze S128 hq).view (ixC d L lab) (ix1 x)
      = lab d (ix2 (⟨4 * (2 * (L 1).val + (L 0).val) + ci.val, lrow_lt L ci⟩ : Fin 128) x) := by
  subst hrow
  have e : View.read (Elt F) (((ixS).slice (Rect.unit (s := S4x128) ![ci.val, 0] S1x128.size hk) hs).squeeze S128 hq).view (ixC d L lab) (ix1 x)
      = View.read (Elt F) (ixS).view (ixC d L lab)
          ((Rect.unit (s := S4x128) ![ci.val, 0] S1x128.size hk).emb (Shape.reshapeEquiv (s := S1x128) (s' := S128) hq.numel_eq (ix1 x))) := by
    rw [View.read_apply, View.read_apply]; rfl
  have e2 : (Rect.unit (s := S4x128) ![ci.val, 0] S1x128.size hk).emb (Shape.reshapeEquiv (s := S1x128) (s' := S128) hq.numel_eq (ix1 x))
      = ix2 ci x := by
    rw [unsqueeze_ix1]
    funext a
    match a with
    | ⟨0, _⟩ => exact Fin.ext (by show ci.val + 1 * 0 = ci.val; omega)
    | ⟨1, _⟩ => exact Fin.ext (by show 0 + 1 * x.val = x.val; omega)
  rw [e, e2]
  show View.read (Elt F) (ixS).view ((ixS).view.writes (Elt F) (ixS).view.junk [⟨Rect.whole cc0_scratch0.ty.shape, PAY d L lab⟩]) (ix2 ci x) = _
  rw [View.read_writes_whole]
  exact PAY_ix d L lab ci x

/-- The row an offset list of 128 words names for entry k is word k of the list, as a number. -/
theorem rows_ix {o z : ℕ} (idx : S128.Idx → Elt F .i32) (hn : S128.numel = o) (h : ∀ x, (idx x).toNat < z) (k : Fin o) (hk : k.val < 128) :
    (SparseCore.rows (F := F) (si := S128) idx hn h k).val = (idx (ix1 (⟨k.val, hk⟩ : Fin 128))).toNat := by
  show (idx (S128.rowMajor.symm (k.cast hn.symm))).toNat = _
  have e : S128.rowMajor.symm (k.cast hn.symm) = ix1 (⟨k.val, hk⟩ : Fin 128) :=
    (Equiv.symm_apply_eq _).mpr (Fin.ext (by rw [Shape.rowMajor_val_one]; rfl))
  rw [e]

/-- The gather's payload at (r, c) is the table at the row named for r, column c. -/
theorem gather_ix (g : S100000x128.Idx → Elt F .f32)
    (rows : Fin (S128x128.size (gathers_S100000x128_S128x128).axis') → Fin (S100000x128.size (gathers_S100000x128_S128x128).axis)) (r c : Fin 128) :
    SparseCore.gatherPayload (F := F) gathers_S100000x128_S128x128 g rows (ix2 r c)
      = g (ix2 (⟨(rows r).val, (rows r).isLt⟩ : Fin 100000) c) := by
  unfold SparseCore.gatherPayload
  refine congrArg g (funext fun a => ?_)
  match a with
  | ⟨0, _⟩ => exact Fin.ext rfl
  | ⟨1, _⟩ => exact Fin.ext rfl

/-- The centres table is addressed whole: position (q, c) of its window is the index (q, c). -/
theorem cenSrc_emb (q : Fin 100000) (c : Fin 128) : (cenSrc).view.emb (ix2 q c) = ix2 q c := by
  funext a
  match a with
  | ⟨0, _⟩ => exact Fin.ext (by show 0 + 1 * q.val = q.val; omega)
  | ⟨1, _⟩ => exact Fin.ext (by show 0 + 1 * c.val = c.val; omega)

/-- The row the gather's offset list (row ci of the index scratch) names for entry k: word k of label row 4·w + ci. -/
theorem rows_ixRow (ci : Fin 4) (row : Fin 2 → Nat) (hrow : row = ![ci.val, 0]) (hk : ∀ a, row a + S1x128.size a ≤ S4x128.size a) (hs)
    (hq : (Rect.unit (s := S4x128) row S1x128.size hk).shape.Squeezes S128) {o z : ℕ} (hn : S128.numel = o)
    (h : ∀ x, (View.read (Elt F) (((ixS).slice (Rect.unit (s := S4x128) row S1x128.size hk) hs).squeeze S128 hq).view (ixC d L lab) x).toNat < z)
    (k : Fin o) (hk' : k.val < 128) :
    (SparseCore.rows (F := F) (si := S128)
        (View.read (Elt F) (((ixS).slice (Rect.unit (s := S4x128) row S1x128.size hk) hs).squeeze S128 hq).view (ixC d L lab)) hn h k).val
      = (lab d (ix2 (⟨4 * (2 * (L 1).val + (L 0).val) + ci.val, lrow_lt L ci⟩ : Fin 128) (⟨k.val, hk'⟩ : Fin 128))).toNat := by
  rw [rows_ix _ _ _ _ hk', ixRow_read d L lab ci row hrow]

variable (hlab : ∀ d j, (lab d j).toNat < 100000)

/-- Chunk 0's centres payload at (r, c): the table row that word r of label row 4·w + 0 names, column c. -/
theorem cPay0_apply (r c : Fin 128) :
    cPay0 m d L lab hlab (ix2 r c)
      = m (cLoc d) (ix2 (⟨(lab d (ix2 (⟨4 * (2 * (L 1).val + (L 0).val) + 0, lrow_lt L 0⟩ : Fin 128) r)).toNat, hlab d _⟩ : Fin 100000) c) := by
  unfold cPay0
  rw [gather_ix]
  refine (View.read_apply _ _).trans ((cast_eq _ _).trans ?_)
  rw [cenSrc_emb]
  refine congrArg (m (cLoc d)) (congrArg (fun q : Fin 100000 => ix2 q c) (Fin.ext ?_))
  exact rows_ixRow d L lab 0 ![0, 0] rfl inb_S4x128_S1x128_0_0 (fun _ => rfl) squeezes_S1x128_S128 hn128
    (fun x => lt_of_lt_of_eq (idx_inb d L lab hlab (ixS).view.junk (PAY d L lab) rfl ![0, 0] inb_S4x128_S1x128_0_0 (fun _ => rfl) squeezes_S1x128_S128 x) hz100000.symm)
    r r.isLt

/-- Chunk 1's centres payload at (r, c): the table row that word r of label row 4·w + 1 names, column c. -/
theorem cPay1_apply (r c : Fin 128) :
    cPay1 m d L lab hlab (ix2 r c)
      = m (cLoc d) (ix2 (⟨(lab d (ix2 (⟨4 * (2 * (L 1).val + (L 0).val) + 1, lrow_lt L 1⟩ : Fin 128) r)).toNat, hlab d _⟩ : Fin 100000) c) := by
  unfold cPay1
  rw [gather_ix]
  refine (View.read_apply _ _).trans ((cast_eq _ _).trans ?_)
  rw [cenSrc_emb]
  refine congrArg (m (cLoc d)) (congrArg (fun q : Fin 100000 => ix2 q c) (Fin.ext ?_))
  exact rows_ixRow d L lab 1 ![1, 0] rfl inb_S4x128_S1x128_1_0 (fun _ => rfl) squeezes_S1x128_S128 hn128
    (fun x => lt_of_lt_of_eq (idx_inb d L lab hlab (ixS).view.junk (PAY d L lab) rfl ![1, 0] inb_S4x128_S1x128_1_0 (fun _ => rfl) squeezes_S1x128_S128 x) hz100000.symm)
    r r.isLt

/-- Chunk 2's centres payload at (r, c): the table row that word r of label row 4·w + 2 names, column c. -/
theorem cPay2_apply (r c : Fin 128) :
    cPay2 m d L lab hlab (ix2 r c)
      = m (cLoc d) (ix2 (⟨(lab d (ix2 (⟨4 * (2 * (L 1).val + (L 0).val) + 2, lrow_lt L 2⟩ : Fin 128) r)).toNat, hlab d _⟩ : Fin 100000) c) := by
  unfold cPay2
  rw [gather_ix]
  refine (View.read_apply _ _).trans ((cast_eq _ _).trans ?_)
  rw [cenSrc_emb]
  refine congrArg (m (cLoc d)) (congrArg (fun q : Fin 100000 => ix2 q c) (Fin.ext ?_))
  exact rows_ixRow d L lab 2 ![2, 0] rfl inb_S4x128_S1x128_2_0 (fun _ => rfl) squeezes_S1x128_S128 hn128
    (fun x => lt_of_lt_of_eq (idx_inb d L lab hlab (ixS).view.junk (PAY d L lab) rfl ![2, 0] inb_S4x128_S1x128_2_0 (fun _ => rfl) squeezes_S1x128_S128 x) hz100000.symm)
    r r.isLt

/-- Chunk 3's centres payload at (r, c): the table row that word r of label row 4·w + 3 names, column c. -/
theorem cPay3_apply (r c : Fin 128) :
    cPay3 m d L lab hlab (ix2 r c)
      = m (cLoc d) (ix2 (⟨(lab d (ix2 (⟨4 * (2 * (L 1).val + (L 0).val) + 3, lrow_lt L 3⟩ : Fin 128) r)).toNat, hlab d _⟩ : Fin 100000) c) := by
  unfold cPay3
  rw [gather_ix]
  refine (View.read_apply _ _).trans ((cast_eq _ _).trans ?_)
  rw [cenSrc_emb]
  refine congrArg (m (cLoc d)) (congrArg (fun q : Fin 100000 => ix2 q c) (Fin.ext ?_))
  exact rows_ixRow d L lab 3 ![3, 0] rfl inb_S4x128_S1x128_3_0 (fun _ => rfl) squeezes_S1x128_S128 hn128
    (fun x => lt_of_lt_of_eq (idx_inb d L lab hlab (ixS).view.junk (PAY d L lab) rfl ![3, 0] inb_S4x128_S1x128_3_0 (fun _ => rfl) squeezes_S1x128_S128 x) hz100000.symm)
    r r.isLt

/-! ## What each row loop reads

Loop 1 consumes chunk 0 from slot 0 of the scratches as they stand after chunks 0 and 1 have landed; loop 2 chunk 1 from
slot 1 after chunk 2 has landed in slot 0; loop 3 chunk 2 from slot 0 and loop 4 chunk 3 from slot 1, after chunk 3 has
landed in slot 1. -/

variable (t1 : Buf (Elt F) ((cnS).view.loc (VT d L))) (t2 : Buf (Elt F) ((ftS).view.loc (VT d L))) (t3 : Buf (Elt F) ((wtS).view.loc (VT d L)))

/-- The features scratch as loop 1 finds it holds, at slot 0, chunk 0's rows. -/
theorem ftC2_0 (r c : Fin 128) :
    ftC2 m d L t2 (ix3 (0 : Fin 2) r c) = m (fLoc d) (ix2 (⟨512 * (2 * (L 1).val + (L 0).val) + 128 * 0 + r.val, frow_lt L 0 r⟩ : Fin 16384) c) := by
  unfold ftC2; rw [W1_ft_0, W0_ft_0, fPay0_apply]

/-- The features scratch as loop 2 finds it holds, at slot 1, chunk 1's rows. -/
theorem ftC3_1 (r c : Fin 128) :
    ftC3 m d L t2 (ix3 (1 : Fin 2) r c) = m (fLoc d) (ix2 (⟨512 * (2 * (L 1).val + (L 0).val) + 128 * 1 + r.val, frow_lt L 1 r⟩ : Fin 16384) c) := by
  unfold ftC3; rw [W0_ft_1]; unfold ftC2; rw [W1_ft_1, fPay1_apply]

/-- The features scratch as loop 3 finds it holds, at slot 0, chunk 2's rows. -/
theorem ftC4_0 (r c : Fin 128) :
    ftC4 m d L t2 (ix3 (0 : Fin 2) r c) = m (fLoc d) (ix2 (⟨512 * (2 * (L 1).val + (L 0).val) + 128 * 2 + r.val, frow_lt L 2 r⟩ : Fin 16384) c) := by
  unfold ftC4; rw [W1_ft_0]; unfold ftC3; rw [W0_ft_0, fPay2_apply]

/-- The features scratch as loop 4 finds it holds, at slot 1, chunk 3's rows. -/
theorem ftC4_1 (r c : Fin 128) :
    ftC4 m d L t2 (ix3 (1 : Fin 2) r c) = m (fLoc d) (ix2 (⟨512 * (2 * (L 1).val + (L 0).val) + 128 * 3 + r.val, frow_lt L 3 r⟩ : Fin 16384) c) := by
  unfold ftC4; rw [W1_ft_1, fPay3_apply]

/-- The weights scratch as loop 1 finds it holds, at slot 0, chunk 0's rows. -/
theorem wtC2_0 (r c : Fin 128) :
    wtC2 m d L t3 (ix3 (0 : Fin 2) r c) = m (aLoc d) (ix2 (⟨512 * (2 * (L 1).val + (L 0).val) + 128 * 0 + r.val, frow_lt L 0 r⟩ : Fin 16384) c) := by
  unfold wtC2; rw [W1_wt_0, W0_wt_0, aPay0_apply]

/-- The weights scratch as loop 2 finds it holds, at slot 1, chunk 1's rows. -/
theorem wtC3_1 (r c : Fin 128) :
    wtC3 m d L t3 (ix3 (1 : Fin 2) r c) = m (aLoc d) (ix2 (⟨512 * (2 * (L 1).val + (L 0).val) + 128 * 1 + r.val, frow_lt L 1 r⟩ : Fin 16384) c) := by
  unfold wtC3; rw [W0_wt_1]; unfold wtC2; rw [W1_wt_1, aPay1_apply]

/-- The weights scratch as loop 3 finds it holds, at slot 0, chunk 2's rows. -/
theorem wtC4_0 (r c : Fin 128) :
    wtC4 m d L t3 (ix3 (0 : Fin 2) r c) = m (aLoc d) (ix2 (⟨512 * (2 * (L 1).val + (L 0).val) + 128 * 2 + r.val, frow_lt L 2 r⟩ : Fin 16384) c) := by
  unfold wtC4; rw [W1_wt_0]; unfold wtC3; rw [W0_wt_0, aPay2_apply]

/-- The weights scratch as loop 4 finds it holds, at slot 1, chunk 3's rows. -/
theorem wtC4_1 (r c : Fin 128) :
    wtC4 m d L t3 (ix3 (1 : Fin 2) r c) = m (aLoc d) (ix2 (⟨512 * (2 * (L 1).val + (L 0).val) + 128 * 3 + r.val, frow_lt L 3 r⟩ : Fin 16384) c) := by
  unfold wtC4; rw [W1_wt_1, aPay3_apply]

/-- The centres scratch as loop 1 finds it holds, at slot 0, chunk 0's rows. -/
theorem cnC2_0 (r c : Fin 128) :
    cnC2 m d L lab hlab t1 (ix3 (0 : Fin 2) r c) = m (cLoc d) (ix2 (⟨(lab d (ix2 (⟨4 * (2 * (L 1).val + (L 0).val) + 0, lrow_lt L 0⟩ : Fin 128) r)).toNat, hlab d _⟩ : Fin 100000) c) := by
  unfold cnC2; rw [W1_cn_0, W0_cn_0, cPay0_apply]

/-- The centres scratch as loop 2 finds it holds, at slot 1, chunk 1's rows. -/
theorem cnC3_1 (r c : Fin 128) :
    cnC3 m d L lab hlab t1 (ix3 (1 : Fin 2) r c) = m (cLoc d) (ix2 (⟨(lab d (ix2 (⟨4 * (2 * (L 1).val + (L 0).val) + 1, lrow_lt L 1⟩ : Fin 128) r)).toNat, hlab d _⟩ : Fin 100000) c) := by
  unfold cnC3; rw [W0_cn_1]; unfold cnC2; rw [W1_cn_1, cPay1_apply]

/-- The centres scratch as loop 3 finds it holds, at slot 0, chunk 2's rows. -/
theorem cnC4_0 (r c : Fin 128) :
    cnC4 m d L lab hlab t1 (ix3 (0 : Fin 2) r c) = m (cLoc d) (ix2 (⟨(lab d (ix2 (⟨4 * (2 * (L 1).val + (L 0).val) + 2, lrow_lt L 2⟩ : Fin 128) r)).toNat, hlab d _⟩ : Fin 100000) c) := by
  unfold cnC4; rw [W1_cn_0]; unfold cnC3; rw [W0_cn_0, cPay2_apply]

/-- The centres scratch as loop 4 finds it holds, at slot 1, chunk 3's rows. -/
theorem cnC4_1 (r c : Fin 128) :
    cnC4 m d L lab hlab t1 (ix3 (1 : Fin 2) r c) = m (cLoc d) (ix2 (⟨(lab d (ix2 (⟨4 * (2 * (L 1).val + (L 0).val) + 3, lrow_lt L 3⟩ : Fin 128) r)).toNat, hlab d _⟩ : Fin 100000) c) := by
  unfold cnC4; rw [W1_cn_1, cPay3_apply]

end Cert.Proof.KI

end
-- ==== Proof.KIResult.lean ====
/-
  The one whole-array result the tiles leave, and that each tile's piece is it.

  A tile's sixteen lane totals are computed from the scratches' contents as its four row loops find them, and every word
  a loop reads was put there by a copy before the loop: loop 1 and loop 3 read slot 0, loop 2 and loop 4 read slot 1,
  and each slot was filled with the chunk's rows just before. So the totals do not depend on what the scratches held
  before the task. That makes one function of the launch contents, `G`: the word at position 16·w + l of the
  partial-sums vector is lane l of worker w's totals, computed from any fixed prior contents. Each tile's copy-out
  writes exactly its sixteen words of `G`.
-/
import proofs.«216098_g21234318311461_cont_8to1_346_22_alg».proof.Proof.KIScratchRead
import proofs.«216098_g21234318311461_cont_8to1_346_22_alg».proof.Proof.KIOutSplit
import Idealize.ShloMosaic.Lib.WritesUnit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ
local notation "fV" => (Memref.whole Cert.KernelIdeal.main_arg0_scv : Memref Cert.KernelIdeal.sig Kind.scVector Space.hbm Cert.KernelIdeal.S16384x128 EltTy.f32)
local notation "aV" => (Memref.whole Cert.KernelIdeal.main_arg1_scv : Memref Cert.KernelIdeal.sig Kind.scVector Space.hbm Cert.KernelIdeal.S16384x128 EltTy.f32)
local notation "lV" => (Memref.whole Cert.KernelIdeal.main_v0_scv : Memref Cert.KernelIdeal.sig Kind.scVector Space.hbm Cert.KernelIdeal.S128x128 EltTy.i32)
local notation "cenV" => (Memref.whole Cert.KernelIdeal.main_arg3_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S512 EltTy.f32)
local notation "ixS" => (Memref.whole Cert.KernelIdeal.cc0_scratch0 : Memref Cert.KernelIdeal.sig Kind.scVector Space.vmem Cert.KernelIdeal.S4x128 EltTy.i32)
local notation "cnS" => (Memref.whole Cert.KernelIdeal.cc0_scratch1 : Memref Cert.KernelIdeal.sig Kind.scVector Space.vmem Cert.KernelIdeal.S2x128x128 EltTy.f32)
local notation "ftS" => (Memref.whole Cert.KernelIdeal.cc0_scratch2 : Memref Cert.KernelIdeal.sig Kind.scVector Space.vmem Cert.KernelIdeal.S2x128x128 EltTy.f32)
local notation "wtS" => (Memref.whole Cert.KernelIdeal.cc0_scratch3 : Memref Cert.KernelIdeal.sig Kind.scVector Space.vmem Cert.KernelIdeal.S2x128x128 EltTy.f32)
local notation "acS" => (Memref.whole Cert.KernelIdeal.cc0_scratch4 : Memref Cert.KernelIdeal.sig Kind.scVector Space.vmem Cert.KernelIdeal.S16 EltTy.f32)

variable (d : Dev nD) (L : grid0.Coords)

/-! ## A row step reads one slot -/

/-- A sixteen-lane load from a two-slot scratch at an offset in slot `sl` reads only positions (sl, ·, ·): contents that
    agree there are read the same. -/
theorem readAt_slot (b : Memref sig .scVector .vmem S2x128x128 .f32) (sl : Fin 2) (off : Fin 3 → ℕ) (h0 : off 0 = sl.val)
    (inb : ∀ a, off a + S1x1x16.size a ≤ S2x128x128.size a) (X X' : Buf (Elt F) (b.view.loc (VT d L)))
    (h : ∀ r c : Fin 128, X (b.view.emb (ix3 sl r c)) = X' (b.view.emb (ix3 sl r c))) :
    View.readAt (Elt F) b.view (Rect.unit (s := S2x128x128) off S1x1x16.size inb).toLoadRect X
      = View.readAt (Elt F) b.view (Rect.unit (s := S2x128x128) off S1x1x16.size inb).toLoadRect X' := by
  refine View.readAt_congr fun i hi => ?_
  obtain ⟨y, hy, rfl⟩ := Finset.mem_map.mp hi
  have hy0 := (Rect.mem_set_unit.mp hy) 0
  obtain ⟨s', r, c, rfl⟩ : ∃ (s' : Fin 2) (r c : Fin 128), y = ix3 s' r c := ⟨y 0, y 1, y 2, eq_ix3 y⟩
  have hs : s' = sl := Fin.ext (by
    have e1 : S1x1x16.size 0 = 1 := rfl
    have e2 : ((ix3 s' r c : S2x128x128.Idx) 0 : ℕ) = s'.val := rfl
    omega)
  subst hs
  exact h r c

/-- Chunk 1's row step reads slot 0 only: contents that agree there give the same step. -/
theorem step1_congr (X1 X1' : Buf (Elt F) ((cnS).view.loc (VT d L))) (X2 X2' : Buf (Elt F) ((ftS).view.loc (VT d L))) (X3 X3' : Buf (Elt F) ((wtS).view.loc (VT d L)))
    (h1 : ∀ r c : Fin 128, X1 (ix3 (0 : Fin 2) r c) = X1' (ix3 (0 : Fin 2) r c))
    (h2 : ∀ r c : Fin 128, X2 (ix3 (0 : Fin 2) r c) = X2' (ix3 (0 : Fin 2) r c))
    (h3 : ∀ r c : Fin 128, X3 (ix3 (0 : Fin 2) r c) = X3' (ix3 (0 : Fin 2) r c)) :
    step1 d L X1 X2 X3 = step1 d L X1' X2' X3' := by
  funext k acc
  unfold step1
  exact (congr (congrArg Prod.mk
      (congr (congr (congrArg (k0_pay1 acc.1) (readAt_slot d L ftS 0 (k0_off3 k) (by rw [k0_off3_eq]; rfl) (k0_off3_inb k) X2 X2' h2)) (readAt_slot d L cnS 0 (k0_off3 k) (by rw [k0_off3_eq]; rfl) (k0_off3_inb k) X1 X1' h1)) (readAt_slot d L wtS 0 (k0_off3 k) (by rw [k0_off3_eq]; rfl) (k0_off3_inb k) X3 X3' h3)))
    (congr (congrArg Prod.mk
      (congr (congr (congrArg (k0_pay2 acc.2.1) (readAt_slot d L ftS 0 (k0_off4 k) (by rw [k0_off4_eq]; rfl) (k0_off4_inb k) X2 X2' h2)) (readAt_slot d L cnS 0 (k0_off4 k) (by rw [k0_off4_eq]; rfl) (k0_off4_inb k) X1 X1' h1)) (readAt_slot d L wtS 0 (k0_off4 k) (by rw [k0_off4_eq]; rfl) (k0_off4_inb k) X3 X3' h3)))
    (congr (congrArg Prod.mk
      (congr (congr (congrArg (k0_pay5 acc.2.2.1) (congrArg k0_pay3 (readAt_slot d L ftS 0 (k0_off5 k) (by rw [k0_off5_eq]; rfl) (k0_off5_inb k) X2 X2' h2))) (congrArg k0_pay4 (readAt_slot d L cnS 0 (k0_off5 k) (by rw [k0_off5_eq]; rfl) (k0_off5_inb k) X1 X1' h1))) (readAt_slot d L wtS 0 (k0_off5 k) (by rw [k0_off5_eq]; rfl) (k0_off5_inb k) X3 X3' h3)))
    (congr (congrArg Prod.mk
      (congr (congr (congrArg (k0_pay6 acc.2.2.2.1) (readAt_slot d L ftS 0 (k0_off6 k) (by rw [k0_off6_eq]; rfl) (k0_off6_inb k) X2 X2' h2)) (readAt_slot d L cnS 0 (k0_off6 k) (by rw [k0_off6_eq]; rfl) (k0_off6_inb k) X1 X1' h1)) (readAt_slot d L wtS 0 (k0_off6 k) (by rw [k0_off6_eq]; rfl) (k0_off6_inb k) X3 X3' h3)))
    (congr (congrArg Prod.mk
      (congr (congr (congrArg (k0_pay7 acc.2.2.2.2.1) (readAt_slot d L ftS 0 (k0_off7 k) (by rw [k0_off7_eq]; rfl) (k0_off7_inb k) X2 X2' h2)) (readAt_slot d L cnS 0 (k0_off7 k) (by rw [k0_off7_eq]; rfl) (k0_off7_inb k) X1 X1' h1)) (readAt_slot d L wtS 0 (k0_off7 k) (by rw [k0_off7_eq]; rfl) (k0_off7_inb k) X3 X3' h3)))
    (congr (congrArg Prod.mk
      (congr (congr (congrArg (k0_pay41 acc.2.2.2.2.2.1) (congrArg k0_pay8 (readAt_slot d L ftS 0 (k0_off8 k) (by rw [k0_off8_eq]; rfl) (k0_off8_inb k) X2 X2' h2))) (readAt_slot d L cnS 0 (k0_off8 k) (by rw [k0_off8_eq]; rfl) (k0_off8_inb k) X1 X1' h1)) (readAt_slot d L wtS 0 (k0_off8 k) (by rw [k0_off8_eq]; rfl) (k0_off8_inb k) X3 X3' h3)))
    (congr (congrArg Prod.mk
      (congr (congr (congrArg (k0_pay42 acc.2.2.2.2.2.2.1) (readAt_slot d L ftS 0 (k0_off9 k) (by rw [k0_off9_eq]; rfl) (k0_off9_inb k) X2 X2' h2)) (readAt_slot d L cnS 0 (k0_off9 k) (by rw [k0_off9_eq]; rfl) (k0_off9_inb k) X1 X1' h1)) (readAt_slot d L wtS 0 (k0_off9 k) (by rw [k0_off9_eq]; rfl) (k0_off9_inb k) X3 X3' h3)))
    (congr (congr (congrArg (k0_pay43 acc.2.2.2.2.2.2.2) (readAt_slot d L ftS 0 (k0_off10 k) (by rw [k0_off10_eq]; rfl) (k0_off10_inb k) X2 X2' h2)) (readAt_slot d L cnS 0 (k0_off10 k) (by rw [k0_off10_eq]; rfl) (k0_off10_inb k) X1 X1' h1)) (readAt_slot d L wtS 0 (k0_off10 k) (by rw [k0_off10_eq]; rfl) (k0_off10_inb k) X3 X3' h3)))))))))

/-- Chunk 2's row step reads slot 1 only: contents that agree there give the same step. -/
theorem step2_congr (X1 X1' : Buf (Elt F) ((cnS).view.loc (VT d L))) (X2 X2' : Buf (Elt F) ((ftS).view.loc (VT d L))) (X3 X3' : Buf (Elt F) ((wtS).view.loc (VT d L)))
    (h1 : ∀ r c : Fin 128, X1 (ix3 (1 : Fin 2) r c) = X1' (ix3 (1 : Fin 2) r c))
    (h2 : ∀ r c : Fin 128, X2 (ix3 (1 : Fin 2) r c) = X2' (ix3 (1 : Fin 2) r c))
    (h3 : ∀ r c : Fin 128, X3 (ix3 (1 : Fin 2) r c) = X3' (ix3 (1 : Fin 2) r c)) :
    step2 d L X1 X2 X3 = step2 d L X1' X2' X3' := by
  funext k acc
  unfold step2
  exact (congr (congrArg Prod.mk
      (congr (congr (congrArg (k0_pay9 acc.1) (readAt_slot d L ftS 1 (k0_off11 k) (by rw [k0_off11_eq]; rfl) (k0_off11_inb k) X2 X2' h2)) (readAt_slot d L cnS 1 (k0_off11 k) (by rw [k0_off11_eq]; rfl) (k0_off11_inb k) X1 X1' h1)) (readAt_slot d L wtS 1 (k0_off11 k) (by rw [k0_off11_eq]; rfl) (k0_off11_inb k) X3 X3' h3)))
    (congr (congrArg Prod.mk
      (congr (congr (congrArg (k0_pay10 acc.2.1) (readAt_slot d L ftS 1 (k0_off12 k) (by rw [k0_off12_eq]; rfl) (k0_off12_inb k) X2 X2' h2)) (readAt_slot d L cnS 1 (k0_off12 k) (by rw [k0_off12_eq]; rfl) (k0_off12_inb k) X1 X1' h1)) (readAt_slot d L wtS 1 (k0_off12 k) (by rw [k0_off12_eq]; rfl) (k0_off12_inb k) X3 X3' h3)))
    (congr (congrArg Prod.mk
      (congr (congr (congrArg (k0_pay13 acc.2.2.1) (congrArg k0_pay11 (readAt_slot d L ftS 1 (k0_off13 k) (by rw [k0_off13_eq]; rfl) (k0_off13_inb k) X2 X2' h2))) (congrArg k0_pay12 (readAt_slot d L cnS 1 (k0_off13 k) (by rw [k0_off13_eq]; rfl) (k0_off13_inb k) X1 X1' h1))) (readAt_slot d L wtS 1 (k0_off13 k) (by rw [k0_off13_eq]; rfl) (k0_off13_inb k) X3 X3' h3)))
    (congr (congrArg Prod.mk
      (congr (congr (congrArg (k0_pay14 acc.2.2.2.1) (readAt_slot d L ftS 1 (k0_off14 k) (by rw [k0_off14_eq]; rfl) (k0_off14_inb k) X2 X2' h2)) (readAt_slot d L cnS 1 (k0_off14 k) (by rw [k0_off14_eq]; rfl) (k0_off14_inb k) X1 X1' h1)) (readAt_slot d L wtS 1 (k0_off14 k) (by rw [k0_off14_eq]; rfl) (k0_off14_inb k) X3 X3' h3)))
    (congr (congrArg Prod.mk
      (congr (congr (congrArg (k0_pay15 acc.2.2.2.2.1) (readAt_slot d L ftS 1 (k0_off15 k) (by rw [k0_off15_eq]; rfl) (k0_off15_inb k) X2 X2' h2)) (readAt_slot d L cnS 1 (k0_off15 k) (by rw [k0_off15_eq]; rfl) (k0_off15_inb k) X1 X1' h1)) (readAt_slot d L wtS 1 (k0_off15 k) (by rw [k0_off15_eq]; rfl) (k0_off15_inb k) X3 X3' h3)))
    (congr (congrArg Prod.mk
      (congr (congr (congrArg (k0_pay44 acc.2.2.2.2.2.1) (congrArg k0_pay16 (readAt_slot d L ftS 1 (k0_off16 k) (by rw [k0_off16_eq]; rfl) (k0_off16_inb k) X2 X2' h2))) (readAt_slot d L cnS 1 (k0_off16 k) (by rw [k0_off16_eq]; rfl) (k0_off16_inb k) X1 X1' h1)) (readAt_slot d L wtS 1 (k0_off16 k) (by rw [k0_off16_eq]; rfl) (k0_off16_inb k) X3 X3' h3)))
    (congr (congrArg Prod.mk
      (congr (congr (congrArg (k0_pay45 acc.2.2.2.2.2.2.1) (readAt_slot d L ftS 1 (k0_off17 k) (by rw [k0_off17_eq]; rfl) (k0_off17_inb k) X2 X2' h2)) (readAt_slot d L cnS 1 (k0_off17 k) (by rw [k0_off17_eq]; rfl) (k0_off17_inb k) X1 X1' h1)) (readAt_slot d L wtS 1 (k0_off17 k) (by rw [k0_off17_eq]; rfl) (k0_off17_inb k) X3 X3' h3)))
    (congr (congr (congrArg (k0_pay46 acc.2.2.2.2.2.2.2) (readAt_slot d L ftS 1 (k0_off18 k) (by rw [k0_off18_eq]; rfl) (k0_off18_inb k) X2 X2' h2)) (readAt_slot d L cnS 1 (k0_off18 k) (by rw [k0_off18_eq]; rfl) (k0_off18_inb k) X1 X1' h1)) (readAt_slot d L wtS 1 (k0_off18 k) (by rw [k0_off18_eq]; rfl) (k0_off18_inb k) X3 X3' h3)))))))))

/-- Chunk 3's row step reads slot 0 only: contents that agree there give the same step. -/
theorem step3_congr (X1 X1' : Buf (Elt F) ((cnS).view.loc (VT d L))) (X2 X2' : Buf (Elt F) ((ftS).view.loc (VT d L))) (X3 X3' : Buf (Elt F) ((wtS).view.loc (VT d L)))
    (h1 : ∀ r c : Fin 128, X1 (ix3 (0 : Fin 2) r c) = X1' (ix3 (0 : Fin 2) r c))
    (h2 : ∀ r c : Fin 128, X2 (ix3 (0 : Fin 2) r c) = X2' (ix3 (0 : Fin 2) r c))
    (h3 : ∀ r c : Fin 128, X3 (ix3 (0 : Fin 2) r c) = X3' (ix3 (0 : Fin 2) r c)) :
    step3 d L X1 X2 X3 = step3 d L X1' X2' X3' := by
  funext k acc
  unfold step3
  exact (congr (congrArg Prod.mk
      (congr (congr (congrArg (k0_pay17 acc.1) (readAt_slot d L ftS 0 (k0_off19 k) (by rw [k0_off19_eq]; rfl) (k0_off19_inb k) X2 X2' h2)) (readAt_slot d L cnS 0 (k0_off19 k) (by rw [k0_off19_eq]; rfl) (k0_off19_inb k) X1 X1' h1)) (readAt_slot d L wtS 0 (k0_off19 k) (by rw [k0_off19_eq]; rfl) (k0_off19_inb k) X3 X3' h3)))
    (congr (congrArg Prod.mk
      (congr (congr (congrArg (k0_pay18 acc.2.1) (readAt_slot d L ftS 0 (k0_off20 k) (by rw [k0_off20_eq]; rfl) (k0_off20_inb k) X2 X2' h2)) (readAt_slot d L cnS 0 (k0_off20 k) (by rw [k0_off20_eq]; rfl) (k0_off20_inb k) X1 X1' h1)) (readAt_slot d L wtS 0 (k0_off20 k) (by rw [k0_off20_eq]; rfl) (k0_off20_inb k) X3 X3' h3)))
    (congr (congrArg Prod.mk
      (congr (congr (congrArg (k0_pay21 acc.2.2.1) (congrArg k0_pay19 (readAt_slot d L ftS 0 (k0_off21 k) (by rw [k0_off21_eq]; rfl) (k0_off21_inb k) X2 X2' h2))) (congrArg k0_pay20 (readAt_slot d L cnS 0 (k0_off21 k) (by rw [k0_off21_eq]; rfl) (k0_off21_inb k) X1 X1' h1))) (readAt_slot d L wtS 0 (k0_off21 k) (by rw [k0_off21_eq]; rfl) (k0_off21_inb k) X3 X3' h3)))
    (congr (congrArg Prod.mk
      (congr (congr (congrArg (k0_pay22 acc.2.2.2.1) (readAt_slot d L ftS 0 (k0_off22 k) (by rw [k0_off22_eq]; rfl) (k0_off22_inb k) X2 X2' h2)) (readAt_slot d L cnS 0 (k0_off22 k) (by rw [k0_off22_eq]; rfl) (k0_off22_inb k) X1 X1' h1)) (readAt_slot d L wtS 0 (k0_off22 k) (by rw [k0_off22_eq]; rfl) (k0_off22_inb k) X3 X3' h3)))
    (congr (congrArg Prod.mk
      (congr (congr (congrArg (k0_pay23 acc.2.2.2.2.1) (readAt_slot d L ftS 0 (k0_off23 k) (by rw [k0_off23_eq]; rfl) (k0_off23_inb k) X2 X2' h2)) (readAt_slot d L cnS 0 (k0_off23 k) (by rw [k0_off23_eq]; rfl) (k0_off23_inb k) X1 X1' h1)) (readAt_slot d L wtS 0 (k0_off23 k) (by rw [k0_off23_eq]; rfl) (k0_off23_inb k) X3 X3' h3)))
    (congr (congrArg Prod.mk
      (congr (congr (congrArg (k0_pay47 acc.2.2.2.2.2.1) (congrArg k0_pay24 (readAt_slot d L ftS 0 (k0_off24 k) (by rw [k0_off24_eq]; rfl) (k0_off24_inb k) X2 X2' h2))) (readAt_slot d L cnS 0 (k0_off24 k) (by rw [k0_off24_eq]; rfl) (k0_off24_inb k) X1 X1' h1)) (readAt_slot d L wtS 0 (k0_off24 k) (by rw [k0_off24_eq]; rfl) (k0_off24_inb k) X3 X3' h3)))
    (congr (congrArg Prod.mk
      (congr (congr (congrArg (k0_pay48 acc.2.2.2.2.2.2.1) (readAt_slot d L ftS 0 (k0_off25 k) (by rw [k0_off25_eq]; rfl) (k0_off25_inb k) X2 X2' h2)) (readAt_slot d L cnS 0 (k0_off25 k) (by rw [k0_off25_eq]; rfl) (k0_off25_inb k) X1 X1' h1)) (readAt_slot d L wtS 0 (k0_off25 k) (by rw [k0_off25_eq]; rfl) (k0_off25_inb k) X3 X3' h3)))
    (congr (congr (congrArg (k0_pay49 acc.2.2.2.2.2.2.2) (readAt_slot d L ftS 0 (k0_off26 k) (by rw [k0_off26_eq]; rfl) (k0_off26_inb k) X2 X2' h2)) (readAt_slot d L cnS 0 (k0_off26 k) (by rw [k0_off26_eq]; rfl) (k0_off26_inb k) X1 X1' h1)) (readAt_slot d L wtS 0 (k0_off26 k) (by rw [k0_off26_eq]; rfl) (k0_off26_inb k) X3 X3' h3)))))))))

/-- Chunk 4's row step reads slot 1 only: contents that agree there give the same step. -/
theorem step4_congr (X1 X1' : Buf (Elt F) ((cnS).view.loc (VT d L))) (X2 X2' : Buf (Elt F) ((ftS).view.loc (VT d L))) (X3 X3' : Buf (Elt F) ((wtS).view.loc (VT d L)))
    (h1 : ∀ r c : Fin 128, X1 (ix3 (1 : Fin 2) r c) = X1' (ix3 (1 : Fin 2) r c))
    (h2 : ∀ r c : Fin 128, X2 (ix3 (1 : Fin 2) r c) = X2' (ix3 (1 : Fin 2) r c))
    (h3 : ∀ r c : Fin 128, X3 (ix3 (1 : Fin 2) r c) = X3' (ix3 (1 : Fin 2) r c)) :
    step4 d L X1 X2 X3 = step4 d L X1' X2' X3' := by
  funext k acc
  unfold step4
  exact (congr (congrArg Prod.mk
      (congr (congr (congrArg (k0_pay25 acc.1) (readAt_slot d L ftS 1 (k0_off27 k) (by rw [k0_off27_eq]; rfl) (k0_off27_inb k) X2 X2' h2)) (readAt_slot d L cnS 1 (k0_off27 k) (by rw [k0_off27_eq]; rfl) (k0_off27_inb k) X1 X1' h1)) (readAt_slot d L wtS 1 (k0_off27 k) (by rw [k0_off27_eq]; rfl) (k0_off27_inb k) X3 X3' h3)))
    (congr (congrArg Prod.mk
      (congr (congr (congrArg (k0_pay26 acc.2.1) (readAt_slot d L ftS 1 (k0_off28 k) (by rw [k0_off28_eq]; rfl) (k0_off28_inb k) X2 X2' h2)) (readAt_slot d L cnS 1 (k0_off28 k) (by rw [k0_off28_eq]; rfl) (k0_off28_inb k) X1 X1' h1)) (readAt_slot d L wtS 1 (k0_off28 k) (by rw [k0_off28_eq]; rfl) (k0_off28_inb k) X3 X3' h3)))
    (congr (congrArg Prod.mk
      (congr (congr (congrArg (k0_pay29 acc.2.2.1) (congrArg k0_pay27 (readAt_slot d L ftS 1 (k0_off29 k) (by rw [k0_off29_eq]; rfl) (k0_off29_inb k) X2 X2' h2))) (congrArg k0_pay28 (readAt_slot d L cnS 1 (k0_off29 k) (by rw [k0_off29_eq]; rfl) (k0_off29_inb k) X1 X1' h1))) (readAt_slot d L wtS 1 (k0_off29 k) (by rw [k0_off29_eq]; rfl) (k0_off29_inb k) X3 X3' h3)))
    (congr (congrArg Prod.mk
      (congr (congr (congrArg (k0_pay30 acc.2.2.2.1) (readAt_slot d L ftS 1 (k0_off30 k) (by rw [k0_off30_eq]; rfl) (k0_off30_inb k) X2 X2' h2)) (readAt_slot d L cnS 1 (k0_off30 k) (by rw [k0_off30_eq]; rfl) (k0_off30_inb k) X1 X1' h1)) (readAt_slot d L wtS 1 (k0_off30 k) (by rw [k0_off30_eq]; rfl) (k0_off30_inb k) X3 X3' h3)))
    (congr (congrArg Prod.mk
      (congr (congr (congrArg (k0_pay31 acc.2.2.2.2.1) (readAt_slot d L ftS 1 (k0_off31 k) (by rw [k0_off31_eq]; rfl) (k0_off31_inb k) X2 X2' h2)) (readAt_slot d L cnS 1 (k0_off31 k) (by rw [k0_off31_eq]; rfl) (k0_off31_inb k) X1 X1' h1)) (readAt_slot d L wtS 1 (k0_off31 k) (by rw [k0_off31_eq]; rfl) (k0_off31_inb k) X3 X3' h3)))
    (congr (congrArg Prod.mk
      (congr (congr (congrArg (k0_pay50 acc.2.2.2.2.2.1) (congrArg k0_pay32 (readAt_slot d L ftS 1 (k0_off32 k) (by rw [k0_off32_eq]; rfl) (k0_off32_inb k) X2 X2' h2))) (readAt_slot d L cnS 1 (k0_off32 k) (by rw [k0_off32_eq]; rfl) (k0_off32_inb k) X1 X1' h1)) (readAt_slot d L wtS 1 (k0_off32 k) (by rw [k0_off32_eq]; rfl) (k0_off32_inb k) X3 X3' h3)))
    (congr (congrArg Prod.mk
      (congr (congr (congrArg (k0_pay51 acc.2.2.2.2.2.2.1) (readAt_slot d L ftS 1 (k0_off33 k) (by rw [k0_off33_eq]; rfl) (k0_off33_inb k) X2 X2' h2)) (readAt_slot d L cnS 1 (k0_off33 k) (by rw [k0_off33_eq]; rfl) (k0_off33_inb k) X1 X1' h1)) (readAt_slot d L wtS 1 (k0_off33 k) (by rw [k0_off33_eq]; rfl) (k0_off33_inb k) X3 X3' h3)))
    (congr (congr (congrArg (k0_pay52 acc.2.2.2.2.2.2.2) (readAt_slot d L ftS 1 (k0_off34 k) (by rw [k0_off34_eq]; rfl) (k0_off34_inb k) X2 X2' h2)) (readAt_slot d L cnS 1 (k0_off34 k) (by rw [k0_off34_eq]; rfl) (k0_off34_inb k) X1 X1' h1)) (readAt_slot d L wtS 1 (k0_off34 k) (by rw [k0_off34_eq]; rfl) (k0_off34_inb k) X3 X3' h3)))))))))

/-! ## The lane totals do not depend on the scratches' prior contents -/

variable (m : (ℓ : Loc nD τ sig) → Buf (Elt F) ℓ) (lab : (d : Dev nD) → Buf (Elt F) (lLoc d)) (hlab : ∀ d j, (lab d j).toNat < 100000)

theorem acc1_indep (t1 t1' : Buf (Elt F) ((cnS).view.loc (VT d L))) (t2 t2' : Buf (Elt F) ((ftS).view.loc (VT d L))) (t3 t3' : Buf (Elt F) ((wtS).view.loc (VT d L))) :
    acc1 m d L lab hlab t1 t2 t3 = acc1 m d L lab hlab t1' t2' t3' := by
  unfold acc1
  rw [step1_congr d L _ (cnC2 m d L lab hlab t1') _ (ftC2 m d L t2') _ (wtC2 m d L t3')
    (fun r c => (cnC2_0 d L m lab hlab t1 r c).trans (cnC2_0 d L m lab hlab t1' r c).symm)
    (fun r c => (ftC2_0 d L m t2 r c).trans (ftC2_0 d L m t2' r c).symm)
    (fun r c => (wtC2_0 d L m t3 r c).trans (wtC2_0 d L m t3' r c).symm)]

theorem acc2_indep (t1 t1' : Buf (Elt F) ((cnS).view.loc (VT d L))) (t2 t2' : Buf (Elt F) ((ftS).view.loc (VT d L))) (t3 t3' : Buf (Elt F) ((wtS).view.loc (VT d L))) :
    acc2 m d L lab hlab t1 t2 t3 = acc2 m d L lab hlab t1' t2' t3' := by
  unfold acc2
  rw [acc1_indep d L m lab hlab t1 t1' t2 t2' t3 t3',
    step2_congr d L _ (cnC3 m d L lab hlab t1') _ (ftC3 m d L t2') _ (wtC3 m d L t3')
    (fun r c => (cnC3_1 d L m lab hlab t1 r c).trans (cnC3_1 d L m lab hlab t1' r c).symm)
    (fun r c => (ftC3_1 d L m t2 r c).trans (ftC3_1 d L m t2' r c).symm)
    (fun r c => (wtC3_1 d L m t3 r c).trans (wtC3_1 d L m t3' r c).symm)]

theorem acc3_indep (t1 t1' : Buf (Elt F) ((cnS).view.loc (VT d L))) (t2 t2' : Buf (Elt F) ((ftS).view.loc (VT d L))) (t3 t3' : Buf (Elt F) ((wtS).view.loc (VT d L))) :
    acc3 m d L lab hlab t1 t2 t3 = acc3 m d L lab hlab t1' t2' t3' := by
  unfold acc3
  rw [acc2_indep d L m lab hlab t1 t1' t2 t2' t3 t3',
    step3_congr d L _ (cnC4 m d L lab hlab t1') _ (ftC4 m d L t2') _ (wtC4 m d L t3')
    (fun r c => (cnC4_0 d L m lab hlab t1 r c).trans (cnC4_0 d L m lab hlab t1' r c).symm)
    (fun r c => (ftC4_0 d L m t2 r c).trans (ftC4_0 d L m t2' r c).symm)
    (fun r c => (wtC4_0 d L m t3 r c).trans (wtC4_0 d L m t3' r c).symm)]

theorem acc4_indep (t1 t1' : Buf (Elt F) ((cnS).view.loc (VT d L))) (t2 t2' : Buf (Elt F) ((ftS).view.loc (VT d L))) (t3 t3' : Buf (Elt F) ((wtS).view.loc (VT d L))) :
    acc4 m d L lab hlab t1 t2 t3 = acc4 m d L lab hlab t1' t2' t3' := by
  unfold acc4
  rw [acc3_indep d L m lab hlab t1 t1' t2 t2' t3 t3',
    step4_congr d L _ (cnC4 m d L lab hlab t1') _ (ftC4 m d L t2') _ (wtC4 m d L t3')
    (fun r c => (cnC4_1 d L m lab hlab t1 r c).trans (cnC4_1 d L m lab hlab t1' r c).symm)
    (fun r c => (ftC4_1 d L m t2 r c).trans (ftC4_1 d L m t2' r c).symm)
    (fun r c => (wtC4_1 d L m t3 r c).trans (wtC4_1 d L m t3' r c).symm)]

/-- The tile's lane totals are the same whatever the three scratches held before the task. -/
theorem tileVec_indep (t1 t1' : Buf (Elt F) ((cnS).view.loc (VT d L))) (t2 t2' : Buf (Elt F) ((ftS).view.loc (VT d L))) (t3 t3' : Buf (Elt F) ((wtS).view.loc (VT d L))) :
    tileVec m d L lab hlab t1 t2 t3 = tileVec m d L lab hlab t1' t2' t3' := by
  unfold tileVec
  rw [acc4_indep d L m lab hlab t1 t1' t2 t2' t3 t3']

/-! ## The one result -/

/-- A tile's lane totals from fixed prior contents of the scratches. -/
def tileRes (d : Dev nD) (L : grid0.Coords) : FVec F S16 .f32 :=
  tileVec m d L lab hlab (cnS).view.junk (ftS).view.junk (wtS).view.junk

/-- The tile whose piece holds position x of the partial-sums vector: position 16·w + l belongs to worker w = 2·s + c,
    core c = w % 2, subcore s = w / 2. -/
def tileOfIdx (x : S512.Idx) : grid0.Coords :=
  coordsV ⟨((x 0).val / 16) % 2, by show _ < 2; omega⟩
    ⟨((x 0).val / 16) / 2, by have hx : (x 0).val < 512 := (x 0).isLt; show _ < 16; omega⟩

/-- THE RESULT: position 16·w + l of the partial-sums vector holds lane l of worker w's totals. -/
def G (d : Dev nD) : Buf (Elt F) (oLoc d) := fun (x : S512.Idx) =>
  tileRes m lab hlab d (tileOfIdx x) (ix1 ⟨(x 0).val % 16, Nat.mod_lt _ (by decide)⟩)

/-- Each tile's copy-out writes its sixteen words of the result. -/
theorem hG (d : Dev nD) (L : grid0.Coords) (t1 : Buf (Elt F) ((cnS).view.loc (VT d L))) (t2 : Buf (Elt F) ((ftS).view.loc (VT d L)))
    (t3 : Buf (Elt F) ((wtS).view.loc (VT d L))) (t4 : Buf (Elt F) ((acS).view.loc (VT d L))) : ∀ x ∈ oSet L,
    ((oSlice L).view.writes (Elt F) (m (oLoc d)) [⟨Rect.whole S16, outPay m d L lab hlab t1 t2 t3 t4⟩] : Buf (Elt F) (oLoc d)) x
      = G m lab hlab d x := by
  intro x hx
  obtain ⟨y, -, rfl⟩ := Finset.mem_map.mp hx
  have e1 : ((oSlice L).view.writes (Elt F) (m (oLoc d)) [⟨Rect.whole S16, outPay m d L lab hlab t1 t2 t3 t4⟩] : Buf (Elt F) (oLoc d))
        ((oSlice L).view.emb y) = outPay m d L lab hlab t1 t2 t3 t4 y :=
    ((View.read_apply _ _).trans (cast_eq _ _)).symm.trans
      (congrFun (View.read_writes_whole (oSlice L).view (m (oLoc d)) (outPay m d L lab hlab t1 t2 t3 t4)) y)
  rw [e1]
  -- the accumulator scratch read back after the store of the lane totals is the lane totals
  have e2 : outPay m d L lab hlab t1 t2 t3 t4 y = tileVec m d L lab hlab t1 t2 t3 y := by
    unfold outPay
    exact View.read_writes_cons_unit_of_mem (acS).view t4 inb_S16_S16_0 (tileVec m d L lab hlab t1 t2 t3) [] y y rfl
      (fun a => match a with | ⟨0, _⟩ => (Nat.zero_add _).symm)
  rw [e2]
  -- the position: 16·(2·s + c) + lane
  have hx0 : (((oSlice L).view.emb y : S512.Idx) 0).val = 32 * (L 1).val + 16 * (L 0).val + (y 0).val := by
    show (k0_off35 L) 0 + 1 * (y 0).val = _
    rw [k0_off35_eq]
    show 32 * (L 1).val + 16 * (L 0).val + 1 * (y 0).val = _
    omega
  have hy : (y 0).val < 16 := (y 0).isLt
  have hL0 := L0_lt L
  have hL1 := L1_lt L
  have hT : tileOfIdx ((oSlice L).view.emb y) = L := by
    funext a
    unfold tileOfIdx
    match a with
    | ⟨0, _⟩ => exact Fin.ext (by show ((((oSlice L).view.emb y : S512.Idx) 0).val / 16) % 2 = (L 0).val; rw [hx0]; omega)
    | ⟨1, _⟩ => exact Fin.ext (by show ((((oSlice L).view.emb y : S512.Idx) 0).val / 16) / 2 = (L 1).val; rw [hx0]; omega)
  have hl : (ix1 ⟨(((oSlice L).view.emb y : S512.Idx) 0).val % 16, Nat.mod_lt _ (by decide)⟩ : S16.Idx) = y := by
    funext a
    match a with
    | ⟨0, _⟩ => exact Fin.ext (by show (((oSlice L).view.emb y : S512.Idx) 0).val % 16 = (y 0).val; rw [hx0]; omega)
  show _ = tileRes m lab hlab d (tileOfIdx ((oSlice L).view.emb y)) (ix1 ⟨(((oSlice L).view.emb y : S512.Idx) 0).val % 16, Nat.mod_lt _ (by decide)⟩)
  rw [hT, hl]
  unfold tileRes
  rw [tileVec_indep d L m lab hlab t1 (cnS).view.junk t2 (ftS).view.junk t3 (wtS).view.junk]

end Cert.Proof.KI

end
-- ==== Proof.KILaunch.lean ====
/-
  The kernel program's run: every weakly fair execution of the TensorCore's @main and the thirty-two tiles terminates
  without a fault, the four argument arrays end as they began, and the result holds the partial sums' total times
  2⁻¹⁵, the partial sums being the tiles' lane totals. The launch theorem applied to the tiles' obligation, the split of
  a SparseCore's hand-out among its tiles, @main's proof, and the launch element (the handshakes' rounds; this kernel
  has no protocol of its own).
-/
import proofs.«216098_g21234318311461_cont_8to1_346_22_alg».proof.Proof.KITileObl
import proofs.«216098_g21234318311461_cont_8to1_346_22_alg».proof.Proof.KIVecSplit
import proofs.«216098_g21234318311461_cont_8to1_346_22_alg».proof.Proof.KIMain
import proofs.«216098_g21234318311461_cont_8to1_346_22_alg».proof.Proof.KIResult

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "fV" => (Memref.whole Cert.KernelIdeal.main_arg0_scv : Memref Cert.KernelIdeal.sig Kind.scVector Space.hbm Cert.KernelIdeal.S16384x128 EltTy.f32)
local notation "aV" => (Memref.whole Cert.KernelIdeal.main_arg1_scv : Memref Cert.KernelIdeal.sig Kind.scVector Space.hbm Cert.KernelIdeal.S16384x128 EltTy.f32)
local notation "lV" => (Memref.whole Cert.KernelIdeal.main_v0_scv : Memref Cert.KernelIdeal.sig Kind.scVector Space.hbm Cert.KernelIdeal.S128x128 EltTy.i32)
local notation "cenV" => (Memref.whole Cert.KernelIdeal.main_arg3_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S512 EltTy.f32)
local notation "ixS" => (Memref.whole Cert.KernelIdeal.cc0_scratch0 : Memref Cert.KernelIdeal.sig Kind.scVector Space.vmem Cert.KernelIdeal.S4x128 EltTy.i32)
local notation "cnS" => (Memref.whole Cert.KernelIdeal.cc0_scratch1 : Memref Cert.KernelIdeal.sig Kind.scVector Space.vmem Cert.KernelIdeal.S2x128x128 EltTy.f32)
local notation "ftS" => (Memref.whole Cert.KernelIdeal.cc0_scratch2 : Memref Cert.KernelIdeal.sig Kind.scVector Space.vmem Cert.KernelIdeal.S2x128x128 EltTy.f32)
local notation "wtS" => (Memref.whole Cert.KernelIdeal.cc0_scratch3 : Memref Cert.KernelIdeal.sig Kind.scVector Space.vmem Cert.KernelIdeal.S2x128x128 EltTy.f32)
local notation "acS" => (Memref.whole Cert.KernelIdeal.cc0_scratch4 : Memref Cert.KernelIdeal.sig Kind.scVector Space.vmem Cert.KernelIdeal.S16 EltTy.f32)

variable [FloatOps F] (m : (ℓ : Loc nD τ sig) → Buf (Elt F) ℓ) (ρ : Dev nD → PrngReg)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ (lab : (d : Dev nD) → Buf (Elt F) (lLoc d)) (G : (d : Dev nD) → Buf (Elt F) (oLoc d)) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m lab G).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The program's run -/

variable (hlab : ∀ d j, (lab m d j).toNat < 100000)

/-- The whole-array result at the labels the reshape lays out. -/
abbrev GG : (d : Dev nD) → Buf (Elt F) (oLoc d) := G m (lab m) hlab

/-- What the run leaves: the four arguments as they were, the result at the scaled total of the partial sums. -/
def QC : PUnit × MemSt nD τ sig (Elt F) → Prop := fun r => ∀ c : Dev nD,
  r.2.mem (fLoc c) = m (fLoc c) ∧ r.2.mem (aLoc c) = m (aLoc c) ∧ r.2.mem (gLoc c) = m (gLoc c) ∧ r.2.mem (cLoc c) = m (cLoc c)
    ∧ r.2.mem ((SparseCore.T c).loc main_v3) = VEnd m (GG m hlab) c (Proc.devRef .tc main_v3)

theorem run_main [∀ e, Nonempty (Elt F e)] :
    θ_run (Cert.KernelIdeal.defs (F := F)) (Cert.KernelIdeal.threads (F := F)) ⟨m, fun _ => 0, ρ⟩ (QC m hlab) :=
  SparseCore.Cfg.θ_run_sc (K := K (F := F)) (D := D (F := F)) (𝒱 := 𝒱) (EH := EH) (P := P m (lab m) (GG m hlab)) facts v₀
    (fun q hq => match q with | 0 => nomatch hq)
    (fun q _ => match q with | 0 => tileObl m (lab m) hlab (GG m hlab) facts (fun d L t1 t2 t3 t4 => hG m (lab m) hlab d L t1 t2 t3 t4))
    (fun q _ => match q with | 0 => SparseCore.Cfg.VecSplit.of_plain (vecSplit m (lab m) (GG m hlab)))
    m ρ main (fun _ => iprop(emp)) (FIN m (GG m hlab)) (u₀ (F := F)) (sep_elim_left.trans (hu₀ m (lab m) (GG m hlab)))
    (hmain m ρ (GG m hlab)) (fq m (GG m hlab)) (hfin m (GG m hlab)) (QC m hlab) (fun _ h => h)

end Cert.Proof.KI

end
-- ==== Proof.KILoopValue.lean ====
/-
  The four row loops' folds, evaluated at the exact instance.

  At the extended reals a trip of a row loop adds to lane l of accumulator j the term
      w · (f − c) · (f − c)   at (slot, row k, column 16·j + l),
  where f, c, w are the features, centres and weights scratches: the load of the j-th vector of row k reads columns
  16·j … 16·j + 15, the cast from 1×1×16 to 16 keeps the lane, and subtraction, multiplication and addition are
  lanewise. Folding the 128 trips therefore adds, to each lane of each accumulator, the sum over the 128 rows of the
  slot of that term.
-/
import proofs.«216098_g21234318311461_cont_8to1_346_22_alg».proof.Proof.KILoop
import Idealize.ShloMosaic.Lib.ValueIdx
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open scoped BigOperators

local notation "cnS" => (Memref.whole Cert.KernelIdeal.cc0_scratch1 : Memref Cert.KernelIdeal.sig Kind.scVector Space.vmem Cert.KernelIdeal.S2x128x128 EltTy.f32)
local notation "ftS" => (Memref.whole Cert.KernelIdeal.cc0_scratch2 : Memref Cert.KernelIdeal.sig Kind.scVector Space.vmem Cert.KernelIdeal.S2x128x128 EltTy.f32)
local notation "wtS" => (Memref.whole Cert.KernelIdeal.cc0_scratch3 : Memref Cert.KernelIdeal.sig Kind.scVector Space.vmem Cert.KernelIdeal.S2x128x128 EltTy.f32)

/-- The eight accumulators a row loop carries, as a right-nested tuple. -/
abbrev Acc8 : Type := FVec Ideal S16 .f32 × FVec Ideal S16 .f32 × FVec Ideal S16 .f32 × FVec Ideal S16 .f32 × FVec Ideal S16 .f32 × FVec Ideal S16 .f32 × FVec Ideal S16 .f32 × FVec Ideal S16 .f32

/-- The j-th accumulator of the tuple. -/
def comp8 (j : Fin 8) (a : Acc8) : FVec Ideal S16 .f32 :=
  match j with
  | ⟨0, _⟩ => a.1
  | ⟨1, _⟩ => a.2.1
  | ⟨2, _⟩ => a.2.2.1
  | ⟨3, _⟩ => a.2.2.2.1
  | ⟨4, _⟩ => a.2.2.2.2.1
  | ⟨5, _⟩ => a.2.2.2.2.2.1
  | ⟨6, _⟩ => a.2.2.2.2.2.2.1
  | ⟨7, _⟩ => a.2.2.2.2.2.2.2

/-- One element's term as the kernel groups it, `(w · (f − c)) · (f − c)`, at slot s, row r, column c of the scratches. -/
def rowTerm (X1 X2 X3 : S2x128x128.Idx → EReal) (s : Fin 2) (r : Fin 128) (c : Fin 128) : EReal :=
  (X3 (ix3 s r c) * (X2 (ix3 s r c) - X1 (ix3 s r c))) * (X2 (ix3 s r c) - X1 (ix3 s r c))

/-- The cast of a 1×1×16 vector to 16 lanes keeps lane l. -/
theorem cast16 {α : Type} (x : S1x1x16.Idx → α) (h : S1x1x16.ShapeCasts S16) (l : Fin 16) :
    shapeCast S16 x h (ix1 l) = x (ix3 (0 : Fin 1) (0 : Fin 1) l) :=
  shapeCast_apply x h _ _ (by
    rw [Shape.rowMajor_val_three, Shape.rowMajor_val_one]
    show (0 * 1 + 0) * 16 + l.val = l.val
    omega)

/-- `step` folded over all 128 trips, seen through a reading φ of the state that each trip increases by `g k`. -/
theorem iter_fold {σ : Type} {n : ℕ} (hn : n = 128) (step : Fin n → σ → σ) (init : σ) (φ : σ → EReal) (g : Fin 128 → EReal)
    (h : ∀ (k : Fin n) (acc : σ), φ (step k acc) = φ acc + g ⟨k.val, lt_of_lt_of_eq k.isLt hn⟩) :
    φ (iter step init n) = φ init + ∑ r : Fin 128, g r := by
  subst hn
  have key : ∀ (m : ℕ) (hm : m ≤ 128), φ (iter step init m) = φ init + ∑ r : Fin m, g (Fin.castLE hm r) := by
    intro m
    induction m with
    | zero => intro _; rw [iter_zero, Finset.univ_eq_empty, Finset.sum_empty, add_zero]
    | succ m ih =>
      intro hm
      have hm' : m < 128 := hm
      rw [show iter step init (m + 1) = step ⟨m, hm'⟩ (iter step init m) from iter_succ step init ⟨m, hm'⟩,
        h, ih (le_of_lt hm'), Fin.sum_univ_castSucc, add_assoc]
      rfl
  rw [key 128 le_rfl]
  rfl

variable (d : Dev nD) (L : grid0.Coords)

/-- A load of sixteen lanes at offsets (s, r, 16·j) of the three scratches, cast and combined lanewise, adds to the
    accumulator's lane l the row term at column 16·j + l. -/
theorem lane_apply (X1 : Buf (Elt Ideal) ((cnS).view.loc (VT d L))) (X2 : Buf (Elt Ideal) ((ftS).view.loc (VT d L))) (X3 : Buf (Elt Ideal) ((wtS).view.loc (VT d L)))
    (off : Fin 3 → Nat) (inb : ∀ a, off a + S1x1x16.size a ≤ S2x128x128.size a) (s : Fin 2) (r : Fin 128) (j : Fin 8)
    (hoff : off = ![s.val, r.val, 16 * j.val]) (a : FVec Ideal S16 .f32) (l : Fin 16) :
    a (ix1 l)
      + (shapeCast (α := EReal) S16 (View.readAt (Elt Ideal) (wtS).view (Rect.unit (s := S2x128x128) off S1x1x16.size inb).toLoadRect X3) shapeCasts_S1x1x16_S16 (ix1 l)
          * (shapeCast (α := EReal) S16 (View.readAt (Elt Ideal) (ftS).view (Rect.unit (s := S2x128x128) off S1x1x16.size inb).toLoadRect X2) shapeCasts_S1x1x16_S16 (ix1 l)
              - shapeCast (α := EReal) S16 (View.readAt (Elt Ideal) (cnS).view (Rect.unit (s := S2x128x128) off S1x1x16.size inb).toLoadRect X1) shapeCasts_S1x1x16_S16 (ix1 l)))
        * (shapeCast (α := EReal) S16 (View.readAt (Elt Ideal) (ftS).view (Rect.unit (s := S2x128x128) off S1x1x16.size inb).toLoadRect X2) shapeCasts_S1x1x16_S16 (ix1 l)
            - shapeCast (α := EReal) S16 (View.readAt (Elt Ideal) (cnS).view (Rect.unit (s := S2x128x128) off S1x1x16.size inb).toLoadRect X1) shapeCasts_S1x1x16_S16 (ix1 l))
      = a (ix1 l) + rowTerm X1 X2 X3 s r ⟨16 * j.val + l.val, by omega⟩ := by
  subst hoff
  have hi : (Rect.unit (s := S2x128x128) ![s.val, r.val, 16 * j.val] S1x1x16.size inb).toLoadRect.idx (ix3 (0 : Fin 1) (0 : Fin 1) l)
      = ix3 s r (⟨16 * j.val + l.val, by omega⟩ : Fin 128) := by
    funext a
    match a with
    | ⟨0, _⟩ => exact Fin.ext (by show s.val + 1 * 0 = s.val; omega)
    | ⟨1, _⟩ => exact Fin.ext (by show r.val + 1 * 0 = r.val; omega)
    | ⟨2, _⟩ => exact Fin.ext (by show 16 * j.val + 1 * l.val = 16 * j.val + l.val; omega)
  rw [cast16, cast16, cast16]
  simp only [View.readAt_apply]
  rw [hi]
  rfl

/-- A trip of chunk 1's row loop adds, to lane l of accumulator j, the row term at slot 0, row k, column 16·j + l. -/
theorem step1_apply (X1 : Buf (Elt Ideal) ((cnS).view.loc (VT d L))) (X2 : Buf (Elt Ideal) ((ftS).view.loc (VT d L))) (X3 : Buf (Elt Ideal) ((wtS).view.loc (VT d L)))
    (k : Fin k0_t1_loop.trips) (acc : Acc8) (j : Fin 8) (l : Fin 16) :
    comp8 j (step1 (F := Ideal) d L X1 X2 X3 k acc) (ix1 l)
      = comp8 j acc (ix1 l) + rowTerm X1 X2 X3 0 ⟨k.val, lt_of_lt_of_le k.isLt k0_t1_abs.2.1⟩ ⟨16 * j.val + l.val, by omega⟩ := by
  have hk : k.val < 128 := lt_of_lt_of_le k.isLt k0_t1_abs.2.1
  match j with
  | ⟨0, _⟩ => exact lane_apply d L X1 X2 X3 (k0_off3 k) (k0_off3_inb k) 0 ⟨k.val, hk⟩ 0 (k0_off3_eq k) acc.1 l
  | ⟨1, _⟩ => exact lane_apply d L X1 X2 X3 (k0_off4 k) (k0_off4_inb k) 0 ⟨k.val, hk⟩ 1 (k0_off4_eq k) acc.2.1 l
  | ⟨2, _⟩ => exact lane_apply d L X1 X2 X3 (k0_off5 k) (k0_off5_inb k) 0 ⟨k.val, hk⟩ 2 (k0_off5_eq k) acc.2.2.1 l
  | ⟨3, _⟩ => exact lane_apply d L X1 X2 X3 (k0_off6 k) (k0_off6_inb k) 0 ⟨k.val, hk⟩ 3 (k0_off6_eq k) acc.2.2.2.1 l
  | ⟨4, _⟩ => exact lane_apply d L X1 X2 X3 (k0_off7 k) (k0_off7_inb k) 0 ⟨k.val, hk⟩ 4 (k0_off7_eq k) acc.2.2.2.2.1 l
  | ⟨5, _⟩ => exact lane_apply d L X1 X2 X3 (k0_off8 k) (k0_off8_inb k) 0 ⟨k.val, hk⟩ 5 (k0_off8_eq k) acc.2.2.2.2.2.1 l
  | ⟨6, _⟩ => exact lane_apply d L X1 X2 X3 (k0_off9 k) (k0_off9_inb k) 0 ⟨k.val, hk⟩ 6 (k0_off9_eq k) acc.2.2.2.2.2.2.1 l
  | ⟨7, _⟩ => exact lane_apply d L X1 X2 X3 (k0_off10 k) (k0_off10_inb k) 0 ⟨k.val, hk⟩ 7 (k0_off10_eq k) acc.2.2.2.2.2.2.2 l

/-- Chunk 1's row loop run to its end adds, to lane l of accumulator j, the sum over the 128 rows of slot 0 of the row
    terms at column 16·j + l. -/
theorem iter1_full (X1 : Buf (Elt Ideal) ((cnS).view.loc (VT d L))) (X2 : Buf (Elt Ideal) ((ftS).view.loc (VT d L))) (X3 : Buf (Elt Ideal) ((wtS).view.loc (VT d L)))
    (init : Acc8) (j : Fin 8) (l : Fin 16) :
    comp8 j (iter (step1 (F := Ideal) d L X1 X2 X3) init k0_t1_loop.trips) (ix1 l)
      = comp8 j init (ix1 l) + ∑ r : Fin 128, rowTerm X1 X2 X3 0 r ⟨16 * j.val + l.val, by omega⟩ :=
  iter_fold (by decide) (step1 (F := Ideal) d L X1 X2 X3) init (fun a => comp8 j a (ix1 l))
    (fun r => rowTerm X1 X2 X3 0 r ⟨16 * j.val + l.val, by omega⟩) (fun k acc => step1_apply d L X1 X2 X3 k acc j l)

/-- A trip of chunk 2's row loop adds, to lane l of accumulator j, the row term at slot 1, row k, column 16·j + l. -/
theorem step2_apply (X1 : Buf (Elt Ideal) ((cnS).view.loc (VT d L))) (X2 : Buf (Elt Ideal) ((ftS).view.loc (VT d L))) (X3 : Buf (Elt Ideal) ((wtS).view.loc (VT d L)))
    (k : Fin k0_t2_loop.trips) (acc : Acc8) (j : Fin 8) (l : Fin 16) :
    comp8 j (step2 (F := Ideal) d L X1 X2 X3 k acc) (ix1 l)
      = comp8 j acc (ix1 l) + rowTerm X1 X2 X3 1 ⟨k.val, lt_of_lt_of_le k.isLt k0_t2_abs.2.1⟩ ⟨16 * j.val + l.val, by omega⟩ := by
  have hk : k.val < 128 := lt_of_lt_of_le k.isLt k0_t2_abs.2.1
  match j with
  | ⟨0, _⟩ => exact lane_apply d L X1 X2 X3 (k0_off11 k) (k0_off11_inb k) 1 ⟨k.val, hk⟩ 0 (k0_off11_eq k) acc.1 l
  | ⟨1, _⟩ => exact lane_apply d L X1 X2 X3 (k0_off12 k) (k0_off12_inb k) 1 ⟨k.val, hk⟩ 1 (k0_off12_eq k) acc.2.1 l
  | ⟨2, _⟩ => exact lane_apply d L X1 X2 X3 (k0_off13 k) (k0_off13_inb k) 1 ⟨k.val, hk⟩ 2 (k0_off13_eq k) acc.2.2.1 l
  | ⟨3, _⟩ => exact lane_apply d L X1 X2 X3 (k0_off14 k) (k0_off14_inb k) 1 ⟨k.val, hk⟩ 3 (k0_off14_eq k) acc.2.2.2.1 l
  | ⟨4, _⟩ => exact lane_apply d L X1 X2 X3 (k0_off15 k) (k0_off15_inb k) 1 ⟨k.val, hk⟩ 4 (k0_off15_eq k) acc.2.2.2.2.1 l
  | ⟨5, _⟩ => exact lane_apply d L X1 X2 X3 (k0_off16 k) (k0_off16_inb k) 1 ⟨k.val, hk⟩ 5 (k0_off16_eq k) acc.2.2.2.2.2.1 l
  | ⟨6, _⟩ => exact lane_apply d L X1 X2 X3 (k0_off17 k) (k0_off17_inb k) 1 ⟨k.val, hk⟩ 6 (k0_off17_eq k) acc.2.2.2.2.2.2.1 l
  | ⟨7, _⟩ => exact lane_apply d L X1 X2 X3 (k0_off18 k) (k0_off18_inb k) 1 ⟨k.val, hk⟩ 7 (k0_off18_eq k) acc.2.2.2.2.2.2.2 l

/-- Chunk 2's row loop run to its end adds, to lane l of accumulator j, the sum over the 128 rows of slot 1 of the row
    terms at column 16·j + l. -/
theorem iter2_full (X1 : Buf (Elt Ideal) ((cnS).view.loc (VT d L))) (X2 : Buf (Elt Ideal) ((ftS).view.loc (VT d L))) (X3 : Buf (Elt Ideal) ((wtS).view.loc (VT d L)))
    (init : Acc8) (j : Fin 8) (l : Fin 16) :
    comp8 j (iter (step2 (F := Ideal) d L X1 X2 X3) init k0_t2_loop.trips) (ix1 l)
      = comp8 j init (ix1 l) + ∑ r : Fin 128, rowTerm X1 X2 X3 1 r ⟨16 * j.val + l.val, by omega⟩ :=
  iter_fold (by decide) (step2 (F := Ideal) d L X1 X2 X3) init (fun a => comp8 j a (ix1 l))
    (fun r => rowTerm X1 X2 X3 1 r ⟨16 * j.val + l.val, by omega⟩) (fun k acc => step2_apply d L X1 X2 X3 k acc j l)

/-- A trip of chunk 3's row loop adds, to lane l of accumulator j, the row term at slot 0, row k, column 16·j + l. -/
theorem step3_apply (X1 : Buf (Elt Ideal) ((cnS).view.loc (VT d L))) (X2 : Buf (Elt Ideal) ((ftS).view.loc (VT d L))) (X3 : Buf (Elt Ideal) ((wtS).view.loc (VT d L)))
    (k : Fin k0_t3_loop.trips) (acc : Acc8) (j : Fin 8) (l : Fin 16) :
    comp8 j (step3 (F := Ideal) d L X1 X2 X3 k acc) (ix1 l)
      = comp8 j acc (ix1 l) + rowTerm X1 X2 X3 0 ⟨k.val, lt_of_lt_of_le k.isLt k0_t3_abs.2.1⟩ ⟨16 * j.val + l.val, by omega⟩ := by
  have hk : k.val < 128 := lt_of_lt_of_le k.isLt k0_t3_abs.2.1
  match j with
  | ⟨0, _⟩ => exact lane_apply d L X1 X2 X3 (k0_off19 k) (k0_off19_inb k) 0 ⟨k.val, hk⟩ 0 (k0_off19_eq k) acc.1 l
  | ⟨1, _⟩ => exact lane_apply d L X1 X2 X3 (k0_off20 k) (k0_off20_inb k) 0 ⟨k.val, hk⟩ 1 (k0_off20_eq k) acc.2.1 l
  | ⟨2, _⟩ => exact lane_apply d L X1 X2 X3 (k0_off21 k) (k0_off21_inb k) 0 ⟨k.val, hk⟩ 2 (k0_off21_eq k) acc.2.2.1 l
  | ⟨3, _⟩ => exact lane_apply d L X1 X2 X3 (k0_off22 k) (k0_off22_inb k) 0 ⟨k.val, hk⟩ 3 (k0_off22_eq k) acc.2.2.2.1 l
  | ⟨4, _⟩ => exact lane_apply d L X1 X2 X3 (k0_off23 k) (k0_off23_inb k) 0 ⟨k.val, hk⟩ 4 (k0_off23_eq k) acc.2.2.2.2.1 l
  | ⟨5, _⟩ => exact lane_apply d L X1 X2 X3 (k0_off24 k) (k0_off24_inb k) 0 ⟨k.val, hk⟩ 5 (k0_off24_eq k) acc.2.2.2.2.2.1 l
  | ⟨6, _⟩ => exact lane_apply d L X1 X2 X3 (k0_off25 k) (k0_off25_inb k) 0 ⟨k.val, hk⟩ 6 (k0_off25_eq k) acc.2.2.2.2.2.2.1 l
  | ⟨7, _⟩ => exact lane_apply d L X1 X2 X3 (k0_off26 k) (k0_off26_inb k) 0 ⟨k.val, hk⟩ 7 (k0_off26_eq k) acc.2.2.2.2.2.2.2 l

/-- Chunk 3's row loop run to its end adds, to lane l of accumulator j, the sum over the 128 rows of slot 0 of the row
    terms at column 16·j + l. -/
theorem iter3_full (X1 : Buf (Elt Ideal) ((cnS).view.loc (VT d L))) (X2 : Buf (Elt Ideal) ((ftS).view.loc (VT d L))) (X3 : Buf (Elt Ideal) ((wtS).view.loc (VT d L)))
    (init : Acc8) (j : Fin 8) (l : Fin 16) :
    comp8 j (iter (step3 (F := Ideal) d L X1 X2 X3) init k0_t3_loop.trips) (ix1 l)
      = comp8 j init (ix1 l) + ∑ r : Fin 128, rowTerm X1 X2 X3 0 r ⟨16 * j.val + l.val, by omega⟩ :=
  iter_fold (by decide) (step3 (F := Ideal) d L X1 X2 X3) init (fun a => comp8 j a (ix1 l))
    (fun r => rowTerm X1 X2 X3 0 r ⟨16 * j.val + l.val, by omega⟩) (fun k acc => step3_apply d L X1 X2 X3 k acc j l)

/-- A trip of chunk 4's row loop adds, to lane l of accumulator j, the row term at slot 1, row k, column 16·j + l. -/
theorem step4_apply (X1 : Buf (Elt Ideal) ((cnS).view.loc (VT d L))) (X2 : Buf (Elt Ideal) ((ftS).view.loc (VT d L))) (X3 : Buf (Elt Ideal) ((wtS).view.loc (VT d L)))
    (k : Fin k0_t4_loop.trips) (acc : Acc8) (j : Fin 8) (l : Fin 16) :
    comp8 j (step4 (F := Ideal) d L X1 X2 X3 k acc) (ix1 l)
      = comp8 j acc (ix1 l) + rowTerm X1 X2 X3 1 ⟨k.val, lt_of_lt_of_le k.isLt k0_t4_abs.2.1⟩ ⟨16 * j.val + l.val, by omega⟩ := by
  have hk : k.val < 128 := lt_of_lt_of_le k.isLt k0_t4_abs.2.1
  match j with
  | ⟨0, _⟩ => exact lane_apply d L X1 X2 X3 (k0_off27 k) (k0_off27_inb k) 1 ⟨k.val, hk⟩ 0 (k0_off27_eq k) acc.1 l
  | ⟨1, _⟩ => exact lane_apply d L X1 X2 X3 (k0_off28 k) (k0_off28_inb k) 1 ⟨k.val, hk⟩ 1 (k0_off28_eq k) acc.2.1 l
  | ⟨2, _⟩ => exact lane_apply d L X1 X2 X3 (k0_off29 k) (k0_off29_inb k) 1 ⟨k.val, hk⟩ 2 (k0_off29_eq k) acc.2.2.1 l
  | ⟨3, _⟩ => exact lane_apply d L X1 X2 X3 (k0_off30 k) (k0_off30_inb k) 1 ⟨k.val, hk⟩ 3 (k0_off30_eq k) acc.2.2.2.1 l
  | ⟨4, _⟩ => exact lane_apply d L X1 X2 X3 (k0_off31 k) (k0_off31_inb k) 1 ⟨k.val, hk⟩ 4 (k0_off31_eq k) acc.2.2.2.2.1 l
  | ⟨5, _⟩ => exact lane_apply d L X1 X2 X3 (k0_off32 k) (k0_off32_inb k) 1 ⟨k.val, hk⟩ 5 (k0_off32_eq k) acc.2.2.2.2.2.1 l
  | ⟨6, _⟩ => exact lane_apply d L X1 X2 X3 (k0_off33 k) (k0_off33_inb k) 1 ⟨k.val, hk⟩ 6 (k0_off33_eq k) acc.2.2.2.2.2.2.1 l
  | ⟨7, _⟩ => exact lane_apply d L X1 X2 X3 (k0_off34 k) (k0_off34_inb k) 1 ⟨k.val, hk⟩ 7 (k0_off34_eq k) acc.2.2.2.2.2.2.2 l

/-- Chunk 4's row loop run to its end adds, to lane l of accumulator j, the sum over the 128 rows of slot 1 of the row
    terms at column 16·j + l. -/
theorem iter4_full (X1 : Buf (Elt Ideal) ((cnS).view.loc (VT d L))) (X2 : Buf (Elt Ideal) ((ftS).view.loc (VT d L))) (X3 : Buf (Elt Ideal) ((wtS).view.loc (VT d L)))
    (init : Acc8) (j : Fin 8) (l : Fin 16) :
    comp8 j (iter (step4 (F := Ideal) d L X1 X2 X3) init k0_t4_loop.trips) (ix1 l)
      = comp8 j init (ix1 l) + ∑ r : Fin 128, rowTerm X1 X2 X3 1 r ⟨16 * j.val + l.val, by omega⟩ :=
  iter_fold (by decide) (step4 (F := Ideal) d L X1 X2 X3) init (fun a => comp8 j a (ix1 l))
    (fun r => rowTerm X1 X2 X3 1 r ⟨16 * j.val + l.val, by omega⟩) (fun k acc => step4_apply d L X1 X2 X3 k acc j l)

end Cert.Proof.KI

end
-- ==== Proof.SumShape.lean ====
/-
  The kernel's arrangement of the sum equals the plain double sum.

  The 16384 rows are dealt to 32 workers of 512 consecutive rows each; a worker walks its rows in 4 chunks of 128, and
  reads each row of 128 columns as 8 vectors of 16 lanes (column = j·16 + l). A worker ends with one total per lane,
  `tileLane t w l`; the 32·16 lane totals sit at position w·16 + l of a vector of 512, which is then summed. Since
  every row is b = w·512 + ci·128 + r for exactly one (w, ci, r), and every column is k = j·16 + l for exactly one
  (j, l), the sum of the 512 lane totals is the sum over all rows and columns. This is re-indexing in a commutative
  monoid: nothing is assumed about finiteness of the terms.
-/
import Mathlib.Algebra.BigOperators.Fin
import Mathlib.Logic.Equiv.Fin.Basic
import Idealize.ShloMosaic.PureOps.Ideal

noncomputable section

open scoped BigOperators

namespace Cert.Spec

/-- For `a < m` and `b < n`, `a·n + b < m·n`. -/
theorem mul_add_lt {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right _ a.isLt

/-- A sum over `Fin (m·n)` is the double sum over quotient `a` and remainder `b`, the index being `a·n + b`. -/
theorem sum_fin_mul {M : Type*} [AddCommMonoid M] (m n : ℕ) (f : Fin (m * n) → M) :
    ∑ i : Fin (m * n), f i = ∑ a : Fin m, ∑ b : Fin n, f ⟨a.val * n + b.val, mul_add_lt a b⟩ :=
  calc ∑ i : Fin (m * n), f i
      = ∑ p : Fin m × Fin n, f (finProdFinEquiv p) := (Equiv.sum_comp finProdFinEquiv f).symm
    _ = ∑ a : Fin m, ∑ b : Fin n, f (finProdFinEquiv (a, b)) := Fintype.sum_prod_type _
    _ = ∑ a : Fin m, ∑ b : Fin n, f ⟨a.val * n + b.val, mul_add_lt a b⟩ :=
        Finset.sum_congr rfl fun a _ => Finset.sum_congr rfl fun b _ =>
          congrArg f (Fin.ext (by simp only [finProdFinEquiv_apply_val]; ring))

/-- The same for `Fin N` with `N = m·n` given as an equation. -/
theorem sum_fin_split {M : Type*} [AddCommMonoid M] {N : ℕ} (m n : ℕ) (h : m * n = N) (f : Fin N → M) :
    ∑ i : Fin N, f i = ∑ a : Fin m, ∑ b : Fin n, f ⟨a.val * n + b.val, lt_of_lt_of_eq (mul_add_lt a b) h⟩ := by
  subst h
  exact sum_fin_mul m n f

/-- Four nested finite sums, the outer pair exchanged with the inner pair and each pair's order kept or swapped as the
    kernel's loops need: `∑ a b c d = ∑ d c a b`. -/
theorem sum_reorder4 {M : Type*} [AddCommMonoid M] {α β γ δ : Type*} [Fintype α] [Fintype β] [Fintype γ] [Fintype δ]
    (g : α → β → γ → δ → M) :
    ∑ a, ∑ b, ∑ c, ∑ d, g a b c d = ∑ d, ∑ c, ∑ a, ∑ b, g a b c d :=
  calc ∑ a, ∑ b, ∑ c, ∑ d, g a b c d
      = ∑ a, ∑ b, ∑ d, ∑ c, g a b c d :=
        Finset.sum_congr rfl fun a _ => Finset.sum_congr rfl fun b _ => Finset.sum_comm
    _ = ∑ a, ∑ d, ∑ b, ∑ c, g a b c d := Finset.sum_congr rfl fun a _ => Finset.sum_comm
    _ = ∑ d, ∑ a, ∑ b, ∑ c, g a b c d := Finset.sum_comm
    _ = ∑ d, ∑ a, ∑ c, ∑ b, g a b c d :=
        Finset.sum_congr rfl fun d _ => Finset.sum_congr rfl fun a _ => Finset.sum_comm
    _ = ∑ d, ∑ c, ∑ a, ∑ b, g a b c d := Finset.sum_congr rfl fun d _ => Finset.sum_comm

/-- In any commutative monoid: the sum over worker, lane, vector, chunk and row-in-chunk is the sum over all rows and
    columns. -/
theorem sum_tiles_gen {M : Type*} [AddCommMonoid M] (t : Fin 16384 → Fin 128 → M) :
    (∑ w : Fin 32, ∑ l : Fin 16, ∑ j : Fin 8, ∑ ci : Fin 4, ∑ r : Fin 128,
        t ⟨w.val * 512 + ci.val * 128 + r.val, by omega⟩ ⟨j.val * 16 + l.val, by omega⟩)
      = ∑ b : Fin 16384, ∑ k : Fin 128, t b k := by
  -- rows: b = w·512 + ci·128 + r
  have hrow : ∀ g : Fin 16384 → M,
      ∑ b : Fin 16384, g b
        = ∑ w : Fin 32, ∑ ci : Fin 4, ∑ r : Fin 128, g ⟨w.val * 512 + ci.val * 128 + r.val, by omega⟩ := by
    intro g
    rw [sum_fin_split 32 512 (by norm_num) g]
    refine Finset.sum_congr rfl fun w _ => ?_
    rw [sum_fin_split 4 128 (by norm_num) (fun c : Fin 512 => g ⟨w.val * 512 + c.val, by omega⟩)]
    refine Finset.sum_congr rfl fun ci _ => Finset.sum_congr rfl fun r _ => ?_
    exact congrArg g (Fin.ext (by simp only []; omega))
  -- columns: k = j·16 + l
  have hcol : ∀ g : Fin 128 → M,
      ∑ k : Fin 128, g k = ∑ j : Fin 8, ∑ l : Fin 16, g ⟨j.val * 16 + l.val, by omega⟩ :=
    fun g => sum_fin_split 8 16 (by norm_num) g
  calc (∑ w : Fin 32, ∑ l : Fin 16, ∑ j : Fin 8, ∑ ci : Fin 4, ∑ r : Fin 128,
          t ⟨w.val * 512 + ci.val * 128 + r.val, by omega⟩ ⟨j.val * 16 + l.val, by omega⟩)
      = ∑ w : Fin 32, ∑ ci : Fin 4, ∑ r : Fin 128, ∑ j : Fin 8, ∑ l : Fin 16,
          t ⟨w.val * 512 + ci.val * 128 + r.val, by omega⟩ ⟨j.val * 16 + l.val, by omega⟩ :=
        Finset.sum_congr rfl fun w _ =>
          (sum_reorder4 (fun (ci : Fin 4) (r : Fin 128) (j : Fin 8) (l : Fin 16) =>
            t ⟨w.val * 512 + ci.val * 128 + r.val, by omega⟩ ⟨j.val * 16 + l.val, by omega⟩)).symm
    _ = ∑ w : Fin 32, ∑ ci : Fin 4, ∑ r : Fin 128, ∑ k : Fin 128,
          t ⟨w.val * 512 + ci.val * 128 + r.val, by omega⟩ k :=
        Finset.sum_congr rfl fun w _ => Finset.sum_congr rfl fun ci _ => Finset.sum_congr rfl fun r _ =>
          (hcol (t ⟨w.val * 512 + ci.val * 128 + r.val, by omega⟩)).symm
    _ = ∑ b : Fin 16384, ∑ k : Fin 128, t b k := (hrow (fun b => ∑ k : Fin 128, t b k)).symm

/-- One worker's total for one lane: over the 8 vectors of a row, the 4 chunks and the 128 rows of a chunk. -/
def tileLane (t : Fin 16384 → Fin 128 → EReal) (w : Fin 32) (l : Fin 16) : EReal :=
  ∑ j : Fin 8, ∑ ci : Fin 4, ∑ r : Fin 128, t ⟨w.val * 512 + ci.val * 128 + r.val, by omega⟩ ⟨j.val * 16 + l.val, by omega⟩

/-- The 512 lane totals, position `i` holding worker `i / 16`, lane `i % 16`, sum to the plain double sum. -/
theorem sum_tiles (t : Fin 16384 → Fin 128 → EReal) :
    (∑ i : Fin 512, tileLane t ⟨i.val / 16, by omega⟩ ⟨i.val % 16, by omega⟩) = ∑ b : Fin 16384, ∑ k : Fin 128, t b k := by
  rw [sum_fin_split 32 16 (by norm_num)
    (fun i : Fin 512 => tileLane t ⟨i.val / 16, by omega⟩ ⟨i.val % 16, by omega⟩), ← sum_tiles_gen t]
  refine Finset.sum_congr rfl fun w _ => Finset.sum_congr rfl fun l _ => ?_
  have e1 : (⟨(w.val * 16 + l.val) / 16, by omega⟩ : Fin 32) = w := Fin.ext (by simp only []; omega)
  have e2 : (⟨(w.val * 16 + l.val) % 16, by omega⟩ : Fin 16) = l := Fin.ext (by simp only []; omega)
  show tileLane t ⟨(w.val * 16 + l.val) / 16, _⟩ ⟨(w.val * 16 + l.val) % 16, _⟩ = _
  rw [e1, e2]
  rfl

/-- A left-to-right fold of eight terms is their sum. -/
theorem sum_eight {M : Type*} [AddCommMonoid M] (a : Fin 8 → M) :
    ((((((a 0 + a 1) + a 2) + a 3) + a 4) + a 5) + a 6) + a 7 = ∑ j : Fin 8, a j :=
  (Fin.sum_univ_eight a).symm

/-- A left-to-right fold of four terms onto a starting value is the starting value plus their sum. -/
theorem sum_four {M : Type*} [AddCommMonoid M] (a : Fin 4 → M) (z : M) :
    (((z + a 0) + a 1) + a 2) + a 3 = z + ∑ ci : Fin 4, a ci := by
  rw [Fin.sum_univ_four]
  simp only [add_assoc]

end Cert.Spec

end
-- ==== Proof.Spec.lean ====
/-
  The one function both programs compute, stated over plain coordinates.

  For a batch of 16384 feature rows of width 128, a weight array of the same shape, one label per row and a table of
  100000 centre rows, the loss is the sum over every row b and column k of
      A[b,k] · (feat[b,k] − centers[label[b],k])²,
  scaled by 1/(2·16384). This module fixes that sum (`total`) and its per-element term in the two groupings the
  programs use: the reference multiplies the weight by the square, `A · (d · d)`; the kernel multiplies left to right,
  `(A · d) · d`. On the extended reals multiplication is associative, so the two terms are equal without any
  finiteness assumption.
-/
import Idealize.ShloMosaic.PureOps.Ideal
import Idealize.ShloMosaic.Lib.ValueIdx

noncomputable section

open scoped BigOperators

namespace Cert.Spec

open Idealize.ShloMosaic Idealize.ShloMosaic.ValueIdx

/-- The table row a label word names: the word read as a natural number, capped at the last row 99999. For a label in
    `[0, 99999]` this is the label itself. -/
def rowOf (w : BitVec 32) : Fin 100000 := ⟨min w.toNat 99999, by omega⟩

theorem rowOf_val_of_le (w : BitVec 32) (h : w.toNat ≤ 99999) : (rowOf w).val = w.toNat := by
  simp [rowOf, Nat.min_eq_left h]

/-- A rank-2 array of extended reals as a function of its two coordinates. -/
def mat {n0 n1 : Nat} (x : FVec Ideal (⟨2, ![n0, n1]⟩ : Shape) .f32) : Fin n0 → Fin n1 → EReal := fun a b => x (ix2 a b)

/-- A rank-1 array of 32-bit words as a function of its coordinate. -/
def vec {n : Nat} (x : IVec (⟨1, ![n]⟩ : Shape) 32) : Fin n → BitVec 32 := fun a => x (ix1 a)

variable (feat A : Fin 16384 → Fin 128 → EReal) (label : Fin 16384 → BitVec 32) (cent : Fin 100000 → Fin 128 → EReal)

/-- The difference `feat[b,k] − centers[label[b],k]`. -/
def diff (b : Fin 16384) (k : Fin 128) : EReal := feat b k - cent (rowOf (label b)) k

/-- One element's contribution, grouped as the reference computes it: the weight times the square. -/
def term (b : Fin 16384) (k : Fin 128) : EReal := A b k * (diff feat label cent b k * diff feat label cent b k)

/-- One element's contribution, grouped as the kernel computes it: left to right. -/
def termK (b : Fin 16384) (k : Fin 128) : EReal := A b k * diff feat label cent b k * diff feat label cent b k

theorem termK_eq_term (b : Fin 16384) (k : Fin 128) : termK feat A label cent b k = term feat A label cent b k := by
  unfold termK term; exact mul_assoc _ _ _

/-- The unscaled loss: the sum of every element's contribution. -/
def total : EReal := ∑ b : Fin 16384, ∑ k : Fin 128, term feat A label cent b k

/-- The loss: the sum scaled by 1/(2·16384) = 1/32768. -/
def loss : EReal := total feat A label cent * (((1 : ℝ) / 32768 : ℝ) : EReal)

end Cert.Spec

end
-- ==== Proof.Consts.lean ====
/-
  The float literals the two programs spell, as the extended reals their bit patterns denote, and the scaling law:
  dividing by 2 and then by 16384 is multiplying by 1/32768, on every extended real (the infinities included, since
  division by a nonzero real is the product with its reciprocal everywhere).

  The patterns: 0x40000000 has biased exponent 128 and zero fraction, so it denotes 2^23 · 2^(128 - 127 - 23) = 2;
  0x46800000 has biased exponent 141, so it denotes 2^14 = 16384; 0x38000000 has biased exponent 112, so it denotes
  2^(-15) = 1/32768.
-/
import Idealize.ShloMosaic.PureOps.Ideal
import Idealize.ShloMosaic.PureOps.Ideal.Laws

noncomputable section

namespace Cert.Consts

open Idealize.ShloMosaic

/-- The pattern of `+0.0` denotes `0`. -/
theorem ofBits_zero : Ideal.ofBits .f32 0x00000000#32 = (0 : EReal) := Ideal.ofBits_zero_f32

/-- The pattern of `2.0` denotes the real `2`. -/
theorem ofBits_two : Ideal.ofBits .f32 0x40000000#32 = ((2 : ℝ) : EReal) := by
  simp [Ideal.ofBits, Ideal.ieee, -EReal.coe_mul]; norm_num

/-- The pattern of `16384.0` denotes the real `16384`. -/
theorem ofBits_16384 : Ideal.ofBits .f32 0x46800000#32 = ((16384 : ℝ) : EReal) := by
  simp [Ideal.ofBits, Ideal.ieee, -EReal.coe_mul]; norm_num

/-- The pattern of `2^(-15)` denotes the real `1/32768`. -/
theorem ofBits_inv32768 : Ideal.ofBits .f32 0x38000000#32 = (((1 : ℝ) / 32768 : ℝ) : EReal) := by
  simp [Ideal.ofBits, Ideal.ieee, -EReal.coe_mul]; norm_num

/-- Halving and then dividing by 16384 is the product with 1/32768, on every extended real. -/
theorem div_div_eq (x : EReal) :
    Ideal.div (Ideal.div x ((2 : ℝ) : EReal)) ((16384 : ℝ) : EReal) = x * (((1 : ℝ) / 32768 : ℝ) : EReal) := by
  rw [Ideal.div_coe (by norm_num : (2 : ℝ) ≠ 0), Ideal.div_coe (by norm_num : (16384 : ℝ) ≠ 0), mul_assoc,
    ← EReal.coe_mul]
  norm_num

end Cert.Consts

end
-- ==== Proof.KITileIdeal.lean ====
/-
  One tile's sixteen lane totals are the specification's.

  Tile L is worker w = 2·(L 1) + (L 0). Its eight accumulators start at zero; chunk ci's row loop adds to lane l of
  accumulator j the sum over r < 128 of the kernel-grouped term at row 512·w + 128·ci + r and column 16·j + l, because
  the scratches it reads hold that chunk's rows of the features, of the weights, and of the centres the labels name.
  The tile's vector is the eight accumulators added left to right, so its lane l is the sum over j < 8, ci < 4, r < 128
  of those terms: the lane total of the specification's arrangement of the double sum.
-/
import proofs.«216098_g21234318311461_cont_8to1_346_22_alg».proof.Proof.KILoopValue
import proofs.«216098_g21234318311461_cont_8to1_346_22_alg».proof.Proof.KIScratchRead
import proofs.«216098_g21234318311461_cont_8to1_346_22_alg».proof.Proof.SumShape
import proofs.«216098_g21234318311461_cont_8to1_346_22_alg».proof.Proof.Spec
import proofs.«216098_g21234318311461_cont_8to1_346_22_alg».proof.Proof.Consts

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open scoped BigOperators

local notation "cnS" => (Memref.whole Cert.KernelIdeal.cc0_scratch1 : Memref Cert.KernelIdeal.sig Kind.scVector Space.vmem Cert.KernelIdeal.S2x128x128 EltTy.f32)
local notation "ftS" => (Memref.whole Cert.KernelIdeal.cc0_scratch2 : Memref Cert.KernelIdeal.sig Kind.scVector Space.vmem Cert.KernelIdeal.S2x128x128 EltTy.f32)
local notation "wtS" => (Memref.whole Cert.KernelIdeal.cc0_scratch3 : Memref Cert.KernelIdeal.sig Kind.scVector Space.vmem Cert.KernelIdeal.S2x128x128 EltTy.f32)

variable (m : (ℓ : Loc nD τ sig) → Buf (Elt Ideal) ℓ) (d : Dev nD) (L : grid0.Coords) (lab : (d : Dev nD) → Buf (Elt Ideal) (lLoc d))

/-- The label of batch row b, read off the 128 × 128 layout of the labels: row b / 128, word b % 128. -/
def labOf (lab : (d : Dev nD) → Buf (Elt Ideal) (lLoc d)) (d : Dev nD) : Fin 16384 → BitVec 32 :=
  fun b => lab d (ix2 (⟨b.val / 128, by omega⟩ : Fin 128) (⟨b.val % 128, by omega⟩ : Fin 128))

/-- The worker number of a tile is below 32. -/
theorem wk_lt (L : grid0.Coords) : 2 * (L 1).val + (L 0).val < 32 := by
  have := L0_lt L; have := L1_lt L; omega

/-- The kernel-grouped term from its three factors' values. -/
theorem term_eq (feat A : Fin 16384 → Fin 128 → EReal) (label : Fin 16384 → BitVec 32) (cent : Fin 100000 → Fin 128 → EReal)
    (x1 x2 x3 : EReal) (b : Fin 16384) (k : Fin 128)
    (h1 : x1 = cent (Cert.Spec.rowOf (label b)) k) (h2 : x2 = feat b k) (h3 : x3 = A b k) :
    (x3 * (x2 - x1)) * (x2 - x1) = Cert.Spec.termK feat A label cent b k := by
  subst h1 h2 h3; rfl

/-- The accumulators start at zero. -/
theorem acc0_comp (j : Fin 8) (l : Fin 16) : comp8 j (acc0 (F := Ideal)) (ix1 l) = 0 := by
  match j with
  | ⟨0, _⟩ => exact Cert.Consts.ofBits_zero
  | ⟨1, _⟩ => exact Cert.Consts.ofBits_zero
  | ⟨2, _⟩ => exact Cert.Consts.ofBits_zero
  | ⟨3, _⟩ => exact Cert.Consts.ofBits_zero
  | ⟨4, _⟩ => exact Cert.Consts.ofBits_zero
  | ⟨5, _⟩ => exact Cert.Consts.ofBits_zero
  | ⟨6, _⟩ => exact Cert.Consts.ofBits_zero
  | ⟨7, _⟩ => exact Cert.Consts.ofBits_zero

/-- The centres scratch's element, as the specification's centre of the row's label. -/
theorem cent_eq (q r : Fin 128) (b : Fin 16384) (hq : b.val / 128 = q.val) (hr : b.val % 128 = r.val) (c' k : Fin 128) (hk : c'.val = k.val)
    (hlab : ∀ d j, (lab d j).toNat < 100000) :
    m (cLoc d) (ix2 (⟨(lab d (ix2 q r)).toNat, hlab d _⟩ : Fin 100000) c')
      = Cert.Spec.mat (m (cLoc d)) (Cert.Spec.rowOf (labOf lab d b)) k := by
  have e1 : labOf lab d b = lab d (ix2 q r) := by
    show lab d (ix2 (⟨b.val / 128, _⟩ : Fin 128) (⟨b.val % 128, _⟩ : Fin 128)) = _
    rw [show (⟨b.val / 128, by omega⟩ : Fin 128) = q from Fin.ext hq, show (⟨b.val % 128, by omega⟩ : Fin 128) = r from Fin.ext hr]
  have e2 : Cert.Spec.rowOf (labOf lab d b) = (⟨(lab d (ix2 q r)).toNat, hlab d _⟩ : Fin 100000) :=
    Fin.ext (by rw [Cert.Spec.rowOf_val_of_le _ (by rw [e1]; have := hlab d (ix2 q r); omega), e1])
  have e3 : c' = k := Fin.ext hk
  rw [e2, e3]
  rfl

variable (hlab : ∀ d j, (lab d j).toNat < 100000)
variable (t1 : Buf (Elt Ideal) ((cnS).view.loc (VT d L))) (t2 : Buf (Elt Ideal) ((ftS).view.loc (VT d L))) (t3 : Buf (Elt Ideal) ((wtS).view.loc (VT d L)))

/-- Row 512·w + 128·ci + r and column 16·j + l, in the spelling of the specification's arrangement. -/
theorem brow_lt (L : grid0.Coords) (ci : Fin 4) (r : Fin 128) : (2 * (L 1).val + (L 0).val) * 512 + ci.val * 128 + r.val < 16384 := by
  have := L0_lt L; have := L1_lt L; omega

/-- Chunk 0: the term its row loop adds at row r, column 16·j + l is the specification's at row 512·w + 128·0 + r. -/
theorem rowTerm_c0 (r : Fin 128) (j : Fin 8) (l : Fin 16) :
    rowTerm (cnC2 m d L lab hlab t1) (ftC2 m d L t2) (wtC2 m d L t3) 0 r ⟨16 * j.val + l.val, by omega⟩
      = Cert.Spec.termK (Cert.Spec.mat (m (fLoc d))) (Cert.Spec.mat (m (aLoc d))) (labOf lab d) (Cert.Spec.mat (m (cLoc d)))
          ⟨(2 * (L 1).val + (L 0).val) * 512 + (0 : Fin 4).val * 128 + r.val, brow_lt L 0 r⟩ ⟨j.val * 16 + l.val, by omega⟩ := by
  refine term_eq _ _ _ _ _ _ _ _ _ ?_ ?_ ?_
  · rw [cnC2_0]
    exact cent_eq m d lab _ r _ (by show ((2 * (L 1).val + (L 0).val) * 512 + 0 * 128 + r.val) / 128 = 4 * (2 * (L 1).val + (L 0).val) + 0; omega)
      (by show ((2 * (L 1).val + (L 0).val) * 512 + 0 * 128 + r.val) % 128 = r.val; omega) _ _ (by show 16 * j.val + l.val = j.val * 16 + l.val; omega) hlab
  · rw [ftC2_0]
    exact congrArg₂ (fun (a : Fin 16384) (b : Fin 128) => m (fLoc d) (ix2 a b))
      (Fin.ext (by show 512 * (2 * (L 1).val + (L 0).val) + 128 * 0 + r.val = (2 * (L 1).val + (L 0).val) * 512 + 0 * 128 + r.val; omega))
      (Fin.ext (by show 16 * j.val + l.val = j.val * 16 + l.val; omega))
  · rw [wtC2_0]
    exact congrArg₂ (fun (a : Fin 16384) (b : Fin 128) => m (aLoc d) (ix2 a b))
      (Fin.ext (by show 512 * (2 * (L 1).val + (L 0).val) + 128 * 0 + r.val = (2 * (L 1).val + (L 0).val) * 512 + 0 * 128 + r.val; omega))
      (Fin.ext (by show 16 * j.val + l.val = j.val * 16 + l.val; omega))

/-- Chunk 1: the term its row loop adds at row r, column 16·j + l is the specification's at row 512·w + 128·1 + r. -/
theorem rowTerm_c1 (r : Fin 128) (j : Fin 8) (l : Fin 16) :
    rowTerm (cnC3 m d L lab hlab t1) (ftC3 m d L t2) (wtC3 m d L t3) 1 r ⟨16 * j.val + l.val, by omega⟩
      = Cert.Spec.termK (Cert.Spec.mat (m (fLoc d))) (Cert.Spec.mat (m (aLoc d))) (labOf lab d) (Cert.Spec.mat (m (cLoc d)))
          ⟨(2 * (L 1).val + (L 0).val) * 512 + (1 : Fin 4).val * 128 + r.val, brow_lt L 1 r⟩ ⟨j.val * 16 + l.val, by omega⟩ := by
  refine term_eq _ _ _ _ _ _ _ _ _ ?_ ?_ ?_
  · rw [cnC3_1]
    exact cent_eq m d lab _ r _ (by show ((2 * (L 1).val + (L 0).val) * 512 + 1 * 128 + r.val) / 128 = 4 * (2 * (L 1).val + (L 0).val) + 1; omega)
      (by show ((2 * (L 1).val + (L 0).val) * 512 + 1 * 128 + r.val) % 128 = r.val; omega) _ _ (by show 16 * j.val + l.val = j.val * 16 + l.val; omega) hlab
  · rw [ftC3_1]
    exact congrArg₂ (fun (a : Fin 16384) (b : Fin 128) => m (fLoc d) (ix2 a b))
      (Fin.ext (by show 512 * (2 * (L 1).val + (L 0).val) + 128 * 1 + r.val = (2 * (L 1).val + (L 0).val) * 512 + 1 * 128 + r.val; omega))
      (Fin.ext (by show 16 * j.val + l.val = j.val * 16 + l.val; omega))
  · rw [wtC3_1]
    exact congrArg₂ (fun (a : Fin 16384) (b : Fin 128) => m (aLoc d) (ix2 a b))
      (Fin.ext (by show 512 * (2 * (L 1).val + (L 0).val) + 128 * 1 + r.val = (2 * (L 1).val + (L 0).val) * 512 + 1 * 128 + r.val; omega))
      (Fin.ext (by show 16 * j.val + l.val = j.val * 16 + l.val; omega))

/-- Chunk 2: the term its row loop adds at row r, column 16·j + l is the specification's at row 512·w + 128·2 + r. -/
theorem rowTerm_c2 (r : Fin 128) (j : Fin 8) (l : Fin 16) :
    rowTerm (cnC4 m d L lab hlab t1) (ftC4 m d L t2) (wtC4 m d L t3) 0 r ⟨16 * j.val + l.val, by omega⟩
      = Cert.Spec.termK (Cert.Spec.mat (m (fLoc d))) (Cert.Spec.mat (m (aLoc d))) (labOf lab d) (Cert.Spec.mat (m (cLoc d)))
          ⟨(2 * (L 1).val + (L 0).val) * 512 + (2 : Fin 4).val * 128 + r.val, brow_lt L 2 r⟩ ⟨j.val * 16 + l.val, by omega⟩ := by
  refine term_eq _ _ _ _ _ _ _ _ _ ?_ ?_ ?_
  · rw [cnC4_0]
    exact cent_eq m d lab _ r _ (by show ((2 * (L 1).val + (L 0).val) * 512 + 2 * 128 + r.val) / 128 = 4 * (2 * (L 1).val + (L 0).val) + 2; omega)
      (by show ((2 * (L 1).val + (L 0).val) * 512 + 2 * 128 + r.val) % 128 = r.val; omega) _ _ (by show 16 * j.val + l.val = j.val * 16 + l.val; omega) hlab
  · rw [ftC4_0]
    exact congrArg₂ (fun (a : Fin 16384) (b : Fin 128) => m (fLoc d) (ix2 a b))
      (Fin.ext (by show 512 * (2 * (L 1).val + (L 0).val) + 128 * 2 + r.val = (2 * (L 1).val + (L 0).val) * 512 + 2 * 128 + r.val; omega))
      (Fin.ext (by show 16 * j.val + l.val = j.val * 16 + l.val; omega))
  · rw [wtC4_0]
    exact congrArg₂ (fun (a : Fin 16384) (b : Fin 128) => m (aLoc d) (ix2 a b))
      (Fin.ext (by show 512 * (2 * (L 1).val + (L 0).val) + 128 * 2 + r.val = (2 * (L 1).val + (L 0).val) * 512 + 2 * 128 + r.val; omega))
      (Fin.ext (by show 16 * j.val + l.val = j.val * 16 + l.val; omega))

/-- Chunk 3: the term its row loop adds at row r, column 16·j + l is the specification's at row 512·w + 128·3 + r. -/
theorem rowTerm_c3 (r : Fin 128) (j : Fin 8) (l : Fin 16) :
    rowTerm (cnC4 m d L lab hlab t1) (ftC4 m d L t2) (wtC4 m d L t3) 1 r ⟨16 * j.val + l.val, by omega⟩
      = Cert.Spec.termK (Cert.Spec.mat (m (fLoc d))) (Cert.Spec.mat (m (aLoc d))) (labOf lab d) (Cert.Spec.mat (m (cLoc d)))
          ⟨(2 * (L 1).val + (L 0).val) * 512 + (3 : Fin 4).val * 128 + r.val, brow_lt L 3 r⟩ ⟨j.val * 16 + l.val, by omega⟩ := by
  refine term_eq _ _ _ _ _ _ _ _ _ ?_ ?_ ?_
  · rw [cnC4_1]
    exact cent_eq m d lab _ r _ (by show ((2 * (L 1).val + (L 0).val) * 512 + 3 * 128 + r.val) / 128 = 4 * (2 * (L 1).val + (L 0).val) + 3; omega)
      (by show ((2 * (L 1).val + (L 0).val) * 512 + 3 * 128 + r.val) % 128 = r.val; omega) _ _ (by show 16 * j.val + l.val = j.val * 16 + l.val; omega) hlab
  · rw [ftC4_1]
    exact congrArg₂ (fun (a : Fin 16384) (b : Fin 128) => m (fLoc d) (ix2 a b))
      (Fin.ext (by show 512 * (2 * (L 1).val + (L 0).val) + 128 * 3 + r.val = (2 * (L 1).val + (L 0).val) * 512 + 3 * 128 + r.val; omega))
      (Fin.ext (by show 16 * j.val + l.val = j.val * 16 + l.val; omega))
  · rw [wtC4_1]
    exact congrArg₂ (fun (a : Fin 16384) (b : Fin 128) => m (aLoc d) (ix2 a b))
      (Fin.ext (by show 512 * (2 * (L 1).val + (L 0).val) + 128 * 3 + r.val = (2 * (L 1).val + (L 0).val) * 512 + 3 * 128 + r.val; omega))
      (Fin.ext (by show 16 * j.val + l.val = j.val * 16 + l.val; omega))

/-- After the four chunks, lane l of accumulator j is the sum over the chunks and their rows of the specification's terms. -/
theorem acc4_comp (j : Fin 8) (l : Fin 16) :
    comp8 j (acc4 (F := Ideal) m d L lab hlab t1 t2 t3) (ix1 l)
      = ∑ ci : Fin 4, ∑ r : Fin 128, Cert.Spec.termK (Cert.Spec.mat (m (fLoc d))) (Cert.Spec.mat (m (aLoc d))) (labOf lab d) (Cert.Spec.mat (m (cLoc d)))
          ⟨(2 * (L 1).val + (L 0).val) * 512 + ci.val * 128 + r.val, brow_lt L ci r⟩ ⟨j.val * 16 + l.val, by omega⟩ := by
  unfold acc4; rw [iter4_full]
  unfold acc3; rw [iter3_full]
  unfold acc2; rw [iter2_full]
  unfold acc1; rw [iter1_full, acc0_comp, zero_add, Fin.sum_univ_four]
  refine congrArg₂ (· + ·) (congrArg₂ (· + ·) (congrArg₂ (· + ·) ?_ ?_) ?_) ?_
  · exact Finset.sum_congr rfl fun r _ => rowTerm_c0 m d L lab hlab t1 t2 t3 r j l
  · exact Finset.sum_congr rfl fun r _ => rowTerm_c1 m d L lab hlab t1 t2 t3 r j l
  · exact Finset.sum_congr rfl fun r _ => rowTerm_c2 m d L lab hlab t1 t2 t3 r j l
  · exact Finset.sum_congr rfl fun r _ => rowTerm_c3 m d L lab hlab t1 t2 t3 r j l

/-- The tile's vector at lane l is the specification's lane total for worker w = 2·(L 1) + (L 0). -/
theorem tileVec_ideal (l : Fin 16) :
    tileVec (F := Ideal) m d L lab hlab t1 t2 t3 (ix1 l)
      = Cert.Spec.tileLane (Cert.Spec.termK (Cert.Spec.mat (m (fLoc d))) (Cert.Spec.mat (m (aLoc d))) (labOf lab d) (Cert.Spec.mat (m (cLoc d)))) ⟨2 * (L 1).val + (L 0).val, wk_lt L⟩ l := by
  refine Eq.trans ?_ ((Cert.Spec.sum_eight (fun j : Fin 8 => comp8 j (acc4 (F := Ideal) m d L lab hlab t1 t2 t3) (ix1 l))).trans ?_)
  · unfold tileVec k0_pay53
    rw [shapeCast_self]
    rfl
  · unfold Cert.Spec.tileLane
    exact Finset.sum_congr rfl fun j _ => acc4_comp m d L lab hlab t1 t2 t3 j l

end Cert.Proof.KI

end
-- ==== Proof.KIAlgebra.lean ====
/-
  The kernel program's result, at the exact instance, is the specification's loss.

  The host sums the 512 partial sums from zero and multiplies by the constant 2^(-15) = 1/32768. Position i of the
  partial sums holds the lane total of worker i / 16, lane i % 16, so their sum is the plain double sum of the
  kernel-grouped terms over all rows and columns; the kernel's grouping of a term equals the specification's because
  multiplication of extended reals is associative; and the labels the tiles read, laid out 128 × 128, are the given
  labels: word b % 128 of row b / 128 is label b.
-/
import proofs.«216098_g21234318311461_cont_8to1_346_22_alg».proof.Proof.KITileIdeal
import proofs.«216098_g21234318311461_cont_8to1_346_22_alg».proof.Proof.KILabels
import proofs.«216098_g21234318311461_cont_8to1_346_22_alg».proof.Proof.KIMain
import proofs.«216098_g21234318311461_cont_8to1_346_22_alg».proof.Proof.KIResult
import Idealize.ShloMosaic.PureOps.Ideal.Laws
import Idealize.ShloMosaic.Lib.ValueIdx
import Idealize.ShloMosaic.Lib.IdealHost

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open scoped BigOperators

local notation "cnS" => (Memref.whole Cert.KernelIdeal.cc0_scratch1 : Memref Cert.KernelIdeal.sig Kind.scVector Space.vmem Cert.KernelIdeal.S2x128x128 EltTy.f32)
local notation "ftS" => (Memref.whole Cert.KernelIdeal.cc0_scratch2 : Memref Cert.KernelIdeal.sig Kind.scVector Space.vmem Cert.KernelIdeal.S2x128x128 EltTy.f32)
local notation "wtS" => (Memref.whole Cert.KernelIdeal.cc0_scratch3 : Memref Cert.KernelIdeal.sig Kind.scVector Space.vmem Cert.KernelIdeal.S2x128x128 EltTy.f32)

/-! ## The labels the tiles read are the given labels -/

/-- Word b % 128 of row b / 128 of the laid-out labels is label b. -/
theorem labOf_lab (m : (ℓ : Loc nD τ sig) → Buf (Elt Ideal) ℓ) (d : Dev nD) :
    labOf (fun d => lab2 (m (gLoc d))) d = Cert.Spec.vec (m (gLoc d)) := by
  funext b
  show lab2 (m (gLoc d)) (ix2 (⟨b.val / 128, by omega⟩ : Fin 128) (⟨b.val % 128, by omega⟩ : Fin 128)) = (m (gLoc d)) (ix1 b)
  rw [lab2_apply]
  exact congrArg (fun a : Fin 16384 => (m (gLoc d)) (ix1 a)) (Fin.ext (by show b.val / 128 * 128 + b.val % 128 = b.val; omega))

/-! ## The host's sum of the partial sums -/

/-- A rank-1 index set is its coordinate's range, so a sum over it is the sum over the coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- When position i of the 512-vector is the lane total of worker i / 16, lane i % 16, the host's sum of the vector from
    zero, scaled by 2^(-15), is the plain double sum times 1/32768. -/
theorem loss_of_lanes (T : Fin 16384 → Fin 128 → EReal) (Gd : S512.Idx → EReal)
    (hGd : ∀ i : Fin 512, Gd (ix1 i) = Cert.Spec.tileLane T ⟨i.val / 16, by omega⟩ ⟨i.val % 16, by omega⟩) :
    mulf (Host.reduceAdd (F := Ideal) Gd (constant (F := Ideal) S_ .f32 0x00000000#32) reducesTo_S512_S_d0 h_S_) (constant (F := Ideal) S_ .f32 0x38000000#32)
      = fun _ => (∑ b : Fin 16384, ∑ k : Fin 128, T b k) * (((1 : ℝ) / 32768 : ℝ) : EReal) := by
  funext j
  have hs : Host.reduceAdd (F := Ideal) Gd (constant (F := Ideal) S_ .f32 0x00000000#32) reducesTo_S512_S_d0 h_S_ j
      = ∑ b : Fin 16384, ∑ k : Fin 128, T b k := by
    refine (Ideal.hostReduceAdd_total reducesTo_S512_S_d0 (fun b => b.elim0) Gd (Ideal.ofBits .f32 0x00000000#32) j).trans ?_
    rw [Ideal.ofBits_zero_f32, zero_add, ← Cert.Spec.sum_tiles T, sum_idx1]
    exact Finset.sum_congr rfl fun i _ => hGd i
  show Host.reduceAdd (F := Ideal) Gd (constant (F := Ideal) S_ .f32 0x00000000#32) reducesTo_S512_S_d0 h_S_ j
      * Ideal.ofBits .f32 0x38000000#32 = _
  rw [hs, Cert.Consts.ofBits_inv32768]

/-! ## From the tiles' vectors to the loss -/

/-- The tile that writes position i of the partial sums: worker i / 16, that is SparseCore (i / 16) % 2, subcore (i / 16) / 2. -/
theorem tile_c_lt (i : Fin 512) : (i.val / 16) % 2 < grid0.bound 0 := by show _ < 2; omega
theorem tile_s_lt (i : Fin 512) : (i.val / 16) / 2 < grid0.bound 1 := by show _ < 16; omega

/-- When position i of the 512-vector holds lane i % 16 of the vector of the tile that writes it (whatever the tile's
    scratches held before), the host's scaled sum is the specification's loss at the labels the tiles read. -/
theorem loss_of_tiles (m : (ℓ : Loc nD τ sig) → Buf (Elt Ideal) ℓ) (lab : (d : Dev nD) → Buf (Elt Ideal) (lLoc d))
    (hlab : ∀ d j, (lab d j).toNat < 100000) (d : Dev nD) (Gd : S512.Idx → EReal)
    (hG : ∀ i : Fin 512, ∃ (t1 : Buf (Elt Ideal) ((cnS).view.loc (VT d (coordsV ⟨(i.val / 16) % 2, tile_c_lt i⟩ ⟨(i.val / 16) / 2, tile_s_lt i⟩))))
        (t2 : Buf (Elt Ideal) ((ftS).view.loc (VT d (coordsV ⟨(i.val / 16) % 2, tile_c_lt i⟩ ⟨(i.val / 16) / 2, tile_s_lt i⟩))))
        (t3 : Buf (Elt Ideal) ((wtS).view.loc (VT d (coordsV ⟨(i.val / 16) % 2, tile_c_lt i⟩ ⟨(i.val / 16) / 2, tile_s_lt i⟩)))),
      Gd (ix1 i) = tileVec (F := Ideal) m d (coordsV ⟨(i.val / 16) % 2, tile_c_lt i⟩ ⟨(i.val / 16) / 2, tile_s_lt i⟩) lab hlab t1 t2 t3
        (ix1 (⟨i.val % 16, by omega⟩ : Fin 16))) :
    mulf (Host.reduceAdd (F := Ideal) Gd (constant (F := Ideal) S_ .f32 0x00000000#32) reducesTo_S512_S_d0 h_S_) (constant (F := Ideal) S_ .f32 0x38000000#32)
      = fun _ => Cert.Spec.loss (Cert.Spec.mat (m (fLoc d))) (Cert.Spec.mat (m (aLoc d))) (labOf lab d) (Cert.Spec.mat (m (cLoc d))) := by
  refine (loss_of_lanes (Cert.Spec.termK (Cert.Spec.mat (m (fLoc d))) (Cert.Spec.mat (m (aLoc d))) (labOf lab d) (Cert.Spec.mat (m (cLoc d)))) Gd ?_).trans ?_
  · intro i
    obtain ⟨t1, t2, t3, h⟩ := hG i
    rw [h, tileVec_ideal]
    exact congrArg (fun w : Fin 32 => Cert.Spec.tileLane _ w _)
      (Fin.ext (by show 2 * ((i.val / 16) / 2) + (i.val / 16) % 2 = i.val / 16; omega))
  · have hT : Cert.Spec.termK (Cert.Spec.mat (m (fLoc d))) (Cert.Spec.mat (m (aLoc d))) (labOf lab d) (Cert.Spec.mat (m (cLoc d)))
        = Cert.Spec.term (Cert.Spec.mat (m (fLoc d))) (Cert.Spec.mat (m (aLoc d))) (labOf lab d) (Cert.Spec.mat (m (cLoc d))) :=
      funext fun b => funext fun k => Cert.Spec.termK_eq_term _ _ _ _ b k
    funext _
    unfold Cert.Spec.loss Cert.Spec.total
    rw [hT]

/-- The same at the labels as the tiles read them, laid out from the given labels: the loss at the given labels. -/
theorem loss_of_tiles_given (m : (ℓ : Loc nD τ sig) → Buf (Elt Ideal) ℓ) (hlab : ∀ d j, (lab (F := Ideal) m d j).toNat < 100000) (d : Dev nD)
    (Gd : S512.Idx → EReal)
    (hG : ∀ i : Fin 512, ∃ (t1 : Buf (Elt Ideal) ((cnS).view.loc (VT d (coordsV ⟨(i.val / 16) % 2, tile_c_lt i⟩ ⟨(i.val / 16) / 2, tile_s_lt i⟩))))
        (t2 : Buf (Elt Ideal) ((ftS).view.loc (VT d (coordsV ⟨(i.val / 16) % 2, tile_c_lt i⟩ ⟨(i.val / 16) / 2, tile_s_lt i⟩))))
        (t3 : Buf (Elt Ideal) ((wtS).view.loc (VT d (coordsV ⟨(i.val / 16) % 2, tile_c_lt i⟩ ⟨(i.val / 16) / 2, tile_s_lt i⟩)))),
      Gd (ix1 i) = tileVec (F := Ideal) m d (coordsV ⟨(i.val / 16) % 2, tile_c_lt i⟩ ⟨(i.val / 16) / 2, tile_s_lt i⟩) (lab (F := Ideal) m) hlab t1 t2 t3
        (ix1 (⟨i.val % 16, by omega⟩ : Fin 16))) :
    mulf (Host.reduceAdd (F := Ideal) Gd (constant (F := Ideal) S_ .f32 0x00000000#32) reducesTo_S512_S_d0 h_S_) (constant (F := Ideal) S_ .f32 0x38000000#32)
      = fun _ => Cert.Spec.loss (Cert.Spec.mat (m (fLoc d))) (Cert.Spec.mat (m (aLoc d))) (Cert.Spec.vec (m (gLoc d))) (Cert.Spec.mat (m (cLoc d))) := by
  rw [← labOf_lab m d]
  exact loss_of_tiles m (lab (F := Ideal) m) hlab d Gd hG

/-! ## The result -/

/-- THE VALUE: with the partial sums at the tiles' lane totals, @main's result buffer at the end holds the
    specification's loss of the launch contents of the four arguments. -/
theorem result_ideal (m : (ℓ : Loc nD τ sig) → Buf (Elt Ideal) ℓ) (hlab : ∀ d j, (lab (F := Ideal) m d j).toNat < 100000) (d : Dev nD) :
    VEnd (F := Ideal) m (G m (lab (F := Ideal) m) hlab) d (Proc.devRef .tc main_v3)
      = fun _ => Cert.Spec.loss (Cert.Spec.mat (m (fLoc d))) (Cert.Spec.mat (m (aLoc d))) (Cert.Spec.vec (m (gLoc d))) (Cert.Spec.mat (m (cLoc d))) := by
  rw [v3_eq]
  exact loss_of_tiles_given m hlab d (G m (lab (F := Ideal) m) hlab d) (fun i => ⟨_, _, _, rfl⟩)

end Cert.Proof.KI

end
-- ==== Proof.RefRun.lean ====
/-
  The reference program's run, read back.

  The reference's @main calls one outlined function (the row lookup `centers[label]`, which itself calls the
  elementwise choice `where`) and then performs nine operations of its own. Inlining the two calls at their call
  sites over the buffers the call records name gives one straight line of 32 operations. Every weakly fair execution
  of that line terminates, and each buffer ends at the fold of the operations' results over the launch contents. The
  result buffer then holds the operations' composed pure term of the four argument arrays (`refTerm`), and the four
  argument buffers, which no operation writes, are unchanged.
-/
import proofs.«216098_g21234318311461_cont_8to1_346_22_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The row index the lookup uses: a negative label is wrapped once by the table's length, any other label is itself. -/
def wrapIdx (label : IVec S16384 32) : IVec S16384 32 :=
  select (cmpi .slt label (broadcastInDim S16384 ![] bcast_S_S16384 (constantI S_ 32 0#32)))
    (addi label (broadcastInDim S16384 ![] bcast_S_S16384 (constantI S_ 32 100000#32))) label

/-- The wrapped index as a column of start indices, one per row. -/
def startIdx (label : IVec S16384 32) : IVec S16384x1 32 :=
  broadcastInDim S16384x1 ![0] bcast_S16384_S16384x1_0 (wrapIdx label)

/-- The lookup's mask, one bit per row: the wrapped index lies in [0, 99999], signed. -/
def inRange (label : IVec S16384 32) : IVec S16384 1 :=
  Host.reduce IntOp.andi
    (andi (cmpi .sge (startIdx label) (broadcastInDim S16384x1 ![] bcast_S_S16384x1 (constantI S_ 32 0#32)))
      (cmpi .sle (startIdx label)
        (broadcastInDim S16384x1 ![0, 1] bcast_S1x1_S16384x1_0_1 (broadcastInDim S1x1 ![1] bcast_S1_S1x1_1 (constantI S1 32 99999#32)))))
    (constantI S_ 1 1#1) reducesTo_S16384x1_S16384_d1 h_S_

/-- The looked-up rows: the gathered row where the mask is set, the fill constant elsewhere. -/
def taken (label : IVec S16384 32) (centers : FVec F S100000x128 .f32) : FVec F S16384x128 .f32 :=
  select (broadcastInDim S16384x128 ![0] bcast_S16384_S16384x128_0 (inRange label))
    (Host.gather gather_S100000x128_S16384x1_S16384x128_1_0_n_n_0_1_1128 centers (startIdx label))
    (broadcastInDim S16384x128 ![] bcast_S_S16384x128 (constant (F := F) S_ .f32 0x7FC00000#32))

/-- The weighted squared differences, elementwise: the weight times the square of feature minus looked-up row. -/
def weighted (feat A : FVec F S16384x128 .f32) (label : IVec S16384 32) (centers : FVec F S100000x128 .f32) : FVec F S16384x128 .f32 :=
  mulf A (mulf (subf feat (taken label centers)) (subf feat (taken label centers)))

/-- The reference's result as a pure term of its four argument arrays: the sum of the weighted squared differences over
    both axes from the initial value zero, divided by two and then by 16384. -/
def refTerm (feat A : FVec F S16384x128 .f32) (label : IVec S16384 32) (centers : FVec F S100000x128 .f32) : FVec F S_ .f32 :=
  Host.divf
    (Host.divf
      (Host.reduceAdd (weighted feat A label centers) (constant (F := F) S_ .f32 0x00000000#32) reducesTo_S16384x128_S_d0_1 h_S_)
      (constant (F := F) S_ .f32 0x40000000#32))
    (constant (F := F) S_ .f32 0x46800000#32)

/-- @main's 32 operations in order, the two calls unfolded: the row lookup's 22 with the choice's one among them over the
    call records' buffers, then @main's own nine. -/
abbrev ops : List (HloOp τ sig (Elt F)) :=
  [ TRef.nullary main_call0.c (constantI S_ 32 0#32),
    TRef.unary main_call0.c main_call0.v0 (broadcastInDim S16384 ![] bcast_S_S16384),
    TRef.binary (.of main_arg2) main_call0.v0 main_call0.v1 (cmpi .slt),
    TRef.nullary main_call0.c_0 (constantI S_ 32 100000#32),
    TRef.unary main_call0.c_0 main_call0.v2 (broadcastInDim S16384 ![] bcast_S_S16384),
    TRef.binary (.of main_arg2) main_call0.v2 main_call0.v3 addi,
    TRef.ternary main_call0.v1 main_call0.v3 (.of main_arg2) main_call0.call0.v0 select,
    TRef.unary main_call0.call0.v0 main_call0.v5 (broadcastInDim S16384x1 ![0] bcast_S16384_S16384x1_0),
    TRef.nullary main_call0.c_1 (constantI S1 32 99999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg3) main_call0.v5 main_call0.v13 (fun x i => Host.gather gather_S100000x128_S16384x1_S16384x128_1_0_n_n_0_1_1128 x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select,
    binary main_arg0 main_v0 main_v1 (subf : (⟨S16384x128, .f32⟩ : BufTy).Contents (Elt F) → (⟨S16384x128, .f32⟩ : BufTy).Contents (Elt F) → (⟨S16384x128, .f32⟩ : BufTy).Contents (Elt F)),
    binary main_v1 main_v1 main_v2 (mulf : (⟨S16384x128, .f32⟩ : BufTy).Contents (Elt F) → (⟨S16384x128, .f32⟩ : BufTy).Contents (Elt F) → (⟨S16384x128, .f32⟩ : BufTy).Contents (Elt F)),
    binary main_arg1 main_v2 main_v3 (mulf : (⟨S16384x128, .f32⟩ : BufTy).Contents (Elt F) → (⟨S16384x128, .f32⟩ : BufTy).Contents (Elt F) → (⟨S16384x128, .f32⟩ : BufTy).Contents (Elt F)),
    nullary main_cst (constant S_ .f32 0x00000000#32),
    binary main_v3 main_cst main_v4 ((fun x v => Host.reduceAdd x v reducesTo_S16384x128_S_d0_1 h_S_) : (⟨S16384x128, .f32⟩ : BufTy).Contents (Elt F) → (⟨S_, .f32⟩ : BufTy).Contents (Elt F) → (⟨S_, .f32⟩ : BufTy).Contents (Elt F)),
    nullary main_cst_0 (constant S_ .f32 0x40000000#32),
    binary main_v4 main_cst_0 main_v5 (Host.divf : (⟨S_, .f32⟩ : BufTy).Contents (Elt F) → (⟨S_, .f32⟩ : BufTy).Contents (Elt F) → (⟨S_, .f32⟩ : BufTy).Contents (Elt F)),
    nullary main_cst_1 (constant S_ .f32 0x46800000#32),
    binary main_v5 main_cst_1 main_v6 (Host.divf : (⟨S_, .f32⟩ : BufTy).Contents (Elt F) → (⟨S_, .f32⟩ : BufTy).Contents (Elt F) → (⟨S_, .f32⟩ : BufTy).Contents (Elt F)) ]

set_option maxRecDepth 1024 in
/-- @main is that straight line: the two functions' definitions unfolded at their calls, both sides are one chain of
    steps once sequencing is re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., binary_bufs_sub .., binary_bufs_sub .., nullary_bufs_sub .., binary_bufs_sub ..,
    nullary_bufs_sub .., binary_bufs_sub .., nullary_bufs_sub .., binary_bufs_sub ..⟩

/-- Every buffer after the line, from any memory with zero counters. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.gather Host.reduceAdd in
set_option maxRecDepth 8192 in
/-- The fold at the result buffer is `refTerm` of the argument buffers' contents: each operation's result read at its own
    buffer, every other buffer passed over. -/
theorem out_eq (V : Valuation τ sig (Elt F)) :
    after ops V (main_v6 : DevRef τ sig)
      = refTerm (V (main_arg0 : DevRef τ sig)) (V (main_arg1 : DevRef τ sig)) (V (main_arg2 : DevRef τ sig)) (V (main_arg3 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp

/-- On every device, at the ideal instance, from any memory with zero counters: every weakly fair execution of @main
    terminates with the result buffer at `refTerm` of the arguments' launch contents and the arguments unchanged. -/
theorem run_term (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v6)
          = refTerm (F := Ideal) (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run defs _ _).mono (fun _ h c => ⟨(h c main_v6).trans (out_eq (F := Ideal) (launchContents m c)),
      (h c main_arg0).trans (arg0_eq (F := Ideal) (launchContents m c)),
      (h c main_arg1).trans (arg1_eq (F := Ideal) (launchContents m c)),
      (h c main_arg2).trans (arg2_eq (F := Ideal) (launchContents m c)),
      (h c main_arg3).trans (arg3_eq (F := Ideal) (launchContents m c))⟩)
    (run_all (F := Ideal) m g)

end Cert.ReferenceIdeal.RefValue

end
-- ==== Proof.LibRowGather.lean ====
/-
  Gathering rows of a matrix.  `x[idx]` along axis 0 of an `[N, D]` matrix, with start indices of shape `[E, 1]`,
  lowers to a gather whose result `[E, D]` has, at `(e, k)`, the operand's element at `(r e, k)`: the row `r e` is the
  start index stored at `[e, 0]`, read as a signed integer and clamped into `[0, N - 1]`; the column is the result's own.
  Both coordinates are computed here from the gather's dimension numbers, for any extents.  Two consequences are what a
  value proof uses: the row read depends on the result's row only, and the column read is the result's column.
-/
import Idealize.ShloMosaic.Lib.ValueIdx

noncomputable section

namespace Cert.Lib.RowGather

open Idealize.ShloMosaic Idealize.ShloMosaic.ValueIdx

/-- The dimension numbers of a row gather: operand `[N, D]`, start indices `[E, 1]`, result `[E, D]`; the slice is one
    whole row (`[1, D]`), the row axis is collapsed, the result's axis 1 is the row's offset axis. -/
abbrev rowsDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The start-indices index `[e, 0]`: where the row number that result row `e` reads is stored. -/
abbrev startIdx {E : Nat} (e : Fin E) : (⟨2, ![E, 1]⟩ : Shape).Idx := ix2 e ⟨0, Nat.one_pos⟩

variable {N E D w : Nat}

/-- THE ROW READ: the start index stored at `[j 0, 0]`, signed, clamped into `[0, N - 1]`.  It depends on `j` through
    its row `j 0` only. -/
theorem operandIdx_row (wf : GatherDims.WF ⟨2, ![N, D]⟩ ⟨2, ![E, 1]⟩ ⟨2, ![E, D]⟩ [1] [0] [] [0] [] 1 ![1, D])
    (idx : IVec ⟨2, ![E, 1]⟩ w) (j : (⟨2, ![E, D]⟩ : Shape).Idx) :
    ((rowsDims N E D wf).operandIdx j idx 0).val = min (idx (startIdx (j 0))).toInt.toNat (N - 1) := by
  show (rowsDims N E D wf).start j idx 0 + (rowsDims N E D wf).batchCoord j 0 + (rowsDims N E D wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims N E D wf).startIndexMap from List.mem_singleton.mpr rfl)]
  have hsi : (rowsDims N E D wf).siIdx j ⟨List.idxOf (0 : Fin 2) (rowsDims N E D wf).startIndexMap,
      List.idxOf_lt_length_iff.2 (List.mem_singleton.mpr rfl)⟩ = startIdx (j 0) := by
    funext b; refine Fin.ext ?_
    match b with
    | ⟨0, _⟩ => rfl
    | ⟨1, _⟩ => rfl
  rw [hsi]
  rfl

/-- THE COLUMN READ: the result's own column. -/
theorem operandIdx_col (wf : GatherDims.WF ⟨2, ![N, D]⟩ ⟨2, ![E, 1]⟩ ⟨2, ![E, D]⟩ [1] [0] [] [0] [] 1 ![1, D])
    (idx : IVec ⟨2, ![E, 1]⟩ w) (j : (⟨2, ![E, D]⟩ : Shape).Idx) :
    ((rowsDims N E D wf).operandIdx j idx 1).val = (j 1).val := by
  show (rowsDims N E D wf).start j idx 1 + (rowsDims N E D wf).batchCoord j 1 + (rowsDims N E D wf).offCoord j 1 = _
  rw [GatherDims.batchCoord_eq_zero _ _ _ List.not_mem_nil]
  have hs : (rowsDims N E D wf).start j idx 1 = 0 := by
    unfold GatherDims.start
    rw [dif_neg (show ¬ (1 : Fin 2) ∈ ([0] : List (Fin 2)) by decide)]
  have hk : (1 : Fin 2) ∈ (rowsDims N E D wf).sKept :=
    (GatherDims.mem_sKept _ _).mpr ⟨(show ¬ (1 : Fin 2) ∈ ([0] : List (Fin 2)) by decide), List.not_mem_nil⟩
  rw [hs]
  unfold GatherDims.offCoord
  rw [dif_pos hk]
  simp only [Nat.zero_add, Nat.add_zero]
  rfl

/-- Two result indices in one row read the same operand row. -/
theorem operandIdx_row_congr (wf : GatherDims.WF ⟨2, ![N, D]⟩ ⟨2, ![E, 1]⟩ ⟨2, ![E, D]⟩ [1] [0] [] [0] [] 1 ![1, D])
    (idx : IVec ⟨2, ![E, 1]⟩ w) (j j' : (⟨2, ![E, D]⟩ : Shape).Idx) (h : j 0 = j' 0) :
    ((rowsDims N E D wf).operandIdx j idx 0).val = ((rowsDims N E D wf).operandIdx j' idx 0).val := by
  rw [operandIdx_row, operandIdx_row, h]

end Cert.Lib.RowGather

end
-- ==== Proof.RefValue.lean ====
/-
  The reference's value.

  Under the label range every label is its own row index: the negative-index wrap leaves it unchanged, the lookup's mask
  is set on every row, and the clamp the gather applies to a start index does not move it. The looked-up array is then
  the table's row `label[b]` at every row `b`, the weighted squared differences are the specification's terms, the
  reduction over both axes from zero is their double sum, and the result is that sum divided by two and by 16384.
-/
import proofs.«216098_g21234318311461_cont_8to1_346_22_alg».proof.Proof.RefRun
import proofs.«216098_g21234318311461_cont_8to1_346_22_alg».proof.Proof.Spec
import proofs.«216098_g21234318311461_cont_8to1_346_22_alg».proof.Proof.LibRowGather
import Idealize.ShloMosaic.Lib.ReduceAll
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A nonnegative signed word read as a natural number is the word's own natural number. -/
theorem toInt_toNat_of_nonneg (w : BitVec 32) (h : 0 ≤ w.toInt) : w.toInt.toNat = w.toNat := by
  have hlt := w.isLt
  unfold BitVec.toInt at h ⊢
  split at h <;> split <;> omega

section Lookup

variable (label : IVec S16384 32) (hl : ∀ b, 0 ≤ (label b).toInt ∧ (label b).toInt ≤ 99999)

include hl

/-- A label in range is not negative, so the wrap leaves it unchanged. -/
theorem wrapIdx_apply (j : S16384.Idx) : wrapIdx label j = label j := by
  have hc : IntOp.cmpi .slt (label j) 0#32 = 0#1 := by
    refine eq_zero_of_ne_one fun h => ?_
    have h1 := IntOp.cmpi_slt.1 h
    have z0 : (0#32 : BitVec 32).toInt = 0 := by decide
    have := (hl j).1
    omega
  show Scalar.select (IntOp.cmpi .slt (label j) 0#32) _ (label j) = label j
  rw [hc, select_zero]

/-- The start index stored at `[e, 0]` is label `e`. -/
theorem startIdx_apply (i : S16384x1.Idx) : startIdx label i = label (ix1 (i 0)) := by
  unfold startIdx broadcastInDim
  rw [wrapIdx_apply label hl]
  congr 1
  funext a
  obtain rfl : a = 0 := Subsingleton.elim _ _
  rw [dif_neg (show ¬ S16384.size 0 = 1 by decide)]
  rfl

/-- Every row's two range bits are set. -/
theorem bits_apply (i : S16384x1.Idx) :
    andi (cmpi .sge (startIdx label) (broadcastInDim S16384x1 ![] bcast_S_S16384x1 (constantI S_ 32 0#32)))
      (cmpi .sle (startIdx label)
        (broadcastInDim S16384x1 ![0, 1] bcast_S1x1_S16384x1_0_1 (broadcastInDim S1x1 ![1] bcast_S1_S1x1_1 (constantI S1 32 99999#32)))) i = 1#1 := by
  show IntOp.andi (IntOp.cmpi .sge (startIdx label i) 0#32) (IntOp.cmpi .sle (startIdx label i) 99999#32) = 1#1
  rw [startIdx_apply label hl i]
  obtain ⟨h0, h1⟩ := hl (ix1 (i 0))
  have z0 : (0#32 : BitVec 32).toInt = 0 := by decide
  have z1 : (99999#32 : BitVec 32).toInt = 99999 := by decide
  exact IntOp.andi_eq_one.2 ⟨IntOp.cmpi_sge.2 (by rw [z0]; exact h0), IntOp.cmpi_sle.2 (by rw [z1]; exact h1)⟩

/-- The lookup's mask is set on every row. -/
theorem inRange_apply (j : S16384.Idx) : inRange label j = 1#1 := by
  unfold inRange
  rw [Host.reduce_eq_foldl]
  exact foldl_andi_one _ (bits_apply label hl) _

/-- The gathered element at `(b, k)` is the table's element at row `label[b]`, column `k`. -/
theorem gather_apply {α : Type} (x : S100000x128.Idx → α) (b : Fin 16384) (k : Fin 128) :
    Host.gather gather_S100000x128_S16384x1_S16384x128_1_0_n_n_0_1_1128 x (startIdx label) (ix2 b k) = x (ix2 (Cert.Spec.rowOf (label (ix1 b))) k) := by
  unfold Host.gather
  congr 1
  funext a
  refine Fin.ext ?_
  match a with
  | ⟨0, _⟩ =>
    refine (Cert.Lib.RowGather.operandIdx_row (N := 100000) (E := 16384) (D := 128) gather_S100000x128_S16384x1_S16384x128_1_0_n_n_0_1_1128_wf (startIdx label) (ix2 b k)).trans ?_
    rw [startIdx_apply label hl]
    show min (label (ix1 b)).toInt.toNat (100000 - 1) = min (label (ix1 b)).toNat 99999
    rw [toInt_toNat_of_nonneg _ (hl (ix1 b)).1]
  | ⟨1, _⟩ =>
    exact Cert.Lib.RowGather.operandIdx_col (N := 100000) (E := 16384) (D := 128) gather_S100000x128_S16384x1_S16384x128_1_0_n_n_0_1_1128_wf (startIdx label) (ix2 b k)

/-- The looked-up array at `(b, k)` is the table's element at row `label[b]`, column `k`. -/
theorem taken_apply {F : FTy → Type} [FloatOps F] (centers : FVec F S100000x128 .f32) (b : Fin 16384) (k : Fin 128) :
    taken label centers (ix2 b k) = centers (ix2 (Cert.Spec.rowOf (label (ix1 b))) k) := by
  unfold taken
  rw [select_apply]
  have hm : broadcastInDim S16384x128 ![0] bcast_S16384_S16384x128_0 (inRange label) (ix2 b k) = 1#1 := inRange_apply label hl _
  rw [hm, select_one]
  exact gather_apply label hl centers b k

/-- One weighted squared difference is the specification's term. -/
theorem weighted_apply (feat A : FVec Ideal S16384x128 .f32) (centers : FVec Ideal S100000x128 .f32) (b : Fin 16384) (k : Fin 128) :
    weighted feat A label centers (ix2 b k)
      = Cert.Spec.term (Cert.Spec.mat feat) (Cert.Spec.mat A) (Cert.Spec.vec label) (Cert.Spec.mat centers) b k := by
  unfold weighted
  rw [mulf_apply, mulf_apply, subf_apply, taken_apply label hl centers b k]
  rfl

end Lookup

/-- THE VALUE: under the label range the reference's result is the specification's sum divided by two and by 16384. -/
theorem refTerm_eq (feat A : FVec Ideal S16384x128 .f32) (label : IVec S16384 32) (centers : FVec Ideal S100000x128 .f32)
    (hl : ∀ b, 0 ≤ (label b).toInt ∧ (label b).toInt ≤ 99999) :
    refTerm feat A label centers
      = fun _ => Ideal.div (Ideal.div (Cert.Spec.total (Cert.Spec.mat feat) (Cert.Spec.mat A) (Cert.Spec.vec label) (Cert.Spec.mat centers))
          (Ideal.ofBits .f32 0x40000000#32)) (Ideal.ofBits .f32 0x46800000#32) := by
  funext j
  have hs : Host.reduceAdd (weighted feat A label centers) (constant (F := Ideal) S_ .f32 0x00000000#32) reducesTo_S16384x128_S_d0_1 h_S_ j
      = Cert.Spec.total (Cert.Spec.mat feat) (Cert.Spec.mat A) (Cert.Spec.vec label) (Cert.Spec.mat centers) := by
    refine (Ideal.hostReduceAdd_total reducesTo_S16384x128_S_d0_1 (fun b => b.elim0) (weighted feat A label centers)
      (Ideal.ofBits .f32 0x00000000#32) j).trans ?_
    rw [Ideal.ofBits_zero_f32, zero_add, sum_idx2]
    unfold Cert.Spec.total
    exact Finset.sum_congr rfl fun b _ => Finset.sum_congr rfl fun k _ => weighted_apply label hl feat A centers b k
  show Ideal.div (Ideal.div (Host.reduceAdd (weighted feat A label centers) (constant (F := Ideal) S_ .f32 0x00000000#32) reducesTo_S16384x128_S_d0_1 h_S_ j)
      (Ideal.ofBits .f32 0x40000000#32)) (Ideal.ofBits .f32 0x46800000#32) = _
  rw [hs]

end Cert.ReferenceIdeal.RefValue

end
-- ==== Proof.lean ====
/-
  A centre loss on the SparseCore against its jnp reference: for 16384 feature rows of width 128, a weight array of
  the same shape, one label per row and a table of 100000 centre rows, both programs compute

      Σ_b Σ_k A[b,k] · (feat[b,k] − centers[label[b],k])² · 1/(2·16384).

  The kernel shares the rows among thirty-two SparseCore tiles; each tile gathers the centre rows its labels name,
  copies its feature and weight rows in four chunks through two slots of scratch, and accumulates
  (A · d) · d in eight sixteen-lane vectors over its 512 rows; the tile's sixteen lane totals go to its piece of a
  512-vector of partial sums, which the host adds up and multiplies by 2⁻¹⁵. The reference looks the centre rows up
  with a masked take (the mask is all true for labels in [0, 99999], which the precondition states), squares the
  difference, weights it, sums everything and divides by 2 and by 16384.

  On the extended reals the two are equal without any finiteness: the per-element terms differ by associativity of the
  product, the sums by the order and grouping of a finite sum in a commutative monoid, and dividing by 2 and then by
  16384 is multiplying by 1/32768. The label range is what both need from the precondition: the kernel's indexed copies
  must name rows of the table, and the reference's mask must be true.

  The frames: the reference's from its run; the kernel programs' from the SparseCore launch theorem — every weakly
  fair execution of @main and the tiles terminates, nothing faulting, the arguments unchanged — once at the word-level
  instance and once at the ideal one, the same proof text at the two programs.
-/
import proofs.«216098_g21234318311461_cont_8to1_346_22_alg».proof.Defs
import proofs.«216098_g21234318311461_cont_8to1_346_22_alg».proof.Proof.KBLaunch
import proofs.«216098_g21234318311461_cont_8to1_346_22_alg».proof.Proof.KILaunch
import proofs.«216098_g21234318311461_cont_8to1_346_22_alg».proof.Proof.KIAlgebra
import proofs.«216098_g21234318311461_cont_8to1_346_22_alg».proof.Proof.RefValue
import proofs.«216098_g21234318311461_cont_8to1_346_22_alg».proof.Proof.Consts
import proofs.«216098_g21234318311461_cont_8to1_346_22_alg».proof.Proof.Gen.Kernel
import proofs.«216098_g21234318311461_cont_8to1_346_22_alg».proof.Proof.Gen.Kernel.Skeleton
import proofs.«216098_g21234318311461_cont_8to1_346_22_alg».proof.Proof.Gen.KernelIdeal
import proofs.«216098_g21234318311461_cont_8to1_346_22_alg».proof.Proof.Gen.KernelIdeal.Skeleton
import proofs.«216098_g21234318311461_cont_8to1_346_22_alg».proof.Proof.Gen.ReferenceIdeal
import proofs.«216098_g21234318311461_cont_8to1_346_22_alg».proof.Proof.Gen.Pre_input_domain
import Idealize.ShloMosaic.Adequacy
import Idealize.ShloMosaic.Init

noncomputable section

namespace Cert.Proof

open Idealize.ShloMosaic Idealize.SL.Sem

/-- Under the precondition every word of the labels laid out 128 × 128 names a row of the centres table. -/
theorem hlab_K (m : (ℓ : Loc Cert.Kernel.nD Cert.Kernel.τ Cert.Kernel.sig) → Buf (Elt Bits) ℓ) (h : Cert.Pre_Kernel m) :
    ∀ d j, (Cert.Proof.KB.lab m d j).toNat < 100000 :=
  fun d j => Cert.Proof.KB.lab2_lt_of_pre _ _ _ _ (h d) j

theorem hlab_KI (m : (ℓ : Loc Cert.KernelIdeal.nD Cert.KernelIdeal.τ Cert.KernelIdeal.sig) → Buf (Elt Ideal) ℓ) (h : Cert.Pre_KernelIdeal m) :
    ∀ d j, (Cert.Proof.KI.lab m d j).toNat < 100000 :=
  fun d j => Cert.Proof.KI.lab2_lt_of_pre _ _ _ _ (h d) j

theorem frame_K : Cert.frame_Kernel := fun m g hpre =>
  (θ_run Cert.Kernel.defs _ _).mono (fun _ h c => ⟨(h c).1, (h c).2.1, (h c).2.2.1, (h c).2.2.2.1⟩)
    (Cert.Proof.KB.run_main (F := Bits) m g (hlab_K m hpre))

theorem frame_KI : Cert.frame_KernelIdeal := fun m g hpre =>
  (θ_run Cert.KernelIdeal.defs _ _).mono (fun _ h c => ⟨(h c).1, (h c).2.1, (h c).2.2.1, (h c).2.2.2.1⟩)
    (Cert.Proof.KI.run_main (F := Ideal) m g (hlab_KI m hpre))

theorem frame_R : Cert.frame_ReferenceIdeal := fun m g _ =>
  (θ_run Cert.ReferenceIdeal.defs _ _).mono (fun _ h c => (h c).2) (Cert.ReferenceIdeal.RefValue.run_term m g)

/-- The ideal pass rewrote nothing: the idealization is the program's own text read at the ideal instance. -/
theorem preserves : Cert.preserves_Kernel_KernelIdeal := trivial

/-- Both programs end at the loss of the one specification: the kernel's total of its tiles' lane totals times 2⁻¹⁵,
    the reference's whole sum divided by 2 and by 16384. -/
theorem algebraic : Cert.algebraic_KernelIdeal_ReferenceIdeal := by
  intro m g m' g' hpre hagree
  have hl : ∀ c : Dev Cert.KernelIdeal.nD, ∀ b, 0 ≤ ((m ((c.tc : Thread Cert.KernelIdeal.nD Cert.KernelIdeal.τ).loc Cert.KernelIdeal.main_arg2)) b).toInt
      ∧ ((m ((c.tc : Thread Cert.KernelIdeal.nD Cert.KernelIdeal.τ).loc Cert.KernelIdeal.main_arg2)) b).toInt ≤ 99999 :=
    fun c => Cert.Hand.label_range _ _ _ _ (hpre c)
  refine ⟨fun c => fun _ => Cert.Spec.loss
      (Cert.Spec.mat (m ((c.tc : Thread Cert.KernelIdeal.nD Cert.KernelIdeal.τ).loc Cert.KernelIdeal.main_arg0)))
      (Cert.Spec.mat (m ((c.tc : Thread Cert.KernelIdeal.nD Cert.KernelIdeal.τ).loc Cert.KernelIdeal.main_arg1)))
      (Cert.Spec.vec (m ((c.tc : Thread Cert.KernelIdeal.nD Cert.KernelIdeal.τ).loc Cert.KernelIdeal.main_arg2)))
      (Cert.Spec.mat (m ((c.tc : Thread Cert.KernelIdeal.nD Cert.KernelIdeal.τ).loc Cert.KernelIdeal.main_arg3))), ?_, ?_⟩
  · refine (θ_run Cert.KernelIdeal.defs _ _).mono (fun _ h c => ⟨?_, (h c).1, (h c).2.1, (h c).2.2.1, (h c).2.2.2.1⟩)
      (Cert.Proof.KI.run_main (F := Ideal) m g (hlab_KI m hpre))
    exact (h c).2.2.2.2.trans (Cert.Proof.KI.result_ideal m (hlab_KI m hpre) c)
  · refine (θ_run Cert.ReferenceIdeal.defs _ _).mono (fun _ h c => ⟨?_, (h c).2⟩) (Cert.ReferenceIdeal.RefValue.run_term m' g')
    rw [(h c).1, (hagree c).1, (hagree c).2.1, (hagree c).2.2.1, (hagree c).2.2.2,
      Cert.ReferenceIdeal.RefValue.refTerm_eq _ _ _ _ (hl c)]
    funext _
    rw [Cert.Consts.ofBits_two, Cert.Consts.ofBits_16384, Cert.Consts.div_div_eq]
    rfl

theorem claim : Cert.Claim := ⟨Cert.Kernel.Gen.facts, Cert.KernelIdeal.Gen.facts, Cert.ReferenceIdeal.Gen.facts, Cert.Pre_input_domain.Gen.facts,
  frame_K, frame_KI, frame_R, preserves, algebraic⟩

end Cert.Proof

end
